-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v23)) (v1 : (c : Dev Cert.KernelIdeal.nD) → Buf (Elt Ideal) ((c.tc : Thread Cert.KernelIdeal.nD Cert.KernelIdeal.τ).loc Cert.KernelIdeal.main_cst_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_cst_5) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_cst_20) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S8192x80 : Shape := ⟨2, ![8192, 80]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S8192x80 : S_.BroadcastsInDim S8192x80 (![] : Fin 0 → Fin S8192x80.rank)
  reducesTo_S8192x80_S_d0_1 : S8192x80.ReducesTo [0, 1] S_

variable [Facts]

def fn {F : FTy → Type} [FloatOps F] (main_arg0 : FVec F S8192x512 .f32) (main_arg1 : FVec F S8192x80 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x80 .f32 := Host.absf main_arg1
  let main_cst_0 : FVec F S_ .f32 := constant S_ .f32 0x7F800000#32
  let main_v5 : FVec F S8192x80 .f32 := broadcastInDim S8192x80 ![] bcast_S_S8192x80 main_cst_0
  let main_v6 : IVec S8192x80 1 := cmpf .olt main_v4 main_v5
  let main_c_1 : IVec S_ 1 := constantI S_ 1 1#1
  let main_v7 : IVec S_ 1 := (fun x v => Host.reduce IntOp.andi x v reducesTo_S8192x80_S_d0_1 h_S_) main_v6 main_c_1
  let main_v8 : IVec S_ 1 := andi main_v3 main_v7
  main_v8
-- ==== Kernel.lean ====
abbrev S8192x512 : Shape := ⟨2, ![8192, 512]⟩
abbrev S8192x80 : Shape := ⟨2, ![8192, 80]⟩
abbrev S_ : Shape := ⟨0, ![]⟩
abbrev S8192 : Shape := ⟨1, ![8192]⟩
abbrev S8192x1 : Shape := ⟨2, ![8192, 1]⟩
abbrev S8192x2 : Shape := ⟨2, ![8192, 2]⟩
abbrev S2x8192 : Shape := ⟨2, ![2, 8192]⟩
abbrev S8192x3 : Shape := ⟨2, ![8192, 3]⟩
abbrev S1024x512 : Shape := ⟨2, ![1024, 512]⟩
abbrev S512x512 : Shape := ⟨2, ![512, 512]⟩
abbrev S1024x80 : Shape := ⟨2, ![1024, 80]⟩
abbrev S512x80 : Shape := ⟨2, ![512, 80]⟩
abbrev S1024x2 : Shape := ⟨2, ![1024, 2]⟩
abbrev S2x512 : Shape := ⟨2, ![2, 512]⟩
abbrev S1024x3 : Shape := ⟨2, ![1024, 3]⟩
abbrev S1024x1 : Shape := ⟨2, ![1024, 1]⟩
abbrev S1x512 : Shape := ⟨2, ![1, 512]⟩
abbrev S80x512 : Shape := ⟨2, ![80, 512]⟩
abbrev S1024 : Shape := ⟨1, ![1024]⟩

abbrev nBuf : Space → Nat
  | .hbm => 37
  | .vmem => 32
  | .smem => 0
  | _ => 0

abbrev bufTy : (tb : Table) → Fin (tcTables nBuf tb) → BufTy
  | .hbm, ⟨0, _⟩ => ⟨S8192x512, .f32⟩
  | .hbm, ⟨1, _⟩ => ⟨S8192x80, .f32⟩
  | .hbm, ⟨2, _⟩ => ⟨S8192x512, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S8192x512, .f32⟩
  | .hbm, ⟨11, _⟩ => ⟨S8192x512, .f32⟩
  | .hbm, ⟨12, _⟩ => ⟨S8192x512, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S_, .f32⟩
  | .hbm, ⟨17, _⟩ => ⟨S8192, .f32⟩
  | .hbm, ⟨18, _⟩ => ⟨S8192x1, .f32⟩
  | .hbm, ⟨19, _⟩ => ⟨S8192x2, .f32⟩
  | .hbm, ⟨20, _⟩ => ⟨S2x8192, .f32⟩
  | .hbm, ⟨21, _⟩ => ⟨S8192x512, .bf16⟩
  | .hbm, ⟨22, _⟩ => ⟨S8192x80, .bf16⟩
  | .hbm, ⟨23, _⟩ => ⟨S8192x3, .f32⟩
  | .hbm, ⟨24, _⟩ => ⟨S8192x2, .f32⟩
  | .hbm, ⟨25, _⟩ => ⟨S8192x1, .f32⟩
  | .hbm, ⟨26, _⟩ => ⟨S8192, .f32⟩
  | .hbm, ⟨27, _⟩ => ⟨S8192x1, .f32⟩
  | .hbm, ⟨28, _⟩ => ⟨S8192, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .local _ .vmem, ⟨0, _⟩ => ⟨S1024x512, .bf16⟩
  | .local _ .vmem, ⟨1, _⟩ => ⟨S1024x512, .bf16⟩
  | .local _ .vmem, ⟨2, _⟩ => ⟨S512x512, .bf16⟩
  | .local _ .vmem, ⟨3, _⟩ => ⟨S512x512, .bf16⟩
  | .local _ .vmem, ⟨4, _⟩ => ⟨S1024x80, .bf16⟩
  | .local _ .vmem, ⟨5, _⟩ => ⟨S1024x80, .bf16⟩
  | .local _ .vmem, ⟨6, _⟩ => ⟨S512x80, .bf16⟩
  | .local _ .vmem, ⟨7, _⟩ => ⟨S512x80, .bf16⟩
  | .local _ .vmem, ⟨8, _⟩ => ⟨S1024x2, .f32⟩
  | .local _ .vmem, ⟨9, _⟩ => ⟨S1024x2, .f32⟩
  | .local _ .vmem, ⟨10, _⟩ => ⟨S2x512, .f32⟩
  | .local _ .vmem, ⟨11, _⟩ => ⟨S2x512, .f32⟩
  | .local _ .vmem, ⟨12, _⟩ => ⟨S1024x3, .f32⟩
  | .local _ .vmem, ⟨13, _⟩ => ⟨S1024x3, .f32⟩
  | .local _ .vmem, ⟨14, _⟩ => ⟨S1024x3, .f32⟩
  | .local _ .vmem, ⟨15, _⟩ => ⟨S1024x512, .bf16⟩
  | .local _ .vmem, ⟨16, _⟩ => ⟨S1024x512, .bf16⟩
  | .local _ .vmem, ⟨17, _⟩ => ⟨S512x512, .bf16⟩
  | .local _ .vmem, ⟨18, _⟩ => ⟨S512x512, .bf16⟩
  | .local _ .vmem, ⟨19, _⟩ => ⟨S1024x80, .bf16⟩
  | .local _ .vmem, ⟨20, _⟩ => ⟨S1024x80, .bf16⟩
  | .local _ .vmem, ⟨21, _⟩ => ⟨S512x80, .bf16⟩
  | .local _ .vmem, ⟨22, _⟩ => ⟨S512x80, .bf16⟩
  | .local _ .vmem, ⟨23, _⟩ => ⟨S1024x2, .f32⟩
  | .local _ .vmem, ⟨24, _⟩ => ⟨S1024x2, .f32⟩
  | .local _ .vmem, ⟨25, _⟩ => ⟨S2x512, .f32⟩
  | .local _ .vmem, ⟨26, _⟩ => ⟨S2x512, .f32⟩
  | .local _ .vmem, ⟨27, _⟩ => ⟨S1024x3, .f32⟩
  | .local _ .vmem, ⟨28, _⟩ => ⟨S1024x3, .f32⟩
  | .local _ .vmem, ⟨29, _⟩ => ⟨S1024x2, .f32⟩
  | .local _ .vmem, ⟨30, _⟩ => ⟨S1024x2, .f32⟩
  | .local _ .vmem, ⟨31, _⟩ => ⟨S1024x1, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_cst_5 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg2_1 : Ref sig .tc := ⟨.vmem, 20, rfl⟩
abbrev cc1_stg3_0 : Ref sig .tc := ⟨.vmem, 21, rfl⟩
abbrev cc1_stg3_1 : Ref sig .tc := ⟨.vmem, 22, rfl⟩
abbrev cc1_stg4_0 : Ref sig .tc := ⟨.vmem, 23, rfl⟩
abbrev cc1_stg4_1 : Ref sig .tc := ⟨.vmem, 24, rfl⟩
abbrev cc1_stg5_0 : Ref sig .tc := ⟨.vmem, 25, rfl⟩
abbrev cc1_stg5_1 : Ref sig .tc := ⟨.vmem, 26, rfl⟩
abbrev cc1_stg6_0 : Ref sig .tc := ⟨.vmem, 27, rfl⟩
abbrev cc1_stg6_1 : Ref sig .tc := ⟨.vmem, 28, rfl⟩
abbrev cc1_stg7_0 : Ref sig .tc := ⟨.vmem, 29, rfl⟩
abbrev cc1_stg7_1 : Ref sig .tc := ⟨.vmem, 30, rfl⟩
abbrev cc1_scratch0 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem4_1 : DmaSem sig := 23
abbrev cc1_sem5_0 : DmaSem sig := 24
abbrev cc1_sem5_1 : DmaSem sig := 25
abbrev cc1_sem6_0 : DmaSem sig := 26
abbrev cc1_sem6_1 : DmaSem sig := 27
abbrev cc1_sem7_0 : DmaSem sig := 28
abbrev cc1_sem7_1 : DmaSem sig := 29

abbrev nD : Nat := 1
abbrev τ : Topo := Topo.v7x

variable {F : FTy → Type} [FloatOps F]

abbrev grid0 : Pipeline.Grid := ⟨2, ![8, 16], ![false, false]⟩

def k0_cond2 (i : grid0.Coords) : BitVec 1 :=
  let arg1 : BitVec 32 := BitVec.ofNat 32 (i 1).val
  let c15_i32 : BitVec 32 := 15#32
  let v81 : BitVec 1 := Scalar.cmpi .eq arg1 c15_i32
  let v82 : BitVec 32 := Scalar.extui v81
  let c0_i32_33 : BitVec 32 := 0#32
  let v83 : BitVec 1 := Scalar.cmpi .ne v82 c0_i32_33
  v83

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x80 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x80 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x2 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x3 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev grid1 : Pipeline.Grid := ⟨2, ![8, 16], ![false, false]⟩

def k1_cond2 (i : grid1.Coords) : BitVec 1 :=
  let arg1 : BitVec 32 := BitVec.ofNat 32 (i 1).val
  let c15_i32 : BitVec 32 := 15#32
  let v70 : BitVec 1 := Scalar.cmpi .eq arg1 c15_i32
  let v71 : BitVec 32 := Scalar.extui v70
  let c0_i32_28 : BitVec 32 := 0#32
  let v72 : BitVec 1 := Scalar.cmpi .ne v71 c0_i32_28
  v72

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x80 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S512x80 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S1024x2 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S2x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![false, true]

abbrev stage1_6 : Fin 2 → Memref sig .tc .vmem S1024x3 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

abbrev stage1_7 : Fin 2 → Memref sig .tc .vmem S1024x2 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]

class Facts₀ : Prop where
  reducesTo_S8192x512_S8192_d1 : S8192x512.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x512_0_1 : S8192x1.BroadcastsInDim S8192x512 (![0, 1] : Fin 2 → Fin S8192x512.rank)
  reducesTo_S8192x80_S8192_d1 : S8192x80.ReducesTo [1] S8192
  concatenates_S8192x1_S8192x1_S8192x2_d1 : Shape.Concatenates [S8192x1, S8192x1] S8192x2 1
  transposes_S8192x2_S2x8192_1_0 : S8192x2.Transposes [1, 0] S2x8192
  bitsLt_bf16_f32 : FTy.bits .bf16 < FTy.bits .f32
  inb_S1024x3_S1024x1_0_0 : ∀ a, (![0, 0] : Fin 2 → Nat) a + S1024x1.size a ≤ S1024x3.size a
  h_S1024x1 : 0 < S1024x1.numel
  shapeCasts_S1024x1_S1024x1 : S1024x1.ShapeCasts S1024x1
  inb_S1024x3_S1024x1_0_1 : ∀ a, (![0, 1] : Fin 2 → Nat) a + S1024x1.size a ≤ S1024x3.size a
  inb_S1024x3_S1024x1_0_2 : ∀ a, (![0, 2] : Fin 2 → Nat) a + S1024x1.size a ≤ S1024x3.size a
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  transposes_S512x512_p1_0_S512x512 : S512x512.Transposes [1, 0] S512x512
  inb_S1024x2_S1024x2_0_0 : ∀ a, (![0, 0] : Fin 2 → Nat) a + S1024x2.size a ≤ S1024x2.size a
  h_S1024x2 : 0 < S1024x2.numel
  shapeCasts_S1024x2_S1024x2 : S1024x2.ShapeCasts S1024x2
  slices_S1024x2_o0_0_S1024x1 : S1024x2.Slices ![0, 0] S1024x1
  slices_S1024x2_o0_1_S1024x1 : S1024x2.Slices ![0, 1] S1024x1
  inb_S2x512_S2x512_0_0 : ∀ a, (![0, 0] : Fin 2 → Nat) a + S2x512.size a ≤ S2x512.size a
  h_S2x512 : 0 < S2x512.numel
  shapeCasts_S2x512_S2x512 : S2x512.ShapeCasts S2x512
  slices_S2x512_o0_0_S1x512 : S2x512.Slices ![0, 0] S1x512
  slices_S2x512_o1_0_S1x512 : S2x512.Slices ![1, 0] S1x512
  broadcasts_S1024x1_S1024x512 : S1024x1.Broadcasts S1024x512
  broadcasts_S1x512_S1024x512 : S1x512.Broadcasts S1024x512
  inb_S1024x80_S1024x80_0_0 : ∀ a, (![0, 0] : Fin 2 → Nat) a + S1024x80.size a ≤ S1024x80.size a
  h_S1024x80 : 0 < S1024x80.numel
  shapeCasts_S1024x80_S1024x80 : S1024x80.ShapeCasts S1024x80
  inb_S512x80_S512x80_0_0 : ∀ a, (![0, 0] : Fin 2 → Nat) a + S512x80.size a ≤ S512x80.size a
  h_S512x80 : 0 < S512x80.numel
  shapeCasts_S512x80_S512x80 : S512x80.ShapeCasts S512x80
  transposes_S512x80_p1_0_S80x512 : S512x80.Transposes [1, 0] S80x512
  iota_S1024x512_d0_w32 : S1024x512.Iotas .tc 32 [0]
  iota_S1024x512_d1_w32 : S1024x512.Iotas .tc 32 [1]
  reduces_S1024x512_S1024 : S1024x512.Reduces [1] S1024
  shapeCasts_S1024_S1024x1 : S1024.ShapeCasts S1024x1
  natLt_1_32 : 1 < 32
  inb_S1024x3_S1024x3_0_0 : ∀ a, (![0, 0] : Fin 2 → Nat) a + S1024x3.size a ≤ S1024x3.size a
  h_S1024x3 : 0 < S1024x3.numel
  inb_S1024x1_S1024x1_0_0 : ∀ a, (![0, 0] : Fin 2 → Nat) a + S1024x1.size a ≤ S1024x1.size a
  inb_S1024x2_S1024x1_0_0 : ∀ a, (![0, 0] : Fin 2 → Nat) a + S1024x1.size a ≤ S1024x2.size a
  inb_S1024x2_S1024x1_0_1 : ∀ a, (![0, 1] : Fin 2 → Nat) a + S1024x1.size a ≤ S1024x2.size a
  slices_S8192x2_S8192x1_0_0 : S8192x2.Slices ![0, 0] S8192x1
  shapeCasts_S8192x1_S8192 : S8192x1.ShapeCasts S8192
  slices_S8192x2_S8192x1_0_1 : S8192x2.Slices ![0, 1] S8192x1
  reducesTo_S8192_S_d0 : S8192.ReducesTo [0] S_
  dot_S1024x512_S512x512_S1024x512_1_0_0_1_n_n_wf : DotDims.WF S1024x512 S512x512 S1024x512 [1] [0] [0] [1] [] []
  dot_S1024x80_S80x512_S1024x512_1_0_0_1_n_n_wf : DotDims.WF S1024x80 S80x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .bf16 = 32 ∨ (Rect.block (s := S8192x512) S1024x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S8192x512.size a
  hwx0_1 : ∀ i : grid0.Coords, EltTy.bits .bf16 = 32 ∨ (Rect.block (s := S8192x512) S512x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x80.size a ≤ S8192x80.size a
  hwx0_2 : ∀ i : grid0.Coords, EltTy.bits .bf16 = 32 ∨ (Rect.block (s := S8192x80) S1024x80.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x80.size a ≤ S8192x80.size a
  hwx0_3 : ∀ i : grid0.Coords, EltTy.bits .bf16 = 32 ∨ (Rect.block (s := S8192x80) S512x80.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x2.size a ≤ S8192x2.size a
  hwx0_4 : ∀ i : grid0.Coords, EltTy.bits .f32 = 32 ∨ (Rect.block (s := S8192x2) S1024x2.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2x512.size a ≤ S2x8192.size a
  hwx0_5 : ∀ i : grid0.Coords, EltTy.bits .f32 = 32 ∨ (Rect.block (s := S2x8192) S2x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x3.size a ≤ S8192x3.size a
  hwx0_6 : ∀ i : grid0.Coords, EltTy.bits .f32 = 32 ∨ (Rect.block (s := S8192x3) S1024x3.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x512.size a ≤ S8192x512.size a
  hwx1_0 : ∀ i : grid1.Coords, EltTy.bits .bf16 = 32 ∨ (Rect.block (s := S8192x512) S1024x512.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x512.size a ≤ S8192x512.size a
  hwx1_1 : ∀ i : grid1.Coords, EltTy.bits .bf16 = 32 ∨ (Rect.block (s := S8192x512) S512x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x80.size a ≤ S8192x80.size a
  hwx1_2 : ∀ i : grid1.Coords, EltTy.bits .bf16 = 32 ∨ (Rect.block (s := S8192x80) S1024x80.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x80.size a ≤ S8192x80.size a
  hwx1_3 : ∀ i : grid1.Coords, EltTy.bits .bf16 = 32 ∨ (Rect.block (s := S8192x80) S512x80.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x2.size a ≤ S8192x2.size a
  hwx1_4 : ∀ i : grid1.Coords, EltTy.bits .f32 = 32 ∨ (Rect.block (s := S8192x2) S1024x2.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2x512.size a ≤ S2x8192.size a
  hwx1_5 : ∀ i : grid1.Coords, EltTy.bits .f32 = 32 ∨ (Rect.block (s := S2x8192) S2x512.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1024x3.size a ≤ S8192x3.size a
  hwx1_6 : ∀ i : grid1.Coords, EltTy.bits .f32 = 32 ∨ (Rect.block (s := S8192x3) S1024x3.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1024x2.size a ≤ S8192x2.size a
  hwx1_7 : ∀ i : grid1.Coords, EltTy.bits .f32 = 32 ∨ (Rect.block (s := S8192x2) S1024x2.size (cc1_transform_7 i) (hinb1_7 i)).WholeWords (EltTy.packing .f32)

variable [Facts₀]

def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf
def dot_S1024x80_S80x512_S1024x512_1_0_0_1_n_n : DotDims S1024x80 S80x512 S1024x512 where
  lhsContracting := [1]
  rhsContracting := [0]
  lhsNonContracting := [0]
  rhsNonContracting := [1]
  lhsBatch := []
  rhsBatch := []
  wf := dot_S1024x80_S80x512_S1024x512_1_0_0_1_n_n_wf

abbrev win0_0 : Pipeline.Window sig grid0 :=
  Pipeline.Window.ofSpec (Memref.whole main_v12) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S1024x80.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v13) S512x80.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v10) S1024x2.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v11) S2x512.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v14) S1024x3.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

abbrev win1_0 : Pipeline.Window sig grid1 :=
  Pipeline.Window.ofSpec (Memref.whole main_v12) S1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S512x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v13) S1024x80.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v13) S512x80.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v10) S1024x2.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v11) S2x512.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v14) S1024x3.size cc1_transform_6 reads1_6 false false 2 stage1_6 sem1_6
    hrank1 hreads1_6 hinb1_6 nbuf1_6 (Memref.isWhole_whole _) hwx1_6 hstage1_6

abbrev win1_7 : Pipeline.Window sig grid1 :=
  Pipeline.Window.ofSpec (Memref.whole main_v15) S1024x2.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev idle1 : Fin 8 → grid1.Coords → Bool := fun | 0 => fun _ => false | 1 => fun _ => false | 2 => fun _ => false | 3 => fun _ => false | 4 => fun _ => false | 5 => fun _ => false | 6 => fun _ => false | 7 => fun i => !(k1_cond2 i == 1#1) | ⟨_ + 8, h⟩ => absurd h (Nat.not_lt.2 (Nat.le_add_left _ _))

class Facts : Prop extends Facts₀ where

variable [Facts]
-- ==== ReferenceIdeal.lean ====
abbrev S8192x512 : Shape := ⟨2, ![8192, 512]⟩
abbrev S8192x80 : Shape := ⟨2, ![8192, 80]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S512x8192 : Shape := ⟨2, ![512, 8192]⟩
abbrev S80x8192 : Shape := ⟨2, ![80, 8192]⟩

abbrev nBuf : Space → Nat
  | .hbm => 107
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x80, .f32⟩
  | .hbm, ⟨2, _⟩ => ⟨S8192x512, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S8192x512, .f32⟩
  | .hbm, ⟨11, _⟩ => ⟨S8192x512, .f32⟩
  | .hbm, ⟨12, _⟩ => ⟨S8192x512, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S1x8192, .f32⟩
  | .hbm, ⟨17, _⟩ => ⟨S8192x8192, .f32⟩
  | .hbm, ⟨18, _⟩ => ⟨S8192x8192, .f32⟩
  | .hbm, ⟨19, _⟩ => ⟨S8192x8192, .f32⟩
  | .hbm, ⟨20, _⟩ => ⟨S512x8192, .f32⟩
  | .hbm, ⟨21, _⟩ => ⟨S8192x8192, .f32⟩
  | .hbm, ⟨22, _⟩ => ⟨S_, .f32⟩
  | .hbm, ⟨23, _⟩ => ⟨S8192x8192, .f32⟩
  | .hbm, ⟨24, _⟩ => ⟨S8192x8192, .f32⟩
  | .hbm, ⟨25, _⟩ => ⟨S8192x8192, .f32⟩
  | .hbm, ⟨26, _⟩ => ⟨S_, .f32⟩
  | .hbm, ⟨27, _⟩ => ⟨S8192x8192, .f32⟩
  | .hbm, ⟨28, _⟩ => ⟨S8192x8192, .f32⟩
  | .hbm, ⟨29, _⟩ => ⟨S8192x8192, .f32⟩
  | .hbm, ⟨30, _⟩ => ⟨S80x8192, .f32⟩
  | .hbm, ⟨31, _⟩ => ⟨S8192x8192, .f32⟩
  | .hbm, ⟨32, _⟩ => ⟨S_, .f32⟩
  | .hbm, ⟨33, _⟩ => ⟨S8192, .f32⟩
  | .hbm, ⟨34, _⟩ => ⟨S8192x1, .f32⟩
  | .hbm, ⟨35, _⟩ => ⟨S1x8192, .f32⟩
  | .hbm, ⟨36, _⟩ => ⟨S8192x8192, .f32⟩
  | .hbm, ⟨37, _⟩ => ⟨S8192x8192, .f32⟩
  | .hbm, ⟨38, _⟩ => ⟨S8192x8192, .f32⟩
  | .hbm, ⟨39, _⟩ => ⟨S8192x8192, .f32⟩
  | .hbm, ⟨40, _⟩ => ⟨S_, .f32⟩
  | .hbm, ⟨41, _⟩ => ⟨S8192x8192, .f32⟩
  | .hbm, ⟨42, _⟩ => ⟨S8192x8192, .f32⟩
  | .hbm, ⟨43, _⟩ => ⟨S8192x8192, .f32⟩
  | .hbm, ⟨44, _⟩ => ⟨S8192x8192, .i32⟩
  | .hbm, ⟨45, _⟩ => ⟨S8192x8192, .i32⟩
  | .hbm, ⟨46, _⟩ => ⟨S_, .i32⟩
  | .hbm, ⟨47, _⟩ => ⟨S8192x8192, .i32⟩
  | .hbm, ⟨48, _⟩ => ⟨S8192x8192, .i32⟩
  | .hbm, ⟨49, _⟩ => ⟨S8192x8192, .i1⟩
  | .hbm, ⟨50, _⟩ => ⟨S_, .f32⟩
  | .hbm, ⟨51, _⟩ => ⟨S8192x8192, .f32⟩
  | .hbm, ⟨52, _⟩ => ⟨S8192x8192, .i1⟩
  | .hbm, ⟨53, _⟩ => ⟨S8192x8192, .i1⟩
  | .hbm, ⟨54, _⟩ => ⟨S8192x8192, .i1⟩
  | .hbm, ⟨55, _⟩ => ⟨S_, .f32⟩
  | .hbm, ⟨56, _⟩ => ⟨S8192x8192, .f32⟩
  | .hbm, ⟨57, _⟩ => ⟨S8192x8192, .i1⟩
  | .hbm, ⟨58, _⟩ => ⟨S_, .f32⟩
  | .hbm, ⟨59, _⟩ => ⟨S8192x8192, .f32⟩
  | .hbm, ⟨60, _⟩ => ⟨S8192x8192, .f32⟩
  | .hbm, ⟨61, _⟩ => ⟨S_, .f32⟩
  | .hbm, ⟨62, _⟩ => ⟨S8192, .f32⟩
  | .hbm, ⟨63, _⟩ => ⟨S8192x1, .f32⟩
  | .hbm, ⟨64, _⟩ => ⟨S8192x8192, .f32⟩
  | .hbm, ⟨65, _⟩ => ⟨S8192x8192, .f32⟩
  | .hbm, ⟨66, _⟩ => ⟨S_, .f32⟩
  | .hbm, ⟨67, _⟩ => ⟨S8192x8192, .f32⟩
  | .hbm, ⟨68, _⟩ => ⟨S8192x8192, .f32⟩
  | .hbm, ⟨69, _⟩ => ⟨S_, .f32⟩
  | .hbm, ⟨70, _⟩ => ⟨S8192x8192, .f32⟩
  | .hbm, ⟨71, _⟩ => ⟨S8192x8192, .f32⟩
  | .hbm, ⟨72, _⟩ => ⟨S8192x8192, .f32⟩
  | .hbm, ⟨73, _⟩ => ⟨S8192x8192, .i32⟩
  | .hbm, ⟨74, _⟩ => ⟨S_, .i32⟩
  | .hbm, ⟨75, _⟩ => ⟨S8192, .i32⟩
  | .hbm, ⟨76, _⟩ => ⟨S_, .f32⟩
  | .hbm, ⟨77, _⟩ => ⟨S_, .f32⟩
  | .hbm, ⟨78, _⟩ => ⟨S8192x8192, .f32⟩
  | .hbm, ⟨79, _⟩ => ⟨S8192x8192, .f32⟩
  | .hbm, ⟨80, _⟩ => ⟨S_, .f32⟩
  | .hbm, ⟨81, _⟩ => ⟨S8192, .f32⟩
  | .hbm, ⟨82, _⟩ => ⟨S_, .i32⟩
  | .hbm, ⟨83, _⟩ => ⟨S8192, .i32⟩
  | .hbm, ⟨84, _⟩ => ⟨S8192, .i32⟩
  | .hbm, ⟨85, _⟩ => ⟨S8192, .f32⟩
  | .hbm, ⟨86, _⟩ => ⟨S8192, .f32⟩
  | .hbm, ⟨87, _⟩ => ⟨S_, .i32⟩
  | .hbm, ⟨88, _⟩ => ⟨S8192, .i32⟩
  | .hbm, ⟨89, _⟩ => ⟨S8192, .i1⟩
  | .hbm, ⟨90, _⟩ => ⟨S_, .i1⟩
  | .hbm, ⟨91, _⟩ => ⟨S8192, .i1⟩
  | .hbm, ⟨92, _⟩ => ⟨S8192, .i1⟩
  | .hbm, ⟨93, _⟩ => ⟨S8192, .i32⟩
  | .hbm, ⟨94, _⟩ => ⟨S_, .i32⟩
  | .hbm, ⟨95, _⟩ => ⟨S_, .i32⟩
  | .hbm, ⟨96, _⟩ => ⟨S_, .f32⟩
  | .hbm, ⟨97, _⟩ => ⟨S_, .f32⟩
  | .hbm, ⟨98, _⟩ => ⟨S_, .f32⟩
  | .hbm, ⟨99, _⟩ => ⟨S8192, .f32⟩
  | .hbm, ⟨100, _⟩ => ⟨S8192, .f32⟩
  | .hbm, ⟨101, _⟩ => ⟨S_, .f32⟩
  | .hbm, ⟨102, _⟩ => ⟨S_, .f32⟩
  | .hbm, ⟨103, _⟩ => ⟨S_, .f32⟩
  | .hbm, ⟨104, _⟩ => ⟨S_, .f32⟩
  | .hbm, ⟨105, _⟩ => ⟨S_, .f32⟩
  | .hbm, ⟨106, _⟩ => ⟨S_, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_4 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_c : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_5 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_6 : Ref sig .tc := ⟨.hbm, 55, rfl⟩
abbrev main_v41 : Ref sig .tc := ⟨.hbm, 56, rfl⟩
abbrev main_v42 : Ref sig .tc := ⟨.hbm, 57, rfl⟩
abbrev main_cst_7 : Ref sig .tc := ⟨.hbm, 58, rfl⟩
abbrev main_call1_v0 : Ref sig .tc := ⟨.hbm, 59, rfl⟩
abbrev main_v43 : Ref sig .tc := ⟨.hbm, 60, rfl⟩
abbrev main_cst_8 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_9 : Ref sig .tc := ⟨.hbm, 66, rfl⟩
abbrev main_v48 : Ref sig .tc := ⟨.hbm, 67, rfl⟩
abbrev main_v49 : Ref sig .tc := ⟨.hbm, 68, rfl⟩
abbrev main_call2_cst : Ref sig .tc := ⟨.hbm, 69, rfl⟩
abbrev main_call2_v0 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_c_10 : Ref sig .tc := ⟨.hbm, 74, rfl⟩
abbrev main_v53 : Ref sig .tc := ⟨.hbm, 75, rfl⟩
abbrev main_cst_11 : Ref sig .tc := ⟨.hbm, 76, rfl⟩
abbrev main_call3_v0 : Ref sig .tc := ⟨.hbm, 77, rfl⟩
abbrev main_call3_v1 : Ref sig .tc := ⟨.hbm, 78, rfl⟩
abbrev main_v54 : Ref sig .tc := ⟨.hbm, 79, rfl⟩
abbrev main_cst_12 : Ref sig .tc := ⟨.hbm, 80, rfl⟩
abbrev main_v55 : Ref sig .tc := ⟨.hbm, 81, rfl⟩
abbrev main_c_13 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_c_14 : Ref sig .tc := ⟨.hbm, 87, rfl⟩
abbrev main_v60 : Ref sig .tc := ⟨.hbm, 88, rfl⟩
abbrev main_v61 : Ref sig .tc := ⟨.hbm, 89, rfl⟩
abbrev main_c_15 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_c_16 : Ref sig .tc := ⟨.hbm, 94, rfl⟩
abbrev main_v65 : Ref sig .tc := ⟨.hbm, 95, rfl⟩
abbrev main_v66 : Ref sig .tc := ⟨.hbm, 96, rfl⟩
abbrev main_cst_17 : Ref sig .tc := ⟨.hbm, 97, rfl⟩
abbrev main_call4_v0 : Ref sig .tc := ⟨.hbm, 98, rfl⟩
abbrev main_call4_v1 : Ref sig .tc := ⟨.hbm, 99, rfl⟩
abbrev main_v67 : Ref sig .tc := ⟨.hbm, 100, rfl⟩
abbrev main_cst_18 : Ref sig .tc := ⟨.hbm, 101, rfl⟩
abbrev main_v68 : Ref sig .tc := ⟨.hbm, 102, rfl⟩
abbrev main_cst_19 : Ref sig .tc := ⟨.hbm, 103, rfl⟩
abbrev main_v69 : Ref sig .tc := ⟨.hbm, 104, rfl⟩
abbrev main_v70 : Ref sig .tc := ⟨.hbm, 105, rfl⟩
abbrev main_cst_20 : Ref sig .tc := ⟨.hbm, 106, rfl⟩

abbrev nD : Nat := 1
abbrev τ : Topo := Topo.v7x

variable {F : FTy → Type} [FloatOps F]

class Facts₀ : Prop where
  reducesTo_S8192x512_S8192_d1 : S8192x512.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x512_0_1 : S8192x1.BroadcastsInDim S8192x512 (![0, 1] : Fin 2 → Fin S8192x512.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x512_S512x8192_1_0 : S8192x512.Transposes [1, 0] S512x8192
  bcast_S_S8192x8192 : S_.BroadcastsInDim S8192x8192 (![] : Fin 0 → Fin S8192x8192.rank)
  transposes_S8192x80_S80x8192_1_0 : S8192x80.Transposes [1, 0] S80x8192
  reducesTo_S8192x80_S8192_d1 : S8192x80.ReducesTo [1] S8192
  reducesTo_S8192x8192_S8192_d1 : S8192x8192.ReducesTo [1] S8192
  natLt_1_32 : 1 < 32
  bcast_S_S8192 : S_.BroadcastsInDim S8192 (![] : Fin 0 → Fin S8192.rank)
  reducesTo_S8192_S_d0 : S8192.ReducesTo [0] S_
  dot_S8192x512_S512x8192_S8192x8192_1_0_0_1_n_n_wf : DotDims.WF S8192x512 S512x8192 S8192x8192 [1] [0] [0] [1] [] []
  dot_S8192x80_S80x8192_S8192x8192_1_0_0_1_n_n_wf : DotDims.WF S8192x80 S80x8192 S8192x8192 [1] [0] [0] [1] [] []

variable [Facts₀]

def dot_S8192x512_S512x8192_S8192x8192_1_0_0_1_n_n : DotDims S8192x512 S512x8192 S8192x8192 where
  lhsContracting := [1]
  rhsContracting := [0]
  lhsNonContracting := [0]
  rhsNonContracting := [1]
  lhsBatch := []
  rhsBatch := []
  wf := dot_S8192x512_S512x8192_S8192x8192_1_0_0_1_n_n_wf
def dot_S8192x80_S80x8192_S8192x8192_1_0_0_1_n_n : DotDims S8192x80 S80x8192 S8192x8192 where
  lhsContracting := [1]
  rhsContracting := [0]
  lhsNonContracting := [0]
  rhsNonContracting := [1]
  lhsBatch := []
  rhsBatch := []
  wf := dot_S8192x80_S80x8192_S8192x8192_1_0_0_1_n_n_wf

class Facts : Prop extends Facts₀ where

variable [Facts]
-- ==== Proof.Stats.Setup.lean ====
/-
  The statistics kernel (the first of the two kernels) on its 8 × 16 grid of (row block, column block) points:
  where its two branches are taken, and where its result window is live.

  The body resets its three running columns (minimum, count, maximum) when the column block is the first of a
  row block, folds the current column block into them at every point, and copies them into the result block
  when the column block is the last one. A point's number is 16 · (row block) + (column block), so the first
  branch is taken at the points ≡ 0 and the second at the points ≡ 15 modulo 16.
-/
import proofs.«155278_j51788715655787_1_alg».proof.Proof.Gen.KernelIdeal.Launch
import proofs.«155278_j51788715655787_1_alg».proof.Proof.Gen.KernelIdeal.Skeleton
import proofs.«155278_j51788715655787_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The reset branch's condition: the column block is the first. -/
abbrev resets0 (i : grid0.Coords) : Prop :=
  (Scalar.cmpi .ne (Scalar.extui (Scalar.cmpi .eq (BitVec.ofNat 32 (i 1).val) 0#32)) 0#32) = 1#1
/-- The emitting branch's condition: the column block is the last. -/
abbrev emits0 (i : grid0.Coords) : Prop := k0_cond2 i = 1#1

theorem resets0_iff : ∀ t : Fin cfg0.N, resets0 (grid0.coords t) ↔ t.val % 16 = 0 :=
  (by decide +kernel : ∀ t : Fin grid0.N, resets0 (grid0.coords t) ↔ t.val % 16 = 0)
theorem emits0_iff : ∀ t : Fin cfg0.N, emits0 (grid0.coords t) ↔ t.val % 16 = 15 :=
  (by decide +kernel : ∀ t : Fin grid0.N, emits0 (grid0.coords t) ↔ t.val % 16 = 15)

/-- The six input windows are never idle. -/
theorem live0_in : ∀ (w : Fin 7), w ≠ 6 → ∀ t : Fin cfg0.N, cfg0.idle w (grid0.coords t) = false := by decide +kernel
/-- The result window is idle exactly where nothing is emitted, and is not written back there. -/
theorem idle0_out : ∀ t : Fin cfg0.N, ¬emits0 (grid0.coords t) → cfg0.idle 6 (grid0.coords t) = true := by decide +kernel
theorem noflush0_out : ∀ t : Fin cfg0.N, ¬emits0 (grid0.coords t) → (cfg0.win 6).flush t = false := by decide +kernel
theorem live0_out : ∀ t : Fin cfg0.N, emits0 (grid0.coords t) → cfg0.idle 6 (grid0.coords t) = false := by decide +kernel

/-- The running columns' buffer, and the view through which its contents are stated. -/
abbrev acc0 : Memref sig .tc .vmem S1024x3 .f32 := Memref.whole cc0_scratch0
abbrev accV0 : View sig .tc .vmem S1024x3 .f32 := acc0.view
/-- One staging buffer of the result window, through which its contents are stated. -/
abbrev outV0 : View sig .tc .vmem S1024x3 .f32 := (Memref.whole cc0_stg6_0 : Memref sig .tc .vmem S1024x3 .f32).view

end Cert.KernelIdeal.Hand

end
-- ==== Proof.Stats.RunMid.lean ====
/-
  The statistics kernel's body at a point whose column block is neither the first nor the last of its row block:
  the six input blocks are read and handed back as found, the result block is not touched, and the three running
  columns are each loaded and stored back folded with the current block's column (minimum, sum, maximum).
-/
import proofs.«155278_j51788715655787_1_alg».proof.Proof.Stats.Setup

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body stores into the running columns at such a point, with the proof that on whole buffers —
    the inputs at their blocks, the result block at anything, the running columns at what the point before left —
    the body runs to the continuation, holding the inputs and the result block as they were and the running
    columns with the pieces written. -/
noncomputable def runMid0 (c : Dev nD) (i : grid0.Coords) (arg2 : Memref sig .tc .vmem S1024x512 .bf16) (harg2 : arg2.IsWhole) (arg3 : Memref sig .tc .vmem S512x512 .bf16) (harg3 : arg3.IsWhole) (arg4 : Memref sig .tc .vmem S1024x80 .bf16) (harg4 : arg4.IsWhole) (arg5 : Memref sig .tc .vmem S512x80 .bf16) (harg5 : arg5.IsWhole) (arg6 : Memref sig .tc .vmem S1024x2 .f32) (harg6 : arg6.IsWhole) (arg7 : Memref sig .tc .vmem S2x512 .f32) (harg7 : arg7.IsWhole) (arg8 : Memref sig .tc .vmem S1024x3 .f32) (harg8 : arg8.IsWhole) (arg9 : Memref sig .tc .vmem S1024x3 .f32) (harg9 : arg9.IsWhole)
    (hr : ¬resets0 i) (he : ¬emits0 i) (x0 : Vec F S1024x512 .bf16) (x1 : Vec F S512x512 .bf16) (x2 : Vec F S1024x80 .bf16) (x3 : Vec F S512x80 .bf16) (x4 : Vec F S1024x2 .f32) (x5 : Vec F S2x512 .f32) (xs : Vec F S1024x3 .f32) :
    { LS : List (View.Piece (Elt F) S1024x3 .f32) //
      ∀ (xo : Vec F S1024x3 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xo ∗ owns (c : Thread nD τ) arg9 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xo ∗ (∃ f, arg9.view.loc (c : Thread nD τ) ↦[arg9.view.set]{fullShare} arg9.view.writes (Elt F) f LS)) -∗ K ⟨⟩))
          ⊢ wp frame (wpE (defs₀ (F := F)) Variants.none c none) E (cc0__stats_kernel i arg2 harg2 arg3 harg3 arg4 harg4 arg5 harg5 arg6 harg6 arg7 harg7 arg8 harg8 arg9 harg9) K } := by
  refine ⟨?_, fun xo E K => ?run⟩
  case run =>
    simp only [cc0__stats_kernel_eq_skeleton]; unfold cc0__stats_kernel_skel
    simp only [k0_part1_eq_skeleton, k0_part2_eq_skeleton]; unfold k0_part1_skel k0_part2_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs, %hfs, HS⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hf6; obtain rfl := harg9.eq_unread hfs
    sl_exec (disch := first | exact hr | exact he)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HS

end Cert.KernelIdeal.Hand

end
-- ==== Proof.Stats.RunFirst.lean ====
/-
  The statistics kernel's body at the first column block of a row block: the three running columns are first
  overwritten with their neutral starts (the large sentinel for the minimum, zero for the count and for the
  maximum) and then folded with the current block's columns; whatever the buffer held before is not used.
-/
import proofs.«155278_j51788715655787_1_alg».proof.Proof.Stats.Setup

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces stored into the running columns at such a point, with the proof that the body runs on whole
    buffers — the inputs at their blocks, the result block at anything, the running columns at anything — to
    the continuation, holding the inputs and the result block as they were and the running columns with the
    pieces written. -/
noncomputable def runFirst0 (c : Dev nD) (i : grid0.Coords) (arg2 : Memref sig .tc .vmem S1024x512 .bf16) (harg2 : arg2.IsWhole) (arg3 : Memref sig .tc .vmem S512x512 .bf16) (harg3 : arg3.IsWhole) (arg4 : Memref sig .tc .vmem S1024x80 .bf16) (harg4 : arg4.IsWhole) (arg5 : Memref sig .tc .vmem S512x80 .bf16) (harg5 : arg5.IsWhole) (arg6 : Memref sig .tc .vmem S1024x2 .f32) (harg6 : arg6.IsWhole) (arg7 : Memref sig .tc .vmem S2x512 .f32) (harg7 : arg7.IsWhole) (arg8 : Memref sig .tc .vmem S1024x3 .f32) (harg8 : arg8.IsWhole) (arg9 : Memref sig .tc .vmem S1024x3 .f32) (harg9 : arg9.IsWhole)
    (hr : resets0 i) (he : ¬emits0 i) (x0 : Vec F S1024x512 .bf16) (x1 : Vec F S512x512 .bf16) (x2 : Vec F S1024x80 .bf16) (x3 : Vec F S512x80 .bf16) (x4 : Vec F S1024x2 .f32) (x5 : Vec F S2x512 .f32) :
    { LS : List (View.Piece (Elt F) S1024x3 .f32) //
      ∀ (xo : Vec F S1024x3 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xo ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xo ∗ (∃ f, arg9.view.loc (c : Thread nD τ) ↦[arg9.view.set]{fullShare} arg9.view.writes (Elt F) f LS)) -∗ K ⟨⟩))
          ⊢ wp frame (wpE (defs₀ (F := F)) Variants.none c none) E (cc0__stats_kernel i arg2 harg2 arg3 harg3 arg4 harg4 arg5 harg5 arg6 harg6 arg7 harg7 arg8 harg8 arg9 harg9) K } := by
  refine ⟨?_, fun xo E K => ?run⟩
  case run =>
    simp only [cc0__stats_kernel_eq_skeleton]; unfold cc0__stats_kernel_skel
    simp only [k0_part1_eq_skeleton, k0_part2_eq_skeleton]; unfold k0_part1_skel k0_part2_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds, %fs, -, HS⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hf6
    sl_exec (disch := first | exact hr | exact he)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HS

end Cert.KernelIdeal.Hand

end
-- ==== Proof.Stats.RunLast.lean ====
/-
  The statistics kernel's body at the last column block of a row block: the three running columns are folded
  with the current block's columns as at every point, and then the whole buffer of running columns is copied
  into the result block, whose previous contents are not used.
-/
import proofs.«155278_j51788715655787_1_alg».proof.Proof.Stats.Setup

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces stored into the result block and into the running columns at such a point, with the proof that
    the body runs on whole buffers — the inputs at their blocks, the result block at anything, the running
    columns at what the point before left — to the continuation, holding the inputs as they were and the two
    other buffers with their pieces written. -/
noncomputable def runLast0 (c : Dev nD) (i : grid0.Coords) (arg2 : Memref sig .tc .vmem S1024x512 .bf16) (harg2 : arg2.IsWhole) (arg3 : Memref sig .tc .vmem S512x512 .bf16) (harg3 : arg3.IsWhole) (arg4 : Memref sig .tc .vmem S1024x80 .bf16) (harg4 : arg4.IsWhole) (arg5 : Memref sig .tc .vmem S512x80 .bf16) (harg5 : arg5.IsWhole) (arg6 : Memref sig .tc .vmem S1024x2 .f32) (harg6 : arg6.IsWhole) (arg7 : Memref sig .tc .vmem S2x512 .f32) (harg7 : arg7.IsWhole) (arg8 : Memref sig .tc .vmem S1024x3 .f32) (harg8 : arg8.IsWhole) (arg9 : Memref sig .tc .vmem S1024x3 .f32) (harg9 : arg9.IsWhole)
    (hr : ¬resets0 i) (he : emits0 i) (x0 : Vec F S1024x512 .bf16) (x1 : Vec F S512x512 .bf16) (x2 : Vec F S1024x80 .bf16) (x3 : Vec F S512x80 .bf16) (x4 : Vec F S1024x2 .f32) (x5 : Vec F S2x512 .f32) (xs : Vec F S1024x3 .f32) :
    Σ' (LO : List (View.Piece (Elt F) S1024x3 .f32)), { LS : List (View.Piece (Elt F) S1024x3 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f LO) ∗ (∃ f, arg9.view.loc (c : Thread nD τ) ↦[arg9.view.set]{fullShare} arg9.view.writes (Elt F) f LS)) -∗ K ⟨⟩))
          ⊢ wp frame (wpE (defs₀ (F := F)) Variants.none c none) E (cc0__stats_kernel i arg2 harg2 arg3 harg3 arg4 harg4 arg5 harg5 arg6 harg6 arg7 harg7 arg8 harg8 arg9 harg9) K } := by
  refine ⟨?_, ?_, fun E K => ?run⟩
  case run =>
    simp only [cc0__stats_kernel_eq_skeleton]; unfold cc0__stats_kernel_skel
    simp only [k0_part1_eq_skeleton, k0_part2_eq_skeleton]; unfold k0_part1_skel k0_part2_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs, %hfs, HS⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg9.eq_unread hfs
    sl_exec (disch := first | exact hr | exact he)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; iexact H6
    iexists _; iexact HS

end Cert.KernelIdeal.Hand

end
-- ==== Proof.Stats.Data.lean ====
/-
  The statistics kernel's proof data: what its buffers hold point by point.

  Point `16·r + k` works on row block `r` and column block `k`. The running columns after a point are given by
  recursion on the point: at a first column block they are the reset-and-fold of that block alone, otherwise the
  fold of the block into what the point before left. The result block is named only at a last column block, where
  it receives the running columns as they then stand; elsewhere the window is idle and not written back. The six
  input windows hold their blocks of the arrays as the region finds them (`V`), fetched at the point or kept from
  the point before.
-/
import proofs.«155278_j51788715655787_1_alg».proof.Proof.Stats.RunMid
import proofs.«155278_j51788715655787_1_alg».proof.Proof.Stats.RunFirst
import proofs.«155278_j51788715655787_1_alg».proof.Proof.Stats.RunLast

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Each window's current staging buffer at a point, as the pipeline passes it to the body. -/
abbrev ms0_0 (t : Fin cfg0.N) : Memref sig .tc .vmem S1024x512 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x80 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x80 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x2 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S2x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x3 .f32 := win0_6.stage (cfg0.slots t 6)
abbrev hs0_6 (t : Fin cfg0.N) : (ms0_6 t).IsWhole := hstage0_6 ((cfg0.slots t 6).cast nbuf0_6)

theorem not_emits0_of_first (t : Fin cfg0.N) (h : t.val % 16 = 0) : ¬emits0 (grid0.coords t) :=
  fun e => by have := (emits0_iff t).mp e; omega
theorem not_resets0_of (t : Fin cfg0.N) (h : ¬t.val % 16 = 0) : ¬resets0 (grid0.coords t) :=
  fun e => h ((resets0_iff t).mp e)
theorem not_emits0_of (t : Fin cfg0.N) (h : ¬t.val % 16 = 15) : ¬emits0 (grid0.coords t) :=
  fun e => h ((emits0_iff t).mp e)

/-- The running columns after a first column block. -/
def firstAcc0 (c : Dev nD) (t : Fin cfg0.N) (h0 : t.val % 16 = 0) : Vec F S1024x3 .f32 :=
  accV0.read (Elt F) (accV0.writes (Elt F) accV0.junk
    (runFirst0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) acc0 (Memref.isWhole_whole _) ((resets0_iff t).mpr h0) (not_emits0_of_first t h0) (blk0 V c 0 t) (blk0 V c 1 t) (blk0 V c 2 t) (blk0 V c 3 t) (blk0 V c 4 t) (blk0 V c 5 t)).1)
/-- The running columns after a middle column block, from what the point before left. -/
def midAcc0 (c : Dev nD) (t : Fin cfg0.N) (h0 : ¬t.val % 16 = 0) (h1 : ¬t.val % 16 = 15) (xs : Vec F S1024x3 .f32) : Vec F S1024x3 .f32 :=
  accV0.read (Elt F) (accV0.writes (Elt F) accV0.junk
    (runMid0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) acc0 (Memref.isWhole_whole _) (not_resets0_of t h0) (not_emits0_of t h1) (blk0 V c 0 t) (blk0 V c 1 t) (blk0 V c 2 t) (blk0 V c 3 t) (blk0 V c 4 t) (blk0 V c 5 t) xs).1)
/-- The running columns after a last column block, from what the point before left. -/
def lastAcc0 (c : Dev nD) (t : Fin cfg0.N) (h0 : ¬t.val % 16 = 0) (h1 : t.val % 16 = 15) (xs : Vec F S1024x3 .f32) : Vec F S1024x3 .f32 :=
  accV0.read (Elt F) (accV0.writes (Elt F) accV0.junk
    (runLast0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) acc0 (Memref.isWhole_whole _) (not_resets0_of t h0) ((emits0_iff t).mpr h1) (blk0 V c 0 t) (blk0 V c 1 t) (blk0 V c 2 t) (blk0 V c 3 t) (blk0 V c 4 t) (blk0 V c 5 t) xs).2.1)
/-- The result block after a last column block. -/
def lastOut0 (c : Dev nD) (t : Fin cfg0.N) (h0 : ¬t.val % 16 = 0) (h1 : t.val % 16 = 15) (xs : Vec F S1024x3 .f32) : Vec F S1024x3 .f32 :=
  outV0.read (Elt F) (outV0.writes (Elt F) outV0.junk
    (runLast0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) acc0 (Memref.isWhole_whole _) (not_resets0_of t h0) ((emits0_iff t).mpr h1) (blk0 V c 0 t) (blk0 V c 1 t) (blk0 V c 2 t) (blk0 V c 3 t) (blk0 V c 4 t) (blk0 V c 5 t) xs).1)

/-- The pieces of each case cover the buffer they are stored into. -/
theorem cover_firstAcc0 (c : Dev nD) (t : Fin cfg0.N) (h0 : t.val % 16 = 0) (y : S1024x3.Idx) :
    ∃ pc ∈ (runFirst0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) acc0 (Memref.isWhole_whole _) ((resets0_iff t).mpr h0) (not_emits0_of_first t h0) (blk0 V c 0 t) (blk0 V c 1 t) (blk0 V c 2 t) (blk0 V c 3 t) (blk0 V c 4 t) (blk0 V c 5 t)).1, y ∈ pc.1.set :=
  View.cover_of_tiledL (s := S1024x3) _ S1024x1.size (by sl_kernel_rfl) y
theorem cover_midAcc0 (c : Dev nD) (t : Fin cfg0.N) (h0 : ¬t.val % 16 = 0) (h1 : ¬t.val % 16 = 15) (xs : Vec F S1024x3 .f32) (y : S1024x3.Idx) :
    ∃ pc ∈ (runMid0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) acc0 (Memref.isWhole_whole _) (not_resets0_of t h0) (not_emits0_of t h1) (blk0 V c 0 t) (blk0 V c 1 t) (blk0 V c 2 t) (blk0 V c 3 t) (blk0 V c 4 t) (blk0 V c 5 t) xs).1, y ∈ pc.1.set :=
  View.cover_of_tiledL (s := S1024x3) _ S1024x1.size (by sl_kernel_rfl) y
theorem cover_lastAcc0 (c : Dev nD) (t : Fin cfg0.N) (h0 : ¬t.val % 16 = 0) (h1 : t.val % 16 = 15) (xs : Vec F S1024x3 .f32) (y : S1024x3.Idx) :
    ∃ pc ∈ (runLast0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) acc0 (Memref.isWhole_whole _) (not_resets0_of t h0) ((emits0_iff t).mpr h1) (blk0 V c 0 t) (blk0 V c 1 t) (blk0 V c 2 t) (blk0 V c 3 t) (blk0 V c 4 t) (blk0 V c 5 t) xs).2.1, y ∈ pc.1.set :=
  View.cover_of_tiledL (s := S1024x3) _ S1024x1.size (by sl_kernel_rfl) y
theorem cover_lastOut0 (c : Dev nD) (t : Fin cfg0.N) (h0 : ¬t.val % 16 = 0) (h1 : t.val % 16 = 15) (xs : Vec F S1024x3 .f32) (y : S1024x3.Idx) :
    ∃ pc ∈ (runLast0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) acc0 (Memref.isWhole_whole _) (not_resets0_of t h0) ((emits0_iff t).mpr h1) (blk0 V c 0 t) (blk0 V c 1 t) (blk0 V c 2 t) (blk0 V c 3 t) (blk0 V c 4 t) (blk0 V c 5 t) xs).1, y ∈ pc.1.set :=
  View.cover_of_tiledL _ S1024x3.size (by sl_kernel_rfl) y

/-- THE RECURSION: the running columns after the point numbered `n`. -/
def accAt0 (c : Dev nD) : (n : ℕ) → n < cfg0.N → Vec F S1024x3 .f32
  | 0, hn => firstAcc0 V c ⟨0, hn⟩ (Nat.zero_mod _)
  | n + 1, hn =>
    if h0 : (n + 1) % 16 = 0 then firstAcc0 V c ⟨n + 1, hn⟩ h0
    else if h1 : (n + 1) % 16 = 15 then lastAcc0 V c ⟨n + 1, hn⟩ h0 h1 (accAt0 c n (Nat.lt_of_succ_lt hn))
    else midAcc0 V c ⟨n + 1, hn⟩ h0 h1 (accAt0 c n (Nat.lt_of_succ_lt hn))

theorem accAt0_first (c : Dev nD) (t : Fin cfg0.N) (h0 : t.val % 16 = 0) :
    accAt0 V c t.val t.isLt = firstAcc0 V c t h0 := by
  obtain ⟨n, hn⟩ := t
  cases n with
  | zero => rfl
  | succ n => exact dif_pos h0
theorem accAt0_mid (c : Dev nD) (t : Fin cfg0.N) (h0 : ¬t.val % 16 = 0) (h1 : ¬t.val % 16 = 15) :
    accAt0 V c t.val t.isLt = midAcc0 V c t h0 h1 (accAt0 V c (t.val - 1) (Nat.lt_of_le_of_lt (Nat.sub_le _ _) t.isLt)) := by
  obtain ⟨n, hn⟩ := t
  cases n with
  | zero => exact absurd (Nat.zero_mod _) h0
  | succ n => exact (dif_neg h0).trans (dif_neg h1)
theorem accAt0_last (c : Dev nD) (t : Fin cfg0.N) (h0 : ¬t.val % 16 = 0) (h1 : t.val % 16 = 15) :
    accAt0 V c t.val t.isLt = lastAcc0 V c t h0 h1 (accAt0 V c (t.val - 1) (Nat.lt_of_le_of_lt (Nat.sub_le _ _) t.isLt)) := by
  obtain ⟨n, hn⟩ := t
  cases n with
  | zero => exact absurd (Nat.zero_mod _) h0
  | succ n => exact (dif_neg h0).trans (dif_pos h1)

/-- The result block after point `t`: named at a last column block only. -/
def outAt0 (c : Dev nD) (t : Fin cfg0.N) : Vec F S1024x3 .f32 :=
  if h1 : t.val % 16 = 15 then
    lastOut0 V c t (by omega) h1 (accAt0 V c (t.val - 1) (Nat.lt_of_le_of_lt (Nat.sub_le _ _) t.isLt))
  else outV0.read (Elt F) outV0.junk

/-! ## The invariant between points -/

/-- The core's scoped buffers other than the running columns' (the other kernel's staging buffers and scratch),
    each at some contents: they ride along untouched. -/
def rest0 (c : Dev nD) : sProp 𝕄 :=
  bigSep (((Finset.univ.filter fun b : Ref sig .tc => b.isScoped) \ Finset.univ.image (Pipeline.stageRef spec0)).erase cc0_scratch0)
    fun b => iprop(∃ f : Buf (Elt F) ((c.tc : Thread nD τ).loc b), ((c.tc : Thread nD τ).loc b) ↦{fullShare} f)

theorem scopedRest0_acc (c : Dev nD) :
    (Pipeline.scopedRest (Ix := Unit) (Name := ℕ) (U := UR sig nD τ) (Lvl := ℕ) (Val := Elt F) spec0 c : sProp 𝕄)
      = iprop((∃ f : Buf (Elt F) ((c.tc : Thread nD τ).loc cc0_scratch0), ((c.tc : Thread nD τ).loc cc0_scratch0) ↦{fullShare} f) ∗ rest0 (F := F) c) := by
  unfold Pipeline.scopedRest rest0
  exact bigSep_erase (by decide)

/-- What the region hands the body before the first point: the running columns' buffer at anything, the other
    scoped buffers, the generator register at some state. -/
theorem PhiA0_eq (c : Dev nD) :
    (Pipeline.ΦA spec0 c : sProp 𝕄)
      = iprop(((∃ d, owns (c : Thread nD τ) acc0 fullShare d) ∗ rest0 (F := F) c) ∗ (∃ r, prngReg c r)) := by
  unfold Pipeline.ΦA; rw [scopedRest0_acc]; simp only [acc0, owns_whole]; rfl

/-- The invariant before the point numbered `n`: at first the region's own; afterwards the running columns at
    what the point before left, the rest as before. -/
def PhiS0 (c : Dev nD) : (n : ℕ) → n ≤ cfg0.N → sProp 𝕄
  | 0, _ => Pipeline.ΦA spec0 c
  | n + 1, hn => iprop((owns (c : Thread nD τ) acc0 fullShare (accAt0 V c n hn) ∗ rest0 (F := F) c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop((owns (c : Thread nD τ) acc0 fullShare (accAt0 V c n hn) ∗ rest0 (F := F) c) ∗ (∃ r, prngReg c r)) := rfl
theorem PhiS0_pos (c : Dev nD) (n : ℕ) (h : n ≤ cfg0.N) (hz : n ≠ 0) :
    PhiS0 V c n h = iprop((owns (c : Thread nD τ) acc0 fullShare (accAt0 V c (n - 1) (by omega)) ∗ rest0 (F := F) c) ∗ (∃ r, prngReg c r)) := by
  cases n with
  | zero => exact absurd rfl hz
  | succ n => rfl

/-! ## The proof data -/

/-- The two halves of the full share: two input windows reading one array hold a half each. -/
abbrev shareOf0 : Fin cfg0.W → PosShare TreeShare
  | ⟨0, _⟩ => fullShare.left | ⟨1, _⟩ => fullShare.right
  | ⟨2, _⟩ => fullShare.left | ⟨3, _⟩ => fullShare.right
  | _ => fullShare

def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => blk0 V c 3 t
    | ⟨4, _⟩ => blk0 V c 4 t
    | ⟨5, _⟩ => blk0 V c 5 t
    | ⟨6, _⟩ => outAt0 V c t
  Φ t := PhiS0 V c t.val (Nat.le_of_lt_succ t.isLt)
  q := shareOf0
  owed _ := 0

theorem A0_eq (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = blk0 V c 2 t := by dsimp only [dat0]
theorem after0_3 (c : Dev nD) (t : Fin cfg0.N) : (dat0 V c).after 3 t = blk0 V c 3 t := by dsimp only [dat0]
theorem after0_4 (c : Dev nD) (t : Fin cfg0.N) : (dat0 V c).after 4 t = blk0 V c 4 t := by dsimp only [dat0]
theorem after0_5 (c : Dev nD) (t : Fin cfg0.N) : (dat0 V c).after 5 t = blk0 V c 5 t := by dsimp only [dat0]
theorem after0_6 (c : Dev nD) (t : Fin cfg0.N) : (dat0 V c).after 6 t = outAt0 V c t := by dsimp only [dat0]

theorem before0_0 (c : Dev nD) (t : Fin cfg0.N) (d) : (dat0 V c).before 0 t d = blk0 V c 0 t :=
  ((dat0 V c).before_in_eq_fetched 0 rfl (fun _ => rfl) (fun _ _ _ => rfl) (fun t => by rw [after0_0]; unfold Dat.blockOf blk0; rw [A0_eq]; try rfl) t d).trans
    (by unfold Dat.fetched Dat.blockOf blk0; rw [A0_eq]; try rfl)
theorem leaves0_0 (c : Dev nD) (t : Fin cfg0.N) :
    (dat0 V c).leavesExact 0 t = owns (c : Thread nD τ) (ms0_0 t) fullShare (blk0 V c 0 t) := by
  unfold Dat.leavesExact; rw [live0_in 0 (by decide) t, after0_0]
theorem before0_1 (c : Dev nD) (t : Fin cfg0.N) (d) : (dat0 V c).before 1 t d = blk0 V c 1 t :=
  ((dat0 V c).before_in_eq_fetched 1 rfl (fun _ => rfl) (fun _ _ _ => rfl) (fun t => by rw [after0_1]; unfold Dat.blockOf blk0; rw [A0_eq]; try rfl) t d).trans
    (by unfold Dat.fetched Dat.blockOf blk0; rw [A0_eq]; try rfl)
theorem leaves0_1 (c : Dev nD) (t : Fin cfg0.N) :
    (dat0 V c).leavesExact 1 t = owns (c : Thread nD τ) (ms0_1 t) fullShare (blk0 V c 1 t) := by
  unfold Dat.leavesExact; rw [live0_in 1 (by decide) t, after0_1]
theorem before0_2 (c : Dev nD) (t : Fin cfg0.N) (d) : (dat0 V c).before 2 t d = blk0 V c 2 t :=
  ((dat0 V c).before_in_eq_fetched 2 rfl (fun _ => rfl) (fun _ _ _ => rfl) (fun t => by rw [after0_2]; unfold Dat.blockOf blk0; rw [A0_eq]; try rfl) t d).trans
    (by unfold Dat.fetched Dat.blockOf blk0; rw [A0_eq]; try rfl)
theorem leaves0_2 (c : Dev nD) (t : Fin cfg0.N) :
    (dat0 V c).leavesExact 2 t = owns (c : Thread nD τ) (ms0_2 t) fullShare (blk0 V c 2 t) := by
  unfold Dat.leavesExact; rw [live0_in 2 (by decide) t, after0_2]
theorem before0_3 (c : Dev nD) (t : Fin cfg0.N) (d) : (dat0 V c).before 3 t d = blk0 V c 3 t :=
  ((dat0 V c).before_in_eq_fetched 3 rfl (fun _ => rfl) (fun _ _ _ => rfl) (fun t => by rw [after0_3]; unfold Dat.blockOf blk0; rw [A0_eq]; try rfl) t d).trans
    (by unfold Dat.fetched Dat.blockOf blk0; rw [A0_eq]; try rfl)
theorem leaves0_3 (c : Dev nD) (t : Fin cfg0.N) :
    (dat0 V c).leavesExact 3 t = owns (c : Thread nD τ) (ms0_3 t) fullShare (blk0 V c 3 t) := by
  unfold Dat.leavesExact; rw [live0_in 3 (by decide) t, after0_3]
theorem before0_4 (c : Dev nD) (t : Fin cfg0.N) (d) : (dat0 V c).before 4 t d = blk0 V c 4 t :=
  ((dat0 V c).before_in_eq_fetched 4 rfl (fun _ => rfl) (fun _ _ _ => rfl) (fun t => by rw [after0_4]; unfold Dat.blockOf blk0; rw [A0_eq]; try rfl) t d).trans
    (by unfold Dat.fetched Dat.blockOf blk0; rw [A0_eq]; try rfl)
theorem leaves0_4 (c : Dev nD) (t : Fin cfg0.N) :
    (dat0 V c).leavesExact 4 t = owns (c : Thread nD τ) (ms0_4 t) fullShare (blk0 V c 4 t) := by
  unfold Dat.leavesExact; rw [live0_in 4 (by decide) t, after0_4]
theorem before0_5 (c : Dev nD) (t : Fin cfg0.N) (d) : (dat0 V c).before 5 t d = blk0 V c 5 t :=
  ((dat0 V c).before_in_eq_fetched 5 rfl (fun _ => rfl) (fun _ _ _ => rfl) (fun t => by rw [after0_5]; unfold Dat.blockOf blk0; rw [A0_eq]; try rfl) t d).trans
    (by unfold Dat.fetched Dat.blockOf blk0; rw [A0_eq]; try rfl)
theorem leaves0_5 (c : Dev nD) (t : Fin cfg0.N) :
    (dat0 V c).leavesExact 5 t = owns (c : Thread nD τ) (ms0_5 t) fullShare (blk0 V c 5 t) := by
  unfold Dat.leavesExact; rw [live0_in 5 (by decide) t, after0_5]

end Cert.KernelIdeal.Hand

end
-- ==== Proof.Stats.Body.lean ====
/-
  The statistics kernel's body obligation: at every point of the grid the body, called on the windows' current
  staging buffers holding what the proof data says they hold before the point, runs to the end and leaves them
  holding what the proof data says they hold after it, the running columns passing through the invariant.
  The three kinds of point (first, middle, last column block of a row block) are told apart by the point's number
  modulo 16, and each is closed by that kind's run of the body.
-/
import proofs.«155278_j51788715655787_1_alg».proof.Proof.Stats.Data

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t)

theorem outAt0_last (c : Dev nD) (t : Fin cfg0.N) (h0 : ¬t.val % 16 = 0) (h1 : t.val % 16 = 15) :
    outAt0 V c t = lastOut0 V c t h0 h1 (accAt0 V c (t.val - 1) (Nat.lt_of_le_of_lt (Nat.sub_le _ _) t.isLt)) := by
  unfold outAt0; rw [dif_pos h1]

set_option maxHeartbeats 8000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).owesAt () t.succ = (dat0 V c).owesAt () t.castSucc from rfl]
  rw [show (dat0 V c).Φ t.succ = PhiS0 V c (t.val + 1) t.isLt from rfl, PhiS0_succ]
  rw [leaves0_0, leaves0_1, leaves0_2, leaves0_3, leaves0_4, leaves0_5]
  have hN : t.val < 128 := lt_of_lt_of_eq t.isLt (show cfg0.N = 128 from N_0)
  by_cases h0 : t.val % 16 = 0
  · have h1 : ¬t.val % 16 = 15 := by omega
    rw [Dat.leavesExact_idle (dat0 V c) 6 t (idle0_out t (not_emits0_of t h1)) (noflush0_out t (not_emits0_of t h1))]
    rw [accAt0_first V c t h0]
    unfold firstAcc0
    by_cases hz : t.val = 0
    · rw [PhiS0_castSucc V c t, PhiS0_zero V c _ _ hz, PhiA0_eq]
      iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩⟩
      iapply ((runFirst0 c (grid0.coords t) _ _ _ _ _ _ _ _ _ _ _ _ _ _ _ _ ((resets0_iff t).mpr h0) (not_emits0_of_first t h0) (blk0 V c 0 t) (blk0 V c 1 t) (blk0 V c 2 t) (blk0 V c 3 t) (blk0 V c 4 t) (blk0 V c 5 t)).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      iintro ⟨H0, H1, H2, H3, H4, H5, H6, ⟨%es, HS⟩⟩
      isplitl [HS HR Hg]
      · isplitl [HS HR]
        · isplitl [HS]
          · unfold owns; iexists _; isplitr
            swap; · iexact HS
            ipureintro; exact View.read_writes_of_cover _ _ _ _ _ (cover_firstAcc0 V c t h0)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · rw [PhiS0_castSucc V c t, PhiS0_pos V c _ _ hz]
      iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩⟩
      iapply ((runFirst0 c (grid0.coords t) _ _ _ _ _ _ _ _ _ _ _ _ _ _ _ _ ((resets0_iff t).mpr h0) (not_emits0_of_first t h0) (blk0 V c 0 t) (blk0 V c 1 t) (blk0 V c 2 t) (blk0 V c 3 t) (blk0 V c 4 t) (blk0 V c 5 t)).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexists _; iexact HS
      iintro ⟨H0, H1, H2, H3, H4, H5, H6, ⟨%es, HS⟩⟩
      isplitl [HS HR Hg]
      · isplitl [HS HR]
        · isplitl [HS]
          · unfold owns; iexists _; isplitr
            swap; · iexact HS
            ipureintro; exact View.read_writes_of_cover _ _ _ _ _ (cover_firstAcc0 V c t h0)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · have hz : t.val ≠ 0 := fun e => h0 (by rw [e])
    by_cases h1 : t.val % 16 = 15
    · rw [show (dat0 V c).leavesExact 6 t = owns (c : Thread nD τ) (ms0_6 t) fullShare (outAt0 V c t) from by
        unfold Dat.leavesExact; rw [live0_out t ((emits0_iff t).mpr h1), after0_6]]
      rw [outAt0_last V c t h0 h1, accAt0_last V c t h0 h1]
      unfold lastOut0 lastAcc0
      rw [PhiS0_castSucc V c t, PhiS0_pos V c _ _ hz]
      iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩⟩
      iapply ((runLast0 c (grid0.coords t) _ _ _ _ _ _ _ _ _ _ _ _ _ _ _ _ (not_resets0_of t h0) ((emits0_iff t).mpr h1) (blk0 V c 0 t) (blk0 V c 1 t) (blk0 V c 2 t) (blk0 V c 3 t) (blk0 V c 4 t) (blk0 V c 5 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS]; · iexact HS
      iintro ⟨H0, H1, H2, H3, H4, H5, ⟨%eo, H6⟩, ⟨%es, HS⟩⟩
      isplitl [HS HR Hg]
      · isplitl [HS HR]
        · isplitl [HS]
          · unfold owns; iexists _; isplitr
            swap; · iexact HS
            ipureintro; exact View.read_writes_of_cover _ _ _ _ _ (cover_lastAcc0 V c t h0 h1 _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (cover_lastOut0 V c t h0 h1 _)
    · rw [Dat.leavesExact_idle (dat0 V c) 6 t (idle0_out t (not_emits0_of t h1)) (noflush0_out t (not_emits0_of t h1))]
      rw [accAt0_mid V c t h0 h1]
      unfold midAcc0
      rw [PhiS0_castSucc V c t, PhiS0_pos V c _ _ hz]
      iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩⟩
      iapply ((runMid0 c (grid0.coords t) _ _ _ _ _ _ _ _ _ _ _ _ _ _ _ _ (not_resets0_of t h0) (not_emits0_of t h1) (blk0 V c 0 t) (blk0 V c 1 t) (blk0 V c 2 t) (blk0 V c 3 t) (blk0 V c 4 t) (blk0 V c 5 t) _).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      iintro ⟨H0, H1, H2, H3, H4, H5, H6, ⟨%es, HS⟩⟩
      isplitl [HS HR Hg]
      · isplitl [HS HR]
        · isplitl [HS]
          · unfold owns; iexists _; isplitr
            swap; · iexact HS
            ipureintro; exact View.read_writes_of_cover _ _ _ _ _ (cover_midAcc0 V c t h0 h1 _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the region hands the body before the first point is the invariant there. -/
theorem hin0 (c : Dev nD) : (Pipeline.ΦA spec0 c : sProp 𝕄) ⊢ (dat0 V c).Φ 0 := by
  rw [show (dat0 V c).Φ 0 = PhiS0 V c 0 (Nat.zero_le _) from rfl, PhiS0_zero V c 0 _ rfl]

/-- After the last point the invariant gives the region's own back: the running columns' contents are forgotten. -/
theorem hout0 (c : Dev nD) : (dat0 V c).Φ (Fin.last cfg0.N) ⊢ (Pipeline.ΦA spec0 c : sProp 𝕄) := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 128 := N_0; omega), PhiA0_eq]
  iintro ⟨⟨HS, HR⟩, Hg⟩
  isplitl [HS HR]
  · isplitl [HS]
    · iexists _; iexact HS
    iexact HR
  iexact Hg

end Cert.KernelIdeal.Hand

end
-- ==== Proof.Stats.Arrays.lean ====
/-
  The statistics kernel's arrays at its region's ends.

  The region is entered with every unscoped buffer of the core held whole. The kernel's windows read 5 distinct
  buffers; the normalized embeddings and the labels are each read through two windows (a row block and a column
  block), so each of those two buffers is dealt to its two windows in halves, and the halves are joined again when
  the region is left. Only the result buffer changes: at the exit it holds what the write-backs left.
-/
import proofs.«155278_j51788715655787_1_alg».proof.Proof.Stats.Body

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Each window's array is a whole buffer, held at the window's share. -/
theorem arr0_w0 (c : Dev nD) (X : Buf (Elt F) ((cfg0.win 0).arr.view.loc (c.tc : Thread nD τ))) :
    (((cfg0.win 0).arr.view.loc (c.tc : Thread nD τ)) ↦[(cfg0.win 0).arr.view.set]{(dat0 V c).share 0} X : sProp 𝕄)
      = (((c.tc : Thread nD τ).loc main_v12) ↦{fullShare.left} X) := by
  rw [(arr_whole0 0).set_eq_univ]; rfl
theorem arr0_w1 (c : Dev nD) (X : Buf (Elt F) ((cfg0.win 1).arr.view.loc (c.tc : Thread nD τ))) :
    (((cfg0.win 1).arr.view.loc (c.tc : Thread nD τ)) ↦[(cfg0.win 1).arr.view.set]{(dat0 V c).share 1} X : sProp 𝕄)
      = (((c.tc : Thread nD τ).loc main_v12) ↦{fullShare.right} X) := by
  rw [(arr_whole0 1).set_eq_univ]; rfl
theorem arr0_w2 (c : Dev nD) (X : Buf (Elt F) ((cfg0.win 2).arr.view.loc (c.tc : Thread nD τ))) :
    (((cfg0.win 2).arr.view.loc (c.tc : Thread nD τ)) ↦[(cfg0.win 2).arr.view.set]{(dat0 V c).share 2} X : sProp 𝕄)
      = (((c.tc : Thread nD τ).loc main_v13) ↦{fullShare.left} X) := by
  rw [(arr_whole0 2).set_eq_univ]; rfl
theorem arr0_w3 (c : Dev nD) (X : Buf (Elt F) ((cfg0.win 3).arr.view.loc (c.tc : Thread nD τ))) :
    (((cfg0.win 3).arr.view.loc (c.tc : Thread nD τ)) ↦[(cfg0.win 3).arr.view.set]{(dat0 V c).share 3} X : sProp 𝕄)
      = (((c.tc : Thread nD τ).loc main_v13) ↦{fullShare.right} X) := by
  rw [(arr_whole0 3).set_eq_univ]; rfl
theorem arr0_w4 (c : Dev nD) (X : Buf (Elt F) ((cfg0.win 4).arr.view.loc (c.tc : Thread nD τ))) :
    (((cfg0.win 4).arr.view.loc (c.tc : Thread nD τ)) ↦[(cfg0.win 4).arr.view.set]{(dat0 V c).share 4} X : sProp 𝕄)
      = (((c.tc : Thread nD τ).loc main_v10) ↦{fullShare} X) := by
  rw [(arr_whole0 4).set_eq_univ]; rfl
theorem arr0_w5 (c : Dev nD) (X : Buf (Elt F) ((cfg0.win 5).arr.view.loc (c.tc : Thread nD τ))) :
    (((cfg0.win 5).arr.view.loc (c.tc : Thread nD τ)) ↦[(cfg0.win 5).arr.view.set]{(dat0 V c).share 5} X : sProp 𝕄)
      = (((c.tc : Thread nD τ).loc main_v11) ↦{fullShare} X) := by
  rw [(arr_whole0 5).set_eq_univ]; rfl
theorem arr0_w6 (c : Dev nD) (X : Buf (Elt F) ((cfg0.win 6).arr.view.loc (c.tc : Thread nD τ))) :
    (((cfg0.win 6).arr.view.loc (c.tc : Thread nD τ)) ↦[(cfg0.win 6).arr.view.set]{(dat0 V c).share 6} X : sProp 𝕄)
      = (((c.tc : Thread nD τ).loc main_v14) ↦{fullShare} X) := by
  rw [(arr_whole0 6).set_eq_univ]; rfl

/-- The windows' arrays, one by one, each at its share. -/
theorem arrays0_eq (c : Dev nD) (F : (w : Fin cfg0.W) → Buf (Elt F) ((cfg0.win w).arr.view.loc (c.tc : Thread nD τ))) :
    ((dat0 V c).arrays F : sProp 𝕄) = iprop((((c.tc : Thread nD τ).loc main_v12) ↦{fullShare.left} F 0)
      ∗ (((c.tc : Thread nD τ).loc main_v12) ↦{fullShare.right} F 1)
      ∗ (((c.tc : Thread nD τ).loc main_v13) ↦{fullShare.left} F 2)
      ∗ (((c.tc : Thread nD τ).loc main_v13) ↦{fullShare.right} F 3)
      ∗ (((c.tc : Thread nD τ).loc main_v10) ↦{fullShare} F 4)
      ∗ (((c.tc : Thread nD τ).loc main_v11) ↦{fullShare} F 5)
      ∗ (((c.tc : Thread nD τ).loc main_v14) ↦{fullShare} F 6)) := by
  unfold Dat.arrays; rw [bigSep_W0]
  exact congrArg₂ BI.sep (arr0_w0 V c _) (congrArg₂ BI.sep (arr0_w1 V c _) (congrArg₂ BI.sep (arr0_w2 V c _) (congrArg₂ BI.sep (arr0_w3 V c _) (congrArg₂ BI.sep (arr0_w4 V c _) (congrArg₂ BI.sep (arr0_w5 V c _) (arr0_w6 V c _))))))

/-- The distinct buffers behind the windows, one by one, each whole. -/
theorem arrBufs0_eq (c : Dev nD) (W : (b : Ref sig .tc) → Buf (Elt F) ((c.tc : Thread nD τ).loc b)) :
    (Pipeline.arrBufs (Ix := Unit) (Name := ℕ) (U := UR sig nD τ) (Lvl := ℕ) spec0 c W : sProp 𝕄) = iprop((((c.tc : Thread nD τ).loc main_v12) ↦{fullShare} W main_v12)
      ∗ (((c.tc : Thread nD τ).loc main_v13) ↦{fullShare} W main_v13)
      ∗ (((c.tc : Thread nD τ).loc main_v10) ↦{fullShare} W main_v10)
      ∗ (((c.tc : Thread nD τ).loc main_v11) ↦{fullShare} W main_v11)
      ∗ (((c.tc : Thread nD τ).loc main_v14) ↦{fullShare} W main_v14)) := by
  unfold Pipeline.arrBufs
  rw [show Finset.univ.image (Pipeline.arrRef spec0) = ({main_v12, main_v13, main_v10, main_v11, main_v14} : Finset (Ref sig .tc)) from by decide]
  rw [bigSep_insert (by decide), bigSep_insert (by decide), bigSep_insert (by decide), bigSep_insert (by decide), bigSep_singleton]
  rfl

/-- A core's unscoped buffers are the buffers behind the windows and the rest. -/
theorem unscopedBufs0_split (c : Dev nD) (W : (b : Ref sig .tc) → Buf (Elt F) ((c.tc : Thread nD τ).loc b)) :
    (unscopedBufs c W : sProp 𝕄) = iprop(Pipeline.arrBufs (Ix := Unit) (Name := ℕ) (U := UR sig nD τ) (Lvl := ℕ) spec0 c W
      ∗ Pipeline.unscopedRest (Ix := Unit) (Name := ℕ) (U := UR sig nD τ) (Lvl := ℕ) spec0 c W) := by
  unfold unscopedBufs Pipeline.unscopedRest Pipeline.arrBufs
  exact bigSep_sdiff_split (by decide)

/-- An input window's array is never written: it holds its entry contents throughout. -/
theorem arrAt0_in0 (c : Dev nD) (n : ℕ) : (dat0 V c).arrAt 0 n = V c main_v12 :=
  ((dat0 V c).arrAt_in 0 rfl n).trans (A0_eq V c 0)
theorem arrAt0_in1 (c : Dev nD) (n : ℕ) : (dat0 V c).arrAt 1 n = V c main_v12 :=
  ((dat0 V c).arrAt_in 1 rfl n).trans (A0_eq V c 1)
theorem arrAt0_in2 (c : Dev nD) (n : ℕ) : (dat0 V c).arrAt 2 n = V c main_v13 :=
  ((dat0 V c).arrAt_in 2 rfl n).trans (A0_eq V c 2)
theorem arrAt0_in3 (c : Dev nD) (n : ℕ) : (dat0 V c).arrAt 3 n = V c main_v13 :=
  ((dat0 V c).arrAt_in 3 rfl n).trans (A0_eq V c 3)
theorem arrAt0_in4 (c : Dev nD) (n : ℕ) : (dat0 V c).arrAt 4 n = V c main_v10 :=
  ((dat0 V c).arrAt_in 4 rfl n).trans (A0_eq V c 4)
theorem arrAt0_in5 (c : Dev nD) (n : ℕ) : (dat0 V c).arrAt 5 n = V c main_v11 :=
  ((dat0 V c).arrAt_in 5 rfl n).trans (A0_eq V c 5)

/-- ENTRY: the buffers behind the windows, whole at the entry contents, dealt to the windows. -/
theorem arrays0_of_bufs (c : Dev nD) :
    (Pipeline.arrBufs (Ix := Unit) (Name := ℕ) (U := UR sig nD τ) (Lvl := ℕ) spec0 c (V c) : sProp 𝕄)
      ⊢ (dat0 V c).arrays ((dat0 V c).arrAt · 0) := by
  rw [arrBufs0_eq, arrays0_eq]
  iintro ⟨H12, H13, H10, H11, H14⟩
  ihave S12 := (pointsTo_share (PosShare.mem_left_op_right fullShare)).1 $$ H12
  icases S12 with ⟨H12l, H12r⟩
  ihave S13 := (pointsTo_share (PosShare.mem_left_op_right fullShare)).1 $$ H13
  icases S13 with ⟨H13l, H13r⟩
  isplitl [H12l]; · iexact H12l
  isplitl [H12r]; · iexact H12r
  isplitl [H13l]; · iexact H13l
  isplitl [H13r]; · iexact H13r
  isplitl [H10]; · iexact H10
  isplitl [H11]; · iexact H11
  iexact H14

/-- EXIT: the windows' arrays after the last point joined into the buffers behind them — the inputs' as entered,
    the result's at what the write-backs left. -/
theorem bufs0_of_arrays (c : Dev nD) (W : (b : Ref sig .tc) → Buf (Elt F) ((c.tc : Thread nD τ).loc b))
    (hin : ∀ b, b ≠ main_v14 → W b = V c b) (hout : W main_v14 = (dat0 V c).arrAt 6 cfg0.N) :
    ((dat0 V c).arrays ((dat0 V c).arrAt · cfg0.N) : sProp 𝕄)
      ⊢ Pipeline.arrBufs (Ix := Unit) (Name := ℕ) (U := UR sig nD τ) (Lvl := ℕ) spec0 c W := by
  rw [arrBufs0_eq, arrays0_eq]
  rw [arrAt0_in0, arrAt0_in1, arrAt0_in2, arrAt0_in3, arrAt0_in4, arrAt0_in5, ← hout]
  rw [hin main_v12 (by decide), hin main_v13 (by decide), hin main_v10 (by decide), hin main_v11 (by decide)]
  iintro ⟨A0, A1, A2, A3, A4, A5, A6⟩
  isplitl [A0 A1]
  · iapply (pointsTo_share (PosShare.mem_left_op_right fullShare)).2
    isplitl [A0] <;> iassumption
  isplitl [A2 A3]
  · iapply (pointsTo_share (PosShare.mem_left_op_right fullShare)).2
    isplitl [A2] <;> iassumption
  isplitl [A4]; · iexact A4
  isplitl [A5]; · iexact A5
  iexact A6

end Cert.KernelIdeal.Hand

end
-- ==== Proof.Loss.Setup.lean ====
/-
  The loss kernel (the second of the two kernels) on the same 8 × 16 grid of (row block, column block) points:
  where its two branches are taken, and where its result window is live.

  The body zeroes its running column of hinge sums when the column block is the first of a row block, adds the
  current column block's row sums to it at every point, and when the column block is the last one turns the
  running sums into the row block's two result columns (the row losses and the row validity flags).
-/
import proofs.«155278_j51788715655787_1_alg».proof.Proof.Gen.KernelIdeal.Launch
import proofs.«155278_j51788715655787_1_alg».proof.Proof.Gen.KernelIdeal.Skeleton
import proofs.«155278_j51788715655787_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The reset branch's condition: the column block is the first. -/
abbrev resets1 (i : grid1.Coords) : Prop :=
  (Scalar.cmpi .ne (Scalar.extui (Scalar.cmpi .eq (BitVec.ofNat 32 (i 1).val) 0#32)) 0#32) = 1#1
/-- The emitting branch's condition: the column block is the last. -/
abbrev emits1 (i : grid1.Coords) : Prop := k1_cond2 i = 1#1

theorem resets1_iff : ∀ t : Fin cfg1.N, resets1 (grid1.coords t) ↔ t.val % 16 = 0 :=
  (by decide +kernel : ∀ t : Fin grid1.N, resets1 (grid1.coords t) ↔ t.val % 16 = 0)
theorem emits1_iff : ∀ t : Fin cfg1.N, emits1 (grid1.coords t) ↔ t.val % 16 = 15 :=
  (by decide +kernel : ∀ t : Fin grid1.N, emits1 (grid1.coords t) ↔ t.val % 16 = 15)

/-- The seven input windows are never idle. -/
theorem live1_in : ∀ (w : Fin 8), w ≠ 7 → ∀ t : Fin cfg1.N, cfg1.idle w (grid1.coords t) = false := by decide +kernel
/-- The result window is idle exactly where nothing is emitted, and is not written back there. -/
theorem idle1_out : ∀ t : Fin cfg1.N, ¬emits1 (grid1.coords t) → cfg1.idle 7 (grid1.coords t) = true := by decide +kernel
theorem noflush1_out : ∀ t : Fin cfg1.N, ¬emits1 (grid1.coords t) → (cfg1.win 7).flush t = false := by decide +kernel
theorem live1_out : ∀ t : Fin cfg1.N, emits1 (grid1.coords t) → cfg1.idle 7 (grid1.coords t) = false := by decide +kernel

/-- The running column's buffer, and the view through which its contents are stated. -/
abbrev acc1 : Memref sig .tc .vmem S1024x1 .f32 := Memref.whole cc1_scratch0
abbrev accV1 : View sig .tc .vmem S1024x1 .f32 := acc1.view
/-- One staging buffer of the result window, through which its contents are stated. -/
abbrev outV1 : View sig .tc .vmem S1024x2 .f32 := (Memref.whole cc1_stg7_0 : Memref sig .tc .vmem S1024x2 .f32).view

end Cert.KernelIdeal.Hand

end
-- ==== Proof.Loss.RunMid.lean ====
/-
  The loss kernel's body at a point whose column block is neither the first nor the last of its row block: the
  seven input blocks are read and handed back as found, the result block is not touched, and the running column
  of hinge sums is loaded and stored back with the current block's row sums added.
-/
import proofs.«155278_j51788715655787_1_alg».proof.Proof.Loss.Setup

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body stores into the running column at such a point, with the proof that on whole buffers the
    body runs to the continuation, holding the inputs and the result block as they were and the running column
    with the pieces written. -/
noncomputable def runMid1 (c : Dev nD) (i : grid1.Coords) (arg2 : Memref sig .tc .vmem S1024x512 .bf16) (harg2 : arg2.IsWhole) (arg3 : Memref sig .tc .vmem S512x512 .bf16) (harg3 : arg3.IsWhole) (arg4 : Memref sig .tc .vmem S1024x80 .bf16) (harg4 : arg4.IsWhole) (arg5 : Memref sig .tc .vmem S512x80 .bf16) (harg5 : arg5.IsWhole) (arg6 : Memref sig .tc .vmem S1024x2 .f32) (harg6 : arg6.IsWhole) (arg7 : Memref sig .tc .vmem S2x512 .f32) (harg7 : arg7.IsWhole) (arg8 : Memref sig .tc .vmem S1024x3 .f32) (harg8 : arg8.IsWhole) (arg9 : Memref sig .tc .vmem S1024x2 .f32) (harg9 : arg9.IsWhole) (arg10 : Memref sig .tc .vmem S1024x1 .f32) (harg10 : arg10.IsWhole)
    (hr : ¬resets1 i) (he : ¬emits1 i) (x0 : Vec F S1024x512 .bf16) (x1 : Vec F S512x512 .bf16) (x2 : Vec F S1024x80 .bf16) (x3 : Vec F S512x80 .bf16) (x4 : Vec F S1024x2 .f32) (x5 : Vec F S2x512 .f32) (x6 : Vec F S1024x3 .f32) (xs : Vec F S1024x1 .f32) :
    { LS : List (View.Piece (Elt F) S1024x1 .f32) //
      ∀ (xo : Vec F S1024x2 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xo ∗ owns (c : Thread nD τ) arg10 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xo ∗ (∃ f, arg10.view.loc (c : Thread nD τ) ↦[arg10.view.set]{fullShare} arg10.view.writes (Elt F) f LS)) -∗ K ⟨⟩))
          ⊢ wp frame (wpE (defs₀ (F := F)) Variants.none c none) E (cc1__loss_kernel i arg2 harg2 arg3 harg3 arg4 harg4 arg5 harg5 arg6 harg6 arg7 harg7 arg8 harg8 arg9 harg9 arg10 harg10) K } := by
  refine ⟨?_, fun xo E K => ?run⟩
  case run =>
    simp only [cc1__loss_kernel_eq_skeleton]; unfold cc1__loss_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs, %hfs, HS⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hf6
    obtain rfl := harg9.eq_unread hf7; obtain rfl := harg10.eq_unread hfs
    sl_exec (disch := first | exact hr | exact he)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    iexists _; iexact HS

end Cert.KernelIdeal.Hand

end
-- ==== Proof.Loss.RunFirst.lean ====
/-
  The loss kernel's body at the first column block of a row block: the running column of hinge sums is first
  overwritten with zeros and then the current block's row sums are added; whatever the buffer held before is not
  used.
-/
import proofs.«155278_j51788715655787_1_alg».proof.Proof.Loss.Setup

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces stored into the running column at such a point, with the proof that the body runs on whole
    buffers — the running column at anything — to the continuation, holding the inputs and the result block as
    they were and the running column with the pieces written. -/
noncomputable def runFirst1 (c : Dev nD) (i : grid1.Coords) (arg2 : Memref sig .tc .vmem S1024x512 .bf16) (harg2 : arg2.IsWhole) (arg3 : Memref sig .tc .vmem S512x512 .bf16) (harg3 : arg3.IsWhole) (arg4 : Memref sig .tc .vmem S1024x80 .bf16) (harg4 : arg4.IsWhole) (arg5 : Memref sig .tc .vmem S512x80 .bf16) (harg5 : arg5.IsWhole) (arg6 : Memref sig .tc .vmem S1024x2 .f32) (harg6 : arg6.IsWhole) (arg7 : Memref sig .tc .vmem S2x512 .f32) (harg7 : arg7.IsWhole) (arg8 : Memref sig .tc .vmem S1024x3 .f32) (harg8 : arg8.IsWhole) (arg9 : Memref sig .tc .vmem S1024x2 .f32) (harg9 : arg9.IsWhole) (arg10 : Memref sig .tc .vmem S1024x1 .f32) (harg10 : arg10.IsWhole)
    (hr : resets1 i) (he : ¬emits1 i) (x0 : Vec F S1024x512 .bf16) (x1 : Vec F S512x512 .bf16) (x2 : Vec F S1024x80 .bf16) (x3 : Vec F S512x80 .bf16) (x4 : Vec F S1024x2 .f32) (x5 : Vec F S2x512 .f32) (x6 : Vec F S1024x3 .f32) :
    { LS : List (View.Piece (Elt F) S1024x1 .f32) //
      ∀ (xo : Vec F S1024x2 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xo ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xo ∗ (∃ f, arg10.view.loc (c : Thread nD τ) ↦[arg10.view.set]{fullShare} arg10.view.writes (Elt F) f LS)) -∗ K ⟨⟩))
          ⊢ wp frame (wpE (defs₀ (F := F)) Variants.none c none) E (cc1__loss_kernel i arg2 harg2 arg3 harg3 arg4 harg4 arg5 harg5 arg6 harg6 arg7 harg7 arg8 harg8 arg9 harg9 arg10 harg10) K } := by
  refine ⟨?_, fun xo E K => ?run⟩
  case run =>
    simp only [cc1__loss_kernel_eq_skeleton]; unfold cc1__loss_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds, %fs, -, HS⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hf6
    obtain rfl := harg9.eq_unread hf7
    sl_exec (disch := first | exact hr | exact he)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    iexists _; iexact HS

end Cert.KernelIdeal.Hand

end
-- ==== Proof.Loss.RunLast.lean ====
/-
  The loss kernel's body at the last column block of a row block: the running column of hinge sums gets the
  current block's row sums added as at every point, and then the row block's two result columns are stored — the
  sums divided by the positive counts where a row is valid, zero elsewhere, and the validity flags — into the
  result block, whose previous contents are not used.
-/
import proofs.«155278_j51788715655787_1_alg».proof.Proof.Loss.Setup

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces stored into the result block and into the running column at such a point, with the proof that the
    body runs on whole buffers — the result block at anything, the running column at what the point before left —
    to the continuation, holding the inputs as they were and the two other buffers with their pieces written. -/
noncomputable def runLast1 (c : Dev nD) (i : grid1.Coords) (arg2 : Memref sig .tc .vmem S1024x512 .bf16) (harg2 : arg2.IsWhole) (arg3 : Memref sig .tc .vmem S512x512 .bf16) (harg3 : arg3.IsWhole) (arg4 : Memref sig .tc .vmem S1024x80 .bf16) (harg4 : arg4.IsWhole) (arg5 : Memref sig .tc .vmem S512x80 .bf16) (harg5 : arg5.IsWhole) (arg6 : Memref sig .tc .vmem S1024x2 .f32) (harg6 : arg6.IsWhole) (arg7 : Memref sig .tc .vmem S2x512 .f32) (harg7 : arg7.IsWhole) (arg8 : Memref sig .tc .vmem S1024x3 .f32) (harg8 : arg8.IsWhole) (arg9 : Memref sig .tc .vmem S1024x2 .f32) (harg9 : arg9.IsWhole) (arg10 : Memref sig .tc .vmem S1024x1 .f32) (harg10 : arg10.IsWhole)
    (hr : ¬resets1 i) (he : emits1 i) (x0 : Vec F S1024x512 .bf16) (x1 : Vec F S512x512 .bf16) (x2 : Vec F S1024x80 .bf16) (x3 : Vec F S512x80 .bf16) (x4 : Vec F S1024x2 .f32) (x5 : Vec F S2x512 .f32) (x6 : Vec F S1024x3 .f32) (xs : Vec F S1024x1 .f32) :
    Σ' (LO : List (View.Piece (Elt F) S1024x2 .f32)), { LS : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f LO) ∗ (∃ f, arg10.view.loc (c : Thread nD τ) ↦[arg10.view.set]{fullShare} arg10.view.writes (Elt F) f LS)) -∗ K ⟨⟩))
          ⊢ wp frame (wpE (defs₀ (F := F)) Variants.none c none) E (cc1__loss_kernel i arg2 harg2 arg3 harg3 arg4 harg4 arg5 harg5 arg6 harg6 arg7 harg7 arg8 harg8 arg9 harg9 arg10 harg10) K } := by
  refine ⟨?_, ?_, fun E K => ?run⟩
  case run =>
    simp only [cc1__loss_kernel_eq_skeleton]; unfold cc1__loss_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs, %hfs, HS⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hf6
    obtain rfl := harg10.eq_unread hfs
    sl_exec (disch := first | exact hr | exact he)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; iexact H7
    iexists _; iexact HS

end Cert.KernelIdeal.Hand

end
-- ==== Proof.Loss.Data.lean ====
/-
  The loss kernel's proof data: what its buffers hold point by point.

  Point `16·r + k` works on row block `r` and column block `k`. The running column of hinge sums after a point is
  given by recursion on the point: at a first column block it is that block's row sums alone, otherwise the block's
  row sums added to what the point before left. The result block is named only at a last column block, where it
  receives the row losses and validity flags computed from the running column as it then stands; elsewhere the
  window is idle and not written back. The seven input windows hold their blocks of the arrays as the region finds
  them (`V`), fetched at the point or kept from the point before.
-/
import proofs.«155278_j51788715655787_1_alg».proof.Proof.Loss.RunMid
import proofs.«155278_j51788715655787_1_alg».proof.Proof.Loss.RunFirst
import proofs.«155278_j51788715655787_1_alg».proof.Proof.Loss.RunLast

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each window's current staging buffer at a point, as the pipeline passes it to the body. -/
abbrev ms1_0 (t : Fin cfg1.N) : Memref sig .tc .vmem S1024x512 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x512 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x80 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S512x80 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x2 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S2x512 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1024x3 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1024x2 .f32 := win1_7.stage (cfg1.slots t 7)
abbrev hs1_7 (t : Fin cfg1.N) : (ms1_7 t).IsWhole := hstage1_7 ((cfg1.slots t 7).cast nbuf1_7)

theorem not_emits1_of_first (t : Fin cfg1.N) (h : t.val % 16 = 0) : ¬emits1 (grid1.coords t) :=
  fun e => by have := (emits1_iff t).mp e; omega
theorem not_resets1_of (t : Fin cfg1.N) (h : ¬t.val % 16 = 0) : ¬resets1 (grid1.coords t) :=
  fun e => h ((resets1_iff t).mp e)
theorem not_emits1_of (t : Fin cfg1.N) (h : ¬t.val % 16 = 15) : ¬emits1 (grid1.coords t) :=
  fun e => h ((emits1_iff t).mp e)

/-- The running column after a first column block. -/
def firstAcc1 (c : Dev nD) (t : Fin cfg1.N) (h0 : t.val % 16 = 0) : Vec F S1024x1 .f32 :=
  accV1.read (Elt F) (accV1.writes (Elt F) accV1.junk
    (runFirst1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) acc1 (Memref.isWhole_whole _) ((resets1_iff t).mpr h0) (not_emits1_of_first t h0) (blk1 V c 0 t) (blk1 V c 1 t) (blk1 V c 2 t) (blk1 V c 3 t) (blk1 V c 4 t) (blk1 V c 5 t) (blk1 V c 6 t)).1)
/-- The running column after a middle column block, from what the point before left. -/
def midAcc1 (c : Dev nD) (t : Fin cfg1.N) (h0 : ¬t.val % 16 = 0) (h1 : ¬t.val % 16 = 15) (xs : Vec F S1024x1 .f32) : Vec F S1024x1 .f32 :=
  accV1.read (Elt F) (accV1.writes (Elt F) accV1.junk
    (runMid1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) acc1 (Memref.isWhole_whole _) (not_resets1_of t h0) (not_emits1_of t h1) (blk1 V c 0 t) (blk1 V c 1 t) (blk1 V c 2 t) (blk1 V c 3 t) (blk1 V c 4 t) (blk1 V c 5 t) (blk1 V c 6 t) xs).1)
/-- The running column after a last column block, from what the point before left. -/
def lastAcc1 (c : Dev nD) (t : Fin cfg1.N) (h0 : ¬t.val % 16 = 0) (h1 : t.val % 16 = 15) (xs : Vec F S1024x1 .f32) : Vec F S1024x1 .f32 :=
  accV1.read (Elt F) (accV1.writes (Elt F) accV1.junk
    (runLast1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) acc1 (Memref.isWhole_whole _) (not_resets1_of t h0) ((emits1_iff t).mpr h1) (blk1 V c 0 t) (blk1 V c 1 t) (blk1 V c 2 t) (blk1 V c 3 t) (blk1 V c 4 t) (blk1 V c 5 t) (blk1 V c 6 t) xs).2.1)
/-- The result block after a last column block. -/
def lastOut1 (c : Dev nD) (t : Fin cfg1.N) (h0 : ¬t.val % 16 = 0) (h1 : t.val % 16 = 15) (xs : Vec F S1024x1 .f32) : Vec F S1024x2 .f32 :=
  outV1.read (Elt F) (outV1.writes (Elt F) outV1.junk
    (runLast1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) acc1 (Memref.isWhole_whole _) (not_resets1_of t h0) ((emits1_iff t).mpr h1) (blk1 V c 0 t) (blk1 V c 1 t) (blk1 V c 2 t) (blk1 V c 3 t) (blk1 V c 4 t) (blk1 V c 5 t) (blk1 V c 6 t) xs).1)

/-- The pieces of each case cover the buffer they are stored into. -/
theorem cover_firstAcc1 (c : Dev nD) (t : Fin cfg1.N) (h0 : t.val % 16 = 0) (y : S1024x1.Idx) :
    ∃ pc ∈ (runFirst1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) acc1 (Memref.isWhole_whole _) ((resets1_iff t).mpr h0) (not_emits1_of_first t h0) (blk1 V c 0 t) (blk1 V c 1 t) (blk1 V c 2 t) (blk1 V c 3 t) (blk1 V c 4 t) (blk1 V c 5 t) (blk1 V c 6 t)).1, y ∈ pc.1.set :=
  View.cover_of_tiledL (s := S1024x1) _ S1024x1.size (by sl_kernel_rfl) y
theorem cover_midAcc1 (c : Dev nD) (t : Fin cfg1.N) (h0 : ¬t.val % 16 = 0) (h1 : ¬t.val % 16 = 15) (xs : Vec F S1024x1 .f32) (y : S1024x1.Idx) :
    ∃ pc ∈ (runMid1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) acc1 (Memref.isWhole_whole _) (not_resets1_of t h0) (not_emits1_of t h1) (blk1 V c 0 t) (blk1 V c 1 t) (blk1 V c 2 t) (blk1 V c 3 t) (blk1 V c 4 t) (blk1 V c 5 t) (blk1 V c 6 t) xs).1, y ∈ pc.1.set :=
  View.cover_of_tiledL (s := S1024x1) _ S1024x1.size (by sl_kernel_rfl) y
theorem cover_lastAcc1 (c : Dev nD) (t : Fin cfg1.N) (h0 : ¬t.val % 16 = 0) (h1 : t.val % 16 = 15) (xs : Vec F S1024x1 .f32) (y : S1024x1.Idx) :
    ∃ pc ∈ (runLast1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) acc1 (Memref.isWhole_whole _) (not_resets1_of t h0) ((emits1_iff t).mpr h1) (blk1 V c 0 t) (blk1 V c 1 t) (blk1 V c 2 t) (blk1 V c 3 t) (blk1 V c 4 t) (blk1 V c 5 t) (blk1 V c 6 t) xs).2.1, y ∈ pc.1.set :=
  View.cover_of_tiledL (s := S1024x1) _ S1024x1.size (by sl_kernel_rfl) y
theorem cover_lastOut1 (c : Dev nD) (t : Fin cfg1.N) (h0 : ¬t.val % 16 = 0) (h1 : t.val % 16 = 15) (xs : Vec F S1024x1 .f32) (y : S1024x2.Idx) :
    ∃ pc ∈ (runLast1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) acc1 (Memref.isWhole_whole _) (not_resets1_of t h0) ((emits1_iff t).mpr h1) (blk1 V c 0 t) (blk1 V c 1 t) (blk1 V c 2 t) (blk1 V c 3 t) (blk1 V c 4 t) (blk1 V c 5 t) (blk1 V c 6 t) xs).1, y ∈ pc.1.set :=
  View.cover_of_tiledL (s := S1024x2) _ S1024x1.size (by sl_kernel_rfl) y

/-- THE RECURSION: the running column after the point numbered `n`. -/
def accAt1 (c : Dev nD) : (n : ℕ) → n < cfg1.N → Vec F S1024x1 .f32
  | 0, hn => firstAcc1 V c ⟨0, hn⟩ (Nat.zero_mod _)
  | n + 1, hn =>
    if h0 : (n + 1) % 16 = 0 then firstAcc1 V c ⟨n + 1, hn⟩ h0
    else if h1 : (n + 1) % 16 = 15 then lastAcc1 V c ⟨n + 1, hn⟩ h0 h1 (accAt1 c n (Nat.lt_of_succ_lt hn))
    else midAcc1 V c ⟨n + 1, hn⟩ h0 h1 (accAt1 c n (Nat.lt_of_succ_lt hn))

theorem accAt1_first (c : Dev nD) (t : Fin cfg1.N) (h0 : t.val % 16 = 0) :
    accAt1 V c t.val t.isLt = firstAcc1 V c t h0 := by
  obtain ⟨n, hn⟩ := t
  cases n with
  | zero => rfl
  | succ n => exact dif_pos h0
theorem accAt1_mid (c : Dev nD) (t : Fin cfg1.N) (h0 : ¬t.val % 16 = 0) (h1 : ¬t.val % 16 = 15) :
    accAt1 V c t.val t.isLt = midAcc1 V c t h0 h1 (accAt1 V c (t.val - 1) (Nat.lt_of_le_of_lt (Nat.sub_le _ _) t.isLt)) := by
  obtain ⟨n, hn⟩ := t
  cases n with
  | zero => exact absurd (Nat.zero_mod _) h0
  | succ n => exact (dif_neg h0).trans (dif_neg h1)
theorem accAt1_last (c : Dev nD) (t : Fin cfg1.N) (h0 : ¬t.val % 16 = 0) (h1 : t.val % 16 = 15) :
    accAt1 V c t.val t.isLt = lastAcc1 V c t h0 h1 (accAt1 V c (t.val - 1) (Nat.lt_of_le_of_lt (Nat.sub_le _ _) t.isLt)) := by
  obtain ⟨n, hn⟩ := t
  cases n with
  | zero => exact absurd (Nat.zero_mod _) h0
  | succ n => exact (dif_neg h0).trans (dif_pos h1)

/-- The result block after point `t`: named at a last column block only. -/
def outAt1 (c : Dev nD) (t : Fin cfg1.N) : Vec F S1024x2 .f32 :=
  if h1 : t.val % 16 = 15 then
    lastOut1 V c t (by omega) h1 (accAt1 V c (t.val - 1) (Nat.lt_of_le_of_lt (Nat.sub_le _ _) t.isLt))
  else outV1.read (Elt F) outV1.junk

/-! ## The invariant between points -/

/-- The core's scoped buffers other than the running column's (the other kernel's staging buffers and scratch),
    each at some contents: they ride along untouched. -/
def rest1 (c : Dev nD) : sProp 𝕄 :=
  bigSep (((Finset.univ.filter fun b : Ref sig .tc => b.isScoped) \ Finset.univ.image (Pipeline.stageRef spec1)).erase cc1_scratch0)
    fun b => iprop(∃ f : Buf (Elt F) ((c.tc : Thread nD τ).loc b), ((c.tc : Thread nD τ).loc b) ↦{fullShare} f)

theorem scopedRest1_acc (c : Dev nD) :
    (Pipeline.scopedRest (Ix := Unit) (Name := ℕ) (U := UR sig nD τ) (Lvl := ℕ) (Val := Elt F) spec1 c : sProp 𝕄)
      = iprop((∃ f : Buf (Elt F) ((c.tc : Thread nD τ).loc cc1_scratch0), ((c.tc : Thread nD τ).loc cc1_scratch0) ↦{fullShare} f) ∗ rest1 (F := F) c) := by
  unfold Pipeline.scopedRest rest1
  exact bigSep_erase (by decide)

/-- What the region hands the body before the first point: the running column's buffer at anything, the other
    scoped buffers, the generator register at some state. -/
theorem PhiA1_eq (c : Dev nD) :
    (Pipeline.ΦA spec1 c : sProp 𝕄)
      = iprop(((∃ d, owns (c : Thread nD τ) acc1 fullShare d) ∗ rest1 (F := F) c) ∗ (∃ r, prngReg c r)) := by
  unfold Pipeline.ΦA; rw [scopedRest1_acc]; simp only [acc1, owns_whole]; rfl

/-- The invariant before the point numbered `n`: at first the region's own; afterwards the running column at
    what the point before left, the rest as before. -/
def PhiS1 (c : Dev nD) : (n : ℕ) → n ≤ cfg1.N → sProp 𝕄
  | 0, _ => Pipeline.ΦA spec1 c
  | n + 1, hn => iprop((owns (c : Thread nD τ) acc1 fullShare (accAt1 V c n hn) ∗ rest1 (F := F) c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop((owns (c : Thread nD τ) acc1 fullShare (accAt1 V c n hn) ∗ rest1 (F := F) c) ∗ (∃ r, prngReg c r)) := rfl
theorem PhiS1_pos (c : Dev nD) (n : ℕ) (h : n ≤ cfg1.N) (hz : n ≠ 0) :
    PhiS1 V c n h = iprop((owns (c : Thread nD τ) acc1 fullShare (accAt1 V c (n - 1) (by omega)) ∗ rest1 (F := F) c) ∗ (∃ r, prngReg c r)) := by
  cases n with
  | zero => exact absurd rfl hz
  | succ n => rfl

/-! ## The proof data -/

/-- Two input windows reading one array hold a half of the full share each. -/
abbrev shareOf1 : Fin cfg1.W → PosShare TreeShare
  | ⟨0, _⟩ => fullShare.left | ⟨1, _⟩ => fullShare.right
  | ⟨2, _⟩ => fullShare.left | ⟨3, _⟩ => fullShare.right
  | _ => fullShare

def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => blk1 V c 5 t
    | ⟨6, _⟩ => blk1 V c 6 t
    | ⟨7, _⟩ => outAt1 V c t
  Φ t := PhiS1 V c t.val (Nat.le_of_lt_succ t.isLt)
  q := shareOf1
  owed _ := 0

theorem A1_eq (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = blk1 V c 2 t := by dsimp only [dat1]
theorem after1_3 (c : Dev nD) (t : Fin cfg1.N) : (dat1 V c).after 3 t = blk1 V c 3 t := by dsimp only [dat1]
theorem after1_4 (c : Dev nD) (t : Fin cfg1.N) : (dat1 V c).after 4 t = blk1 V c 4 t := by dsimp only [dat1]
theorem after1_5 (c : Dev nD) (t : Fin cfg1.N) : (dat1 V c).after 5 t = blk1 V c 5 t := by dsimp only [dat1]
theorem after1_6 (c : Dev nD) (t : Fin cfg1.N) : (dat1 V c).after 6 t = blk1 V c 6 t := by dsimp only [dat1]
theorem after1_7 (c : Dev nD) (t : Fin cfg1.N) : (dat1 V c).after 7 t = outAt1 V c t := by dsimp only [dat1]

theorem before1_0 (c : Dev nD) (t : Fin cfg1.N) (d) : (dat1 V c).before 0 t d = blk1 V c 0 t :=
  ((dat1 V c).before_in_eq_fetched 0 rfl (fun _ => rfl) (fun _ _ _ => rfl) (fun t => by rw [after1_0]; unfold Dat.blockOf blk1; rw [A1_eq]; try rfl) t d).trans
    (by unfold Dat.fetched Dat.blockOf blk1; rw [A1_eq]; try rfl)
theorem leaves1_0 (c : Dev nD) (t : Fin cfg1.N) :
    (dat1 V c).leavesExact 0 t = owns (c : Thread nD τ) (ms1_0 t) fullShare (blk1 V c 0 t) := by
  unfold Dat.leavesExact; rw [live1_in 0 (by decide) t, after1_0]
theorem before1_1 (c : Dev nD) (t : Fin cfg1.N) (d) : (dat1 V c).before 1 t d = blk1 V c 1 t :=
  ((dat1 V c).before_in_eq_fetched 1 rfl (fun _ => rfl) (fun _ _ _ => rfl) (fun t => by rw [after1_1]; unfold Dat.blockOf blk1; rw [A1_eq]; try rfl) t d).trans
    (by unfold Dat.fetched Dat.blockOf blk1; rw [A1_eq]; try rfl)
theorem leaves1_1 (c : Dev nD) (t : Fin cfg1.N) :
    (dat1 V c).leavesExact 1 t = owns (c : Thread nD τ) (ms1_1 t) fullShare (blk1 V c 1 t) := by
  unfold Dat.leavesExact; rw [live1_in 1 (by decide) t, after1_1]
theorem before1_2 (c : Dev nD) (t : Fin cfg1.N) (d) : (dat1 V c).before 2 t d = blk1 V c 2 t :=
  ((dat1 V c).before_in_eq_fetched 2 rfl (fun _ => rfl) (fun _ _ _ => rfl) (fun t => by rw [after1_2]; unfold Dat.blockOf blk1; rw [A1_eq]; try rfl) t d).trans
    (by unfold Dat.fetched Dat.blockOf blk1; rw [A1_eq]; try rfl)
theorem leaves1_2 (c : Dev nD) (t : Fin cfg1.N) :
    (dat1 V c).leavesExact 2 t = owns (c : Thread nD τ) (ms1_2 t) fullShare (blk1 V c 2 t) := by
  unfold Dat.leavesExact; rw [live1_in 2 (by decide) t, after1_2]
theorem before1_3 (c : Dev nD) (t : Fin cfg1.N) (d) : (dat1 V c).before 3 t d = blk1 V c 3 t :=
  ((dat1 V c).before_in_eq_fetched 3 rfl (fun _ => rfl) (fun _ _ _ => rfl) (fun t => by rw [after1_3]; unfold Dat.blockOf blk1; rw [A1_eq]; try rfl) t d).trans
    (by unfold Dat.fetched Dat.blockOf blk1; rw [A1_eq]; try rfl)
theorem leaves1_3 (c : Dev nD) (t : Fin cfg1.N) :
    (dat1 V c).leavesExact 3 t = owns (c : Thread nD τ) (ms1_3 t) fullShare (blk1 V c 3 t) := by
  unfold Dat.leavesExact; rw [live1_in 3 (by decide) t, after1_3]
theorem before1_4 (c : Dev nD) (t : Fin cfg1.N) (d) : (dat1 V c).before 4 t d = blk1 V c 4 t :=
  ((dat1 V c).before_in_eq_fetched 4 rfl (fun _ => rfl) (fun _ _ _ => rfl) (fun t => by rw [after1_4]; unfold Dat.blockOf blk1; rw [A1_eq]; try rfl) t d).trans
    (by unfold Dat.fetched Dat.blockOf blk1; rw [A1_eq]; try rfl)
theorem leaves1_4 (c : Dev nD) (t : Fin cfg1.N) :
    (dat1 V c).leavesExact 4 t = owns (c : Thread nD τ) (ms1_4 t) fullShare (blk1 V c 4 t) := by
  unfold Dat.leavesExact; rw [live1_in 4 (by decide) t, after1_4]
theorem before1_5 (c : Dev nD) (t : Fin cfg1.N) (d) : (dat1 V c).before 5 t d = blk1 V c 5 t :=
  ((dat1 V c).before_in_eq_fetched 5 rfl (fun _ => rfl) (fun _ _ _ => rfl) (fun t => by rw [after1_5]; unfold Dat.blockOf blk1; rw [A1_eq]; try rfl) t d).trans
    (by unfold Dat.fetched Dat.blockOf blk1; rw [A1_eq]; try rfl)
theorem leaves1_5 (c : Dev nD) (t : Fin cfg1.N) :
    (dat1 V c).leavesExact 5 t = owns (c : Thread nD τ) (ms1_5 t) fullShare (blk1 V c 5 t) := by
  unfold Dat.leavesExact; rw [live1_in 5 (by decide) t, after1_5]
theorem before1_6 (c : Dev nD) (t : Fin cfg1.N) (d) : (dat1 V c).before 6 t d = blk1 V c 6 t :=
  ((dat1 V c).before_in_eq_fetched 6 rfl (fun _ => rfl) (fun _ _ _ => rfl) (fun t => by rw [after1_6]; unfold Dat.blockOf blk1; rw [A1_eq]; try rfl) t d).trans
    (by unfold Dat.fetched Dat.blockOf blk1; rw [A1_eq]; try rfl)
theorem leaves1_6 (c : Dev nD) (t : Fin cfg1.N) :
    (dat1 V c).leavesExact 6 t = owns (c : Thread nD τ) (ms1_6 t) fullShare (blk1 V c 6 t) := by
  unfold Dat.leavesExact; rw [live1_in 6 (by decide) t, after1_6]

end Cert.KernelIdeal.Hand

end
-- ==== Proof.Loss.Body.lean ====
/-
  The loss kernel's body obligation: at every point of the grid the body, called on the windows' current
  staging buffers holding what the proof data says they hold before the point, runs to the end and leaves them
  holding what the proof data says they hold after it, the running column passing through the invariant.
  The three kinds of point (first, middle, last column block of a row block) are told apart by the point's number
  modulo 16, and each is closed by that kind's run of the body.
-/
import proofs.«155278_j51788715655787_1_alg».proof.Proof.Loss.Data

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t)

theorem outAt1_last (c : Dev nD) (t : Fin cfg1.N) (h0 : ¬t.val % 16 = 0) (h1 : t.val % 16 = 15) :
    outAt1 V c t = lastOut1 V c t h0 h1 (accAt1 V c (t.val - 1) (Nat.lt_of_le_of_lt (Nat.sub_le _ _) t.isLt)) := by
  unfold outAt1; rw [dif_pos h1]

set_option maxHeartbeats 8000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).owesAt () t.succ = (dat1 V c).owesAt () t.castSucc from rfl]
  rw [show (dat1 V c).Φ t.succ = PhiS1 V c (t.val + 1) t.isLt from rfl, PhiS1_succ]
  rw [leaves1_0, leaves1_1, leaves1_2, leaves1_3, leaves1_4, leaves1_5, leaves1_6]
  have hN : t.val < 128 := lt_of_lt_of_eq t.isLt (show cfg1.N = 128 from N_1)
  by_cases h0 : t.val % 16 = 0
  · have h1 : ¬t.val % 16 = 15 := by omega
    rw [Dat.leavesExact_idle (dat1 V c) 7 t (idle1_out t (not_emits1_of t h1)) (noflush1_out t (not_emits1_of t h1))]
    rw [accAt1_first V c t h0]
    unfold firstAcc1
    by_cases hz : t.val = 0
    · rw [PhiS1_castSucc V c t, PhiS1_zero V c _ _ hz, PhiA1_eq]
      iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runFirst1 c (grid1.coords t) _ _ _ _ _ _ _ _ _ _ _ _ _ _ _ _ _ _ ((resets1_iff t).mpr h0) (not_emits1_of_first t h0) (blk1 V c 0 t) (blk1 V c 1 t) (blk1 V c 2 t) (blk1 V c 3 t) (blk1 V c 4 t) (blk1 V c 5 t) (blk1 V c 6 t)).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS]; · iexact HS
      iintro ⟨H0, H1, H2, H3, H4, H5, H6, H7, ⟨%es, HS⟩⟩
      isplitl [HS HR Hg]
      · isplitl [HS HR]
        · isplitl [HS]
          · unfold owns; iexists _; isplitr
            swap; · iexact HS
            ipureintro; exact View.read_writes_of_cover _ _ _ _ _ (cover_firstAcc1 V c t h0)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7
    · rw [PhiS1_castSucc V c t, PhiS1_pos V c _ _ hz]
      iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runFirst1 c (grid1.coords t) _ _ _ _ _ _ _ _ _ _ _ _ _ _ _ _ _ _ ((resets1_iff t).mpr h0) (not_emits1_of_first t h0) (blk1 V c 0 t) (blk1 V c 1 t) (blk1 V c 2 t) (blk1 V c 3 t) (blk1 V c 4 t) (blk1 V c 5 t) (blk1 V c 6 t)).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS]; · iexists _; iexact HS
      iintro ⟨H0, H1, H2, H3, H4, H5, H6, H7, ⟨%es, HS⟩⟩
      isplitl [HS HR Hg]
      · isplitl [HS HR]
        · isplitl [HS]
          · unfold owns; iexists _; isplitr
            swap; · iexact HS
            ipureintro; exact View.read_writes_of_cover _ _ _ _ _ (cover_firstAcc1 V c t h0)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7
  · have hz : t.val ≠ 0 := fun e => h0 (by rw [e])
    by_cases h1 : t.val % 16 = 15
    · rw [show (dat1 V c).leavesExact 7 t = owns (c : Thread nD τ) (ms1_7 t) fullShare (outAt1 V c t) from by
        unfold Dat.leavesExact; rw [live1_out t ((emits1_iff t).mpr h1), after1_7]]
      rw [outAt1_last V c t h0 h1, accAt1_last V c t h0 h1]
      unfold lastOut1 lastAcc1
      rw [PhiS1_castSucc V c t, PhiS1_pos V c _ _ hz]
      iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runLast1 c (grid1.coords t) _ _ _ _ _ _ _ _ _ _ _ _ _ _ _ _ _ _ (not_resets1_of t h0) ((emits1_iff t).mpr h1) (blk1 V c 0 t) (blk1 V c 1 t) (blk1 V c 2 t) (blk1 V c 3 t) (blk1 V c 4 t) (blk1 V c 5 t) (blk1 V c 6 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS]; · iexact HS
      iintro ⟨H0, H1, H2, H3, H4, H5, H6, ⟨%eo, H7⟩, ⟨%es, HS⟩⟩
      isplitl [HS HR Hg]
      · isplitl [HS HR]
        · isplitl [HS]
          · unfold owns; iexists _; isplitr
            swap; · iexact HS
            ipureintro; exact View.read_writes_of_cover _ _ _ _ _ (cover_lastAcc1 V c t h0 h1 _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      unfold owns; iexists _; isplitr
      swap; · iexact H7
      ipureintro; exact View.read_writes_of_cover _ _ _ _ _ (cover_lastOut1 V c t h0 h1 _)
    · rw [Dat.leavesExact_idle (dat1 V c) 7 t (idle1_out t (not_emits1_of t h1)) (noflush1_out t (not_emits1_of t h1))]
      rw [accAt1_mid V c t h0 h1]
      unfold midAcc1
      rw [PhiS1_castSucc V c t, PhiS1_pos V c _ _ hz]
      iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runMid1 c (grid1.coords t) _ _ _ _ _ _ _ _ _ _ _ _ _ _ _ _ _ _ (not_resets1_of t h0) (not_emits1_of t h1) (blk1 V c 0 t) (blk1 V c 1 t) (blk1 V c 2 t) (blk1 V c 3 t) (blk1 V c 4 t) (blk1 V c 5 t) (blk1 V c 6 t) _).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS]; · iexact HS
      iintro ⟨H0, H1, H2, H3, H4, H5, H6, H7, ⟨%es, HS⟩⟩
      isplitl [HS HR Hg]
      · isplitl [HS HR]
        · isplitl [HS]
          · unfold owns; iexists _; isplitr
            swap; · iexact HS
            ipureintro; exact View.read_writes_of_cover _ _ _ _ _ (cover_midAcc1 V c t h0 h1 _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the region hands the body before the first point is the invariant there. -/
theorem hin1 (c : Dev nD) : (Pipeline.ΦA spec1 c : sProp 𝕄) ⊢ (dat1 V c).Φ 0 := by
  rw [show (dat1 V c).Φ 0 = PhiS1 V c 0 (Nat.zero_le _) from rfl, PhiS1_zero V c 0 _ rfl]

/-- After the last point the invariant gives the region's own back: the running column's contents are forgotten. -/
theorem hout1 (c : Dev nD) : (dat1 V c).Φ (Fin.last cfg1.N) ⊢ (Pipeline.ΦA spec1 c : sProp 𝕄) := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 128 := N_1; omega), PhiA1_eq]
  iintro ⟨⟨HS, HR⟩, Hg⟩
  isplitl [HS HR]
  · isplitl [HS]
    · iexists _; iexact HS
    iexact HR
  iexact Hg

end Cert.KernelIdeal.Hand

end
-- ==== Proof.Loss.Arrays.lean ====
/-
  The loss kernel's arrays at its region's ends.

  The region is entered with every unscoped buffer of the core held whole. The kernel's windows read 6 distinct
  buffers; the normalized embeddings and the labels are each read through two windows (a row block and a column
  block), so each of those two buffers is dealt to its two windows in halves, and the halves are joined again when
  the region is left. Only the result buffer changes: at the exit it holds what the write-backs left.
-/
import proofs.«155278_j51788715655787_1_alg».proof.Proof.Loss.Body

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Each window's array is a whole buffer, held at the window's share. -/
theorem arr1_w0 (c : Dev nD) (X : Buf (Elt F) ((cfg1.win 0).arr.view.loc (c.tc : Thread nD τ))) :
    (((cfg1.win 0).arr.view.loc (c.tc : Thread nD τ)) ↦[(cfg1.win 0).arr.view.set]{(dat1 V c).share 0} X : sProp 𝕄)
      = (((c.tc : Thread nD τ).loc main_v12) ↦{fullShare.left} X) := by
  rw [(arr_whole1 0).set_eq_univ]; rfl
theorem arr1_w1 (c : Dev nD) (X : Buf (Elt F) ((cfg1.win 1).arr.view.loc (c.tc : Thread nD τ))) :
    (((cfg1.win 1).arr.view.loc (c.tc : Thread nD τ)) ↦[(cfg1.win 1).arr.view.set]{(dat1 V c).share 1} X : sProp 𝕄)
      = (((c.tc : Thread nD τ).loc main_v12) ↦{fullShare.right} X) := by
  rw [(arr_whole1 1).set_eq_univ]; rfl
theorem arr1_w2 (c : Dev nD) (X : Buf (Elt F) ((cfg1.win 2).arr.view.loc (c.tc : Thread nD τ))) :
    (((cfg1.win 2).arr.view.loc (c.tc : Thread nD τ)) ↦[(cfg1.win 2).arr.view.set]{(dat1 V c).share 2} X : sProp 𝕄)
      = (((c.tc : Thread nD τ).loc main_v13) ↦{fullShare.left} X) := by
  rw [(arr_whole1 2).set_eq_univ]; rfl
theorem arr1_w3 (c : Dev nD) (X : Buf (Elt F) ((cfg1.win 3).arr.view.loc (c.tc : Thread nD τ))) :
    (((cfg1.win 3).arr.view.loc (c.tc : Thread nD τ)) ↦[(cfg1.win 3).arr.view.set]{(dat1 V c).share 3} X : sProp 𝕄)
      = (((c.tc : Thread nD τ).loc main_v13) ↦{fullShare.right} X) := by
  rw [(arr_whole1 3).set_eq_univ]; rfl
theorem arr1_w4 (c : Dev nD) (X : Buf (Elt F) ((cfg1.win 4).arr.view.loc (c.tc : Thread nD τ))) :
    (((cfg1.win 4).arr.view.loc (c.tc : Thread nD τ)) ↦[(cfg1.win 4).arr.view.set]{(dat1 V c).share 4} X : sProp 𝕄)
      = (((c.tc : Thread nD τ).loc main_v10) ↦{fullShare} X) := by
  rw [(arr_whole1 4).set_eq_univ]; rfl
theorem arr1_w5 (c : Dev nD) (X : Buf (Elt F) ((cfg1.win 5).arr.view.loc (c.tc : Thread nD τ))) :
    (((cfg1.win 5).arr.view.loc (c.tc : Thread nD τ)) ↦[(cfg1.win 5).arr.view.set]{(dat1 V c).share 5} X : sProp 𝕄)
      = (((c.tc : Thread nD τ).loc main_v11) ↦{fullShare} X) := by
  rw [(arr_whole1 5).set_eq_univ]; rfl
theorem arr1_w6 (c : Dev nD) (X : Buf (Elt F) ((cfg1.win 6).arr.view.loc (c.tc : Thread nD τ))) :
    (((cfg1.win 6).arr.view.loc (c.tc : Thread nD τ)) ↦[(cfg1.win 6).arr.view.set]{(dat1 V c).share 6} X : sProp 𝕄)
      = (((c.tc : Thread nD τ).loc main_v14) ↦{fullShare} X) := by
  rw [(arr_whole1 6).set_eq_univ]; rfl
theorem arr1_w7 (c : Dev nD) (X : Buf (Elt F) ((cfg1.win 7).arr.view.loc (c.tc : Thread nD τ))) :
    (((cfg1.win 7).arr.view.loc (c.tc : Thread nD τ)) ↦[(cfg1.win 7).arr.view.set]{(dat1 V c).share 7} X : sProp 𝕄)
      = (((c.tc : Thread nD τ).loc main_v15) ↦{fullShare} X) := by
  rw [(arr_whole1 7).set_eq_univ]; rfl

/-- The windows' arrays, one by one, each at its share. -/
theorem arrays1_eq (c : Dev nD) (F : (w : Fin cfg1.W) → Buf (Elt F) ((cfg1.win w).arr.view.loc (c.tc : Thread nD τ))) :
    ((dat1 V c).arrays F : sProp 𝕄) = iprop((((c.tc : Thread nD τ).loc main_v12) ↦{fullShare.left} F 0)
      ∗ (((c.tc : Thread nD τ).loc main_v12) ↦{fullShare.right} F 1)
      ∗ (((c.tc : Thread nD τ).loc main_v13) ↦{fullShare.left} F 2)
      ∗ (((c.tc : Thread nD τ).loc main_v13) ↦{fullShare.right} F 3)
      ∗ (((c.tc : Thread nD τ).loc main_v10) ↦{fullShare} F 4)
      ∗ (((c.tc : Thread nD τ).loc main_v11) ↦{fullShare} F 5)
      ∗ (((c.tc : Thread nD τ).loc main_v14) ↦{fullShare} F 6)
      ∗ (((c.tc : Thread nD τ).loc main_v15) ↦{fullShare} F 7)) := by
  unfold Dat.arrays; rw [bigSep_W1]
  exact congrArg₂ BI.sep (arr1_w0 V c _) (congrArg₂ BI.sep (arr1_w1 V c _) (congrArg₂ BI.sep (arr1_w2 V c _) (congrArg₂ BI.sep (arr1_w3 V c _) (congrArg₂ BI.sep (arr1_w4 V c _) (congrArg₂ BI.sep (arr1_w5 V c _) (congrArg₂ BI.sep (arr1_w6 V c _) (arr1_w7 V c _)))))))

/-- The distinct buffers behind the windows, one by one, each whole. -/
theorem arrBufs1_eq (c : Dev nD) (W : (b : Ref sig .tc) → Buf (Elt F) ((c.tc : Thread nD τ).loc b)) :
    (Pipeline.arrBufs (Ix := Unit) (Name := ℕ) (U := UR sig nD τ) (Lvl := ℕ) spec1 c W : sProp 𝕄) = iprop((((c.tc : Thread nD τ).loc main_v12) ↦{fullShare} W main_v12)
      ∗ (((c.tc : Thread nD τ).loc main_v13) ↦{fullShare} W main_v13)
      ∗ (((c.tc : Thread nD τ).loc main_v10) ↦{fullShare} W main_v10)
      ∗ (((c.tc : Thread nD τ).loc main_v11) ↦{fullShare} W main_v11)
      ∗ (((c.tc : Thread nD τ).loc main_v14) ↦{fullShare} W main_v14)
      ∗ (((c.tc : Thread nD τ).loc main_v15) ↦{fullShare} W main_v15)) := by
  unfold Pipeline.arrBufs
  rw [show Finset.univ.image (Pipeline.arrRef spec1) = ({main_v12, main_v13, main_v10, main_v11, main_v14, main_v15} : Finset (Ref sig .tc)) from by decide]
  rw [bigSep_insert (by decide), bigSep_insert (by decide), bigSep_insert (by decide), bigSep_insert (by decide), bigSep_insert (by decide), bigSep_singleton]
  rfl

/-- A core's unscoped buffers are the buffers behind the windows and the rest. -/
theorem unscopedBufs1_split (c : Dev nD) (W : (b : Ref sig .tc) → Buf (Elt F) ((c.tc : Thread nD τ).loc b)) :
    (unscopedBufs c W : sProp 𝕄) = iprop(Pipeline.arrBufs (Ix := Unit) (Name := ℕ) (U := UR sig nD τ) (Lvl := ℕ) spec1 c W
      ∗ Pipeline.unscopedRest (Ix := Unit) (Name := ℕ) (U := UR sig nD τ) (Lvl := ℕ) spec1 c W) := by
  unfold unscopedBufs Pipeline.unscopedRest Pipeline.arrBufs
  exact bigSep_sdiff_split (by decide)

/-- An input window's array is never written: it holds its entry contents throughout. -/
theorem arrAt1_in0 (c : Dev nD) (n : ℕ) : (dat1 V c).arrAt 0 n = V c main_v12 :=
  ((dat1 V c).arrAt_in 0 rfl n).trans (A1_eq V c 0)
theorem arrAt1_in1 (c : Dev nD) (n : ℕ) : (dat1 V c).arrAt 1 n = V c main_v12 :=
  ((dat1 V c).arrAt_in 1 rfl n).trans (A1_eq V c 1)
theorem arrAt1_in2 (c : Dev nD) (n : ℕ) : (dat1 V c).arrAt 2 n = V c main_v13 :=
  ((dat1 V c).arrAt_in 2 rfl n).trans (A1_eq V c 2)
theorem arrAt1_in3 (c : Dev nD) (n : ℕ) : (dat1 V c).arrAt 3 n = V c main_v13 :=
  ((dat1 V c).arrAt_in 3 rfl n).trans (A1_eq V c 3)
theorem arrAt1_in4 (c : Dev nD) (n : ℕ) : (dat1 V c).arrAt 4 n = V c main_v10 :=
  ((dat1 V c).arrAt_in 4 rfl n).trans (A1_eq V c 4)
theorem arrAt1_in5 (c : Dev nD) (n : ℕ) : (dat1 V c).arrAt 5 n = V c main_v11 :=
  ((dat1 V c).arrAt_in 5 rfl n).trans (A1_eq V c 5)
theorem arrAt1_in6 (c : Dev nD) (n : ℕ) : (dat1 V c).arrAt 6 n = V c main_v14 :=
  ((dat1 V c).arrAt_in 6 rfl n).trans (A1_eq V c 6)

/-- ENTRY: the buffers behind the windows, whole at the entry contents, dealt to the windows. -/
theorem arrays1_of_bufs (c : Dev nD) :
    (Pipeline.arrBufs (Ix := Unit) (Name := ℕ) (U := UR sig nD τ) (Lvl := ℕ) spec1 c (V c) : sProp 𝕄)
      ⊢ (dat1 V c).arrays ((dat1 V c).arrAt · 0) := by
  rw [arrBufs1_eq, arrays1_eq]
  iintro ⟨H12, H13, H10, H11, H14, H15⟩
  ihave S12 := (pointsTo_share (PosShare.mem_left_op_right fullShare)).1 $$ H12
  icases S12 with ⟨H12l, H12r⟩
  ihave S13 := (pointsTo_share (PosShare.mem_left_op_right fullShare)).1 $$ H13
  icases S13 with ⟨H13l, H13r⟩
  isplitl [H12l]; · iexact H12l
  isplitl [H12r]; · iexact H12r
  isplitl [H13l]; · iexact H13l
  isplitl [H13r]; · iexact H13r
  isplitl [H10]; · iexact H10
  isplitl [H11]; · iexact H11
  isplitl [H14]; · iexact H14
  iexact H15

/-- EXIT: the windows' arrays after the last point joined into the buffers behind them — the inputs' as entered,
    the result's at what the write-backs left. -/
theorem bufs1_of_arrays (c : Dev nD) (W : (b : Ref sig .tc) → Buf (Elt F) ((c.tc : Thread nD τ).loc b))
    (hin : ∀ b, b ≠ main_v15 → W b = V c b) (hout : W main_v15 = (dat1 V c).arrAt 7 cfg1.N) :
    ((dat1 V c).arrays ((dat1 V c).arrAt · cfg1.N) : sProp 𝕄)
      ⊢ Pipeline.arrBufs (Ix := Unit) (Name := ℕ) (U := UR sig nD τ) (Lvl := ℕ) spec1 c W := by
  rw [arrBufs1_eq, arrays1_eq]
  rw [arrAt1_in0, arrAt1_in1, arrAt1_in2, arrAt1_in3, arrAt1_in4, arrAt1_in5, arrAt1_in6, ← hout]
  rw [hin main_v12 (by decide), hin main_v13 (by decide), hin main_v10 (by decide), hin main_v11 (by decide), hin main_v14 (by decide)]
  iintro ⟨A0, A1, A2, A3, A4, A5, A6, A7⟩
  isplitl [A0 A1]
  · iapply (pointsTo_share (PosShare.mem_left_op_right fullShare)).2
    isplitl [A0] <;> iassumption
  isplitl [A2 A3]
  · iapply (pointsTo_share (PosShare.mem_left_op_right fullShare)).2
    isplitl [A2] <;> iassumption
  isplitl [A4]; · iexact A4
  isplitl [A5]; · iexact A5
  isplitl [A6]; · iexact A6
  iexact A7

end Cert.KernelIdeal.Hand

end
-- ==== Proof.Run.lean ====
/-
  The whole program's run: five stretches in order — the host operations that normalize the embeddings and form the
  per-row auxiliaries, the statistics kernel, the loss kernel, and the host operations that reduce the per-row results
  to the scalar loss.

  Between two stretches every unscoped buffer of a core is held whole at a known valuation: the launch memory, then
  each host stretch applied, then each kernel's result buffer replaced by what that kernel's write-backs leave. The
  final state holds every unscoped buffer at the last valuation; the frame claim and the value of the results are
  read off it.
-/
import proofs.«155278_j51788715655787_1_alg».proof.Proof.Stats.Arrays
import proofs.«155278_j51788715655787_1_alg».proof.Proof.Loss.Arrays
import proofs.«155278_j51788715655787_1_alg».proof.Proof.Gen.KernelIdeal.Regions
import Idealize.ShloMosaic.Lib.Pipeline.RegionsLoop
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between the stretches -/

/-- Core `c`'s buffers at launch, -/
abbrev W0 : Dev nD → Valuation τ sig (Elt F) := fun c b => m (c, b)
/-- after the row norms, -/
abbrev W1 : Dev nD → Valuation τ sig (Elt F) := fun c => StableHlo.after hostOps0 (W0 m c)
/-- after the normalization and the auxiliaries (the statistics kernel's entry), -/
abbrev W2 : Dev nD → Valuation τ sig (Elt F) := fun c => StableHlo.after hostOps0_1 (W1 m c)
abbrev V2 : (c : Dev nD) → (b : Ref sig .tc) → Buf (Elt F) ((c : Thread nD τ).loc b) := fun c b => W2 m c b
/-- after the statistics kernel: its result buffer at what its write-backs leave (the loss kernel's entry), -/
def W3 (c : Dev nD) : Valuation τ sig (Elt F) :=
  Function.update (W2 m c) main_v14 ((dat0 (V2 m) c).arrAt 6 cfg0.N)
abbrev V3 : (c : Dev nD) → (b : Ref sig .tc) → Buf (Elt F) ((c : Thread nD τ).loc b) := fun c b => W3 m c b
/-- after the loss kernel: its result buffer at what its write-backs leave, -/
def W4 (c : Dev nD) : Valuation τ sig (Elt F) :=
  Function.update (W3 m c) main_v15 ((dat1 (V3 m) c).arrAt 7 cfg1.N)
abbrev V4 : (c : Dev nD) → (b : Ref sig .tc) → Buf (Elt F) ((c : Thread nD τ).loc b) := fun c b => W4 m c b
/-- and after the final reductions. -/
abbrev W5 : Dev nD → Valuation τ sig (Elt F) := fun c => StableHlo.after hostOps2 (W4 m c)

theorem W3_of_ne (c : Dev nD) (b : Ref sig .tc) (h : b ≠ main_v14) : W3 m c b = W2 m c b := by
  unfold W3
  exact Function.update_of_ne (StableHlo.devRef_ne_of_ne h : (Proc.devRef .tc b : DevRef τ sig) ≠ Proc.devRef .tc main_v14) _ _
theorem W3_self (c : Dev nD) : W3 m c main_v14 = (dat0 (V2 m) c).arrAt 6 cfg0.N := by
  unfold W3; exact Function.update_self _ _ _
theorem W4_of_ne (c : Dev nD) (b : Ref sig .tc) (h : b ≠ main_v15) : W4 m c b = W3 m c b := by
  unfold W4
  exact Function.update_of_ne (StableHlo.devRef_ne_of_ne h : (Proc.devRef .tc b : DevRef τ sig) ≠ Proc.devRef .tc main_v15) _ _
theorem W4_self (c : Dev nD) : W4 m c main_v15 = (dat1 (V3 m) c).arrAt 7 cfg1.N := by
  unfold W4; exact Function.update_self _ _ _

/-! ## The kernels' regions entered and left -/

/-- The unscoped buffers no window reads are held alike at two valuations that agree off the windows' buffers. -/
theorem unscopedRest_congr {gr Wn : Nat} (win : Fin Wn → Pipeline.WinSpec sig gr) (c : Dev nD)
    (A B : (b : Ref sig .tc) → Buf (Elt F) ((c.tc : Thread nD τ).loc b))
    (h : ∀ b, b ∉ Finset.univ.image (Pipeline.arrRef win) → B b = A b) :
    (Pipeline.unscopedRest (Ix := Unit) (Name := ℕ) (U := UR sig nD τ) (Lvl := ℕ) win c A : sProp 𝕄)
      = Pipeline.unscopedRest (Ix := Unit) (Name := ℕ) (U := UR sig nD τ) (Lvl := ℕ) win c B := by
  unfold Pipeline.unscopedRest
  exact bigSep_congr fun b hb => by rw [h b (Finset.mem_sdiff.mp hb).2]

theorem enter0 (c : Dev nD) :
    (StableHlo.held (c : Thread nD τ) (Pipeline.ucRefs τ sig) (W2 m c) : sProp 𝕄)
      ⊢ iprop((dat0 (V2 m) c).arrays ((dat0 (V2 m) c).arrAt · 0)
          ∗ Pipeline.unscopedRest (Ix := Unit) (Name := ℕ) (U := UR sig nD τ) (Lvl := ℕ) spec0 c (V2 m c)) := by
  rw [← Pipeline.unscopedBufs_held c (W2 m c), unscopedBufs0_split]
  exact sep_mono (arrays0_of_bufs (V2 m) c) .rfl

theorem leave0 (c : Dev nD) :
    (iprop((dat0 (V2 m) c).arrays ((dat0 (V2 m) c).arrAt · cfg0.N)
        ∗ Pipeline.unscopedRest (Ix := Unit) (Name := ℕ) (U := UR sig nD τ) (Lvl := ℕ) spec0 c (V2 m c)) : sProp 𝕄)
      ⊢ StableHlo.held (c : Thread nD τ) (Pipeline.ucRefs τ sig) (W3 m c) := by
  rw [← Pipeline.unscopedBufs_held c (W3 m c), unscopedBufs0_split]
  refine sep_mono (bufs0_of_arrays (V2 m) c _ (fun b hb => W3_of_ne m c b hb) (W3_self m c)) (Entails.of_eq ?_)
  exact unscopedRest_congr spec0 c _ _ fun b hb => W3_of_ne m c b (fun e => hb (by rw [e]; decide))

theorem enter1 (c : Dev nD) :
    (StableHlo.held (c : Thread nD τ) (Pipeline.ucRefs τ sig) (W3 m c) : sProp 𝕄)
      ⊢ iprop((dat1 (V3 m) c).arrays ((dat1 (V3 m) c).arrAt · 0)
          ∗ Pipeline.unscopedRest (Ix := Unit) (Name := ℕ) (U := UR sig nD τ) (Lvl := ℕ) spec1 c (V3 m c)) := by
  rw [← Pipeline.unscopedBufs_held c (W3 m c), unscopedBufs1_split]
  exact sep_mono (arrays1_of_bufs (V3 m) c) .rfl

theorem leave1 (c : Dev nD) :
    (iprop((dat1 (V3 m) c).arrays ((dat1 (V3 m) c).arrAt · cfg1.N)
        ∗ Pipeline.unscopedRest (Ix := Unit) (Name := ℕ) (U := UR sig nD τ) (Lvl := ℕ) spec1 c (V3 m c)) : sProp 𝕄)
      ⊢ StableHlo.held (c : Thread nD τ) (Pipeline.ucRefs τ sig) (W4 m c) := by
  rw [← Pipeline.unscopedBufs_held c (W4 m c), unscopedBufs1_split]
  refine sep_mono (bufs1_of_arrays (V3 m) c _ (fun b hb => W4_of_ne m c b hb) (W4_self m c)) (Entails.of_eq ?_)
  exact unscopedRest_congr spec1 c _ _ fun b hb => W4_of_ne m c b (fun e => hb (by rw [e]; decide))

/-! ## The proof data family and the thread state -/

abbrev adm : (p : Fin 2) → (pcfgs (F := F) p).Adm := fun p => (cfgs p).toPCfg_adm
/-- Each kernel's proof data at its region's entry contents. -/
def pdats : (p : Fin 2) → (c : Dev nD) → Dat τ (Elt F) Unit ℕ (UR sig nD τ) ℕ (Pipeline.pin (pcfgs (F := F)) adm p) c
  | ⟨0, _⟩ => fun c => dat0 (V2 m) c
  | ⟨1, _⟩ => fun c => dat1 (V3 m) c
abbrev 𝒱₀ : Variants := Variants.none
abbrev L : GSem nD τ sig → Finset Unit := fun _ => ∅
abbrev lv : GSem nD τ sig → Unit → ℕ := fun _ _ => 0
/-- What rides beside the buffers through every stretch: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

set_option backward.isDefEq.respectTransparency.types false in
/-- The statistics kernel's region: entered from every unscoped buffer at `W2`, left at `W3`. -/
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation0 (V2 m) c).loose
  hwaits := Pipeline.hwaits_of_owed_zero _ _ _ _ L lv 0 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec0 c (V2 m c)
  hentry c := by
    rw [Pipeline.ownSems0_none]
    iintro ⟨⟨Hub, Hp, HO⟩, -, -⟩
    ihave H := (enter0 m c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (hout0 (V2 m) c).trans ?_
    unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest]
    · iapply (leave0 m c)
      isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- The loss kernel's region: entered from every unscoped buffer at `W3`, left at `W4`. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    iintro ⟨⟨Hub, Hp, HO⟩, -, -⟩
    ihave H := (enter1 m c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (hout1 (V3 m) c).trans ?_
    unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest]
    · iapply (leave1 m c)
      isplitl [Ha]; · iexact Ha
      iexact Hrest
    isplitl [HY]; · iexact HY
    unfold Pipeline.Dat.owesAt Pipeline.owesWithin
    icases HO with ⟨%W, -, HO⟩; iexists W; iexact HO

/-- The program as its five stretches. -/
abbrev segs : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .region (reg0 m),
    .region (reg1 m),
    .host (hseg hostOps2 hostOps2_sub hostOps2_fresh (W4 m)) ]

theorem main_run (c : Dev nD) : main (F := F) c = Pipeline.Seg.run (segs m) := (main_chain c).trans (by chain_rfl)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN: from any memory with zero counters every weakly fair execution of the program terminates, nothing
    faulting, and every final state has every unscoped buffer of every core at the last valuation. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := fun c => StableHlo.held (c : Thread nD τ) (Pipeline.ucRefs τ sig) (W5 m c))
    (hch := ⟨fun _ => .rfl, fun _ => .rfl, fun _ => .rfl, fun _ => .rfl, fun _ => .rfl, fun c =>
      sep_mono .rfl (show R c ⊢ (iprop(∃ W, owes (c : Thread nD τ) (0 : CellTallies nD τ sig Unit) W) : sProp 𝕄) from by
        iintro ⟨-, HO⟩; iexact HO)⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨Hh, HSI⟩
      unfold StableHlo.held
      imodintro
      iapply (pointsTo_read_all (Pipeline.ucRefs τ sig) (fun b => (((c : Thread nD τ)).1, b)) (W5 m c) s')
      isplitl [Hh] <;> iassumption)
    (hQ := fun s h c => h c)

end Cert.KernelIdeal.Hand

end
-- ==== Proof.Frames.lean ====
/-
  The frame claim read off the run: no stretch of the program writes an argument array — the host operations write
  only their own result buffers, and each kernel changes only its result buffer — so both arguments are, in the
  last valuation, what they were at launch.
-/
import proofs.«155278_j51788715655787_1_alg».proof.Proof.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A buffer no stretch writes holds its launch contents in the last valuation. -/
theorem W5_kept (c : Dev nD) (b : Ref sig .tc) (h0 : b ∉ hostOps0_W) (h1 : b ∉ hostOps0_1_W) (h14 : b ≠ main_v14)
    (h15 : b ≠ main_v15) (h2 : b ∉ hostOps2_W) : W5 m c b = m ((c : Thread nD τ).loc b) :=
  (StableHlo.after_of_writes_sub hostOps2 _ hostOps2_writes h2).trans <|
    (W4_of_ne m c b h15).trans <| (W3_of_ne m c b h14).trans <|
      (StableHlo.after_of_writes_sub hostOps0_1 _ hostOps0_1_writes h1).trans <|
        (StableHlo.after_of_writes_sub hostOps0 _ hostOps0_writes h0).trans rfl

/-- THE FRAME: every weakly fair execution terminates without a fault and leaves both argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (W5_kept m c main_arg0 (by decide) (by decide) (by decide) (by decide) (by decide)),
     (h c _ (mem_uc main_arg1 (by decide))).trans (W5_kept m c main_arg1 (by decide) (by decide) (by decide) (by decide) (by decide))⟩)
    (run_main m ρ)

end Cert.KernelIdeal.Hand

end
-- ==== Proof.Bits.Stats.Setup.lean ====
/-
  The statistics kernel (the first of the two kernels) on its 8 × 16 grid of (row block, column block) points:
  where its two branches are taken, and where its result window is live.

  The body resets its three running columns (minimum, count, maximum) when the column block is the first of a
  row block, folds the current column block into them at every point, and copies them into the result block
  when the column block is the last one. A point's number is 16 · (row block) + (column block), so the first
  branch is taken at the points ≡ 0 and the second at the points ≡ 15 modulo 16.
-/
import proofs.«155278_j51788715655787_1_alg».proof.Proof.Gen.Kernel.Launch
import proofs.«155278_j51788715655787_1_alg».proof.Proof.Gen.Kernel.Skeleton
import proofs.«155278_j51788715655787_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The reset branch's condition: the column block is the first. -/
abbrev resets0 (i : grid0.Coords) : Prop :=
  (Scalar.cmpi .ne (Scalar.extui (Scalar.cmpi .eq (BitVec.ofNat 32 (i 1).val) 0#32)) 0#32) = 1#1
/-- The emitting branch's condition: the column block is the last. -/
abbrev emits0 (i : grid0.Coords) : Prop := k0_cond2 i = 1#1

theorem resets0_iff : ∀ t : Fin cfg0.N, resets0 (grid0.coords t) ↔ t.val % 16 = 0 :=
  (by decide +kernel : ∀ t : Fin grid0.N, resets0 (grid0.coords t) ↔ t.val % 16 = 0)
theorem emits0_iff : ∀ t : Fin cfg0.N, emits0 (grid0.coords t) ↔ t.val % 16 = 15 :=
  (by decide +kernel : ∀ t : Fin grid0.N, emits0 (grid0.coords t) ↔ t.val % 16 = 15)

/-- The six input windows are never idle. -/
theorem live0_in : ∀ (w : Fin 7), w ≠ 6 → ∀ t : Fin cfg0.N, cfg0.idle w (grid0.coords t) = false := by decide +kernel
/-- The result window is idle exactly where nothing is emitted, and is not written back there. -/
theorem idle0_out : ∀ t : Fin cfg0.N, ¬emits0 (grid0.coords t) → cfg0.idle 6 (grid0.coords t) = true := by decide +kernel
theorem noflush0_out : ∀ t : Fin cfg0.N, ¬emits0 (grid0.coords t) → (cfg0.win 6).flush t = false := by decide +kernel
theorem live0_out : ∀ t : Fin cfg0.N, emits0 (grid0.coords t) → cfg0.idle 6 (grid0.coords t) = false := by decide +kernel

/-- The running columns' buffer, and the view through which its contents are stated. -/
abbrev acc0 : Memref sig .tc .vmem S1024x3 .f32 := Memref.whole cc0_scratch0
abbrev accV0 : View sig .tc .vmem S1024x3 .f32 := acc0.view
/-- One staging buffer of the result window, through which its contents are stated. -/
abbrev outV0 : View sig .tc .vmem S1024x3 .f32 := (Memref.whole cc0_stg6_0 : Memref sig .tc .vmem S1024x3 .f32).view

end Cert.Kernel.Hand

end
-- ==== Proof.Bits.Stats.RunMid.lean ====
/-
  The statistics kernel's body at a point whose column block is neither the first nor the last of its row block:
  the six input blocks are read and handed back as found, the result block is not touched, and the three running
  columns are each loaded and stored back folded with the current block's column (minimum, sum, maximum).
-/
import proofs.«155278_j51788715655787_1_alg».proof.Proof.Bits.Stats.Setup

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body stores into the running columns at such a point, with the proof that on whole buffers —
    the inputs at their blocks, the result block at anything, the running columns at what the point before left —
    the body runs to the continuation, holding the inputs and the result block as they were and the running
    columns with the pieces written. -/
noncomputable def runMid0 (c : Dev nD) (i : grid0.Coords) (arg2 : Memref sig .tc .vmem S1024x512 .bf16) (harg2 : arg2.IsWhole) (arg3 : Memref sig .tc .vmem S512x512 .bf16) (harg3 : arg3.IsWhole) (arg4 : Memref sig .tc .vmem S1024x80 .bf16) (harg4 : arg4.IsWhole) (arg5 : Memref sig .tc .vmem S512x80 .bf16) (harg5 : arg5.IsWhole) (arg6 : Memref sig .tc .vmem S1024x2 .f32) (harg6 : arg6.IsWhole) (arg7 : Memref sig .tc .vmem S2x512 .f32) (harg7 : arg7.IsWhole) (arg8 : Memref sig .tc .vmem S1024x3 .f32) (harg8 : arg8.IsWhole) (arg9 : Memref sig .tc .vmem S1024x3 .f32) (harg9 : arg9.IsWhole)
    (hr : ¬resets0 i) (he : ¬emits0 i) (x0 : Vec F S1024x512 .bf16) (x1 : Vec F S512x512 .bf16) (x2 : Vec F S1024x80 .bf16) (x3 : Vec F S512x80 .bf16) (x4 : Vec F S1024x2 .f32) (x5 : Vec F S2x512 .f32) (xs : Vec F S1024x3 .f32) :
    { LS : List (View.Piece (Elt F) S1024x3 .f32) //
      ∀ (xo : Vec F S1024x3 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xo ∗ owns (c : Thread nD τ) arg9 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xo ∗ (∃ f, arg9.view.loc (c : Thread nD τ) ↦[arg9.view.set]{fullShare} arg9.view.writes (Elt F) f LS)) -∗ K ⟨⟩))
          ⊢ wp frame (wpE (defs₀ (F := F)) Variants.none c none) E (cc0__stats_kernel i arg2 harg2 arg3 harg3 arg4 harg4 arg5 harg5 arg6 harg6 arg7 harg7 arg8 harg8 arg9 harg9) K } := by
  refine ⟨?_, fun xo E K => ?run⟩
  case run =>
    simp only [cc0__stats_kernel_eq_skeleton]; unfold cc0__stats_kernel_skel
    simp only [k0_part1_eq_skeleton, k0_part2_eq_skeleton]; unfold k0_part1_skel k0_part2_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs, %hfs, HS⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hf6; obtain rfl := harg9.eq_unread hfs
    sl_exec (disch := first | exact hr | exact he)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HS

end Cert.Kernel.Hand

end
-- ==== Proof.Bits.Stats.RunFirst.lean ====
/-
  The statistics kernel's body at the first column block of a row block: the three running columns are first
  overwritten with their neutral starts (the large sentinel for the minimum, zero for the count and for the
  maximum) and then folded with the current block's columns; whatever the buffer held before is not used.
-/
import proofs.«155278_j51788715655787_1_alg».proof.Proof.Bits.Stats.Setup

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces stored into the running columns at such a point, with the proof that the body runs on whole
    buffers — the inputs at their blocks, the result block at anything, the running columns at anything — to
    the continuation, holding the inputs and the result block as they were and the running columns with the
    pieces written. -/
noncomputable def runFirst0 (c : Dev nD) (i : grid0.Coords) (arg2 : Memref sig .tc .vmem S1024x512 .bf16) (harg2 : arg2.IsWhole) (arg3 : Memref sig .tc .vmem S512x512 .bf16) (harg3 : arg3.IsWhole) (arg4 : Memref sig .tc .vmem S1024x80 .bf16) (harg4 : arg4.IsWhole) (arg5 : Memref sig .tc .vmem S512x80 .bf16) (harg5 : arg5.IsWhole) (arg6 : Memref sig .tc .vmem S1024x2 .f32) (harg6 : arg6.IsWhole) (arg7 : Memref sig .tc .vmem S2x512 .f32) (harg7 : arg7.IsWhole) (arg8 : Memref sig .tc .vmem S1024x3 .f32) (harg8 : arg8.IsWhole) (arg9 : Memref sig .tc .vmem S1024x3 .f32) (harg9 : arg9.IsWhole)
    (hr : resets0 i) (he : ¬emits0 i) (x0 : Vec F S1024x512 .bf16) (x1 : Vec F S512x512 .bf16) (x2 : Vec F S1024x80 .bf16) (x3 : Vec F S512x80 .bf16) (x4 : Vec F S1024x2 .f32) (x5 : Vec F S2x512 .f32) :
    { LS : List (View.Piece (Elt F) S1024x3 .f32) //
      ∀ (xo : Vec F S1024x3 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xo ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xo ∗ (∃ f, arg9.view.loc (c : Thread nD τ) ↦[arg9.view.set]{fullShare} arg9.view.writes (Elt F) f LS)) -∗ K ⟨⟩))
          ⊢ wp frame (wpE (defs₀ (F := F)) Variants.none c none) E (cc0__stats_kernel i arg2 harg2 arg3 harg3 arg4 harg4 arg5 harg5 arg6 harg6 arg7 harg7 arg8 harg8 arg9 harg9) K } := by
  refine ⟨?_, fun xo E K => ?run⟩
  case run =>
    simp only [cc0__stats_kernel_eq_skeleton]; unfold cc0__stats_kernel_skel
    simp only [k0_part1_eq_skeleton, k0_part2_eq_skeleton]; unfold k0_part1_skel k0_part2_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds, %fs, -, HS⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hf6
    sl_exec (disch := first | exact hr | exact he)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HS

end Cert.Kernel.Hand

end
-- ==== Proof.Bits.Stats.RunLast.lean ====
/-
  The statistics kernel's body at the last column block of a row block: the three running columns are folded
  with the current block's columns as at every point, and then the whole buffer of running columns is copied
  into the result block, whose previous contents are not used.
-/
import proofs.«155278_j51788715655787_1_alg».proof.Proof.Bits.Stats.Setup

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces stored into the result block and into the running columns at such a point, with the proof that
    the body runs on whole buffers — the inputs at their blocks, the result block at anything, the running
    columns at what the point before left — to the continuation, holding the inputs as they were and the two
    other buffers with their pieces written. -/
noncomputable def runLast0 (c : Dev nD) (i : grid0.Coords) (arg2 : Memref sig .tc .vmem S1024x512 .bf16) (harg2 : arg2.IsWhole) (arg3 : Memref sig .tc .vmem S512x512 .bf16) (harg3 : arg3.IsWhole) (arg4 : Memref sig .tc .vmem S1024x80 .bf16) (harg4 : arg4.IsWhole) (arg5 : Memref sig .tc .vmem S512x80 .bf16) (harg5 : arg5.IsWhole) (arg6 : Memref sig .tc .vmem S1024x2 .f32) (harg6 : arg6.IsWhole) (arg7 : Memref sig .tc .vmem S2x512 .f32) (harg7 : arg7.IsWhole) (arg8 : Memref sig .tc .vmem S1024x3 .f32) (harg8 : arg8.IsWhole) (arg9 : Memref sig .tc .vmem S1024x3 .f32) (harg9 : arg9.IsWhole)
    (hr : ¬resets0 i) (he : emits0 i) (x0 : Vec F S1024x512 .bf16) (x1 : Vec F S512x512 .bf16) (x2 : Vec F S1024x80 .bf16) (x3 : Vec F S512x80 .bf16) (x4 : Vec F S1024x2 .f32) (x5 : Vec F S2x512 .f32) (xs : Vec F S1024x3 .f32) :
    Σ' (LO : List (View.Piece (Elt F) S1024x3 .f32)), { LS : List (View.Piece (Elt F) S1024x3 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f LO) ∗ (∃ f, arg9.view.loc (c : Thread nD τ) ↦[arg9.view.set]{fullShare} arg9.view.writes (Elt F) f LS)) -∗ K ⟨⟩))
          ⊢ wp frame (wpE (defs₀ (F := F)) Variants.none c none) E (cc0__stats_kernel i arg2 harg2 arg3 harg3 arg4 harg4 arg5 harg5 arg6 harg6 arg7 harg7 arg8 harg8 arg9 harg9) K } := by
  refine ⟨?_, ?_, fun E K => ?run⟩
  case run =>
    simp only [cc0__stats_kernel_eq_skeleton]; unfold cc0__stats_kernel_skel
    simp only [k0_part1_eq_skeleton, k0_part2_eq_skeleton]; unfold k0_part1_skel k0_part2_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs, %hfs, HS⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg9.eq_unread hfs
    sl_exec (disch := first | exact hr | exact he)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; iexact H6
    iexists _; iexact HS

end Cert.Kernel.Hand

end
-- ==== Proof.Bits.Stats.Data.lean ====
/-
  The statistics kernel's proof data: what its buffers hold point by point.

  Point `16·r + k` works on row block `r` and column block `k`. The running columns after a point are given by
  recursion on the point: at a first column block they are the reset-and-fold of that block alone, otherwise the
  fold of the block into what the point before left. The result block is named only at a last column block, where
  it receives the running columns as they then stand; elsewhere the window is idle and not written back. The six
  input windows hold their blocks of the arrays as the region finds them (`V`), fetched at the point or kept from
  the point before.
-/
import proofs.«155278_j51788715655787_1_alg».proof.Proof.Bits.Stats.RunMid
import proofs.«155278_j51788715655787_1_alg».proof.Proof.Bits.Stats.RunFirst
import proofs.«155278_j51788715655787_1_alg».proof.Proof.Bits.Stats.RunLast

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Each window's current staging buffer at a point, as the pipeline passes it to the body. -/
abbrev ms0_0 (t : Fin cfg0.N) : Memref sig .tc .vmem S1024x512 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x80 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x80 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x2 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S2x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x3 .f32 := win0_6.stage (cfg0.slots t 6)
abbrev hs0_6 (t : Fin cfg0.N) : (ms0_6 t).IsWhole := hstage0_6 ((cfg0.slots t 6).cast nbuf0_6)

theorem not_emits0_of_first (t : Fin cfg0.N) (h : t.val % 16 = 0) : ¬emits0 (grid0.coords t) :=
  fun e => by have := (emits0_iff t).mp e; omega
theorem not_resets0_of (t : Fin cfg0.N) (h : ¬t.val % 16 = 0) : ¬resets0 (grid0.coords t) :=
  fun e => h ((resets0_iff t).mp e)
theorem not_emits0_of (t : Fin cfg0.N) (h : ¬t.val % 16 = 15) : ¬emits0 (grid0.coords t) :=
  fun e => h ((emits0_iff t).mp e)

/-- The running columns after a first column block. -/
def firstAcc0 (c : Dev nD) (t : Fin cfg0.N) (h0 : t.val % 16 = 0) : Vec F S1024x3 .f32 :=
  accV0.read (Elt F) (accV0.writes (Elt F) accV0.junk
    (runFirst0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) acc0 (Memref.isWhole_whole _) ((resets0_iff t).mpr h0) (not_emits0_of_first t h0) (blk0 V c 0 t) (blk0 V c 1 t) (blk0 V c 2 t) (blk0 V c 3 t) (blk0 V c 4 t) (blk0 V c 5 t)).1)
/-- The running columns after a middle column block, from what the point before left. -/
def midAcc0 (c : Dev nD) (t : Fin cfg0.N) (h0 : ¬t.val % 16 = 0) (h1 : ¬t.val % 16 = 15) (xs : Vec F S1024x3 .f32) : Vec F S1024x3 .f32 :=
  accV0.read (Elt F) (accV0.writes (Elt F) accV0.junk
    (runMid0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) acc0 (Memref.isWhole_whole _) (not_resets0_of t h0) (not_emits0_of t h1) (blk0 V c 0 t) (blk0 V c 1 t) (blk0 V c 2 t) (blk0 V c 3 t) (blk0 V c 4 t) (blk0 V c 5 t) xs).1)
/-- The running columns after a last column block, from what the point before left. -/
def lastAcc0 (c : Dev nD) (t : Fin cfg0.N) (h0 : ¬t.val % 16 = 0) (h1 : t.val % 16 = 15) (xs : Vec F S1024x3 .f32) : Vec F S1024x3 .f32 :=
  accV0.read (Elt F) (accV0.writes (Elt F) accV0.junk
    (runLast0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) acc0 (Memref.isWhole_whole _) (not_resets0_of t h0) ((emits0_iff t).mpr h1) (blk0 V c 0 t) (blk0 V c 1 t) (blk0 V c 2 t) (blk0 V c 3 t) (blk0 V c 4 t) (blk0 V c 5 t) xs).2.1)
/-- The result block after a last column block. -/
def lastOut0 (c : Dev nD) (t : Fin cfg0.N) (h0 : ¬t.val % 16 = 0) (h1 : t.val % 16 = 15) (xs : Vec F S1024x3 .f32) : Vec F S1024x3 .f32 :=
  outV0.read (Elt F) (outV0.writes (Elt F) outV0.junk
    (runLast0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) acc0 (Memref.isWhole_whole _) (not_resets0_of t h0) ((emits0_iff t).mpr h1) (blk0 V c 0 t) (blk0 V c 1 t) (blk0 V c 2 t) (blk0 V c 3 t) (blk0 V c 4 t) (blk0 V c 5 t) xs).1)

/-- The pieces of each case cover the buffer they are stored into. -/
theorem cover_firstAcc0 (c : Dev nD) (t : Fin cfg0.N) (h0 : t.val % 16 = 0) (y : S1024x3.Idx) :
    ∃ pc ∈ (runFirst0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) acc0 (Memref.isWhole_whole _) ((resets0_iff t).mpr h0) (not_emits0_of_first t h0) (blk0 V c 0 t) (blk0 V c 1 t) (blk0 V c 2 t) (blk0 V c 3 t) (blk0 V c 4 t) (blk0 V c 5 t)).1, y ∈ pc.1.set :=
  View.cover_of_tiledL (s := S1024x3) _ S1024x1.size (by sl_kernel_rfl) y
theorem cover_midAcc0 (c : Dev nD) (t : Fin cfg0.N) (h0 : ¬t.val % 16 = 0) (h1 : ¬t.val % 16 = 15) (xs : Vec F S1024x3 .f32) (y : S1024x3.Idx) :
    ∃ pc ∈ (runMid0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) acc0 (Memref.isWhole_whole _) (not_resets0_of t h0) (not_emits0_of t h1) (blk0 V c 0 t) (blk0 V c 1 t) (blk0 V c 2 t) (blk0 V c 3 t) (blk0 V c 4 t) (blk0 V c 5 t) xs).1, y ∈ pc.1.set :=
  View.cover_of_tiledL (s := S1024x3) _ S1024x1.size (by sl_kernel_rfl) y
theorem cover_lastAcc0 (c : Dev nD) (t : Fin cfg0.N) (h0 : ¬t.val % 16 = 0) (h1 : t.val % 16 = 15) (xs : Vec F S1024x3 .f32) (y : S1024x3.Idx) :
    ∃ pc ∈ (runLast0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) acc0 (Memref.isWhole_whole _) (not_resets0_of t h0) ((emits0_iff t).mpr h1) (blk0 V c 0 t) (blk0 V c 1 t) (blk0 V c 2 t) (blk0 V c 3 t) (blk0 V c 4 t) (blk0 V c 5 t) xs).2.1, y ∈ pc.1.set :=
  View.cover_of_tiledL (s := S1024x3) _ S1024x1.size (by sl_kernel_rfl) y
theorem cover_lastOut0 (c : Dev nD) (t : Fin cfg0.N) (h0 : ¬t.val % 16 = 0) (h1 : t.val % 16 = 15) (xs : Vec F S1024x3 .f32) (y : S1024x3.Idx) :
    ∃ pc ∈ (runLast0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) acc0 (Memref.isWhole_whole _) (not_resets0_of t h0) ((emits0_iff t).mpr h1) (blk0 V c 0 t) (blk0 V c 1 t) (blk0 V c 2 t) (blk0 V c 3 t) (blk0 V c 4 t) (blk0 V c 5 t) xs).1, y ∈ pc.1.set :=
  View.cover_of_tiledL _ S1024x3.size (by sl_kernel_rfl) y

/-- THE RECURSION: the running columns after the point numbered `n`. -/
def accAt0 (c : Dev nD) : (n : ℕ) → n < cfg0.N → Vec F S1024x3 .f32
  | 0, hn => firstAcc0 V c ⟨0, hn⟩ (Nat.zero_mod _)
  | n + 1, hn =>
    if h0 : (n + 1) % 16 = 0 then firstAcc0 V c ⟨n + 1, hn⟩ h0
    else if h1 : (n + 1) % 16 = 15 then lastAcc0 V c ⟨n + 1, hn⟩ h0 h1 (accAt0 c n (Nat.lt_of_succ_lt hn))
    else midAcc0 V c ⟨n + 1, hn⟩ h0 h1 (accAt0 c n (Nat.lt_of_succ_lt hn))

theorem accAt0_first (c : Dev nD) (t : Fin cfg0.N) (h0 : t.val % 16 = 0) :
    accAt0 V c t.val t.isLt = firstAcc0 V c t h0 := by
  obtain ⟨n, hn⟩ := t
  cases n with
  | zero => rfl
  | succ n => exact dif_pos h0
theorem accAt0_mid (c : Dev nD) (t : Fin cfg0.N) (h0 : ¬t.val % 16 = 0) (h1 : ¬t.val % 16 = 15) :
    accAt0 V c t.val t.isLt = midAcc0 V c t h0 h1 (accAt0 V c (t.val - 1) (Nat.lt_of_le_of_lt (Nat.sub_le _ _) t.isLt)) := by
  obtain ⟨n, hn⟩ := t
  cases n with
  | zero => exact absurd (Nat.zero_mod _) h0
  | succ n => exact (dif_neg h0).trans (dif_neg h1)
theorem accAt0_last (c : Dev nD) (t : Fin cfg0.N) (h0 : ¬t.val % 16 = 0) (h1 : t.val % 16 = 15) :
    accAt0 V c t.val t.isLt = lastAcc0 V c t h0 h1 (accAt0 V c (t.val - 1) (Nat.lt_of_le_of_lt (Nat.sub_le _ _) t.isLt)) := by
  obtain ⟨n, hn⟩ := t
  cases n with
  | zero => exact absurd (Nat.zero_mod _) h0
  | succ n => exact (dif_neg h0).trans (dif_pos h1)

/-- The result block after point `t`: named at a last column block only. -/
def outAt0 (c : Dev nD) (t : Fin cfg0.N) : Vec F S1024x3 .f32 :=
  if h1 : t.val % 16 = 15 then
    lastOut0 V c t (by omega) h1 (accAt0 V c (t.val - 1) (Nat.lt_of_le_of_lt (Nat.sub_le _ _) t.isLt))
  else outV0.read (Elt F) outV0.junk

/-! ## The invariant between points -/

/-- The core's scoped buffers other than the running columns' (the other kernel's staging buffers and scratch),
    each at some contents: they ride along untouched. -/
def rest0 (c : Dev nD) : sProp 𝕄 :=
  bigSep (((Finset.univ.filter fun b : Ref sig .tc => b.isScoped) \ Finset.univ.image (Pipeline.stageRef spec0)).erase cc0_scratch0)
    fun b => iprop(∃ f : Buf (Elt F) ((c.tc : Thread nD τ).loc b), ((c.tc : Thread nD τ).loc b) ↦{fullShare} f)

theorem scopedRest0_acc (c : Dev nD) :
    (Pipeline.scopedRest (Ix := Unit) (Name := ℕ) (U := UR sig nD τ) (Lvl := ℕ) (Val := Elt F) spec0 c : sProp 𝕄)
      = iprop((∃ f : Buf (Elt F) ((c.tc : Thread nD τ).loc cc0_scratch0), ((c.tc : Thread nD τ).loc cc0_scratch0) ↦{fullShare} f) ∗ rest0 (F := F) c) := by
  unfold Pipeline.scopedRest rest0
  exact bigSep_erase (by decide)

/-- What the region hands the body before the first point: the running columns' buffer at anything, the other
    scoped buffers, the generator register at some state. -/
theorem PhiA0_eq (c : Dev nD) :
    (Pipeline.ΦA spec0 c : sProp 𝕄)
      = iprop(((∃ d, owns (c : Thread nD τ) acc0 fullShare d) ∗ rest0 (F := F) c) ∗ (∃ r, prngReg c r)) := by
  unfold Pipeline.ΦA; rw [scopedRest0_acc]; simp only [acc0, owns_whole]; rfl

/-- The invariant before the point numbered `n`: at first the region's own; afterwards the running columns at
    what the point before left, the rest as before. -/
def PhiS0 (c : Dev nD) : (n : ℕ) → n ≤ cfg0.N → sProp 𝕄
  | 0, _ => Pipeline.ΦA spec0 c
  | n + 1, hn => iprop((owns (c : Thread nD τ) acc0 fullShare (accAt0 V c n hn) ∗ rest0 (F := F) c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop((owns (c : Thread nD τ) acc0 fullShare (accAt0 V c n hn) ∗ rest0 (F := F) c) ∗ (∃ r, prngReg c r)) := rfl
theorem PhiS0_pos (c : Dev nD) (n : ℕ) (h : n ≤ cfg0.N) (hz : n ≠ 0) :
    PhiS0 V c n h = iprop((owns (c : Thread nD τ) acc0 fullShare (accAt0 V c (n - 1) (by omega)) ∗ rest0 (F := F) c) ∗ (∃ r, prngReg c r)) := by
  cases n with
  | zero => exact absurd rfl hz
  | succ n => rfl

/-! ## The proof data -/

/-- The two halves of the full share: two input windows reading one array hold a half each. -/
abbrev shareOf0 : Fin cfg0.W → PosShare TreeShare
  | ⟨0, _⟩ => fullShare.left | ⟨1, _⟩ => fullShare.right
  | ⟨2, _⟩ => fullShare.left | ⟨3, _⟩ => fullShare.right
  | _ => fullShare

def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => blk0 V c 3 t
    | ⟨4, _⟩ => blk0 V c 4 t
    | ⟨5, _⟩ => blk0 V c 5 t
    | ⟨6, _⟩ => outAt0 V c t
  Φ t := PhiS0 V c t.val (Nat.le_of_lt_succ t.isLt)
  q := shareOf0
  owed _ := 0

theorem A0_eq (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = blk0 V c 2 t := by dsimp only [dat0]
theorem after0_3 (c : Dev nD) (t : Fin cfg0.N) : (dat0 V c).after 3 t = blk0 V c 3 t := by dsimp only [dat0]
theorem after0_4 (c : Dev nD) (t : Fin cfg0.N) : (dat0 V c).after 4 t = blk0 V c 4 t := by dsimp only [dat0]
theorem after0_5 (c : Dev nD) (t : Fin cfg0.N) : (dat0 V c).after 5 t = blk0 V c 5 t := by dsimp only [dat0]
theorem after0_6 (c : Dev nD) (t : Fin cfg0.N) : (dat0 V c).after 6 t = outAt0 V c t := by dsimp only [dat0]

theorem before0_0 (c : Dev nD) (t : Fin cfg0.N) (d) : (dat0 V c).before 0 t d = blk0 V c 0 t :=
  ((dat0 V c).before_in_eq_fetched 0 rfl (fun _ => rfl) (fun _ _ _ => rfl) (fun t => by rw [after0_0]; unfold Dat.blockOf blk0; rw [A0_eq]; try rfl) t d).trans
    (by unfold Dat.fetched Dat.blockOf blk0; rw [A0_eq]; try rfl)
theorem leaves0_0 (c : Dev nD) (t : Fin cfg0.N) :
    (dat0 V c).leavesExact 0 t = owns (c : Thread nD τ) (ms0_0 t) fullShare (blk0 V c 0 t) := by
  unfold Dat.leavesExact; rw [live0_in 0 (by decide) t, after0_0]
theorem before0_1 (c : Dev nD) (t : Fin cfg0.N) (d) : (dat0 V c).before 1 t d = blk0 V c 1 t :=
  ((dat0 V c).before_in_eq_fetched 1 rfl (fun _ => rfl) (fun _ _ _ => rfl) (fun t => by rw [after0_1]; unfold Dat.blockOf blk0; rw [A0_eq]; try rfl) t d).trans
    (by unfold Dat.fetched Dat.blockOf blk0; rw [A0_eq]; try rfl)
theorem leaves0_1 (c : Dev nD) (t : Fin cfg0.N) :
    (dat0 V c).leavesExact 1 t = owns (c : Thread nD τ) (ms0_1 t) fullShare (blk0 V c 1 t) := by
  unfold Dat.leavesExact; rw [live0_in 1 (by decide) t, after0_1]
theorem before0_2 (c : Dev nD) (t : Fin cfg0.N) (d) : (dat0 V c).before 2 t d = blk0 V c 2 t :=
  ((dat0 V c).before_in_eq_fetched 2 rfl (fun _ => rfl) (fun _ _ _ => rfl) (fun t => by rw [after0_2]; unfold Dat.blockOf blk0; rw [A0_eq]; try rfl) t d).trans
    (by unfold Dat.fetched Dat.blockOf blk0; rw [A0_eq]; try rfl)
theorem leaves0_2 (c : Dev nD) (t : Fin cfg0.N) :
    (dat0 V c).leavesExact 2 t = owns (c : Thread nD τ) (ms0_2 t) fullShare (blk0 V c 2 t) := by
  unfold Dat.leavesExact; rw [live0_in 2 (by decide) t, after0_2]
theorem before0_3 (c : Dev nD) (t : Fin cfg0.N) (d) : (dat0 V c).before 3 t d = blk0 V c 3 t :=
  ((dat0 V c).before_in_eq_fetched 3 rfl (fun _ => rfl) (fun _ _ _ => rfl) (fun t => by rw [after0_3]; unfold Dat.blockOf blk0; rw [A0_eq]; try rfl) t d).trans
    (by unfold Dat.fetched Dat.blockOf blk0; rw [A0_eq]; try rfl)
theorem leaves0_3 (c : Dev nD) (t : Fin cfg0.N) :
    (dat0 V c).leavesExact 3 t = owns (c : Thread nD τ) (ms0_3 t) fullShare (blk0 V c 3 t) := by
  unfold Dat.leavesExact; rw [live0_in 3 (by decide) t, after0_3]
theorem before0_4 (c : Dev nD) (t : Fin cfg0.N) (d) : (dat0 V c).before 4 t d = blk0 V c 4 t :=
  ((dat0 V c).before_in_eq_fetched 4 rfl (fun _ => rfl) (fun _ _ _ => rfl) (fun t => by rw [after0_4]; unfold Dat.blockOf blk0; rw [A0_eq]; try rfl) t d).trans
    (by unfold Dat.fetched Dat.blockOf blk0; rw [A0_eq]; try rfl)
theorem leaves0_4 (c : Dev nD) (t : Fin cfg0.N) :
    (dat0 V c).leavesExact 4 t = owns (c : Thread nD τ) (ms0_4 t) fullShare (blk0 V c 4 t) := by
  unfold Dat.leavesExact; rw [live0_in 4 (by decide) t, after0_4]
theorem before0_5 (c : Dev nD) (t : Fin cfg0.N) (d) : (dat0 V c).before 5 t d = blk0 V c 5 t :=
  ((dat0 V c).before_in_eq_fetched 5 rfl (fun _ => rfl) (fun _ _ _ => rfl) (fun t => by rw [after0_5]; unfold Dat.blockOf blk0; rw [A0_eq]; try rfl) t d).trans
    (by unfold Dat.fetched Dat.blockOf blk0; rw [A0_eq]; try rfl)
theorem leaves0_5 (c : Dev nD) (t : Fin cfg0.N) :
    (dat0 V c).leavesExact 5 t = owns (c : Thread nD τ) (ms0_5 t) fullShare (blk0 V c 5 t) := by
  unfold Dat.leavesExact; rw [live0_in 5 (by decide) t, after0_5]

end Cert.Kernel.Hand

end
-- ==== Proof.Bits.Stats.Body.lean ====
/-
  The statistics kernel's body obligation: at every point of the grid the body, called on the windows' current
  staging buffers holding what the proof data says they hold before the point, runs to the end and leaves them
  holding what the proof data says they hold after it, the running columns passing through the invariant.
  The three kinds of point (first, middle, last column block of a row block) are told apart by the point's number
  modulo 16, and each is closed by that kind's run of the body.
-/
import proofs.«155278_j51788715655787_1_alg».proof.Proof.Bits.Stats.Data

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t)

theorem outAt0_last (c : Dev nD) (t : Fin cfg0.N) (h0 : ¬t.val % 16 = 0) (h1 : t.val % 16 = 15) :
    outAt0 V c t = lastOut0 V c t h0 h1 (accAt0 V c (t.val - 1) (Nat.lt_of_le_of_lt (Nat.sub_le _ _) t.isLt)) := by
  unfold outAt0; rw [dif_pos h1]

set_option maxHeartbeats 8000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).owesAt () t.succ = (dat0 V c).owesAt () t.castSucc from rfl]
  rw [show (dat0 V c).Φ t.succ = PhiS0 V c (t.val + 1) t.isLt from rfl, PhiS0_succ]
  rw [leaves0_0, leaves0_1, leaves0_2, leaves0_3, leaves0_4, leaves0_5]
  have hN : t.val < 128 := lt_of_lt_of_eq t.isLt (show cfg0.N = 128 from N_0)
  by_cases h0 : t.val % 16 = 0
  · have h1 : ¬t.val % 16 = 15 := by omega
    rw [Dat.leavesExact_idle (dat0 V c) 6 t (idle0_out t (not_emits0_of t h1)) (noflush0_out t (not_emits0_of t h1))]
    rw [accAt0_first V c t h0]
    unfold firstAcc0
    by_cases hz : t.val = 0
    · rw [PhiS0_castSucc V c t, PhiS0_zero V c _ _ hz, PhiA0_eq]
      iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩⟩
      iapply ((runFirst0 c (grid0.coords t) _ _ _ _ _ _ _ _ _ _ _ _ _ _ _ _ ((resets0_iff t).mpr h0) (not_emits0_of_first t h0) (blk0 V c 0 t) (blk0 V c 1 t) (blk0 V c 2 t) (blk0 V c 3 t) (blk0 V c 4 t) (blk0 V c 5 t)).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      iintro ⟨H0, H1, H2, H3, H4, H5, H6, ⟨%es, HS⟩⟩
      isplitl [HS HR Hg]
      · isplitl [HS HR]
        · isplitl [HS]
          · unfold owns; iexists _; isplitr
            swap; · iexact HS
            ipureintro; exact View.read_writes_of_cover _ _ _ _ _ (cover_firstAcc0 V c t h0)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · rw [PhiS0_castSucc V c t, PhiS0_pos V c _ _ hz]
      iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩⟩
      iapply ((runFirst0 c (grid0.coords t) _ _ _ _ _ _ _ _ _ _ _ _ _ _ _ _ ((resets0_iff t).mpr h0) (not_emits0_of_first t h0) (blk0 V c 0 t) (blk0 V c 1 t) (blk0 V c 2 t) (blk0 V c 3 t) (blk0 V c 4 t) (blk0 V c 5 t)).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexists _; iexact HS
      iintro ⟨H0, H1, H2, H3, H4, H5, H6, ⟨%es, HS⟩⟩
      isplitl [HS HR Hg]
      · isplitl [HS HR]
        · isplitl [HS]
          · unfold owns; iexists _; isplitr
            swap; · iexact HS
            ipureintro; exact View.read_writes_of_cover _ _ _ _ _ (cover_firstAcc0 V c t h0)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · have hz : t.val ≠ 0 := fun e => h0 (by rw [e])
    by_cases h1 : t.val % 16 = 15
    · rw [show (dat0 V c).leavesExact 6 t = owns (c : Thread nD τ) (ms0_6 t) fullShare (outAt0 V c t) from by
        unfold Dat.leavesExact; rw [live0_out t ((emits0_iff t).mpr h1), after0_6]]
      rw [outAt0_last V c t h0 h1, accAt0_last V c t h0 h1]
      unfold lastOut0 lastAcc0
      rw [PhiS0_castSucc V c t, PhiS0_pos V c _ _ hz]
      iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩⟩
      iapply ((runLast0 c (grid0.coords t) _ _ _ _ _ _ _ _ _ _ _ _ _ _ _ _ (not_resets0_of t h0) ((emits0_iff t).mpr h1) (blk0 V c 0 t) (blk0 V c 1 t) (blk0 V c 2 t) (blk0 V c 3 t) (blk0 V c 4 t) (blk0 V c 5 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS]; · iexact HS
      iintro ⟨H0, H1, H2, H3, H4, H5, ⟨%eo, H6⟩, ⟨%es, HS⟩⟩
      isplitl [HS HR Hg]
      · isplitl [HS HR]
        · isplitl [HS]
          · unfold owns; iexists _; isplitr
            swap; · iexact HS
            ipureintro; exact View.read_writes_of_cover _ _ _ _ _ (cover_lastAcc0 V c t h0 h1 _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (cover_lastOut0 V c t h0 h1 _)
    · rw [Dat.leavesExact_idle (dat0 V c) 6 t (idle0_out t (not_emits0_of t h1)) (noflush0_out t (not_emits0_of t h1))]
      rw [accAt0_mid V c t h0 h1]
      unfold midAcc0
      rw [PhiS0_castSucc V c t, PhiS0_pos V c _ _ hz]
      iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩⟩
      iapply ((runMid0 c (grid0.coords t) _ _ _ _ _ _ _ _ _ _ _ _ _ _ _ _ (not_resets0_of t h0) (not_emits0_of t h1) (blk0 V c 0 t) (blk0 V c 1 t) (blk0 V c 2 t) (blk0 V c 3 t) (blk0 V c 4 t) (blk0 V c 5 t) _).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      iintro ⟨H0, H1, H2, H3, H4, H5, H6, ⟨%es, HS⟩⟩
      isplitl [HS HR Hg]
      · isplitl [HS HR]
        · isplitl [HS]
          · unfold owns; iexists _; isplitr
            swap; · iexact HS
            ipureintro; exact View.read_writes_of_cover _ _ _ _ _ (cover_midAcc0 V c t h0 h1 _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the region hands the body before the first point is the invariant there. -/
theorem hin0 (c : Dev nD) : (Pipeline.ΦA spec0 c : sProp 𝕄) ⊢ (dat0 V c).Φ 0 := by
  rw [show (dat0 V c).Φ 0 = PhiS0 V c 0 (Nat.zero_le _) from rfl, PhiS0_zero V c 0 _ rfl]

/-- After the last point the invariant gives the region's own back: the running columns' contents are forgotten. -/
theorem hout0 (c : Dev nD) : (dat0 V c).Φ (Fin.last cfg0.N) ⊢ (Pipeline.ΦA spec0 c : sProp 𝕄) := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 128 := N_0; omega), PhiA0_eq]
  iintro ⟨⟨HS, HR⟩, Hg⟩
  isplitl [HS HR]
  · isplitl [HS]
    · iexists _; iexact HS
    iexact HR
  iexact Hg

end Cert.Kernel.Hand

end
-- ==== Proof.Bits.Stats.Arrays.lean ====
/-
  The statistics kernel's arrays at its region's ends.

  The region is entered with every unscoped buffer of the core held whole. The kernel's windows read 5 distinct
  buffers; the normalized embeddings and the labels are each read through two windows (a row block and a column
  block), so each of those two buffers is dealt to its two windows in halves, and the halves are joined again when
  the region is left. Only the result buffer changes: at the exit it holds what the write-backs left.
-/
import proofs.«155278_j51788715655787_1_alg».proof.Proof.Bits.Stats.Body

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Each window's array is a whole buffer, held at the window's share. -/
theorem arr0_w0 (c : Dev nD) (X : Buf (Elt F) ((cfg0.win 0).arr.view.loc (c.tc : Thread nD τ))) :
    (((cfg0.win 0).arr.view.loc (c.tc : Thread nD τ)) ↦[(cfg0.win 0).arr.view.set]{(dat0 V c).share 0} X : sProp 𝕄)
      = (((c.tc : Thread nD τ).loc main_v12) ↦{fullShare.left} X) := by
  rw [(arr_whole0 0).set_eq_univ]; rfl
theorem arr0_w1 (c : Dev nD) (X : Buf (Elt F) ((cfg0.win 1).arr.view.loc (c.tc : Thread nD τ))) :
    (((cfg0.win 1).arr.view.loc (c.tc : Thread nD τ)) ↦[(cfg0.win 1).arr.view.set]{(dat0 V c).share 1} X : sProp 𝕄)
      = (((c.tc : Thread nD τ).loc main_v12) ↦{fullShare.right} X) := by
  rw [(arr_whole0 1).set_eq_univ]; rfl
theorem arr0_w2 (c : Dev nD) (X : Buf (Elt F) ((cfg0.win 2).arr.view.loc (c.tc : Thread nD τ))) :
    (((cfg0.win 2).arr.view.loc (c.tc : Thread nD τ)) ↦[(cfg0.win 2).arr.view.set]{(dat0 V c).share 2} X : sProp 𝕄)
      = (((c.tc : Thread nD τ).loc main_v13) ↦{fullShare.left} X) := by
  rw [(arr_whole0 2).set_eq_univ]; rfl
theorem arr0_w3 (c : Dev nD) (X : Buf (Elt F) ((cfg0.win 3).arr.view.loc (c.tc : Thread nD τ))) :
    (((cfg0.win 3).arr.view.loc (c.tc : Thread nD τ)) ↦[(cfg0.win 3).arr.view.set]{(dat0 V c).share 3} X : sProp 𝕄)
      = (((c.tc : Thread nD τ).loc main_v13) ↦{fullShare.right} X) := by
  rw [(arr_whole0 3).set_eq_univ]; rfl
theorem arr0_w4 (c : Dev nD) (X : Buf (Elt F) ((cfg0.win 4).arr.view.loc (c.tc : Thread nD τ))) :
    (((cfg0.win 4).arr.view.loc (c.tc : Thread nD τ)) ↦[(cfg0.win 4).arr.view.set]{(dat0 V c).share 4} X : sProp 𝕄)
      = (((c.tc : Thread nD τ).loc main_v10) ↦{fullShare} X) := by
  rw [(arr_whole0 4).set_eq_univ]; rfl
theorem arr0_w5 (c : Dev nD) (X : Buf (Elt F) ((cfg0.win 5).arr.view.loc (c.tc : Thread nD τ))) :
    (((cfg0.win 5).arr.view.loc (c.tc : Thread nD τ)) ↦[(cfg0.win 5).arr.view.set]{(dat0 V c).share 5} X : sProp 𝕄)
      = (((c.tc : Thread nD τ).loc main_v11) ↦{fullShare} X) := by
  rw [(arr_whole0 5).set_eq_univ]; rfl
theorem arr0_w6 (c : Dev nD) (X : Buf (Elt F) ((cfg0.win 6).arr.view.loc (c.tc : Thread nD τ))) :
    (((cfg0.win 6).arr.view.loc (c.tc : Thread nD τ)) ↦[(cfg0.win 6).arr.view.set]{(dat0 V c).share 6} X : sProp 𝕄)
      = (((c.tc : Thread nD τ).loc main_v14) ↦{fullShare} X) := by
  rw [(arr_whole0 6).set_eq_univ]; rfl

/-- The windows' arrays, one by one, each at its share. -/
theorem arrays0_eq (c : Dev nD) (F : (w : Fin cfg0.W) → Buf (Elt F) ((cfg0.win w).arr.view.loc (c.tc : Thread nD τ))) :
    ((dat0 V c).arrays F : sProp 𝕄) = iprop((((c.tc : Thread nD τ).loc main_v12) ↦{fullShare.left} F 0)
      ∗ (((c.tc : Thread nD τ).loc main_v12) ↦{fullShare.right} F 1)
      ∗ (((c.tc : Thread nD τ).loc main_v13) ↦{fullShare.left} F 2)
      ∗ (((c.tc : Thread nD τ).loc main_v13) ↦{fullShare.right} F 3)
      ∗ (((c.tc : Thread nD τ).loc main_v10) ↦{fullShare} F 4)
      ∗ (((c.tc : Thread nD τ).loc main_v11) ↦{fullShare} F 5)
      ∗ (((c.tc : Thread nD τ).loc main_v14) ↦{fullShare} F 6)) := by
  unfold Dat.arrays; rw [bigSep_W0]
  exact congrArg₂ BI.sep (arr0_w0 V c _) (congrArg₂ BI.sep (arr0_w1 V c _) (congrArg₂ BI.sep (arr0_w2 V c _) (congrArg₂ BI.sep (arr0_w3 V c _) (congrArg₂ BI.sep (arr0_w4 V c _) (congrArg₂ BI.sep (arr0_w5 V c _) (arr0_w6 V c _))))))

/-- The distinct buffers behind the windows, one by one, each whole. -/
theorem arrBufs0_eq (c : Dev nD) (W : (b : Ref sig .tc) → Buf (Elt F) ((c.tc : Thread nD τ).loc b)) :
    (Pipeline.arrBufs (Ix := Unit) (Name := ℕ) (U := UR sig nD τ) (Lvl := ℕ) spec0 c W : sProp 𝕄) = iprop((((c.tc : Thread nD τ).loc main_v12) ↦{fullShare} W main_v12)
      ∗ (((c.tc : Thread nD τ).loc main_v13) ↦{fullShare} W main_v13)
      ∗ (((c.tc : Thread nD τ).loc main_v10) ↦{fullShare} W main_v10)
      ∗ (((c.tc : Thread nD τ).loc main_v11) ↦{fullShare} W main_v11)
      ∗ (((c.tc : Thread nD τ).loc main_v14) ↦{fullShare} W main_v14)) := by
  unfold Pipeline.arrBufs
  rw [show Finset.univ.image (Pipeline.arrRef spec0) = ({main_v12, main_v13, main_v10, main_v11, main_v14} : Finset (Ref sig .tc)) from by decide]
  rw [bigSep_insert (by decide), bigSep_insert (by decide), bigSep_insert (by decide), bigSep_insert (by decide), bigSep_singleton]
  rfl

/-- A core's unscoped buffers are the buffers behind the windows and the rest. -/
theorem unscopedBufs0_split (c : Dev nD) (W : (b : Ref sig .tc) → Buf (Elt F) ((c.tc : Thread nD τ).loc b)) :
    (unscopedBufs c W : sProp 𝕄) = iprop(Pipeline.arrBufs (Ix := Unit) (Name := ℕ) (U := UR sig nD τ) (Lvl := ℕ) spec0 c W
      ∗ Pipeline.unscopedRest (Ix := Unit) (Name := ℕ) (U := UR sig nD τ) (Lvl := ℕ) spec0 c W) := by
  unfold unscopedBufs Pipeline.unscopedRest Pipeline.arrBufs
  exact bigSep_sdiff_split (by decide)

/-- An input window's array is never written: it holds its entry contents throughout. -/
theorem arrAt0_in0 (c : Dev nD) (n : ℕ) : (dat0 V c).arrAt 0 n = V c main_v12 :=
  ((dat0 V c).arrAt_in 0 rfl n).trans (A0_eq V c 0)
theorem arrAt0_in1 (c : Dev nD) (n : ℕ) : (dat0 V c).arrAt 1 n = V c main_v12 :=
  ((dat0 V c).arrAt_in 1 rfl n).trans (A0_eq V c 1)
theorem arrAt0_in2 (c : Dev nD) (n : ℕ) : (dat0 V c).arrAt 2 n = V c main_v13 :=
  ((dat0 V c).arrAt_in 2 rfl n).trans (A0_eq V c 2)
theorem arrAt0_in3 (c : Dev nD) (n : ℕ) : (dat0 V c).arrAt 3 n = V c main_v13 :=
  ((dat0 V c).arrAt_in 3 rfl n).trans (A0_eq V c 3)
theorem arrAt0_in4 (c : Dev nD) (n : ℕ) : (dat0 V c).arrAt 4 n = V c main_v10 :=
  ((dat0 V c).arrAt_in 4 rfl n).trans (A0_eq V c 4)
theorem arrAt0_in5 (c : Dev nD) (n : ℕ) : (dat0 V c).arrAt 5 n = V c main_v11 :=
  ((dat0 V c).arrAt_in 5 rfl n).trans (A0_eq V c 5)

/-- ENTRY: the buffers behind the windows, whole at the entry contents, dealt to the windows. -/
theorem arrays0_of_bufs (c : Dev nD) :
    (Pipeline.arrBufs (Ix := Unit) (Name := ℕ) (U := UR sig nD τ) (Lvl := ℕ) spec0 c (V c) : sProp 𝕄)
      ⊢ (dat0 V c).arrays ((dat0 V c).arrAt · 0) := by
  rw [arrBufs0_eq, arrays0_eq]
  iintro ⟨H12, H13, H10, H11, H14⟩
  ihave S12 := (pointsTo_share (PosShare.mem_left_op_right fullShare)).1 $$ H12
  icases S12 with ⟨H12l, H12r⟩
  ihave S13 := (pointsTo_share (PosShare.mem_left_op_right fullShare)).1 $$ H13
  icases S13 with ⟨H13l, H13r⟩
  isplitl [H12l]; · iexact H12l
  isplitl [H12r]; · iexact H12r
  isplitl [H13l]; · iexact H13l
  isplitl [H13r]; · iexact H13r
  isplitl [H10]; · iexact H10
  isplitl [H11]; · iexact H11
  iexact H14

/-- EXIT: the windows' arrays after the last point joined into the buffers behind them — the inputs' as entered,
    the result's at what the write-backs left. -/
theorem bufs0_of_arrays (c : Dev nD) (W : (b : Ref sig .tc) → Buf (Elt F) ((c.tc : Thread nD τ).loc b))
    (hin : ∀ b, b ≠ main_v14 → W b = V c b) (hout : W main_v14 = (dat0 V c).arrAt 6 cfg0.N) :
    ((dat0 V c).arrays ((dat0 V c).arrAt · cfg0.N) : sProp 𝕄)
      ⊢ Pipeline.arrBufs (Ix := Unit) (Name := ℕ) (U := UR sig nD τ) (Lvl := ℕ) spec0 c W := by
  rw [arrBufs0_eq, arrays0_eq]
  rw [arrAt0_in0, arrAt0_in1, arrAt0_in2, arrAt0_in3, arrAt0_in4, arrAt0_in5, ← hout]
  rw [hin main_v12 (by decide), hin main_v13 (by decide), hin main_v10 (by decide), hin main_v11 (by decide)]
  iintro ⟨A0, A1, A2, A3, A4, A5, A6⟩
  isplitl [A0 A1]
  · iapply (pointsTo_share (PosShare.mem_left_op_right fullShare)).2
    isplitl [A0] <;> iassumption
  isplitl [A2 A3]
  · iapply (pointsTo_share (PosShare.mem_left_op_right fullShare)).2
    isplitl [A2] <;> iassumption
  isplitl [A4]; · iexact A4
  isplitl [A5]; · iexact A5
  iexact A6

end Cert.Kernel.Hand

end
-- ==== Proof.Bits.Loss.Setup.lean ====
/-
  The loss kernel (the second of the two kernels) on the same 8 × 16 grid of (row block, column block) points:
  where its two branches are taken, and where its result window is live.

  The body zeroes its running column of hinge sums when the column block is the first of a row block, adds the
  current column block's row sums to it at every point, and when the column block is the last one turns the
  running sums into the row block's two result columns (the row losses and the row validity flags).
-/
import proofs.«155278_j51788715655787_1_alg».proof.Proof.Gen.Kernel.Launch
import proofs.«155278_j51788715655787_1_alg».proof.Proof.Gen.Kernel.Skeleton
import proofs.«155278_j51788715655787_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The reset branch's condition: the column block is the first. -/
abbrev resets1 (i : grid1.Coords) : Prop :=
  (Scalar.cmpi .ne (Scalar.extui (Scalar.cmpi .eq (BitVec.ofNat 32 (i 1).val) 0#32)) 0#32) = 1#1
/-- The emitting branch's condition: the column block is the last. -/
abbrev emits1 (i : grid1.Coords) : Prop := k1_cond2 i = 1#1

theorem resets1_iff : ∀ t : Fin cfg1.N, resets1 (grid1.coords t) ↔ t.val % 16 = 0 :=
  (by decide +kernel : ∀ t : Fin grid1.N, resets1 (grid1.coords t) ↔ t.val % 16 = 0)
theorem emits1_iff : ∀ t : Fin cfg1.N, emits1 (grid1.coords t) ↔ t.val % 16 = 15 :=
  (by decide +kernel : ∀ t : Fin grid1.N, emits1 (grid1.coords t) ↔ t.val % 16 = 15)

/-- The seven input windows are never idle. -/
theorem live1_in : ∀ (w : Fin 8), w ≠ 7 → ∀ t : Fin cfg1.N, cfg1.idle w (grid1.coords t) = false := by decide +kernel
/-- The result window is idle exactly where nothing is emitted, and is not written back there. -/
theorem idle1_out : ∀ t : Fin cfg1.N, ¬emits1 (grid1.coords t) → cfg1.idle 7 (grid1.coords t) = true := by decide +kernel
theorem noflush1_out : ∀ t : Fin cfg1.N, ¬emits1 (grid1.coords t) → (cfg1.win 7).flush t = false := by decide +kernel
theorem live1_out : ∀ t : Fin cfg1.N, emits1 (grid1.coords t) → cfg1.idle 7 (grid1.coords t) = false := by decide +kernel

/-- The running column's buffer, and the view through which its contents are stated. -/
abbrev acc1 : Memref sig .tc .vmem S1024x1 .f32 := Memref.whole cc1_scratch0
abbrev accV1 : View sig .tc .vmem S1024x1 .f32 := acc1.view
/-- One staging buffer of the result window, through which its contents are stated. -/
abbrev outV1 : View sig .tc .vmem S1024x2 .f32 := (Memref.whole cc1_stg7_0 : Memref sig .tc .vmem S1024x2 .f32).view

end Cert.Kernel.Hand

end
-- ==== Proof.Bits.Loss.RunMid.lean ====
/-
  The loss kernel's body at a point whose column block is neither the first nor the last of its row block: the
  seven input blocks are read and handed back as found, the result block is not touched, and the running column
  of hinge sums is loaded and stored back with the current block's row sums added.
-/
import proofs.«155278_j51788715655787_1_alg».proof.Proof.Bits.Loss.Setup

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body stores into the running column at such a point, with the proof that on whole buffers the
    body runs to the continuation, holding the inputs and the result block as they were and the running column
    with the pieces written. -/
noncomputable def runMid1 (c : Dev nD) (i : grid1.Coords) (arg2 : Memref sig .tc .vmem S1024x512 .bf16) (harg2 : arg2.IsWhole) (arg3 : Memref sig .tc .vmem S512x512 .bf16) (harg3 : arg3.IsWhole) (arg4 : Memref sig .tc .vmem S1024x80 .bf16) (harg4 : arg4.IsWhole) (arg5 : Memref sig .tc .vmem S512x80 .bf16) (harg5 : arg5.IsWhole) (arg6 : Memref sig .tc .vmem S1024x2 .f32) (harg6 : arg6.IsWhole) (arg7 : Memref sig .tc .vmem S2x512 .f32) (harg7 : arg7.IsWhole) (arg8 : Memref sig .tc .vmem S1024x3 .f32) (harg8 : arg8.IsWhole) (arg9 : Memref sig .tc .vmem S1024x2 .f32) (harg9 : arg9.IsWhole) (arg10 : Memref sig .tc .vmem S1024x1 .f32) (harg10 : arg10.IsWhole)
    (hr : ¬resets1 i) (he : ¬emits1 i) (x0 : Vec F S1024x512 .bf16) (x1 : Vec F S512x512 .bf16) (x2 : Vec F S1024x80 .bf16) (x3 : Vec F S512x80 .bf16) (x4 : Vec F S1024x2 .f32) (x5 : Vec F S2x512 .f32) (x6 : Vec F S1024x3 .f32) (xs : Vec F S1024x1 .f32) :
    { LS : List (View.Piece (Elt F) S1024x1 .f32) //
      ∀ (xo : Vec F S1024x2 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xo ∗ owns (c : Thread nD τ) arg10 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xo ∗ (∃ f, arg10.view.loc (c : Thread nD τ) ↦[arg10.view.set]{fullShare} arg10.view.writes (Elt F) f LS)) -∗ K ⟨⟩))
          ⊢ wp frame (wpE (defs₀ (F := F)) Variants.none c none) E (cc1__loss_kernel i arg2 harg2 arg3 harg3 arg4 harg4 arg5 harg5 arg6 harg6 arg7 harg7 arg8 harg8 arg9 harg9 arg10 harg10) K } := by
  refine ⟨?_, fun xo E K => ?run⟩
  case run =>
    simp only [cc1__loss_kernel_eq_skeleton]; unfold cc1__loss_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs, %hfs, HS⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hf6
    obtain rfl := harg9.eq_unread hf7; obtain rfl := harg10.eq_unread hfs
    sl_exec (disch := first | exact hr | exact he)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    iexists _; iexact HS

end Cert.Kernel.Hand

end
-- ==== Proof.Bits.Loss.RunFirst.lean ====
/-
  The loss kernel's body at the first column block of a row block: the running column of hinge sums is first
  overwritten with zeros and then the current block's row sums are added; whatever the buffer held before is not
  used.
-/
import proofs.«155278_j51788715655787_1_alg».proof.Proof.Bits.Loss.Setup

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces stored into the running column at such a point, with the proof that the body runs on whole
    buffers — the running column at anything — to the continuation, holding the inputs and the result block as
    they were and the running column with the pieces written. -/
noncomputable def runFirst1 (c : Dev nD) (i : grid1.Coords) (arg2 : Memref sig .tc .vmem S1024x512 .bf16) (harg2 : arg2.IsWhole) (arg3 : Memref sig .tc .vmem S512x512 .bf16) (harg3 : arg3.IsWhole) (arg4 : Memref sig .tc .vmem S1024x80 .bf16) (harg4 : arg4.IsWhole) (arg5 : Memref sig .tc .vmem S512x80 .bf16) (harg5 : arg5.IsWhole) (arg6 : Memref sig .tc .vmem S1024x2 .f32) (harg6 : arg6.IsWhole) (arg7 : Memref sig .tc .vmem S2x512 .f32) (harg7 : arg7.IsWhole) (arg8 : Memref sig .tc .vmem S1024x3 .f32) (harg8 : arg8.IsWhole) (arg9 : Memref sig .tc .vmem S1024x2 .f32) (harg9 : arg9.IsWhole) (arg10 : Memref sig .tc .vmem S1024x1 .f32) (harg10 : arg10.IsWhole)
    (hr : resets1 i) (he : ¬emits1 i) (x0 : Vec F S1024x512 .bf16) (x1 : Vec F S512x512 .bf16) (x2 : Vec F S1024x80 .bf16) (x3 : Vec F S512x80 .bf16) (x4 : Vec F S1024x2 .f32) (x5 : Vec F S2x512 .f32) (x6 : Vec F S1024x3 .f32) :
    { LS : List (View.Piece (Elt F) S1024x1 .f32) //
      ∀ (xo : Vec F S1024x2 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xo ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xo ∗ (∃ f, arg10.view.loc (c : Thread nD τ) ↦[arg10.view.set]{fullShare} arg10.view.writes (Elt F) f LS)) -∗ K ⟨⟩))
          ⊢ wp frame (wpE (defs₀ (F := F)) Variants.none c none) E (cc1__loss_kernel i arg2 harg2 arg3 harg3 arg4 harg4 arg5 harg5 arg6 harg6 arg7 harg7 arg8 harg8 arg9 harg9 arg10 harg10) K } := by
  refine ⟨?_, fun xo E K => ?run⟩
  case run =>
    simp only [cc1__loss_kernel_eq_skeleton]; unfold cc1__loss_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds, %fs, -, HS⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hf6
    obtain rfl := harg9.eq_unread hf7
    sl_exec (disch := first | exact hr | exact he)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    iexists _; iexact HS

end Cert.Kernel.Hand

end
-- ==== Proof.Bits.Loss.RunLast.lean ====
/-
  The loss kernel's body at the last column block of a row block: the running column of hinge sums gets the
  current block's row sums added as at every point, and then the row block's two result columns are stored — the
  sums divided by the positive counts where a row is valid, zero elsewhere, and the validity flags — into the
  result block, whose previous contents are not used.
-/
import proofs.«155278_j51788715655787_1_alg».proof.Proof.Bits.Loss.Setup

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces stored into the result block and into the running column at such a point, with the proof that the
    body runs on whole buffers — the result block at anything, the running column at what the point before left —
    to the continuation, holding the inputs as they were and the two other buffers with their pieces written. -/
noncomputable def runLast1 (c : Dev nD) (i : grid1.Coords) (arg2 : Memref sig .tc .vmem S1024x512 .bf16) (harg2 : arg2.IsWhole) (arg3 : Memref sig .tc .vmem S512x512 .bf16) (harg3 : arg3.IsWhole) (arg4 : Memref sig .tc .vmem S1024x80 .bf16) (harg4 : arg4.IsWhole) (arg5 : Memref sig .tc .vmem S512x80 .bf16) (harg5 : arg5.IsWhole) (arg6 : Memref sig .tc .vmem S1024x2 .f32) (harg6 : arg6.IsWhole) (arg7 : Memref sig .tc .vmem S2x512 .f32) (harg7 : arg7.IsWhole) (arg8 : Memref sig .tc .vmem S1024x3 .f32) (harg8 : arg8.IsWhole) (arg9 : Memref sig .tc .vmem S1024x2 .f32) (harg9 : arg9.IsWhole) (arg10 : Memref sig .tc .vmem S1024x1 .f32) (harg10 : arg10.IsWhole)
    (hr : ¬resets1 i) (he : emits1 i) (x0 : Vec F S1024x512 .bf16) (x1 : Vec F S512x512 .bf16) (x2 : Vec F S1024x80 .bf16) (x3 : Vec F S512x80 .bf16) (x4 : Vec F S1024x2 .f32) (x5 : Vec F S2x512 .f32) (x6 : Vec F S1024x3 .f32) (xs : Vec F S1024x1 .f32) :
    Σ' (LO : List (View.Piece (Elt F) S1024x2 .f32)), { LS : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f LO) ∗ (∃ f, arg10.view.loc (c : Thread nD τ) ↦[arg10.view.set]{fullShare} arg10.view.writes (Elt F) f LS)) -∗ K ⟨⟩))
          ⊢ wp frame (wpE (defs₀ (F := F)) Variants.none c none) E (cc1__loss_kernel i arg2 harg2 arg3 harg3 arg4 harg4 arg5 harg5 arg6 harg6 arg7 harg7 arg8 harg8 arg9 harg9 arg10 harg10) K } := by
  refine ⟨?_, ?_, fun E K => ?run⟩
  case run =>
    simp only [cc1__loss_kernel_eq_skeleton]; unfold cc1__loss_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs, %hfs, HS⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hf6
    obtain rfl := harg10.eq_unread hfs
    sl_exec (disch := first | exact hr | exact he)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; iexact H7
    iexists _; iexact HS

end Cert.Kernel.Hand

end
-- ==== Proof.Bits.Loss.Data.lean ====
/-
  The loss kernel's proof data: what its buffers hold point by point.

  Point `16·r + k` works on row block `r` and column block `k`. The running column of hinge sums after a point is
  given by recursion on the point: at a first column block it is that block's row sums alone, otherwise the block's
  row sums added to what the point before left. The result block is named only at a last column block, where it
  receives the row losses and validity flags computed from the running column as it then stands; elsewhere the
  window is idle and not written back. The seven input windows hold their blocks of the arrays as the region finds
  them (`V`), fetched at the point or kept from the point before.
-/
import proofs.«155278_j51788715655787_1_alg».proof.Proof.Bits.Loss.RunMid
import proofs.«155278_j51788715655787_1_alg».proof.Proof.Bits.Loss.RunFirst
import proofs.«155278_j51788715655787_1_alg».proof.Proof.Bits.Loss.RunLast

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each window's current staging buffer at a point, as the pipeline passes it to the body. -/
abbrev ms1_0 (t : Fin cfg1.N) : Memref sig .tc .vmem S1024x512 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x512 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x80 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S512x80 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x2 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S2x512 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1024x3 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1024x2 .f32 := win1_7.stage (cfg1.slots t 7)
abbrev hs1_7 (t : Fin cfg1.N) : (ms1_7 t).IsWhole := hstage1_7 ((cfg1.slots t 7).cast nbuf1_7)

theorem not_emits1_of_first (t : Fin cfg1.N) (h : t.val % 16 = 0) : ¬emits1 (grid1.coords t) :=
  fun e => by have := (emits1_iff t).mp e; omega
theorem not_resets1_of (t : Fin cfg1.N) (h : ¬t.val % 16 = 0) : ¬resets1 (grid1.coords t) :=
  fun e => h ((resets1_iff t).mp e)
theorem not_emits1_of (t : Fin cfg1.N) (h : ¬t.val % 16 = 15) : ¬emits1 (grid1.coords t) :=
  fun e => h ((emits1_iff t).mp e)

/-- The running column after a first column block. -/
def firstAcc1 (c : Dev nD) (t : Fin cfg1.N) (h0 : t.val % 16 = 0) : Vec F S1024x1 .f32 :=
  accV1.read (Elt F) (accV1.writes (Elt F) accV1.junk
    (runFirst1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) acc1 (Memref.isWhole_whole _) ((resets1_iff t).mpr h0) (not_emits1_of_first t h0) (blk1 V c 0 t) (blk1 V c 1 t) (blk1 V c 2 t) (blk1 V c 3 t) (blk1 V c 4 t) (blk1 V c 5 t) (blk1 V c 6 t)).1)
/-- The running column after a middle column block, from what the point before left. -/
def midAcc1 (c : Dev nD) (t : Fin cfg1.N) (h0 : ¬t.val % 16 = 0) (h1 : ¬t.val % 16 = 15) (xs : Vec F S1024x1 .f32) : Vec F S1024x1 .f32 :=
  accV1.read (Elt F) (accV1.writes (Elt F) accV1.junk
    (runMid1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) acc1 (Memref.isWhole_whole _) (not_resets1_of t h0) (not_emits1_of t h1) (blk1 V c 0 t) (blk1 V c 1 t) (blk1 V c 2 t) (blk1 V c 3 t) (blk1 V c 4 t) (blk1 V c 5 t) (blk1 V c 6 t) xs).1)
/-- The running column after a last column block, from what the point before left. -/
def lastAcc1 (c : Dev nD) (t : Fin cfg1.N) (h0 : ¬t.val % 16 = 0) (h1 : t.val % 16 = 15) (xs : Vec F S1024x1 .f32) : Vec F S1024x1 .f32 :=
  accV1.read (Elt F) (accV1.writes (Elt F) accV1.junk
    (runLast1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) acc1 (Memref.isWhole_whole _) (not_resets1_of t h0) ((emits1_iff t).mpr h1) (blk1 V c 0 t) (blk1 V c 1 t) (blk1 V c 2 t) (blk1 V c 3 t) (blk1 V c 4 t) (blk1 V c 5 t) (blk1 V c 6 t) xs).2.1)
/-- The result block after a last column block. -/
def lastOut1 (c : Dev nD) (t : Fin cfg1.N) (h0 : ¬t.val % 16 = 0) (h1 : t.val % 16 = 15) (xs : Vec F S1024x1 .f32) : Vec F S1024x2 .f32 :=
  outV1.read (Elt F) (outV1.writes (Elt F) outV1.junk
    (runLast1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) acc1 (Memref.isWhole_whole _) (not_resets1_of t h0) ((emits1_iff t).mpr h1) (blk1 V c 0 t) (blk1 V c 1 t) (blk1 V c 2 t) (blk1 V c 3 t) (blk1 V c 4 t) (blk1 V c 5 t) (blk1 V c 6 t) xs).1)

/-- The pieces of each case cover the buffer they are stored into. -/
theorem cover_firstAcc1 (c : Dev nD) (t : Fin cfg1.N) (h0 : t.val % 16 = 0) (y : S1024x1.Idx) :
    ∃ pc ∈ (runFirst1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) acc1 (Memref.isWhole_whole _) ((resets1_iff t).mpr h0) (not_emits1_of_first t h0) (blk1 V c 0 t) (blk1 V c 1 t) (blk1 V c 2 t) (blk1 V c 3 t) (blk1 V c 4 t) (blk1 V c 5 t) (blk1 V c 6 t)).1, y ∈ pc.1.set :=
  View.cover_of_tiledL (s := S1024x1) _ S1024x1.size (by sl_kernel_rfl) y
theorem cover_midAcc1 (c : Dev nD) (t : Fin cfg1.N) (h0 : ¬t.val % 16 = 0) (h1 : ¬t.val % 16 = 15) (xs : Vec F S1024x1 .f32) (y : S1024x1.Idx) :
    ∃ pc ∈ (runMid1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) acc1 (Memref.isWhole_whole _) (not_resets1_of t h0) (not_emits1_of t h1) (blk1 V c 0 t) (blk1 V c 1 t) (blk1 V c 2 t) (blk1 V c 3 t) (blk1 V c 4 t) (blk1 V c 5 t) (blk1 V c 6 t) xs).1, y ∈ pc.1.set :=
  View.cover_of_tiledL (s := S1024x1) _ S1024x1.size (by sl_kernel_rfl) y
theorem cover_lastAcc1 (c : Dev nD) (t : Fin cfg1.N) (h0 : ¬t.val % 16 = 0) (h1 : t.val % 16 = 15) (xs : Vec F S1024x1 .f32) (y : S1024x1.Idx) :
    ∃ pc ∈ (runLast1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) acc1 (Memref.isWhole_whole _) (not_resets1_of t h0) ((emits1_iff t).mpr h1) (blk1 V c 0 t) (blk1 V c 1 t) (blk1 V c 2 t) (blk1 V c 3 t) (blk1 V c 4 t) (blk1 V c 5 t) (blk1 V c 6 t) xs).2.1, y ∈ pc.1.set :=
  View.cover_of_tiledL (s := S1024x1) _ S1024x1.size (by sl_kernel_rfl) y
theorem cover_lastOut1 (c : Dev nD) (t : Fin cfg1.N) (h0 : ¬t.val % 16 = 0) (h1 : t.val % 16 = 15) (xs : Vec F S1024x1 .f32) (y : S1024x2.Idx) :
    ∃ pc ∈ (runLast1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) acc1 (Memref.isWhole_whole _) (not_resets1_of t h0) ((emits1_iff t).mpr h1) (blk1 V c 0 t) (blk1 V c 1 t) (blk1 V c 2 t) (blk1 V c 3 t) (blk1 V c 4 t) (blk1 V c 5 t) (blk1 V c 6 t) xs).1, y ∈ pc.1.set :=
  View.cover_of_tiledL (s := S1024x2) _ S1024x1.size (by sl_kernel_rfl) y

/-- THE RECURSION: the running column after the point numbered `n`. -/
def accAt1 (c : Dev nD) : (n : ℕ) → n < cfg1.N → Vec F S1024x1 .f32
  | 0, hn => firstAcc1 V c ⟨0, hn⟩ (Nat.zero_mod _)
  | n + 1, hn =>
    if h0 : (n + 1) % 16 = 0 then firstAcc1 V c ⟨n + 1, hn⟩ h0
    else if h1 : (n + 1) % 16 = 15 then lastAcc1 V c ⟨n + 1, hn⟩ h0 h1 (accAt1 c n (Nat.lt_of_succ_lt hn))
    else midAcc1 V c ⟨n + 1, hn⟩ h0 h1 (accAt1 c n (Nat.lt_of_succ_lt hn))

theorem accAt1_first (c : Dev nD) (t : Fin cfg1.N) (h0 : t.val % 16 = 0) :
    accAt1 V c t.val t.isLt = firstAcc1 V c t h0 := by
  obtain ⟨n, hn⟩ := t
  cases n with
  | zero => rfl
  | succ n => exact dif_pos h0
theorem accAt1_mid (c : Dev nD) (t : Fin cfg1.N) (h0 : ¬t.val % 16 = 0) (h1 : ¬t.val % 16 = 15) :
    accAt1 V c t.val t.isLt = midAcc1 V c t h0 h1 (accAt1 V c (t.val - 1) (Nat.lt_of_le_of_lt (Nat.sub_le _ _) t.isLt)) := by
  obtain ⟨n, hn⟩ := t
  cases n with
  | zero => exact absurd (Nat.zero_mod _) h0
  | succ n => exact (dif_neg h0).trans (dif_neg h1)
theorem accAt1_last (c : Dev nD) (t : Fin cfg1.N) (h0 : ¬t.val % 16 = 0) (h1 : t.val % 16 = 15) :
    accAt1 V c t.val t.isLt = lastAcc1 V c t h0 h1 (accAt1 V c (t.val - 1) (Nat.lt_of_le_of_lt (Nat.sub_le _ _) t.isLt)) := by
  obtain ⟨n, hn⟩ := t
  cases n with
  | zero => exact absurd (Nat.zero_mod _) h0
  | succ n => exact (dif_neg h0).trans (dif_pos h1)

/-- The result block after point `t`: named at a last column block only. -/
def outAt1 (c : Dev nD) (t : Fin cfg1.N) : Vec F S1024x2 .f32 :=
  if h1 : t.val % 16 = 15 then
    lastOut1 V c t (by omega) h1 (accAt1 V c (t.val - 1) (Nat.lt_of_le_of_lt (Nat.sub_le _ _) t.isLt))
  else outV1.read (Elt F) outV1.junk

/-! ## The invariant between points -/

/-- The core's scoped buffers other than the running column's (the other kernel's staging buffers and scratch),
    each at some contents: they ride along untouched. -/
def rest1 (c : Dev nD) : sProp 𝕄 :=
  bigSep (((Finset.univ.filter fun b : Ref sig .tc => b.isScoped) \ Finset.univ.image (Pipeline.stageRef spec1)).erase cc1_scratch0)
    fun b => iprop(∃ f : Buf (Elt F) ((c.tc : Thread nD τ).loc b), ((c.tc : Thread nD τ).loc b) ↦{fullShare} f)

theorem scopedRest1_acc (c : Dev nD) :
    (Pipeline.scopedRest (Ix := Unit) (Name := ℕ) (U := UR sig nD τ) (Lvl := ℕ) (Val := Elt F) spec1 c : sProp 𝕄)
      = iprop((∃ f : Buf (Elt F) ((c.tc : Thread nD τ).loc cc1_scratch0), ((c.tc : Thread nD τ).loc cc1_scratch0) ↦{fullShare} f) ∗ rest1 (F := F) c) := by
  unfold Pipeline.scopedRest rest1
  exact bigSep_erase (by decide)

/-- What the region hands the body before the first point: the running column's buffer at anything, the other
    scoped buffers, the generator register at some state. -/
theorem PhiA1_eq (c : Dev nD) :
    (Pipeline.ΦA spec1 c : sProp 𝕄)
      = iprop(((∃ d, owns (c : Thread nD τ) acc1 fullShare d) ∗ rest1 (F := F) c) ∗ (∃ r, prngReg c r)) := by
  unfold Pipeline.ΦA; rw [scopedRest1_acc]; simp only [acc1, owns_whole]; rfl

/-- The invariant before the point numbered `n`: at first the region's own; afterwards the running column at
    what the point before left, the rest as before. -/
def PhiS1 (c : Dev nD) : (n : ℕ) → n ≤ cfg1.N → sProp 𝕄
  | 0, _ => Pipeline.ΦA spec1 c
  | n + 1, hn => iprop((owns (c : Thread nD τ) acc1 fullShare (accAt1 V c n hn) ∗ rest1 (F := F) c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop((owns (c : Thread nD τ) acc1 fullShare (accAt1 V c n hn) ∗ rest1 (F := F) c) ∗ (∃ r, prngReg c r)) := rfl
theorem PhiS1_pos (c : Dev nD) (n : ℕ) (h : n ≤ cfg1.N) (hz : n ≠ 0) :
    PhiS1 V c n h = iprop((owns (c : Thread nD τ) acc1 fullShare (accAt1 V c (n - 1) (by omega)) ∗ rest1 (F := F) c) ∗ (∃ r, prngReg c r)) := by
  cases n with
  | zero => exact absurd rfl hz
  | succ n => rfl

/-! ## The proof data -/

/-- Two input windows reading one array hold a half of the full share each. -/
abbrev shareOf1 : Fin cfg1.W → PosShare TreeShare
  | ⟨0, _⟩ => fullShare.left | ⟨1, _⟩ => fullShare.right
  | ⟨2, _⟩ => fullShare.left | ⟨3, _⟩ => fullShare.right
  | _ => fullShare

def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => blk1 V c 5 t
    | ⟨6, _⟩ => blk1 V c 6 t
    | ⟨7, _⟩ => outAt1 V c t
  Φ t := PhiS1 V c t.val (Nat.le_of_lt_succ t.isLt)
  q := shareOf1
  owed _ := 0

theorem A1_eq (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = blk1 V c 2 t := by dsimp only [dat1]
theorem after1_3 (c : Dev nD) (t : Fin cfg1.N) : (dat1 V c).after 3 t = blk1 V c 3 t := by dsimp only [dat1]
theorem after1_4 (c : Dev nD) (t : Fin cfg1.N) : (dat1 V c).after 4 t = blk1 V c 4 t := by dsimp only [dat1]
theorem after1_5 (c : Dev nD) (t : Fin cfg1.N) : (dat1 V c).after 5 t = blk1 V c 5 t := by dsimp only [dat1]
theorem after1_6 (c : Dev nD) (t : Fin cfg1.N) : (dat1 V c).after 6 t = blk1 V c 6 t := by dsimp only [dat1]
theorem after1_7 (c : Dev nD) (t : Fin cfg1.N) : (dat1 V c).after 7 t = outAt1 V c t := by dsimp only [dat1]

theorem before1_0 (c : Dev nD) (t : Fin cfg1.N) (d) : (dat1 V c).before 0 t d = blk1 V c 0 t :=
  ((dat1 V c).before_in_eq_fetched 0 rfl (fun _ => rfl) (fun _ _ _ => rfl) (fun t => by rw [after1_0]; unfold Dat.blockOf blk1; rw [A1_eq]; try rfl) t d).trans
    (by unfold Dat.fetched Dat.blockOf blk1; rw [A1_eq]; try rfl)
theorem leaves1_0 (c : Dev nD) (t : Fin cfg1.N) :
    (dat1 V c).leavesExact 0 t = owns (c : Thread nD τ) (ms1_0 t) fullShare (blk1 V c 0 t) := by
  unfold Dat.leavesExact; rw [live1_in 0 (by decide) t, after1_0]
theorem before1_1 (c : Dev nD) (t : Fin cfg1.N) (d) : (dat1 V c).before 1 t d = blk1 V c 1 t :=
  ((dat1 V c).before_in_eq_fetched 1 rfl (fun _ => rfl) (fun _ _ _ => rfl) (fun t => by rw [after1_1]; unfold Dat.blockOf blk1; rw [A1_eq]; try rfl) t d).trans
    (by unfold Dat.fetched Dat.blockOf blk1; rw [A1_eq]; try rfl)
theorem leaves1_1 (c : Dev nD) (t : Fin cfg1.N) :
    (dat1 V c).leavesExact 1 t = owns (c : Thread nD τ) (ms1_1 t) fullShare (blk1 V c 1 t) := by
  unfold Dat.leavesExact; rw [live1_in 1 (by decide) t, after1_1]
theorem before1_2 (c : Dev nD) (t : Fin cfg1.N) (d) : (dat1 V c).before 2 t d = blk1 V c 2 t :=
  ((dat1 V c).before_in_eq_fetched 2 rfl (fun _ => rfl) (fun _ _ _ => rfl) (fun t => by rw [after1_2]; unfold Dat.blockOf blk1; rw [A1_eq]; try rfl) t d).trans
    (by unfold Dat.fetched Dat.blockOf blk1; rw [A1_eq]; try rfl)
theorem leaves1_2 (c : Dev nD) (t : Fin cfg1.N) :
    (dat1 V c).leavesExact 2 t = owns (c : Thread nD τ) (ms1_2 t) fullShare (blk1 V c 2 t) := by
  unfold Dat.leavesExact; rw [live1_in 2 (by decide) t, after1_2]
theorem before1_3 (c : Dev nD) (t : Fin cfg1.N) (d) : (dat1 V c).before 3 t d = blk1 V c 3 t :=
  ((dat1 V c).before_in_eq_fetched 3 rfl (fun _ => rfl) (fun _ _ _ => rfl) (fun t => by rw [after1_3]; unfold Dat.blockOf blk1; rw [A1_eq]; try rfl) t d).trans
    (by unfold Dat.fetched Dat.blockOf blk1; rw [A1_eq]; try rfl)
theorem leaves1_3 (c : Dev nD) (t : Fin cfg1.N) :
    (dat1 V c).leavesExact 3 t = owns (c : Thread nD τ) (ms1_3 t) fullShare (blk1 V c 3 t) := by
  unfold Dat.leavesExact; rw [live1_in 3 (by decide) t, after1_3]
theorem before1_4 (c : Dev nD) (t : Fin cfg1.N) (d) : (dat1 V c).before 4 t d = blk1 V c 4 t :=
  ((dat1 V c).before_in_eq_fetched 4 rfl (fun _ => rfl) (fun _ _ _ => rfl) (fun t => by rw [after1_4]; unfold Dat.blockOf blk1; rw [A1_eq]; try rfl) t d).trans
    (by unfold Dat.fetched Dat.blockOf blk1; rw [A1_eq]; try rfl)
theorem leaves1_4 (c : Dev nD) (t : Fin cfg1.N) :
    (dat1 V c).leavesExact 4 t = owns (c : Thread nD τ) (ms1_4 t) fullShare (blk1 V c 4 t) := by
  unfold Dat.leavesExact; rw [live1_in 4 (by decide) t, after1_4]
theorem before1_5 (c : Dev nD) (t : Fin cfg1.N) (d) : (dat1 V c).before 5 t d = blk1 V c 5 t :=
  ((dat1 V c).before_in_eq_fetched 5 rfl (fun _ => rfl) (fun _ _ _ => rfl) (fun t => by rw [after1_5]; unfold Dat.blockOf blk1; rw [A1_eq]; try rfl) t d).trans
    (by unfold Dat.fetched Dat.blockOf blk1; rw [A1_eq]; try rfl)
theorem leaves1_5 (c : Dev nD) (t : Fin cfg1.N) :
    (dat1 V c).leavesExact 5 t = owns (c : Thread nD τ) (ms1_5 t) fullShare (blk1 V c 5 t) := by
  unfold Dat.leavesExact; rw [live1_in 5 (by decide) t, after1_5]
theorem before1_6 (c : Dev nD) (t : Fin cfg1.N) (d) : (dat1 V c).before 6 t d = blk1 V c 6 t :=
  ((dat1 V c).before_in_eq_fetched 6 rfl (fun _ => rfl) (fun _ _ _ => rfl) (fun t => by rw [after1_6]; unfold Dat.blockOf blk1; rw [A1_eq]; try rfl) t d).trans
    (by unfold Dat.fetched Dat.blockOf blk1; rw [A1_eq]; try rfl)
theorem leaves1_6 (c : Dev nD) (t : Fin cfg1.N) :
    (dat1 V c).leavesExact 6 t = owns (c : Thread nD τ) (ms1_6 t) fullShare (blk1 V c 6 t) := by
  unfold Dat.leavesExact; rw [live1_in 6 (by decide) t, after1_6]

end Cert.Kernel.Hand

end
-- ==== Proof.Bits.Loss.Body.lean ====
/-
  The loss kernel's body obligation: at every point of the grid the body, called on the windows' current
  staging buffers holding what the proof data says they hold before the point, runs to the end and leaves them
  holding what the proof data says they hold after it, the running column passing through the invariant.
  The three kinds of point (first, middle, last column block of a row block) are told apart by the point's number
  modulo 16, and each is closed by that kind's run of the body.
-/
import proofs.«155278_j51788715655787_1_alg».proof.Proof.Bits.Loss.Data

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t)

theorem outAt1_last (c : Dev nD) (t : Fin cfg1.N) (h0 : ¬t.val % 16 = 0) (h1 : t.val % 16 = 15) :
    outAt1 V c t = lastOut1 V c t h0 h1 (accAt1 V c (t.val - 1) (Nat.lt_of_le_of_lt (Nat.sub_le _ _) t.isLt)) := by
  unfold outAt1; rw [dif_pos h1]

set_option maxHeartbeats 8000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).owesAt () t.succ = (dat1 V c).owesAt () t.castSucc from rfl]
  rw [show (dat1 V c).Φ t.succ = PhiS1 V c (t.val + 1) t.isLt from rfl, PhiS1_succ]
  rw [leaves1_0, leaves1_1, leaves1_2, leaves1_3, leaves1_4, leaves1_5, leaves1_6]
  have hN : t.val < 128 := lt_of_lt_of_eq t.isLt (show cfg1.N = 128 from N_1)
  by_cases h0 : t.val % 16 = 0
  · have h1 : ¬t.val % 16 = 15 := by omega
    rw [Dat.leavesExact_idle (dat1 V c) 7 t (idle1_out t (not_emits1_of t h1)) (noflush1_out t (not_emits1_of t h1))]
    rw [accAt1_first V c t h0]
    unfold firstAcc1
    by_cases hz : t.val = 0
    · rw [PhiS1_castSucc V c t, PhiS1_zero V c _ _ hz, PhiA1_eq]
      iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runFirst1 c (grid1.coords t) _ _ _ _ _ _ _ _ _ _ _ _ _ _ _ _ _ _ ((resets1_iff t).mpr h0) (not_emits1_of_first t h0) (blk1 V c 0 t) (blk1 V c 1 t) (blk1 V c 2 t) (blk1 V c 3 t) (blk1 V c 4 t) (blk1 V c 5 t) (blk1 V c 6 t)).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS]; · iexact HS
      iintro ⟨H0, H1, H2, H3, H4, H5, H6, H7, ⟨%es, HS⟩⟩
      isplitl [HS HR Hg]
      · isplitl [HS HR]
        · isplitl [HS]
          · unfold owns; iexists _; isplitr
            swap; · iexact HS
            ipureintro; exact View.read_writes_of_cover _ _ _ _ _ (cover_firstAcc1 V c t h0)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7
    · rw [PhiS1_castSucc V c t, PhiS1_pos V c _ _ hz]
      iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runFirst1 c (grid1.coords t) _ _ _ _ _ _ _ _ _ _ _ _ _ _ _ _ _ _ ((resets1_iff t).mpr h0) (not_emits1_of_first t h0) (blk1 V c 0 t) (blk1 V c 1 t) (blk1 V c 2 t) (blk1 V c 3 t) (blk1 V c 4 t) (blk1 V c 5 t) (blk1 V c 6 t)).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS]; · iexists _; iexact HS
      iintro ⟨H0, H1, H2, H3, H4, H5, H6, H7, ⟨%es, HS⟩⟩
      isplitl [HS HR Hg]
      · isplitl [HS HR]
        · isplitl [HS]
          · unfold owns; iexists _; isplitr
            swap; · iexact HS
            ipureintro; exact View.read_writes_of_cover _ _ _ _ _ (cover_firstAcc1 V c t h0)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7
  · have hz : t.val ≠ 0 := fun e => h0 (by rw [e])
    by_cases h1 : t.val % 16 = 15
    · rw [show (dat1 V c).leavesExact 7 t = owns (c : Thread nD τ) (ms1_7 t) fullShare (outAt1 V c t) from by
        unfold Dat.leavesExact; rw [live1_out t ((emits1_iff t).mpr h1), after1_7]]
      rw [outAt1_last V c t h0 h1, accAt1_last V c t h0 h1]
      unfold lastOut1 lastAcc1
      rw [PhiS1_castSucc V c t, PhiS1_pos V c _ _ hz]
      iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runLast1 c (grid1.coords t) _ _ _ _ _ _ _ _ _ _ _ _ _ _ _ _ _ _ (not_resets1_of t h0) ((emits1_iff t).mpr h1) (blk1 V c 0 t) (blk1 V c 1 t) (blk1 V c 2 t) (blk1 V c 3 t) (blk1 V c 4 t) (blk1 V c 5 t) (blk1 V c 6 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS]; · iexact HS
      iintro ⟨H0, H1, H2, H3, H4, H5, H6, ⟨%eo, H7⟩, ⟨%es, HS⟩⟩
      isplitl [HS HR Hg]
      · isplitl [HS HR]
        · isplitl [HS]
          · unfold owns; iexists _; isplitr
            swap; · iexact HS
            ipureintro; exact View.read_writes_of_cover _ _ _ _ _ (cover_lastAcc1 V c t h0 h1 _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      unfold owns; iexists _; isplitr
      swap; · iexact H7
      ipureintro; exact View.read_writes_of_cover _ _ _ _ _ (cover_lastOut1 V c t h0 h1 _)
    · rw [Dat.leavesExact_idle (dat1 V c) 7 t (idle1_out t (not_emits1_of t h1)) (noflush1_out t (not_emits1_of t h1))]
      rw [accAt1_mid V c t h0 h1]
      unfold midAcc1
      rw [PhiS1_castSucc V c t, PhiS1_pos V c _ _ hz]
      iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runMid1 c (grid1.coords t) _ _ _ _ _ _ _ _ _ _ _ _ _ _ _ _ _ _ (not_resets1_of t h0) (not_emits1_of t h1) (blk1 V c 0 t) (blk1 V c 1 t) (blk1 V c 2 t) (blk1 V c 3 t) (blk1 V c 4 t) (blk1 V c 5 t) (blk1 V c 6 t) _).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS]; · iexact HS
      iintro ⟨H0, H1, H2, H3, H4, H5, H6, H7, ⟨%es, HS⟩⟩
      isplitl [HS HR Hg]
      · isplitl [HS HR]
        · isplitl [HS]
          · unfold owns; iexists _; isplitr
            swap; · iexact HS
            ipureintro; exact View.read_writes_of_cover _ _ _ _ _ (cover_midAcc1 V c t h0 h1 _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the region hands the body before the first point is the invariant there. -/
theorem hin1 (c : Dev nD) : (Pipeline.ΦA spec1 c : sProp 𝕄) ⊢ (dat1 V c).Φ 0 := by
  rw [show (dat1 V c).Φ 0 = PhiS1 V c 0 (Nat.zero_le _) from rfl, PhiS1_zero V c 0 _ rfl]

/-- After the last point the invariant gives the region's own back: the running column's contents are forgotten. -/
theorem hout1 (c : Dev nD) : (dat1 V c).Φ (Fin.last cfg1.N) ⊢ (Pipeline.ΦA spec1 c : sProp 𝕄) := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 128 := N_1; omega), PhiA1_eq]
  iintro ⟨⟨HS, HR⟩, Hg⟩
  isplitl [HS HR]
  · isplitl [HS]
    · iexists _; iexact HS
    iexact HR
  iexact Hg

end Cert.Kernel.Hand

end
-- ==== Proof.Bits.Loss.Arrays.lean ====
/-
  The loss kernel's arrays at its region's ends.

  The region is entered with every unscoped buffer of the core held whole. The kernel's windows read 6 distinct
  buffers; the normalized embeddings and the labels are each read through two windows (a row block and a column
  block), so each of those two buffers is dealt to its two windows in halves, and the halves are joined again when
  the region is left. Only the result buffer changes: at the exit it holds what the write-backs left.
-/
import proofs.«155278_j51788715655787_1_alg».proof.Proof.Bits.Loss.Body

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Each window's array is a whole buffer, held at the window's share. -/
theorem arr1_w0 (c : Dev nD) (X : Buf (Elt F) ((cfg1.win 0).arr.view.loc (c.tc : Thread nD τ))) :
    (((cfg1.win 0).arr.view.loc (c.tc : Thread nD τ)) ↦[(cfg1.win 0).arr.view.set]{(dat1 V c).share 0} X : sProp 𝕄)
      = (((c.tc : Thread nD τ).loc main_v12) ↦{fullShare.left} X) := by
  rw [(arr_whole1 0).set_eq_univ]; rfl
theorem arr1_w1 (c : Dev nD) (X : Buf (Elt F) ((cfg1.win 1).arr.view.loc (c.tc : Thread nD τ))) :
    (((cfg1.win 1).arr.view.loc (c.tc : Thread nD τ)) ↦[(cfg1.win 1).arr.view.set]{(dat1 V c).share 1} X : sProp 𝕄)
      = (((c.tc : Thread nD τ).loc main_v12) ↦{fullShare.right} X) := by
  rw [(arr_whole1 1).set_eq_univ]; rfl
theorem arr1_w2 (c : Dev nD) (X : Buf (Elt F) ((cfg1.win 2).arr.view.loc (c.tc : Thread nD τ))) :
    (((cfg1.win 2).arr.view.loc (c.tc : Thread nD τ)) ↦[(cfg1.win 2).arr.view.set]{(dat1 V c).share 2} X : sProp 𝕄)
      = (((c.tc : Thread nD τ).loc main_v13) ↦{fullShare.left} X) := by
  rw [(arr_whole1 2).set_eq_univ]; rfl
theorem arr1_w3 (c : Dev nD) (X : Buf (Elt F) ((cfg1.win 3).arr.view.loc (c.tc : Thread nD τ))) :
    (((cfg1.win 3).arr.view.loc (c.tc : Thread nD τ)) ↦[(cfg1.win 3).arr.view.set]{(dat1 V c).share 3} X : sProp 𝕄)
      = (((c.tc : Thread nD τ).loc main_v13) ↦{fullShare.right} X) := by
  rw [(arr_whole1 3).set_eq_univ]; rfl
theorem arr1_w4 (c : Dev nD) (X : Buf (Elt F) ((cfg1.win 4).arr.view.loc (c.tc : Thread nD τ))) :
    (((cfg1.win 4).arr.view.loc (c.tc : Thread nD τ)) ↦[(cfg1.win 4).arr.view.set]{(dat1 V c).share 4} X : sProp 𝕄)
      = (((c.tc : Thread nD τ).loc main_v10) ↦{fullShare} X) := by
  rw [(arr_whole1 4).set_eq_univ]; rfl
theorem arr1_w5 (c : Dev nD) (X : Buf (Elt F) ((cfg1.win 5).arr.view.loc (c.tc : Thread nD τ))) :
    (((cfg1.win 5).arr.view.loc (c.tc : Thread nD τ)) ↦[(cfg1.win 5).arr.view.set]{(dat1 V c).share 5} X : sProp 𝕄)
      = (((c.tc : Thread nD τ).loc main_v11) ↦{fullShare} X) := by
  rw [(arr_whole1 5).set_eq_univ]; rfl
theorem arr1_w6 (c : Dev nD) (X : Buf (Elt F) ((cfg1.win 6).arr.view.loc (c.tc : Thread nD τ))) :
    (((cfg1.win 6).arr.view.loc (c.tc : Thread nD τ)) ↦[(cfg1.win 6).arr.view.set]{(dat1 V c).share 6} X : sProp 𝕄)
      = (((c.tc : Thread nD τ).loc main_v14) ↦{fullShare} X) := by
  rw [(arr_whole1 6).set_eq_univ]; rfl
theorem arr1_w7 (c : Dev nD) (X : Buf (Elt F) ((cfg1.win 7).arr.view.loc (c.tc : Thread nD τ))) :
    (((cfg1.win 7).arr.view.loc (c.tc : Thread nD τ)) ↦[(cfg1.win 7).arr.view.set]{(dat1 V c).share 7} X : sProp 𝕄)
      = (((c.tc : Thread nD τ).loc main_v15) ↦{fullShare} X) := by
  rw [(arr_whole1 7).set_eq_univ]; rfl

/-- The windows' arrays, one by one, each at its share. -/
theorem arrays1_eq (c : Dev nD) (F : (w : Fin cfg1.W) → Buf (Elt F) ((cfg1.win w).arr.view.loc (c.tc : Thread nD τ))) :
    ((dat1 V c).arrays F : sProp 𝕄) = iprop((((c.tc : Thread nD τ).loc main_v12) ↦{fullShare.left} F 0)
      ∗ (((c.tc : Thread nD τ).loc main_v12) ↦{fullShare.right} F 1)
      ∗ (((c.tc : Thread nD τ).loc main_v13) ↦{fullShare.left} F 2)
      ∗ (((c.tc : Thread nD τ).loc main_v13) ↦{fullShare.right} F 3)
      ∗ (((c.tc : Thread nD τ).loc main_v10) ↦{fullShare} F 4)
      ∗ (((c.tc : Thread nD τ).loc main_v11) ↦{fullShare} F 5)
      ∗ (((c.tc : Thread nD τ).loc main_v14) ↦{fullShare} F 6)
      ∗ (((c.tc : Thread nD τ).loc main_v15) ↦{fullShare} F 7)) := by
  unfold Dat.arrays; rw [bigSep_W1]
  exact congrArg₂ BI.sep (arr1_w0 V c _) (congrArg₂ BI.sep (arr1_w1 V c _) (congrArg₂ BI.sep (arr1_w2 V c _) (congrArg₂ BI.sep (arr1_w3 V c _) (congrArg₂ BI.sep (arr1_w4 V c _) (congrArg₂ BI.sep (arr1_w5 V c _) (congrArg₂ BI.sep (arr1_w6 V c _) (arr1_w7 V c _)))))))

/-- The distinct buffers behind the windows, one by one, each whole. -/
theorem arrBufs1_eq (c : Dev nD) (W : (b : Ref sig .tc) → Buf (Elt F) ((c.tc : Thread nD τ).loc b)) :
    (Pipeline.arrBufs (Ix := Unit) (Name := ℕ) (U := UR sig nD τ) (Lvl := ℕ) spec1 c W : sProp 𝕄) = iprop((((c.tc : Thread nD τ).loc main_v12) ↦{fullShare} W main_v12)
      ∗ (((c.tc : Thread nD τ).loc main_v13) ↦{fullShare} W main_v13)
      ∗ (((c.tc : Thread nD τ).loc main_v10) ↦{fullShare} W main_v10)
      ∗ (((c.tc : Thread nD τ).loc main_v11) ↦{fullShare} W main_v11)
      ∗ (((c.tc : Thread nD τ).loc main_v14) ↦{fullShare} W main_v14)
      ∗ (((c.tc : Thread nD τ).loc main_v15) ↦{fullShare} W main_v15)) := by
  unfold Pipeline.arrBufs
  rw [show Finset.univ.image (Pipeline.arrRef spec1) = ({main_v12, main_v13, main_v10, main_v11, main_v14, main_v15} : Finset (Ref sig .tc)) from by decide]
  rw [bigSep_insert (by decide), bigSep_insert (by decide), bigSep_insert (by decide), bigSep_insert (by decide), bigSep_insert (by decide), bigSep_singleton]
  rfl

/-- A core's unscoped buffers are the buffers behind the windows and the rest. -/
theorem unscopedBufs1_split (c : Dev nD) (W : (b : Ref sig .tc) → Buf (Elt F) ((c.tc : Thread nD τ).loc b)) :
    (unscopedBufs c W : sProp 𝕄) = iprop(Pipeline.arrBufs (Ix := Unit) (Name := ℕ) (U := UR sig nD τ) (Lvl := ℕ) spec1 c W
      ∗ Pipeline.unscopedRest (Ix := Unit) (Name := ℕ) (U := UR sig nD τ) (Lvl := ℕ) spec1 c W) := by
  unfold unscopedBufs Pipeline.unscopedRest Pipeline.arrBufs
  exact bigSep_sdiff_split (by decide)

/-- An input window's array is never written: it holds its entry contents throughout. -/
theorem arrAt1_in0 (c : Dev nD) (n : ℕ) : (dat1 V c).arrAt 0 n = V c main_v12 :=
  ((dat1 V c).arrAt_in 0 rfl n).trans (A1_eq V c 0)
theorem arrAt1_in1 (c : Dev nD) (n : ℕ) : (dat1 V c).arrAt 1 n = V c main_v12 :=
  ((dat1 V c).arrAt_in 1 rfl n).trans (A1_eq V c 1)
theorem arrAt1_in2 (c : Dev nD) (n : ℕ) : (dat1 V c).arrAt 2 n = V c main_v13 :=
  ((dat1 V c).arrAt_in 2 rfl n).trans (A1_eq V c 2)
theorem arrAt1_in3 (c : Dev nD) (n : ℕ) : (dat1 V c).arrAt 3 n = V c main_v13 :=
  ((dat1 V c).arrAt_in 3 rfl n).trans (A1_eq V c 3)
theorem arrAt1_in4 (c : Dev nD) (n : ℕ) : (dat1 V c).arrAt 4 n = V c main_v10 :=
  ((dat1 V c).arrAt_in 4 rfl n).trans (A1_eq V c 4)
theorem arrAt1_in5 (c : Dev nD) (n : ℕ) : (dat1 V c).arrAt 5 n = V c main_v11 :=
  ((dat1 V c).arrAt_in 5 rfl n).trans (A1_eq V c 5)
theorem arrAt1_in6 (c : Dev nD) (n : ℕ) : (dat1 V c).arrAt 6 n = V c main_v14 :=
  ((dat1 V c).arrAt_in 6 rfl n).trans (A1_eq V c 6)

/-- ENTRY: the buffers behind the windows, whole at the entry contents, dealt to the windows. -/
theorem arrays1_of_bufs (c : Dev nD) :
    (Pipeline.arrBufs (Ix := Unit) (Name := ℕ) (U := UR sig nD τ) (Lvl := ℕ) spec1 c (V c) : sProp 𝕄)
      ⊢ (dat1 V c).arrays ((dat1 V c).arrAt · 0) := by
  rw [arrBufs1_eq, arrays1_eq]
  iintro ⟨H12, H13, H10, H11, H14, H15⟩
  ihave S12 := (pointsTo_share (PosShare.mem_left_op_right fullShare)).1 $$ H12
  icases S12 with ⟨H12l, H12r⟩
  ihave S13 := (pointsTo_share (PosShare.mem_left_op_right fullShare)).1 $$ H13
  icases S13 with ⟨H13l, H13r⟩
  isplitl [H12l]; · iexact H12l
  isplitl [H12r]; · iexact H12r
  isplitl [H13l]; · iexact H13l
  isplitl [H13r]; · iexact H13r
  isplitl [H10]; · iexact H10
  isplitl [H11]; · iexact H11
  isplitl [H14]; · iexact H14
  iexact H15

/-- EXIT: the windows' arrays after the last point joined into the buffers behind them — the inputs' as entered,
    the result's at what the write-backs left. -/
theorem bufs1_of_arrays (c : Dev nD) (W : (b : Ref sig .tc) → Buf (Elt F) ((c.tc : Thread nD τ).loc b))
    (hin : ∀ b, b ≠ main_v15 → W b = V c b) (hout : W main_v15 = (dat1 V c).arrAt 7 cfg1.N) :
    ((dat1 V c).arrays ((dat1 V c).arrAt · cfg1.N) : sProp 𝕄)
      ⊢ Pipeline.arrBufs (Ix := Unit) (Name := ℕ) (U := UR sig nD τ) (Lvl := ℕ) spec1 c W := by
  rw [arrBufs1_eq, arrays1_eq]
  rw [arrAt1_in0, arrAt1_in1, arrAt1_in2, arrAt1_in3, arrAt1_in4, arrAt1_in5, arrAt1_in6, ← hout]
  rw [hin main_v12 (by decide), hin main_v13 (by decide), hin main_v10 (by decide), hin main_v11 (by decide), hin main_v14 (by decide)]
  iintro ⟨A0, A1, A2, A3, A4, A5, A6, A7⟩
  isplitl [A0 A1]
  · iapply (pointsTo_share (PosShare.mem_left_op_right fullShare)).2
    isplitl [A0] <;> iassumption
  isplitl [A2 A3]
  · iapply (pointsTo_share (PosShare.mem_left_op_right fullShare)).2
    isplitl [A2] <;> iassumption
  isplitl [A4]; · iexact A4
  isplitl [A5]; · iexact A5
  isplitl [A6]; · iexact A6
  iexact A7

end Cert.Kernel.Hand

end
-- ==== Proof.Bits.Run.lean ====
/-
  The whole program's run: five stretches in order — the host operations that normalize the embeddings and form the
  per-row auxiliaries, the statistics kernel, the loss kernel, and the host operations that reduce the per-row results
  to the scalar loss.

  Between two stretches every unscoped buffer of a core is held whole at a known valuation: the launch memory, then
  each host stretch applied, then each kernel's result buffer replaced by what that kernel's write-backs leave. The
  final state holds every unscoped buffer at the last valuation; the frame claim and the value of the results are
  read off it.
-/
import proofs.«155278_j51788715655787_1_alg».proof.Proof.Bits.Stats.Arrays
import proofs.«155278_j51788715655787_1_alg».proof.Proof.Bits.Loss.Arrays
import proofs.«155278_j51788715655787_1_alg».proof.Proof.Gen.Kernel.Regions
import Idealize.ShloMosaic.Lib.Pipeline.RegionsLoop
import Idealize.ShloMosaic.Lib.Pipeline.FrameSuffix

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between the stretches -/

/-- Core `c`'s buffers at launch, -/
abbrev W0 : Dev nD → Valuation τ sig (Elt F) := fun c b => m (c, b)
/-- after the row norms, -/
abbrev W1 : Dev nD → Valuation τ sig (Elt F) := fun c => StableHlo.after hostOps0 (W0 m c)
/-- after the normalization and the auxiliaries (the statistics kernel's entry), -/
abbrev W2 : Dev nD → Valuation τ sig (Elt F) := fun c => StableHlo.after hostOps0_1 (W1 m c)
abbrev V2 : (c : Dev nD) → (b : Ref sig .tc) → Buf (Elt F) ((c : Thread nD τ).loc b) := fun c b => W2 m c b
/-- after the statistics kernel: its result buffer at what its write-backs leave (the loss kernel's entry), -/
def W3 (c : Dev nD) : Valuation τ sig (Elt F) :=
  Function.update (W2 m c) main_v14 ((dat0 (V2 m) c).arrAt 6 cfg0.N)
abbrev V3 : (c : Dev nD) → (b : Ref sig .tc) → Buf (Elt F) ((c : Thread nD τ).loc b) := fun c b => W3 m c b
/-- after the loss kernel: its result buffer at what its write-backs leave, -/
def W4 (c : Dev nD) : Valuation τ sig (Elt F) :=
  Function.update (W3 m c) main_v15 ((dat1 (V3 m) c).arrAt 7 cfg1.N)
abbrev V4 : (c : Dev nD) → (b : Ref sig .tc) → Buf (Elt F) ((c : Thread nD τ).loc b) := fun c b => W4 m c b
/-- and after the final reductions. -/
abbrev W5 : Dev nD → Valuation τ sig (Elt F) := fun c => StableHlo.after hostOps2 (W4 m c)

theorem W3_of_ne (c : Dev nD) (b : Ref sig .tc) (h : b ≠ main_v14) : W3 m c b = W2 m c b := by
  unfold W3
  exact Function.update_of_ne (StableHlo.devRef_ne_of_ne h : (Proc.devRef .tc b : DevRef τ sig) ≠ Proc.devRef .tc main_v14) _ _
theorem W3_self (c : Dev nD) : W3 m c main_v14 = (dat0 (V2 m) c).arrAt 6 cfg0.N := by
  unfold W3; exact Function.update_self _ _ _
theorem W4_of_ne (c : Dev nD) (b : Ref sig .tc) (h : b ≠ main_v15) : W4 m c b = W3 m c b := by
  unfold W4
  exact Function.update_of_ne (StableHlo.devRef_ne_of_ne h : (Proc.devRef .tc b : DevRef τ sig) ≠ Proc.devRef .tc main_v15) _ _
theorem W4_self (c : Dev nD) : W4 m c main_v15 = (dat1 (V3 m) c).arrAt 7 cfg1.N := by
  unfold W4; exact Function.update_self _ _ _

/-! ## The kernels' regions entered and left -/

/-- The unscoped buffers no window reads are held alike at two valuations that agree off the windows' buffers. -/
theorem unscopedRest_congr {gr Wn : Nat} (win : Fin Wn → Pipeline.WinSpec sig gr) (c : Dev nD)
    (A B : (b : Ref sig .tc) → Buf (Elt F) ((c.tc : Thread nD τ).loc b))
    (h : ∀ b, b ∉ Finset.univ.image (Pipeline.arrRef win) → B b = A b) :
    (Pipeline.unscopedRest (Ix := Unit) (Name := ℕ) (U := UR sig nD τ) (Lvl := ℕ) win c A : sProp 𝕄)
      = Pipeline.unscopedRest (Ix := Unit) (Name := ℕ) (U := UR sig nD τ) (Lvl := ℕ) win c B := by
  unfold Pipeline.unscopedRest
  exact bigSep_congr fun b hb => by rw [h b (Finset.mem_sdiff.mp hb).2]

theorem enter0 (c : Dev nD) :
    (StableHlo.held (c : Thread nD τ) (Pipeline.ucRefs τ sig) (W2 m c) : sProp 𝕄)
      ⊢ iprop((dat0 (V2 m) c).arrays ((dat0 (V2 m) c).arrAt · 0)
          ∗ Pipeline.unscopedRest (Ix := Unit) (Name := ℕ) (U := UR sig nD τ) (Lvl := ℕ) spec0 c (V2 m c)) := by
  rw [← Pipeline.unscopedBufs_held c (W2 m c), unscopedBufs0_split]
  exact sep_mono (arrays0_of_bufs (V2 m) c) .rfl

theorem leave0 (c : Dev nD) :
    (iprop((dat0 (V2 m) c).arrays ((dat0 (V2 m) c).arrAt · cfg0.N)
        ∗ Pipeline.unscopedRest (Ix := Unit) (Name := ℕ) (U := UR sig nD τ) (Lvl := ℕ) spec0 c (V2 m c)) : sProp 𝕄)
      ⊢ StableHlo.held (c : Thread nD τ) (Pipeline.ucRefs τ sig) (W3 m c) := by
  rw [← Pipeline.unscopedBufs_held c (W3 m c), unscopedBufs0_split]
  refine sep_mono (bufs0_of_arrays (V2 m) c _ (fun b hb => W3_of_ne m c b hb) (W3_self m c)) (Entails.of_eq ?_)
  exact unscopedRest_congr spec0 c _ _ fun b hb => W3_of_ne m c b (fun e => hb (by rw [e]; decide))

theorem enter1 (c : Dev nD) :
    (StableHlo.held (c : Thread nD τ) (Pipeline.ucRefs τ sig) (W3 m c) : sProp 𝕄)
      ⊢ iprop((dat1 (V3 m) c).arrays ((dat1 (V3 m) c).arrAt · 0)
          ∗ Pipeline.unscopedRest (Ix := Unit) (Name := ℕ) (U := UR sig nD τ) (Lvl := ℕ) spec1 c (V3 m c)) := by
  rw [← Pipeline.unscopedBufs_held c (W3 m c), unscopedBufs1_split]
  exact sep_mono (arrays1_of_bufs (V3 m) c) .rfl

theorem leave1 (c : Dev nD) :
    (iprop((dat1 (V3 m) c).arrays ((dat1 (V3 m) c).arrAt · cfg1.N)
        ∗ Pipeline.unscopedRest (Ix := Unit) (Name := ℕ) (U := UR sig nD τ) (Lvl := ℕ) spec1 c (V3 m c)) : sProp 𝕄)
      ⊢ StableHlo.held (c : Thread nD τ) (Pipeline.ucRefs τ sig) (W4 m c) := by
  rw [← Pipeline.unscopedBufs_held c (W4 m c), unscopedBufs1_split]
  refine sep_mono (bufs1_of_arrays (V3 m) c _ (fun b hb => W4_of_ne m c b hb) (W4_self m c)) (Entails.of_eq ?_)
  exact unscopedRest_congr spec1 c _ _ fun b hb => W4_of_ne m c b (fun e => hb (by rw [e]; decide))

/-! ## The proof data family and the thread state -/

abbrev adm : (p : Fin 2) → (pcfgs (F := F) p).Adm := fun p => (cfgs p).toPCfg_adm
/-- Each kernel's proof data at its region's entry contents. -/
def pdats : (p : Fin 2) → (c : Dev nD) → Dat τ (Elt F) Unit ℕ (UR sig nD τ) ℕ (Pipeline.pin (pcfgs (F := F)) adm p) c
  | ⟨0, _⟩ => fun c => dat0 (V2 m) c
  | ⟨1, _⟩ => fun c => dat1 (V3 m) c
abbrev 𝒱₀ : Variants := Variants.none
abbrev L : GSem nD τ sig → Finset Unit := fun _ => ∅
abbrev lv : GSem nD τ sig → Unit → ℕ := fun _ _ => 0
/-- What rides beside the buffers through every stretch: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

set_option backward.isDefEq.respectTransparency.types false in
/-- The statistics kernel's region: entered from every unscoped buffer at `W2`, left at `W3`. -/
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation0 (V2 m) c).loose
  hwaits := Pipeline.hwaits_of_owed_zero _ _ _ _ L lv 0 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec0 c (V2 m c)
  hentry c := by
    rw [Pipeline.ownSems0_none]
    iintro ⟨⟨Hub, Hp, HO⟩, -, -⟩
    ihave H := (enter0 m c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (hout0 (V2 m) c).trans ?_
    unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest]
    · iapply (leave0 m c)
      isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- The loss kernel's region: entered from every unscoped buffer at `W3`, left at `W4`. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    iintro ⟨⟨Hub, Hp, HO⟩, -, -⟩
    ihave H := (enter1 m c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (hout1 (V3 m) c).trans ?_
    unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest]
    · iapply (leave1 m c)
      isplitl [Ha]; · iexact Ha
      iexact Hrest
    isplitl [HY]; · iexact HY
    unfold Pipeline.Dat.owesAt Pipeline.owesWithin
    icases HO with ⟨%W, -, HO⟩; iexists W; iexact HO

/-- The program as its five stretches. -/
abbrev segs : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .region (reg0 m),
    .region (reg1 m),
    .host (hseg hostOps2 hostOps2_sub hostOps2_fresh (W4 m)) ]

theorem main_run (c : Dev nD) : main (F := F) c = Pipeline.Seg.run (segs m) := (main_chain c).trans (by chain_rfl)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN: from any memory with zero counters every weakly fair execution of the program terminates, nothing
    faulting, and every final state has every unscoped buffer of every core at the last valuation. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := fun c => StableHlo.held (c : Thread nD τ) (Pipeline.ucRefs τ sig) (W5 m c))
    (hch := ⟨fun _ => .rfl, fun _ => .rfl, fun _ => .rfl, fun _ => .rfl, fun _ => .rfl, fun c =>
      sep_mono .rfl (show R c ⊢ (iprop(∃ W, owes (c : Thread nD τ) (0 : CellTallies nD τ sig Unit) W) : sProp 𝕄) from by
        iintro ⟨-, HO⟩; iexact HO)⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨Hh, HSI⟩
      unfold StableHlo.held
      imodintro
      iapply (pointsTo_read_all (Pipeline.ucRefs τ sig) (fun b => (((c : Thread nD τ)).1, b)) (W5 m c) s')
      isplitl [Hh] <;> iassumption)
    (hQ := fun s h c => h c)

end Cert.Kernel.Hand

end
-- ==== Proof.Bits.Frames.lean ====
/-
  The frame claim read off the run: no stretch of the program writes an argument array — the host operations write
  only their own result buffers, and each kernel changes only its result buffer — so both arguments are, in the
  last valuation, what they were at launch.
-/
import proofs.«155278_j51788715655787_1_alg».proof.Proof.Bits.Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A buffer no stretch writes holds its launch contents in the last valuation. -/
theorem W5_kept (c : Dev nD) (b : Ref sig .tc) (h0 : b ∉ hostOps0_W) (h1 : b ∉ hostOps0_1_W) (h14 : b ≠ main_v14)
    (h15 : b ≠ main_v15) (h2 : b ∉ hostOps2_W) : W5 m c b = m ((c : Thread nD τ).loc b) :=
  (StableHlo.after_of_writes_sub hostOps2 _ hostOps2_writes h2).trans <|
    (W4_of_ne m c b h15).trans <| (W3_of_ne m c b h14).trans <|
      (StableHlo.after_of_writes_sub hostOps0_1 _ hostOps0_1_writes h1).trans <|
        (StableHlo.after_of_writes_sub hostOps0 _ hostOps0_writes h0).trans rfl

/-- THE FRAME: every weakly fair execution terminates without a fault and leaves both argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (W5_kept m c main_arg0 (by decide) (by decide) (by decide) (by decide) (by decide)),
     (h c _ (mem_uc main_arg1 (by decide))).trans (W5_kept m c main_arg1 (by decide) (by decide) (by decide) (by decide) (by decide))⟩)
    (run_main m ρ)

end Cert.Kernel.Hand

end
-- ==== Proof.RefFrame.lean ====
/-
  The reference program's frame: the run of its host operations, with the results dropped, leaves both argument arrays as launched.
-/
import proofs.«155278_j51788715655787_1_alg».proof.Defs
import proofs.«155278_j51788715655787_1_alg».proof.Proof.Gen.ReferenceIdeal.Read

noncomputable section

open Idealize.ShloMosaic Idealize.ShloMosaic.TcCoe Idealize.SL.Sem

namespace Cert.Proof.RefSide

/-- Every weakly fair execution of the reference terminates without a fault and ends with both arguments unchanged:
    the run of its host operations states this beside the value of each result. -/
theorem frame_ri [hR : Cert.ReferenceIdeal.Facts] [hP : Cert.Pre_finite_inputs.Facts] :
    Cert.frame_ReferenceIdeal (hReferenceIdeal := hR) (hPre_finite_inputs := hP) := fun m ρ _ =>
  (θ_run Cert.ReferenceIdeal.defs _ _).mono (fun _ h c => (h c).2.2) (Cert.ReferenceIdeal.Value.run (F := Ideal) m ρ)

end Cert.Proof.RefSide

end
-- ==== Proof.LibColumns.lean ====
/-
  Column vectors read at an index: a length-`a` vector viewed as an `[a, 1]` column and back, and a column broadcast
  along the second axis. Each is the general "same row-major position" or "trailing coordinates" reading of the layout
  operation, with both indices written out by coordinates.
-/
import Idealize.ShloMosaic.Lib.ValueLayout

namespace Cert.LibColumns

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- An `[a, 1]` column broadcast to `[a, b]` reads, at `(p, c)`, the column's entry at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumns
-- ==== Proof.LibMatmul.lean ====
/-
  A matrix product read at one entry, over the extended reals.

  A product of an [A, K] matrix by a [K, B] matrix whose dimension numbers contract the left operand's second axis
  with the right operand's first, accumulated into the zero matrix, has at entry (r, j) the value
  Σ_k lhs[r, k] · rhs[k, j]: exact arithmetic leaves neither rounding nor a chunk order in it.
-/
import Idealize.ShloMosaic.PureOps.Ideal.Laws
import Idealize.ShloMosaic.Lib.ValueIdx

noncomputable section

namespace Cert.LibMatmul

open Idealize.ShloMosaic Idealize.ShloMosaic.ValueIdx

/-- Entry (r, j) of a plain matrix product into a zero accumulator is the sum over the contracted axis. -/
theorem plain_matmul_zero_apply {A K B : Nat} {φ₁ φ₂ : FTy} (prec : Option ContractPrecision)
    (lhs : FVec Ideal ⟨2, ![A, K]⟩ φ₁) (rhs : FVec Ideal ⟨2, ![K, B]⟩ φ₂) (r : Fin A) (j : Fin B) :
    FloatOps.matmul (DotDims.plain A K B) prec lhs rhs (constant (F := Ideal) ⟨2, ![A, B]⟩ .f32 0x00000000#32) (ix2 r j)
      = ∑ k : Fin K, lhs (ix2 r k) * rhs (ix2 k j) := by
  rw [Ideal.matmul_constant_zero_apply, ← Equiv.sum_comp (contrEquiv1 (DotDims.plain A K B) K rfl rfl).symm]
  refine Finset.sum_congr rfl fun k _ => ?_
  have hk := contrEquiv1_symm_val (DotDims.plain A K B) K rfl rfl k
  have el : (DotDims.plain A K B).lhsIdx (ix2 r j) ((contrEquiv1 (DotDims.plain A K B) K rfl rfl).symm k) = ix2 r k :=
    funext fun a => Fin.ext (by
      match a with
      | ⟨0, _⟩ => rfl
      | ⟨1, _⟩ => exact ((DotDims.plain A K B).lhsIdx_val_of_single rfl (ix2 r j) _).trans hk)
  have er : (DotDims.plain A K B).rhsIdx (ix2 r j) ((contrEquiv1 (DotDims.plain A K B) K rfl rfl).symm k) = ix2 k j :=
    funext fun a => Fin.ext (by
      match a with
      | ⟨0, _⟩ => exact ((DotDims.plain A K B).rhsIdx_val_of_single rfl (ix2 r j) _).trans hk
      | ⟨1, _⟩ => rfl)
  rw [el, er]

end Cert.LibMatmul

end
-- ==== Proof.Val.Core.lean ====
/-
  The pairwise core shared by the two kernels, read at one entry over the extended reals.

  For a row block (rows `p`) and a column block (columns `q`) the body forms three [1024, 512] matrices:
  the inner products of label rows, Σ_k l_p[k] · l_q[k]; the guarded union, (s_p + s_q − inner) + ε, from the
  per-row label sums carried in the auxiliary blocks; and the distance, √(max((sq_p + sq_q) − 2 · Σ_k e_p[k] · e_q[k], 0)),
  from the per-row squared norms carried there. The matrix unit's product with the transposed column block is the
  plain sum over the shared axis; the auxiliary column and row are broadcast along the other axis.
-/
import proofs.«155278_j51788715655787_1_alg».proof.Proof.Gen.KernelIdeal.Skeleton
import proofs.«155278_j51788715655787_1_alg».proof.Proof.LibColumns
import proofs.«155278_j51788715655787_1_alg».proof.Proof.LibMatmul
import Idealize.ShloMosaic.Lib.ValueLayout
import Idealize.ShloMosaic.Lib.ValueIdx
import Idealize.ShloMosaic.Lib.Pipeline.Value
import Idealize.ShloMosaic.PureOps.Ideal.Laws

noncomputable section

namespace Cert.KernelIdeal.Val

open Cert.KernelIdeal Cert.KernelIdeal.Gen
open Idealize.ShloMosaic Idealize.ShloMosaic.ValueIdx

/-- The product with a transposed column block: entry (p, q) is the inner product of row p and row q. -/
theorem inner_apply {A K B : Nat} {φ₁ φ₂ : FTy} (lhs : FVec Ideal ⟨2, ![A, K]⟩ φ₁) (rhs : FVec Ideal ⟨2, ![B, K]⟩ φ₂)
    (h : (⟨2, ![B, K]⟩ : Shape).Transposes [1, 0] ⟨2, ![K, B]⟩) (p : Fin A) (q : Fin B) :
    FloatOps.matmul (DotDims.plain A K B) none lhs (transpose ⟨2, ![K, B]⟩ [1, 0] rhs h)
        (constant (F := Ideal) ⟨2, ![A, B]⟩ .f32 0x00000000#32) (ix2 p q)
      = ∑ k : Fin K, lhs (ix2 p k) * rhs (ix2 q k) :=
  (Cert.LibMatmul.plain_matmul_zero_apply none lhs _ p q).trans
    (Finset.sum_congr rfl fun k _ => by rw [transpose_ix2_apply])

/-- The label inner products. -/
theorem interBlock_apply (v26 : FVec Ideal S1024x80 .bf16) (v28 : FVec Ideal S512x80 .bf16) (p : Fin 1024) (q : Fin 512) :
    k0_pay8 (F := Ideal) v26 v28 (ix2 p q) = ∑ k : Fin 80, v26 (ix2 p k) * v28 (ix2 q k) := by
  unfold k0_pay8
  simp only [shapeCast_self]
  exact inner_apply v26 v28 _ p q

/-- Column `k` of a two-column auxiliary block, broadcast along the row: entry (p, q) is the block's (p, k). -/
theorem auxCol_apply (k : Fin 2) (x : FVec Ideal S1024x2 .f32) (hs : S1024x2.Slices ![0, k.val] S1024x1)
    (hb : S1024x1.Broadcasts S1024x512) (p : Fin 1024) (q : Fin 512) :
    broadcastTo S1024x512 (extractStridedSlice S1024x1 ![0, k.val] x hs) hb (ix2 p q) = x (ix2 p k) :=
  (Cert.LibColumns.broadcastTo_a1_ab_apply _ hb p q).trans
    (slice2_axis1_apply k.val x hs p (0 : Fin 1) k (by simp))

/-- Row `k` of a two-row auxiliary block, broadcast along the column: entry (p, q) is the block's (k, q). -/
theorem auxRow_apply (k : Fin 2) (x : FVec Ideal S2x512 .f32) (hs : S2x512.Slices ![k.val, 0] S1x512)
    (hb : S1x512.Broadcasts S1024x512) (p : Fin 1024) (q : Fin 512) :
    broadcastTo S1024x512 (extractStridedSlice S1x512 ![k.val, 0] x hs) hb (ix2 p q) = x (ix2 k q) :=
  (broadcastTo_1b_ab_apply _ hb p q).trans
    (slice2_axis0_apply k.val x hs (0 : Fin 1) q k (by simp))

/-- The guarded union: (s_p + s_q − inner) + ε. -/
theorem unionBlock_apply (v9 : FVec Ideal S1024x2 .f32) (v13 : FVec Ideal S2x512 .f32)
    (v26 : FVec Ideal S1024x80 .bf16) (v28 : FVec Ideal S512x80 .bf16) (p : Fin 1024) (q : Fin 512) :
    k0_pay9 (F := Ideal) v9 v13 v26 v28 (ix2 p q)
      = ((v9 (ix2 p 1) + v13 (ix2 1 q)) - ∑ k : Fin 80, v26 (ix2 p k) * v28 (ix2 q k)) + Ideal.ofBits .f32 0x322BCC77#32 := by
  unfold k0_pay9 k0_pay5 k0_pay6
  simp only [shapeCast_self]
  show ((broadcastTo S1024x512 (extractStridedSlice S1024x1 ![0, (1 : Fin 2).val] v9 _) _ (ix2 p q)
      + broadcastTo S1024x512 (extractStridedSlice S1x512 ![(1 : Fin 2).val, 0] v13 _) _ (ix2 p q))
      - k0_pay8 (F := Ideal) v26 v28 (ix2 p q)) + _ = _
  rw [auxCol_apply 1, auxRow_apply 1, interBlock_apply]
  rfl

/-- The distance: √(max((sq_p + sq_q) − 2 · ⟨e_p, e_q⟩, 0)). -/
theorem distBlock_apply (v3 : FVec Ideal S1024x512 .bf16) (v5 : FVec Ideal S512x512 .bf16)
    (v9 : FVec Ideal S1024x2 .f32) (v13 : FVec Ideal S2x512 .f32) (p : Fin 1024) (q : Fin 512) :
    k0_pay7 (F := Ideal) v3 v5 v9 v13 (ix2 p q)
      = Ideal.sqrt (max ((v9 (ix2 p 0) + v13 (ix2 0 q))
          - Ideal.ofBits .f32 0x40000000#32 * ∑ k : Fin 512, v3 (ix2 p k) * v5 (ix2 q k)) (Ideal.ofBits .f32 0x00000000#32)) := by
  unfold k0_pay7 k0_pay5 k0_pay6
  simp only [shapeCast_self]
  show Ideal.sqrt (max ((broadcastTo S1024x512 (extractStridedSlice S1024x1 ![0, (0 : Fin 2).val] v9 _) _ (ix2 p q)
      + broadcastTo S1024x512 (extractStridedSlice S1x512 ![(0 : Fin 2).val, 0] v13 _) _ (ix2 p q))
      - Ideal.ofBits .f32 0x40000000#32 * FloatOps.matmul dot_S1024x512_S512x512_S1024x512_1_0_0_1_n_n none v3
          (transpose S512x512 [1, 0] v5 _) (constant (F := Ideal) S1024x512 .f32 0x00000000#32) (ix2 p q)) _) = _
  rw [auxCol_apply 0, auxRow_apply 0]
  exact congrArg (fun z => Ideal.sqrt (max ((v9 (ix2 p 0) + v13 (ix2 0 q)) - Ideal.ofBits .f32 0x40000000#32 * z) _))
    (inner_apply v3 v5 _ p q)

end Cert.KernelIdeal.Val

end
-- ==== Proof.Val.StatsFold.lean ====
/-
  The statistics kernel's three column updates, read at one row over the extended reals.

  With `J = inner / union` the Jaccard entry and `D` the distance entry of the current [1024, 512] block, row `p` of
  the running columns becomes: the minimum of its old value and of the masked distances (`D` where `J = 0`, the
  large sentinel elsewhere) folded from +∞; its old value plus the number of positives (`J > 0` off the diagonal),
  counted as a sum of zeros and ones from 0; the maximum of its old value and of the negatives' indicators
  (`J = 0`) folded from −∞. A fold over one lane axis does not depend on the order.
-/
import proofs.«155278_j51788715655787_1_alg».proof.Proof.Val.Core

noncomputable section

namespace Cert.KernelIdeal.Val

open Cert.KernelIdeal Cert.KernelIdeal.Gen
open Idealize.ShloMosaic Idealize.ShloMosaic.ValueIdx

/-- The lane axis of a [1024, 512] block reduced: the row `p` with lane `q` put back is the entry (p, q). -/
theorem lift_row (p : Fin 1024) (q : Fin 512) :
    reduces_S1024x512_S1024.lift (ix1 p) q = (ix2 p q : S1024x512.Idx) :=
  funext fun a => Fin.ext (by match a with | ⟨0, _⟩ => rfl | ⟨1, _⟩ => rfl)

/-- The Jaccard entry. -/
abbrev jacE (i u : EReal) : EReal := Ideal.div i u
/-- A negative: the Jaccard entry is zero. -/
abbrev isNeg (i u : EReal) : BitVec 1 := Ideal.cmp .oeq (jacE i u) (Ideal.ofBits .f32 0x00000000#32)
/-- The masked distance: the distance at a negative, the large sentinel elsewhere. -/
abbrev maskedD (d i u : EReal) : EReal := Scalar.select (isNeg i u) d (Ideal.ofBits .f32 0x4E6E6B28#32)

/-- Column 0: the running minimum of the masked distances. -/
theorem minCol_apply (v25 v31 v37 : FVec Ideal S1024x512 .f32) (v66 : FVec Ideal S1024x1 .f32) (p : Fin 1024) :
    k0_pay13 (F := Ideal) v25 v31 v37 v66 (ix2 p 0)
      = min (v66 (ix2 p 0)) ((Finset.univ : Finset (Fin 512)).fold min (Ideal.ofBits .f32 0x7F800000#32)
          (fun q => maskedD (v25 (ix2 p q)) (v31 (ix2 p q)) (v37 (ix2 p q)))) := by
  unfold k0_pay13 k0_pay11 k0_pay10
  simp only [shapeCast_self]
  show min (v66 (ix2 p 0)) (shapeCast S1024x1 _ shapeCasts_S1024_S1024x1 (ix2 p (0 : Fin 1))) = _
  rw [Cert.LibColumns.shapeCast_a_a1_apply]
  refine congrArg (min _) ?_
  refine (multiReduction_minimumf_eq_fold _ _ _ _ _ (ix1 p)).trans ?_
  refine (reduces_S1024x512_S1024.fold_filter_drop_single _ _ _ (ix1 p)).trans ?_
  refine congrArg (fun f => Finset.fold min _ f Finset.univ) (funext fun q => ?_)
  have hq : reduces_S1024x512_S1024.lift (ix1 p) q = (ix2 p q : S1024x512.Idx) := lift_row p q
  show select _ _ _ (reduces_S1024x512_S1024.lift (ix1 p) q) = _
  rw [hq]; rfl

/-- The block's positives as zeros and ones: the Jaccard entry is positive and the entry is off the diagonal
    (row `1024·a0 + p` against column `512·a1 + q`, compared as 32-bit words). -/
def posBlk (a0 a1 : BitVec 32) (v31 v37 : FVec Ideal S1024x512 .f32) : FVec Ideal S1024x512 .f32 :=
  sitofp .f32 (extui 32 (andi (cmpf .ogt (divf v31 v37) (broadcast S1024x512 (Scalar.ofBits .f32 0x00000000#32)))
    (xori (cmpi .eq (addi (broadcast S1024x512 (Scalar.muli a0 1024#32)) (iota .tc S1024x512 32 [0] iota_S1024x512_d0_w32))
                    (addi (broadcast S1024x512 (Scalar.muli a1 512#32)) (iota .tc S1024x512 32 [1] iota_S1024x512_d1_w32)))
          (constantI S1024x512 1 1#1))) natLt_1_32)

/-- Column 1: the running count of positives. -/
theorem cntCol_apply (a0 a1 : BitVec 32) (v31 v37 : FVec Ideal S1024x512 .f32) (v71 : FVec Ideal S1024x1 .f32) (p : Fin 1024) :
    k0_pay14 (F := Ideal) a0 a1 v31 v37 v71 (ix2 p 0)
      = v71 (ix2 p 0) + ∑ q : Fin 512, posBlk a0 a1 v31 v37 (ix2 p q) := by
  unfold k0_pay14 k0_pay10
  simp only [shapeCast_self]
  show v71 (ix2 p 0) + shapeCast S1024x1 (multiReduction .add [1] S1024 (posBlk a0 a1 v31 v37) 0x00000000#32
      reduces_S1024x512_S1024 (.inl rfl) rfl) shapeCasts_S1024_S1024x1 (ix2 p (0 : Fin 1)) = _
  rw [Cert.LibColumns.shapeCast_a_a1_apply]
  refine congrArg (v71 (ix2 p 0) + ·) ?_
  refine (Ideal.multiReduction_add_single _ _ _ _ _ (ix1 p)).trans ?_
  exact Finset.sum_congr rfl fun q _ => congrArg (posBlk a0 a1 v31 v37) (lift_row p q)

/-- A negative's indicator as zero or one. -/
abbrev negInd (i u : EReal) : EReal := FloatOps.sitofp (F := Ideal) .f32 ((isNeg i u).setWidth 32)

/-- Column 2: the running maximum of the negatives' indicators. -/
theorem anyCol_apply (v31 v37 : FVec Ideal S1024x512 .f32) (v76 : FVec Ideal S1024x1 .f32) (p : Fin 1024) :
    k0_pay1 (F := Ideal) (k0_pay12 (F := Ideal) v31 v37) v76 (ix2 p 0)
      = max (v76 (ix2 p 0)) ((Finset.univ : Finset (Fin 512)).fold max (Ideal.ofBits .f32 0xFF800000#32)
          (fun q => negInd (v31 (ix2 p q)) (v37 (ix2 p q)))) := by
  unfold k0_pay1 k0_pay12 k0_pay11 k0_pay10
  simp only [shapeCast_self]
  show max (v76 (ix2 p 0)) (shapeCast S1024x1 _ shapeCasts_S1024_S1024x1 (ix2 p (0 : Fin 1))) = _
  rw [Cert.LibColumns.shapeCast_a_a1_apply]
  refine congrArg (max _) ?_
  refine (multiReduction_maximumf_eq_fold _ _ _ _ _ (ix1 p)).trans ?_
  refine (reduces_S1024x512_S1024.fold_filter_drop_single _ _ _ (ix1 p)).trans ?_
  refine congrArg (fun f => Finset.fold max _ f Finset.univ) (funext fun q => ?_)
  have hq : reduces_S1024x512_S1024.lift (ix1 p) q = (ix2 p q : S1024x512.Idx) := lift_row p q
  show sitofp _ _ (reduces_S1024x512_S1024.lift (ix1 p) q) = _
  rw [hq]; rfl

end Cert.KernelIdeal.Val

end
-- ==== Proof.LibColSlabs.lean ====
/-
  A two-dimensional buffer written column by column, read at one entry.

  A store of an [a, 1] column at column offset `k` of an [a, n] buffer changes exactly the entries (p, k); so reading
  entry (p, k') after a list of such column stores finds the payload of the latest store at column k', at (p, 0),
  and passes over the stores at other columns.
-/
import Idealize.ShloMosaic.Lib.Writes
import Idealize.ShloMosaic.Lib.Pipeline.FrameBody
import Idealize.ShloMosaic.Lib.ValueIdx

namespace Cert.LibColSlabs

open Idealize.ShloMosaic Idealize.ShloMosaic.ValueIdx

variable {sig : RefSig} {κ : Kind} {sp : Space} {Val : EltTy → Type} {e : EltTy} {a n : Nat}

/-- The column rectangle at column `k` holds entry (p, k') exactly when k' = k. -/
theorem mem_col (k : Nat) (k' : Fin n) (inb) (p : Fin a) :
    (ix2 p k' : (⟨2, ![a, n]⟩ : Shape).Idx) ∈ (Rect.unit (s := ⟨2, ![a, n]⟩) ![0, k] ![a, 1] inb).set ↔ k'.val = k := by
  rw [Rect.mem_set_unit]
  constructor
  · intro h
    have h1 := h (1 : Fin 2)
    have e0 : ((ix2 p k' : (⟨2, ![a, n]⟩ : Shape).Idx) (1 : Fin 2) : Nat) = k'.val := rfl
    have e1 : (![0, k] : Fin 2 → Nat) (1 : Fin 2) = k := rfl
    have e2 : (![a, 1] : Fin 2 → Nat) (1 : Fin 2) = 1 := rfl
    rw [e0, e1, e2] at h1
    omega
  · intro h ax
    match ax with
    | ⟨0, _⟩ =>
      show 0 ≤ p.val ∧ p.val < 0 + a
      have := p.isLt; omega
    | ⟨1, _⟩ =>
      show k ≤ k'.val ∧ k'.val < k + 1
      omega

/-- The column rectangle's own index (p, 0) sits at entry (p, k) of the buffer. -/
theorem col_emb (k : Nat) (k' : Fin n) (hk : k'.val = k) (inb) (p : Fin a) :
    (Rect.unit (s := ⟨2, ![a, n]⟩) ![0, k] ![a, 1] inb).emb (ix2 p (0 : Fin 1)) = ix2 p k' :=
  funext fun ax => Fin.ext (by
    rw [Rect.emb_apply]
    match ax with
    | ⟨0, _⟩ => show 0 + 1 * p.val = p.val; omega
    | ⟨1, _⟩ => show k + 1 * 0 = k'.val; omega)

variable (v : View sig κ sp ⟨2, ![a, n]⟩ e) (f : v.ty.Contents Val)

/-- Reading entry (p, k) right after a store at column k finds the stored column at (p, 0). -/
theorem read_col_hit (k : Nat) (k' : Fin n) (hk : k'.val = k) (inb) (w : (⟨2, ![a, 1]⟩ : Shape).Idx → Val e)
    (L : List (View.Piece Val ⟨2, ![a, n]⟩ e)) (p : Fin a) :
    v.read Val (v.writes Val f (⟨Rect.unit (s := ⟨2, ![a, n]⟩) ![0, k] ![a, 1] inb, w⟩ :: L)) (ix2 p k') = w (ix2 p (0 : Fin 1)) := by
  have h := View.read_writes_cons_emb v f (Rect.unit (s := ⟨2, ![a, n]⟩) ![0, k] ![a, 1] inb) w L (ix2 p (0 : Fin 1))
  rwa [col_emb k k' hk] at h

/-- Reading entry (p, k') passes over a store at another column. -/
theorem read_col_skip (k : Nat) (k' : Fin n) (hk : k'.val ≠ k) (inb) (w : (⟨2, ![a, 1]⟩ : Shape).Idx → Val e)
    (L : List (View.Piece Val ⟨2, ![a, n]⟩ e)) (p : Fin a) :
    v.read Val (v.writes Val f (⟨Rect.unit (s := ⟨2, ![a, n]⟩) ![0, k] ![a, 1] inb, w⟩ :: L)) (ix2 p k')
      = v.read Val (v.writes Val f L) (ix2 p k') := by
  have hy : (ix2 p k' : (⟨2, ![a, n]⟩ : Shape).Idx) ∉ (Rect.unit (s := ⟨2, ![a, n]⟩) ![0, k] ![a, 1] inb).set :=
    fun h => hk ((mem_col k k' inb p).mp h)
  have hy' : (ix2 p k' : (⟨2, ![a, n]⟩ : Shape).Idx) ∉ Finset.univ.map (Rect.unit (s := ⟨2, ![a, n]⟩) ![0, k] ![a, 1] inb).emb := by
    rwa [Rect.map_emb_univ]
  rw [View.writes_cons, View.read_slice_write_of_not_mem _ _ _ _ hy']

/-- The same two readings of the stores' canonical contents. -/
theorem canon_col_hit [∀ e, Nonempty (Val e)] (k : Nat) (k' : Fin n) (hk : k'.val = k) (inb)
    (w : (⟨2, ![a, 1]⟩ : Shape).Idx → Val e) (L : List (View.Piece Val ⟨2, ![a, n]⟩ e)) (p : Fin a) :
    View.canon (⟨Rect.unit (s := ⟨2, ![a, n]⟩) ![0, k] ![a, 1] inb, w⟩ :: L) (ix2 p k') = w (ix2 p (0 : Fin 1)) := by
  have h := View.canon_cons_emb (Rect.unit (s := ⟨2, ![a, n]⟩) ![0, k] ![a, 1] inb) w L (ix2 p (0 : Fin 1))
  rwa [col_emb k k' hk] at h

theorem canon_col_skip [∀ e, Nonempty (Val e)] (k : Nat) (k' : Fin n) (hk : k'.val ≠ k) (inb)
    (w : (⟨2, ![a, 1]⟩ : Shape).Idx → Val e) (L : List (View.Piece Val ⟨2, ![a, n]⟩ e)) (p : Fin a) :
    View.canon (⟨Rect.unit (s := ⟨2, ![a, n]⟩) ![0, k] ![a, 1] inb, w⟩ :: L) (ix2 p k') = View.canon L (ix2 p k') :=
  View.canon_cons_of_not_mem _ L fun h => hk ((mem_col k k' inb p).mp h)

/-- The column rectangle read as a load box: its index (p, 0) is entry (p, k). -/
theorem col_idx (k : Nat) (k' : Fin n) (hk : k'.val = k) (inb) (p : Fin a) :
    (Rect.unit (s := ⟨2, ![a, n]⟩) ![0, k] ![a, 1] inb).toLoadRect.idx (ix2 p (0 : Fin 1)) = ix2 p k' :=
  funext fun ax => Fin.ext (by
    match ax with
    | ⟨0, _⟩ => show 0 + 1 * p.val = p.val; omega
    | ⟨1, _⟩ => show k + 1 * 0 = k'.val; omega)

/-- A column loaded out of a buffer: its entry (p, 0) is the buffer's (p, k). -/
theorem ld_col (x : (⟨2, ![a, n]⟩ : Shape).Idx → Val e) (k : Nat) (k' : Fin n) (hk : k'.val = k) (inb) (p : Fin a) :
    View.ld x (Rect.unit (s := ⟨2, ![a, n]⟩) ![0, k] ![a, 1] inb) (ix2 p (0 : Fin 1)) = x (ix2 p k') :=
  congrArg x (col_idx k k' hk inb p)

end Cert.LibColSlabs
-- ==== Proof.Val.StatsStep.lean ====
/-
  The statistics kernel's running columns after one point, read at one entry over the extended reals.

  Whatever the kind of point, entry (p, 0) is the minimum of what the column held and of the block's masked distances
  in row p, entry (p, 1) what the column held plus the block's positives in row p, entry (p, 2) the maximum of what
  the column held and of the block's negatives' indicators in row p; at a first column block "what the column held"
  is the reset value (the large sentinel, zero, zero), otherwise what the point before left. At a last column block
  the result block receives the columns as they stand after the fold.
-/
import proofs.«155278_j51788715655787_1_alg».proof.Proof.Stats.Data
import proofs.«155278_j51788715655787_1_alg».proof.Proof.Val.StatsFold
import proofs.«155278_j51788715655787_1_alg».proof.Proof.LibColSlabs

set_option maxRecDepth 16384

noncomputable section

namespace Cert.KernelIdeal.Val

open Cert.KernelIdeal Cert.KernelIdeal.Gen Cert.KernelIdeal.Hand
open Idealize.ShloMosaic Idealize.ShloMosaic.ValueIdx Idealize.ShloMosaic.Tactic Idealize.ShloMosaic.TcCoe
open Idealize.SL.Sem

theorem hz2 : (![0, 0] : Fin 2 → Nat) = fun _ => 0 := funext fun a => by fin_cases a <;> rfl

/-- Row p's minimum of the block's masked distances, from +∞. -/
def bmin (D I U : FVec Ideal S1024x512 .f32) (p : Fin 1024) : EReal :=
  (Finset.univ : Finset (Fin 512)).fold min (Ideal.ofBits .f32 0x7F800000#32)
    (fun q => maskedD (D (ix2 p q)) (I (ix2 p q)) (U (ix2 p q)))
/-- Row p's number of positives in the block. -/
def bcnt (a0 a1 : BitVec 32) (I U : FVec Ideal S1024x512 .f32) (p : Fin 1024) : EReal :=
  ∑ q : Fin 512, posBlk a0 a1 I U (ix2 p q)
/-- Row p's maximum of the block's negatives' indicators, from −∞. -/
def bany (I U : FVec Ideal S1024x512 .f32) (p : Fin 1024) : EReal :=
  (Finset.univ : Finset (Fin 512)).fold max (Ideal.ofBits .f32 0xFF800000#32)
    (fun q => negInd (I (ix2 p q)) (U (ix2 p q)))

/-- The three folded columns stored last, over any earlier stores, read at row p. -/
theorem cols_canon (a0 a1 : BitVec 32) (D I U : FVec Ideal S1024x512 .f32) (c0 c1 c2 : FVec Ideal S1024x1 .f32)
    (L : List (View.Piece (Elt Ideal) S1024x3 .f32)) (p : Fin 1024) :
    let P := (⟨(Rect.unit (s := S1024x3) ![0, 2] ![1024, 1] inb_S1024x3_S1024x1_0_2), k0_pay1 (F := Ideal) (k0_pay12 (F := Ideal) I U) c2⟩ : View.Piece (Elt Ideal) S1024x3 .f32)
      :: ⟨(Rect.unit (s := S1024x3) ![0, 1] ![1024, 1] inb_S1024x3_S1024x1_0_1), k0_pay14 (F := Ideal) a0 a1 I U c1⟩ :: ⟨(Rect.unit (s := S1024x3) ![0, 0] ![1024, 1] inb_S1024x3_S1024x1_0_0), k0_pay13 (F := Ideal) D I U c0⟩ :: L
    View.canon P (ix2 p (0 : Fin 3)) = min (c0 (ix2 p 0)) (bmin D I U p)
      ∧ View.canon P (ix2 p (1 : Fin 3)) = c1 (ix2 p 0) + bcnt a0 a1 I U p
      ∧ View.canon P (ix2 p (2 : Fin 3)) = max (c2 (ix2 p 0)) (bany I U p) := by
  intro P
  refine ⟨?_, ?_, ?_⟩
  · show View.canon (_ :: _ :: _ :: L) (ix2 p (0 : Fin 3)) = _
    rw [Cert.LibColSlabs.canon_col_skip 2 (0 : Fin 3) (by decide), Cert.LibColSlabs.canon_col_skip 1 (0 : Fin 3) (by decide)]
    exact (Cert.LibColSlabs.canon_col_hit 0 (0 : Fin 3) rfl inb_S1024x3_S1024x1_0_0 _ L p).trans (minCol_apply D I U c0 p)
  · show View.canon (_ :: _ :: _ :: L) (ix2 p (1 : Fin 3)) = _
    rw [Cert.LibColSlabs.canon_col_skip 2 (1 : Fin 3) (by decide)]
    exact (Cert.LibColSlabs.canon_col_hit 1 (1 : Fin 3) rfl inb_S1024x3_S1024x1_0_1 _ _ p).trans (cntCol_apply a0 a1 I U c1 p)
  · show View.canon (_ :: _ :: _ :: L) (ix2 p (2 : Fin 3)) = _
    exact (Cert.LibColSlabs.canon_col_hit 2 (2 : Fin 3) rfl inb_S1024x3_S1024x1_0_2 _ _ p).trans (anyCol_apply I U c2 p)

/-- The reset values: the large sentinel for the minimum, zero for the count and for the maximum. -/
abbrev bigE : EReal := Ideal.ofBits .f32 0x4E6E6B28#32
abbrev zeroE : EReal := Ideal.ofBits .f32 0x00000000#32

/-- A middle column block: the fold into what the point before left. -/
theorem mid_canon (c : Dev nD) (i : grid0.Coords) (arg2 : Memref sig .tc .vmem S1024x512 .bf16) (harg2 : arg2.IsWhole) (arg3 : Memref sig .tc .vmem S512x512 .bf16) (harg3 : arg3.IsWhole) (arg4 : Memref sig .tc .vmem S1024x80 .bf16) (harg4 : arg4.IsWhole) (arg5 : Memref sig .tc .vmem S512x80 .bf16) (harg5 : arg5.IsWhole) (arg6 : Memref sig .tc .vmem S1024x2 .f32) (harg6 : arg6.IsWhole) (arg7 : Memref sig .tc .vmem S2x512 .f32) (harg7 : arg7.IsWhole) (arg8 : Memref sig .tc .vmem S1024x3 .f32) (harg8 : arg8.IsWhole) (arg9 : Memref sig .tc .vmem S1024x3 .f32) (harg9 : arg9.IsWhole)
    (hr : ¬resets0 i) (he : ¬emits0 i) (x0 : FVec Ideal S1024x512 .bf16) (x1 : FVec Ideal S512x512 .bf16) (x2 : FVec Ideal S1024x80 .bf16) (x3 : FVec Ideal S512x80 .bf16) (x4 : FVec Ideal S1024x2 .f32) (x5 : FVec Ideal S2x512 .f32) (xs : Vec Ideal S1024x3 .f32) (p : Fin 1024) :
    View.canon (runMid0 (F := Ideal) c i arg2 harg2 arg3 harg3 arg4 harg4 arg5 harg5 arg6 harg6 arg7 harg7 arg8 harg8 arg9 harg9 hr he x0 x1 x2 x3 x4 x5 xs).1 (ix2 p (0 : Fin 3))
        = min (xs (ix2 p 0)) (bmin (k0_pay7 (F := Ideal) x0 x1 x4 x5) (k0_pay8 (F := Ideal) x2 x3) (k0_pay9 (F := Ideal) x4 x5 x2 x3) p)
      ∧ View.canon (runMid0 (F := Ideal) c i arg2 harg2 arg3 harg3 arg4 harg4 arg5 harg5 arg6 harg6 arg7 harg7 arg8 harg8 arg9 harg9 hr he x0 x1 x2 x3 x4 x5 xs).1 (ix2 p (1 : Fin 3))
        = xs (ix2 p 1) + bcnt (BitVec.ofNat 32 (i 0).val) (BitVec.ofNat 32 (i 1).val) (k0_pay8 (F := Ideal) x2 x3) (k0_pay9 (F := Ideal) x4 x5 x2 x3) p
      ∧ View.canon (runMid0 (F := Ideal) c i arg2 harg2 arg3 harg3 arg4 harg4 arg5 harg5 arg6 harg6 arg7 harg7 arg8 harg8 arg9 harg9 hr he x0 x1 x2 x3 x4 x5 xs).1 (ix2 p (2 : Fin 3))
        = max (xs (ix2 p 2)) (bany (k0_pay8 (F := Ideal) x2 x3) (k0_pay9 (F := Ideal) x4 x5 x2 x3) p) := by
  have h := cols_canon (BitVec.ofNat 32 (i 0).val) (BitVec.ofNat 32 (i 1).val) (k0_pay7 (F := Ideal) x0 x1 x4 x5) (k0_pay8 (F := Ideal) x2 x3) (k0_pay9 (F := Ideal) x4 x5 x2 x3)
    (View.ld (Val := Elt Ideal) (e' := EltTy.f32) xs (Rect.unit (s := S1024x3) ![0, 0] ![1024, 1] inb_S1024x3_S1024x1_0_0)) (View.ld (Val := Elt Ideal) (e' := EltTy.f32) xs (Rect.unit (s := S1024x3) ![0, 1] ![1024, 1] inb_S1024x3_S1024x1_0_1)) (View.ld (Val := Elt Ideal) (e' := EltTy.f32) xs (Rect.unit (s := S1024x3) ![0, 2] ![1024, 1] inb_S1024x3_S1024x1_0_2)) [] p
  have e0 : (View.ld (Val := Elt Ideal) (e' := EltTy.f32) xs (Rect.unit (s := S1024x3) ![0, 0] ![1024, 1] inb_S1024x3_S1024x1_0_0)) (ix2 p (0 : Fin 1)) = xs (ix2 p 0) := Cert.LibColSlabs.ld_col (Val := Elt Ideal) xs 0 (0 : Fin 3) rfl _ p
  have e1 : (View.ld (Val := Elt Ideal) (e' := EltTy.f32) xs (Rect.unit (s := S1024x3) ![0, 1] ![1024, 1] inb_S1024x3_S1024x1_0_1)) (ix2 p (0 : Fin 1)) = xs (ix2 p 1) := Cert.LibColSlabs.ld_col (Val := Elt Ideal) xs 1 (1 : Fin 3) rfl _ p
  have e2 : (View.ld (Val := Elt Ideal) (e' := EltTy.f32) xs (Rect.unit (s := S1024x3) ![0, 2] ![1024, 1] inb_S1024x3_S1024x1_0_2)) (ix2 p (0 : Fin 1)) = xs (ix2 p 2) := Cert.LibColSlabs.ld_col (Val := Elt Ideal) xs 2 (2 : Fin 3) rfl _ p
  rw [e0, e1, e2] at h
  unfold runMid0
  dsimp only
  sl_unfold_words
  simp only [View.readAt_eq_ld, harg2.read_unread, harg3.read_unread, harg4.read_unread, harg5.read_unread,
    harg6.read_unread, harg7.read_unread, harg9.read_unread,
    View.ld_unit_zero (S := S1024x512) hz2, View.ld_unit_zero (S := S512x512) hz2, View.ld_unit_zero (S := S1024x80) hz2,
    View.ld_unit_zero (S := S512x80) hz2, View.ld_unit_zero (S := S1024x2) hz2, View.ld_unit_zero (S := S2x512) hz2]
  exact h

/-- A first column block: the fold into the reset values. -/
theorem first_canon (c : Dev nD) (i : grid0.Coords) (arg2 : Memref sig .tc .vmem S1024x512 .bf16) (harg2 : arg2.IsWhole) (arg3 : Memref sig .tc .vmem S512x512 .bf16) (harg3 : arg3.IsWhole) (arg4 : Memref sig .tc .vmem S1024x80 .bf16) (harg4 : arg4.IsWhole) (arg5 : Memref sig .tc .vmem S512x80 .bf16) (harg5 : arg5.IsWhole) (arg6 : Memref sig .tc .vmem S1024x2 .f32) (harg6 : arg6.IsWhole) (arg7 : Memref sig .tc .vmem S2x512 .f32) (harg7 : arg7.IsWhole) (arg8 : Memref sig .tc .vmem S1024x3 .f32) (harg8 : arg8.IsWhole) (arg9 : Memref sig .tc .vmem S1024x3 .f32) (harg9 : arg9.IsWhole)
    (hr : resets0 i) (he : ¬emits0 i) (x0 : FVec Ideal S1024x512 .bf16) (x1 : FVec Ideal S512x512 .bf16) (x2 : FVec Ideal S1024x80 .bf16) (x3 : FVec Ideal S512x80 .bf16) (x4 : FVec Ideal S1024x2 .f32) (x5 : FVec Ideal S2x512 .f32) (p : Fin 1024) :
    View.canon (runFirst0 (F := Ideal) c i arg2 harg2 arg3 harg3 arg4 harg4 arg5 harg5 arg6 harg6 arg7 harg7 arg8 harg8 arg9 harg9 hr he x0 x1 x2 x3 x4 x5).1 (ix2 p (0 : Fin 3))
        = min bigE (bmin (k0_pay7 (F := Ideal) x0 x1 x4 x5) (k0_pay8 (F := Ideal) x2 x3) (k0_pay9 (F := Ideal) x4 x5 x2 x3) p)
      ∧ View.canon (runFirst0 (F := Ideal) c i arg2 harg2 arg3 harg3 arg4 harg4 arg5 harg5 arg6 harg6 arg7 harg7 arg8 harg8 arg9 harg9 hr he x0 x1 x2 x3 x4 x5).1 (ix2 p (1 : Fin 3))
        = zeroE + bcnt (BitVec.ofNat 32 (i 0).val) (BitVec.ofNat 32 (i 1).val) (k0_pay8 (F := Ideal) x2 x3) (k0_pay9 (F := Ideal) x4 x5 x2 x3) p
      ∧ View.canon (runFirst0 (F := Ideal) c i arg2 harg2 arg3 harg3 arg4 harg4 arg5 harg5 arg6 harg6 arg7 harg7 arg8 harg8 arg9 harg9 hr he x0 x1 x2 x3 x4 x5).1 (ix2 p (2 : Fin 3))
        = max zeroE (bany (k0_pay8 (F := Ideal) x2 x3) (k0_pay9 (F := Ideal) x4 x5 x2 x3) p) := by
  unfold runFirst0
  dsimp only
  sl_unfold_words
  simp only [View.readAt_eq_ld, harg2.read_unread, harg3.read_unread, harg4.read_unread, harg5.read_unread,
    harg6.read_unread, harg7.read_unread, harg9.read_unread,
    View.ld_unit_zero (S := S1024x512) hz2, View.ld_unit_zero (S := S512x512) hz2, View.ld_unit_zero (S := S1024x80) hz2,
    View.ld_unit_zero (S := S512x80) hz2, View.ld_unit_zero (S := S1024x2) hz2, View.ld_unit_zero (S := S2x512) hz2]
  refine ⟨?_, ?_, ?_⟩
  · refine ((cols_canon _ _ _ _ _ _ _ _ _ p).1).trans ?_
    refine congrArg (min · _) ?_
    rw [View.readCov_eq_canon']
    show View.canon _ ((Rect.unit (s := S1024x3) ![0, 0] ![1024, 1] inb_S1024x3_S1024x1_0_0).toLoadRect.idx (ix2 p (0 : Fin 1))) = _
    rw [Cert.LibColSlabs.col_idx 0 (0 : Fin 3) rfl, Cert.LibColSlabs.canon_col_skip 2 (0 : Fin 3) (by decide), Cert.LibColSlabs.canon_col_skip 1 (0 : Fin 3) (by decide),
      Cert.LibColSlabs.canon_col_hit 0 (0 : Fin 3) rfl]
    unfold k0_pay2; simp only [shapeCast_self]; rfl
  · refine ((cols_canon _ _ _ _ _ _ _ _ _ p).2.1).trans ?_
    refine congrArg (· + _) ?_
    rw [View.readCov_eq_canon']
    show View.canon _ ((Rect.unit (s := S1024x3) ![0, 1] ![1024, 1] inb_S1024x3_S1024x1_0_1).toLoadRect.idx (ix2 p (0 : Fin 1))) = _
    rw [Cert.LibColSlabs.col_idx 1 (1 : Fin 3) rfl, Cert.LibColSlabs.canon_col_skip 0 (1 : Fin 3) (by decide), Cert.LibColSlabs.canon_col_skip 2 (1 : Fin 3) (by decide),
      Cert.LibColSlabs.canon_col_hit 1 (1 : Fin 3) rfl]
    unfold k0_pay3; simp only [shapeCast_self]; rfl
  · refine ((cols_canon _ _ _ _ _ _ _ _ _ p).2.2).trans ?_
    refine congrArg (max · _) ?_
    rw [View.readCov_eq_canon']
    show View.canon _ ((Rect.unit (s := S1024x3) ![0, 2] ![1024, 1] inb_S1024x3_S1024x1_0_2).toLoadRect.idx (ix2 p (0 : Fin 1))) = _
    rw [Cert.LibColSlabs.col_idx 2 (2 : Fin 3) rfl, Cert.LibColSlabs.canon_col_skip 1 (2 : Fin 3) (by decide), Cert.LibColSlabs.canon_col_skip 0 (2 : Fin 3) (by decide),
      Cert.LibColSlabs.canon_col_hit 2 (2 : Fin 3) rfl]
    unfold k0_pay4; simp only [shapeCast_self]; rfl

/-- A last column block: the running columns are folded as at a middle one, -/
theorem last_canon (c : Dev nD) (i : grid0.Coords) (arg2 : Memref sig .tc .vmem S1024x512 .bf16) (harg2 : arg2.IsWhole) (arg3 : Memref sig .tc .vmem S512x512 .bf16) (harg3 : arg3.IsWhole) (arg4 : Memref sig .tc .vmem S1024x80 .bf16) (harg4 : arg4.IsWhole) (arg5 : Memref sig .tc .vmem S512x80 .bf16) (harg5 : arg5.IsWhole) (arg6 : Memref sig .tc .vmem S1024x2 .f32) (harg6 : arg6.IsWhole) (arg7 : Memref sig .tc .vmem S2x512 .f32) (harg7 : arg7.IsWhole) (arg8 : Memref sig .tc .vmem S1024x3 .f32) (harg8 : arg8.IsWhole) (arg9 : Memref sig .tc .vmem S1024x3 .f32) (harg9 : arg9.IsWhole)
    (hr : ¬resets0 i) (he : emits0 i) (x0 : FVec Ideal S1024x512 .bf16) (x1 : FVec Ideal S512x512 .bf16) (x2 : FVec Ideal S1024x80 .bf16) (x3 : FVec Ideal S512x80 .bf16) (x4 : FVec Ideal S1024x2 .f32) (x5 : FVec Ideal S2x512 .f32) (xs : Vec Ideal S1024x3 .f32) (p : Fin 1024) :
    View.canon (runLast0 (F := Ideal) c i arg2 harg2 arg3 harg3 arg4 harg4 arg5 harg5 arg6 harg6 arg7 harg7 arg8 harg8 arg9 harg9 hr he x0 x1 x2 x3 x4 x5 xs).2.1 (ix2 p (0 : Fin 3))
        = min (xs (ix2 p 0)) (bmin (k0_pay7 (F := Ideal) x0 x1 x4 x5) (k0_pay8 (F := Ideal) x2 x3) (k0_pay9 (F := Ideal) x4 x5 x2 x3) p)
      ∧ View.canon (runLast0 (F := Ideal) c i arg2 harg2 arg3 harg3 arg4 harg4 arg5 harg5 arg6 harg6 arg7 harg7 arg8 harg8 arg9 harg9 hr he x0 x1 x2 x3 x4 x5 xs).2.1 (ix2 p (1 : Fin 3))
        = xs (ix2 p 1) + bcnt (BitVec.ofNat 32 (i 0).val) (BitVec.ofNat 32 (i 1).val) (k0_pay8 (F := Ideal) x2 x3) (k0_pay9 (F := Ideal) x4 x5 x2 x3) p
      ∧ View.canon (runLast0 (F := Ideal) c i arg2 harg2 arg3 harg3 arg4 harg4 arg5 harg5 arg6 harg6 arg7 harg7 arg8 harg8 arg9 harg9 hr he x0 x1 x2 x3 x4 x5 xs).2.1 (ix2 p (2 : Fin 3))
        = max (xs (ix2 p 2)) (bany (k0_pay8 (F := Ideal) x2 x3) (k0_pay9 (F := Ideal) x4 x5 x2 x3) p) := by
  have h := cols_canon (BitVec.ofNat 32 (i 0).val) (BitVec.ofNat 32 (i 1).val) (k0_pay7 (F := Ideal) x0 x1 x4 x5) (k0_pay8 (F := Ideal) x2 x3) (k0_pay9 (F := Ideal) x4 x5 x2 x3)
    (View.ld (Val := Elt Ideal) (e' := EltTy.f32) xs (Rect.unit (s := S1024x3) ![0, 0] ![1024, 1] inb_S1024x3_S1024x1_0_0)) (View.ld (Val := Elt Ideal) (e' := EltTy.f32) xs (Rect.unit (s := S1024x3) ![0, 1] ![1024, 1] inb_S1024x3_S1024x1_0_1)) (View.ld (Val := Elt Ideal) (e' := EltTy.f32) xs (Rect.unit (s := S1024x3) ![0, 2] ![1024, 1] inb_S1024x3_S1024x1_0_2)) [] p
  have e0 : (View.ld (Val := Elt Ideal) (e' := EltTy.f32) xs (Rect.unit (s := S1024x3) ![0, 0] ![1024, 1] inb_S1024x3_S1024x1_0_0)) (ix2 p (0 : Fin 1)) = xs (ix2 p 0) := Cert.LibColSlabs.ld_col (Val := Elt Ideal) xs 0 (0 : Fin 3) rfl _ p
  have e1 : (View.ld (Val := Elt Ideal) (e' := EltTy.f32) xs (Rect.unit (s := S1024x3) ![0, 1] ![1024, 1] inb_S1024x3_S1024x1_0_1)) (ix2 p (0 : Fin 1)) = xs (ix2 p 1) := Cert.LibColSlabs.ld_col (Val := Elt Ideal) xs 1 (1 : Fin 3) rfl _ p
  have e2 : (View.ld (Val := Elt Ideal) (e' := EltTy.f32) xs (Rect.unit (s := S1024x3) ![0, 2] ![1024, 1] inb_S1024x3_S1024x1_0_2)) (ix2 p (0 : Fin 1)) = xs (ix2 p 2) := Cert.LibColSlabs.ld_col (Val := Elt Ideal) xs 2 (2 : Fin 3) rfl _ p
  rw [e0, e1, e2] at h
  unfold runLast0
  dsimp only
  sl_unfold_words
  simp only [View.readAt_eq_ld, harg2.read_unread, harg3.read_unread, harg4.read_unread, harg5.read_unread,
    harg6.read_unread, harg7.read_unread, harg9.read_unread,
    View.ld_unit_zero (S := S1024x512) hz2, View.ld_unit_zero (S := S512x512) hz2, View.ld_unit_zero (S := S1024x80) hz2,
    View.ld_unit_zero (S := S512x80) hz2, View.ld_unit_zero (S := S1024x2) hz2, View.ld_unit_zero (S := S2x512) hz2]
  exact h

/-- and the result block receives them as they then stand. -/
theorem last_out_canon (c : Dev nD) (i : grid0.Coords) (arg2 : Memref sig .tc .vmem S1024x512 .bf16) (harg2 : arg2.IsWhole) (arg3 : Memref sig .tc .vmem S512x512 .bf16) (harg3 : arg3.IsWhole) (arg4 : Memref sig .tc .vmem S1024x80 .bf16) (harg4 : arg4.IsWhole) (arg5 : Memref sig .tc .vmem S512x80 .bf16) (harg5 : arg5.IsWhole) (arg6 : Memref sig .tc .vmem S1024x2 .f32) (harg6 : arg6.IsWhole) (arg7 : Memref sig .tc .vmem S2x512 .f32) (harg7 : arg7.IsWhole) (arg8 : Memref sig .tc .vmem S1024x3 .f32) (harg8 : arg8.IsWhole) (arg9 : Memref sig .tc .vmem S1024x3 .f32) (harg9 : arg9.IsWhole)
    (hr : ¬resets0 i) (he : emits0 i) (x0 : FVec Ideal S1024x512 .bf16) (x1 : FVec Ideal S512x512 .bf16) (x2 : FVec Ideal S1024x80 .bf16) (x3 : FVec Ideal S512x80 .bf16) (x4 : FVec Ideal S1024x2 .f32) (x5 : FVec Ideal S2x512 .f32) (xs : Vec Ideal S1024x3 .f32) (y : S1024x3.Idx) :
    View.canon (runLast0 (F := Ideal) c i arg2 harg2 arg3 harg3 arg4 harg4 arg5 harg5 arg6 harg6 arg7 harg7 arg8 harg8 arg9 harg9 hr he x0 x1 x2 x3 x4 x5 xs).1 y
      = View.canon (runLast0 (F := Ideal) c i arg2 harg2 arg3 harg3 arg4 harg4 arg5 harg5 arg6 harg6 arg7 harg7 arg8 harg8 arg9 harg9 hr he x0 x1 x2 x3 x4 x5 xs).2.1 y := by
  unfold runLast0
  dsimp only
  sl_unfold_words
  simp only [View.readAt_eq_ld, harg2.read_unread, harg3.read_unread, harg4.read_unread, harg5.read_unread,
    harg6.read_unread, harg7.read_unread, harg9.read_unread,
    View.ld_unit_zero (S := S1024x512) hz2, View.ld_unit_zero (S := S512x512) hz2, View.ld_unit_zero (S := S1024x80) hz2,
    View.ld_unit_zero (S := S512x80) hz2, View.ld_unit_zero (S := S1024x2) hz2, View.ld_unit_zero (S := S2x512) hz2]
  rw [View.canon_unit_zero (Val := Elt Ideal) (S := S1024x3) hz2, View.readCov_eq_canon']
  exact congrArg (View.canon (Val := Elt Ideal) _) (funext fun ax => Fin.ext (by
    match ax with
    | ⟨0, _⟩ => show 0 + 1 * (y 0).val = (y 0).val; omega
    | ⟨1, _⟩ => show 0 + 1 * (y 1).val = (y 1).val; omega))

end Cert.KernelIdeal.Val

end
-- ==== Proof.Val.StatsAcc.lean ====
/-
  The statistics kernel's running columns over a row block, in closed form.

  Point `n` belongs to row block `n / 16` and is its column block `n % 16`. After point `n` the minimum column
  lies below exactly what lies below the sentinel and below the masked-distance minimum of every column block of
  the row block so far; the count column is zero plus the positives of those column blocks; the maximum column lies
  above exactly what lies above zero and above the negatives' maximum of every such column block. By induction on
  the point, a first column block being the base.
-/
import proofs.«155278_j51788715655787_1_alg».proof.Proof.Val.StatsStep

set_option maxRecDepth 16384

noncomputable section

namespace Cert.KernelIdeal.Val

open Cert.KernelIdeal Cert.KernelIdeal.Gen Cert.KernelIdeal.Hand
open Idealize.ShloMosaic Idealize.ShloMosaic.ValueIdx Idealize.ShloMosaic.TcCoe
open Idealize.SL.Sem

variable (V : (c : Dev nD) → (b : Ref sig .tc) → Buf (Elt Ideal) ((c : Thread nD τ).loc b))

/-- The three pairwise matrices of the block at point `t`. -/
def Dt (c : Dev nD) (t : Fin cfg0.N) : FVec Ideal S1024x512 .f32 :=
  k0_pay7 (F := Ideal) (blk0 V c 0 t) (blk0 V c 1 t) (blk0 V c 4 t) (blk0 V c 5 t)
def It (c : Dev nD) (t : Fin cfg0.N) : FVec Ideal S1024x512 .f32 :=
  k0_pay8 (F := Ideal) (blk0 V c 2 t) (blk0 V c 3 t)
def Ut (c : Dev nD) (t : Fin cfg0.N) : FVec Ideal S1024x512 .f32 :=
  k0_pay9 (F := Ideal) (blk0 V c 4 t) (blk0 V c 5 t) (blk0 V c 2 t) (blk0 V c 3 t)

/-- The block's three row summaries at point `n` (junk past the grid, never used). -/
def bminN (c : Dev nD) (n : ℕ) (p : Fin 1024) : EReal :=
  if h : n < cfg0.N then bmin (Dt V c ⟨n, h⟩) (It V c ⟨n, h⟩) (Ut V c ⟨n, h⟩) p else 0
def bcntN (c : Dev nD) (n : ℕ) (p : Fin 1024) : EReal :=
  if h : n < cfg0.N then bcnt (BitVec.ofNat 32 ((grid0.coords ⟨n, h⟩) 0).val) (BitVec.ofNat 32 ((grid0.coords ⟨n, h⟩) 1).val)
    (It V c ⟨n, h⟩) (Ut V c ⟨n, h⟩) p else 0
def banyN (c : Dev nD) (n : ℕ) (p : Fin 1024) : EReal :=
  if h : n < cfg0.N then bany (It V c ⟨n, h⟩) (Ut V c ⟨n, h⟩) p else 0

/-- One step at a first column block. -/
theorem acc_first (c : Dev nD) (t : Fin cfg0.N) (h0 : t.val % 16 = 0) (p : Fin 1024) :
    accAt0 V c t.val t.isLt (ix2 p (0 : Fin 3)) = min bigE (bminN V c t.val p)
      ∧ accAt0 V c t.val t.isLt (ix2 p (1 : Fin 3)) = zeroE + bcntN V c t.val p
      ∧ accAt0 V c t.val t.isLt (ix2 p (2 : Fin 3)) = max zeroE (banyN V c t.val p) := by
  unfold bminN bcntN banyN
  simp only [dif_pos t.isLt]
  rw [accAt0_first V c t h0]
  unfold firstAcc0
  rw [View.read_writes_eq_canon _ _ _ (cover_firstAcc0 V c t h0)]
  exact first_canon c (grid0.coords t) _ _ _ _ _ _ _ _ _ _ _ _ _ _ _ _ _ _ _ _ _ _ _ _ p

/-- One step at a later column block. -/
theorem acc_later (c : Dev nD) (t : Fin cfg0.N) (h0 : ¬t.val % 16 = 0) (p : Fin 1024) :
    accAt0 V c t.val t.isLt (ix2 p (0 : Fin 3))
        = min (accAt0 V c (t.val - 1) (Nat.lt_of_le_of_lt (Nat.sub_le _ _) t.isLt) (ix2 p 0)) (bminN V c t.val p)
      ∧ accAt0 V c t.val t.isLt (ix2 p (1 : Fin 3))
        = accAt0 V c (t.val - 1) (Nat.lt_of_le_of_lt (Nat.sub_le _ _) t.isLt) (ix2 p 1) + bcntN V c t.val p
      ∧ accAt0 V c t.val t.isLt (ix2 p (2 : Fin 3))
        = max (accAt0 V c (t.val - 1) (Nat.lt_of_le_of_lt (Nat.sub_le _ _) t.isLt) (ix2 p 2)) (banyN V c t.val p) := by
  unfold bminN bcntN banyN
  simp only [dif_pos t.isLt]
  by_cases h1 : t.val % 16 = 15
  · rw [accAt0_last V c t h0 h1]
    unfold lastAcc0
    rw [View.read_writes_eq_canon _ _ _ (cover_lastAcc0 V c t h0 h1 _)]
    exact last_canon c (grid0.coords t) _ _ _ _ _ _ _ _ _ _ _ _ _ _ _ _ _ _ _ _ _ _ _ _ _ p
  · rw [accAt0_mid V c t h0 h1]
    unfold midAcc0
    rw [View.read_writes_eq_canon _ _ _ (cover_midAcc0 V c t h0 h1 _)]
    exact mid_canon c (grid0.coords t) _ _ _ _ _ _ _ _ _ _ _ _ _ _ _ _ _ _ _ _ _ _ _ _ _ p

/-- The count column after point `n`: zero plus the positives of the row block's column blocks so far. -/
theorem acc_cnt (c : Dev nD) : ∀ (n : ℕ) (hn : n < cfg0.N) (p : Fin 1024),
    accAt0 V c n hn (ix2 p (1 : Fin 3)) = zeroE + ∑ j ∈ Finset.range (n % 16 + 1), bcntN V c (16 * (n / 16) + j) p
  | n, hn, p => by
    by_cases h0 : n % 16 = 0
    · have h := (acc_first V c ⟨n, hn⟩ h0 p).2.1
      have e : 16 * (n / 16) + 0 = n := by omega
      rw [h0, Finset.sum_range_one, e]
      exact h
    · have hn1 : n - 1 < cfg0.N := Nat.lt_of_le_of_lt (Nat.sub_le _ _) hn
      have h := (acc_later V c ⟨n, hn⟩ h0 p).2.1
      have ih := acc_cnt c (n - 1) hn1 p
      have e1 : (n - 1) % 16 + 1 = n % 16 := by omega
      have e2 : (n - 1) / 16 = n / 16 := by omega
      have e3 : 16 * (n / 16) + n % 16 = n := by omega
      rw [e1, e2] at ih
      rw [Finset.sum_range_succ, e3, ← add_assoc, ← ih]
      exact h
  termination_by n => n
  decreasing_by omega

/-- The minimum column after point `n`: the greatest lower bound of the sentinel and of the row block's masked-distance
    minima so far. -/
theorem acc_min (c : Dev nD) : ∀ (n : ℕ) (hn : n < cfg0.N) (p : Fin 1024) (z : EReal),
    z ≤ accAt0 V c n hn (ix2 p (0 : Fin 3)) ↔ z ≤ bigE ∧ ∀ j, j < n % 16 + 1 → z ≤ bminN V c (16 * (n / 16) + j) p
  | n, hn, p, z => by
    by_cases h0 : n % 16 = 0
    · have h := (acc_first V c ⟨n, hn⟩ h0 p).1
      have e : 16 * (n / 16) + 0 = n := by omega
      rw [show accAt0 V c n hn (ix2 p (0 : Fin 3)) = min bigE (bminN V c n p) from h, le_min_iff, h0]
      refine and_congr_right fun _ => ⟨fun hz j hj => ?_, fun hz => ?_⟩
      · have : j = 0 := by omega
        subst this; rw [e]; exact hz
      · have := hz 0 (by omega); rwa [e] at this
    · have hn1 : n - 1 < cfg0.N := Nat.lt_of_le_of_lt (Nat.sub_le _ _) hn
      have h := (acc_later V c ⟨n, hn⟩ h0 p).1
      have ih := acc_min c (n - 1) hn1 p z
      have e1 : (n - 1) % 16 + 1 = n % 16 := by omega
      have e2 : (n - 1) / 16 = n / 16 := by omega
      have e3 : 16 * (n / 16) + n % 16 = n := by omega
      rw [e1, e2] at ih
      rw [show accAt0 V c n hn (ix2 p (0 : Fin 3)) = min (accAt0 V c (n - 1) hn1 (ix2 p 0)) (bminN V c n p) from h, le_min_iff, ih]
      constructor
      · rintro ⟨⟨hb, hj⟩, hl⟩
        refine ⟨hb, fun j hj' => ?_⟩
        by_cases hjn : j < n % 16
        · exact hj j hjn
        · have : j = n % 16 := by omega
          subst this; rw [e3]; exact hl
      · rintro ⟨hb, hj⟩
        exact ⟨⟨hb, fun j hj' => hj j (by omega)⟩, by have := hj (n % 16) (by omega); rwa [e3] at this⟩
  termination_by n => n
  decreasing_by omega

/-- The maximum column after point `n`: the least upper bound of zero and of the row block's negatives' maxima so far. -/
theorem acc_any (c : Dev nD) : ∀ (n : ℕ) (hn : n < cfg0.N) (p : Fin 1024) (z : EReal),
    accAt0 V c n hn (ix2 p (2 : Fin 3)) ≤ z ↔ zeroE ≤ z ∧ ∀ j, j < n % 16 + 1 → banyN V c (16 * (n / 16) + j) p ≤ z
  | n, hn, p, z => by
    by_cases h0 : n % 16 = 0
    · have h := (acc_first V c ⟨n, hn⟩ h0 p).2.2
      have e : 16 * (n / 16) + 0 = n := by omega
      rw [show accAt0 V c n hn (ix2 p (2 : Fin 3)) = max zeroE (banyN V c n p) from h, max_le_iff, h0]
      refine and_congr_right fun _ => ⟨fun hz j hj => ?_, fun hz => ?_⟩
      · have : j = 0 := by omega
        subst this; rw [e]; exact hz
      · have := hz 0 (by omega); rwa [e] at this
    · have hn1 : n - 1 < cfg0.N := Nat.lt_of_le_of_lt (Nat.sub_le _ _) hn
      have h := (acc_later V c ⟨n, hn⟩ h0 p).2.2
      have ih := acc_any c (n - 1) hn1 p z
      have e1 : (n - 1) % 16 + 1 = n % 16 := by omega
      have e2 : (n - 1) / 16 = n / 16 := by omega
      have e3 : 16 * (n / 16) + n % 16 = n := by omega
      rw [e1, e2] at ih
      rw [show accAt0 V c n hn (ix2 p (2 : Fin 3)) = max (accAt0 V c (n - 1) hn1 (ix2 p 2)) (banyN V c n p) from h, max_le_iff, ih]
      constructor
      · rintro ⟨⟨hb, hj⟩, hl⟩
        refine ⟨hb, fun j hj' => ?_⟩
        by_cases hjn : j < n % 16
        · exact hj j hjn
        · have : j = n % 16 := by omega
          subst this; rw [e3]; exact hl
      · rintro ⟨hb, hj⟩
        exact ⟨⟨hb, fun j hj' => hj j (by omega)⟩, by have := hj (n % 16) (by omega); rwa [e3] at this⟩
  termination_by n => n
  decreasing_by omega

end Cert.KernelIdeal.Val

end
-- ==== Proof.Val.LossStep.lean ====
/-
  The loss kernel's pairwise core, its row sums of masked hinge terms and its final row results, read at one entry
  over the extended reals; and the running column after one point.

  The pairwise matrices are those of the statistics kernel. With `h` the column of hardest-negative distances of
  the row block, entry (p, q) of the masked hinge matrix is max((D − h_p) + 0.3, 0) · J at a positive (J > 0 off the
  diagonal) and 0 elsewhere; row p of the running column becomes its old value plus that row's sum. At a last
  column block, with `n` the column of positive counts and `a` the column of negative flags, a row is valid when
  n_p > 0 and a_p > 0.5; the result's first column is the running sum divided by max(n_p, 1) on valid rows and 0
  elsewhere, its second column the validity as 0 or 1.
-/
import proofs.«155278_j51788715655787_1_alg».proof.Proof.Loss.Data
import proofs.«155278_j51788715655787_1_alg».proof.Proof.Val.StatsStep

set_option maxRecDepth 16384

noncomputable section

namespace Cert.KernelIdeal.Val

open Cert.KernelIdeal Cert.KernelIdeal.Gen Cert.KernelIdeal.Hand
open Idealize.ShloMosaic Idealize.ShloMosaic.ValueIdx Idealize.ShloMosaic.Tactic Idealize.ShloMosaic.TcCoe
open Idealize.SL.Sem

/-- The loss kernel's three pairwise matrices are the statistics kernel's. -/
theorem pay9_eq : k1_pay9 (F := Ideal) = k0_pay7 (F := Ideal) := rfl
theorem pay10_eq : k1_pay10 (F := Ideal) = k0_pay8 (F := Ideal) := rfl
theorem pay11_eq : k1_pay11 (F := Ideal) = k0_pay9 (F := Ideal) := rfl

/-- The block's positives as bits. -/
def posBit (a0 a1 : BitVec 32) (v31 v37 : FVec Ideal S1024x512 .f32) : IVec S1024x512 1 :=
  andi (cmpf .ogt (divf v31 v37) (broadcast S1024x512 (Scalar.ofBits .f32 0x00000000#32)))
    (xori (cmpi .eq (addi (broadcast S1024x512 (Scalar.muli a0 1024#32)) (iota .tc S1024x512 32 [0] iota_S1024x512_d0_w32))
                    (addi (broadcast S1024x512 (Scalar.muli a1 512#32)) (iota .tc S1024x512 32 [1] iota_S1024x512_d1_w32)))
          (constantI S1024x512 1 1#1))
theorem posBlk_eq (a0 a1 : BitVec 32) (v31 v37 : FVec Ideal S1024x512 .f32) :
    posBlk a0 a1 v31 v37 = sitofp .f32 (extui 32 (posBit a0 a1 v31 v37) natLt_1_32) := rfl

/-- The masked hinge matrix of the block. -/
def hingeBlk (a0 a1 : BitVec 32) (v25 v31 v37 : FVec Ideal S1024x512 .f32) (h : FVec Ideal S1024x1 .f32) : FVec Ideal S1024x512 .f32 :=
  select (posBit a0 a1 v31 v37)
    (mulf (maximumf (addf (subf v25 (broadcastTo S1024x512 h broadcasts_S1024x1_S1024x512))
        (broadcast S1024x512 (Scalar.ofBits .f32 0x3E99999A#32))) (broadcast S1024x512 (Scalar.ofBits .f32 0x00000000#32))) (divf v31 v37))
    (broadcast S1024x512 (Scalar.ofBits .f32 0x00000000#32))

/-- The running column of hinge sums: its old value plus the row's masked hinge terms. -/
theorem sumCol_apply (a0 a1 : BitVec 32) (v25 v31 v37 : FVec Ideal S1024x512 .f32) (v52 v65 : FVec Ideal S1024x1 .f32) (p : Fin 1024) :
    k1_pay1 (F := Ideal) a0 a1 v25 v31 v37 v52 v65 (ix2 p 0)
      = v65 (ix2 p 0) + ∑ q : Fin 512, hingeBlk a0 a1 v25 v31 v37 v52 (ix2 p q) := by
  unfold k1_pay1
  simp only [shapeCast_self]
  show v65 (ix2 p 0) + shapeCast S1024x1 (multiReduction .add [1] S1024 (hingeBlk a0 a1 v25 v31 v37 v52) 0x00000000#32
      reduces_S1024x512_S1024 (.inl rfl) rfl) shapeCasts_S1024_S1024x1 (ix2 p (0 : Fin 1)) = _
  rw [Cert.LibColumns.shapeCast_a_a1_apply]
  refine congrArg (v65 (ix2 p 0) + ·) ?_
  refine (Ideal.multiReduction_add_single _ _ _ _ _ (ix1 p)).trans ?_
  exact Finset.sum_congr rfl fun q _ => congrArg (hingeBlk a0 a1 v25 v31 v37 v52) (lift_row p q)

/-- A row is valid: it has a positive and a negative. -/
def validVec (v73 v75 : FVec Ideal S1024x1 .f32) : IVec S1024x1 1 :=
  andi (cmpf .ogt v73 (broadcast S1024x1 (Scalar.ofBits .f32 0x00000000#32)))
    (cmpf .ogt v75 (broadcast S1024x1 (Scalar.ofBits .f32 0x3F000000#32)))
/-- The row losses: the hinge sum over max(count, 1) on valid rows, zero elsewhere. -/
def lossVec (v73 v75 v77 : FVec Ideal S1024x1 .f32) : FVec Ideal S1024x1 .f32 :=
  select (validVec v73 v75) (divf v77 (maximumf v73 (broadcast S1024x1 (Scalar.ofBits .f32 0x3F800000#32))))
    (broadcast S1024x1 (Scalar.ofBits .f32 0x00000000#32))
/-- The validity flags as zeros and ones. -/
def validfVec (v73 v75 : FVec Ideal S1024x1 .f32) : FVec Ideal S1024x1 .f32 :=
  sitofp .f32 (extui 32 (validVec v73 v75) natLt_1_32)

theorem pay4_eq (v73 v75 v77 : FVec Ideal S1024x1 .f32) : k1_pay4 (F := Ideal) v73 v75 v77 = lossVec v73 v75 v77 := by
  unfold k1_pay4 k1_pay3 k1_pay2; simp only [shapeCast_self]; rfl
theorem pay5_eq (v73 v75 : FVec Ideal S1024x1 .f32) : k1_pay5 (F := Ideal) v73 v75 = validfVec v73 v75 := by
  unfold k1_pay5 k1_pay3 k1_pay2; simp only [shapeCast_self]; rfl

/-- The running column after a middle column block: what the point before left plus the block's masked hinge row sums,
    the hardest-negative distances being column 0 of the statistics block. -/
theorem mid_canon1 (c : Dev nD) (i : grid1.Coords) (arg2 : Memref sig .tc .vmem S1024x512 .bf16) (harg2 : arg2.IsWhole) (arg3 : Memref sig .tc .vmem S512x512 .bf16) (harg3 : arg3.IsWhole) (arg4 : Memref sig .tc .vmem S1024x80 .bf16) (harg4 : arg4.IsWhole) (arg5 : Memref sig .tc .vmem S512x80 .bf16) (harg5 : arg5.IsWhole) (arg6 : Memref sig .tc .vmem S1024x2 .f32) (harg6 : arg6.IsWhole) (arg7 : Memref sig .tc .vmem S2x512 .f32) (harg7 : arg7.IsWhole) (arg8 : Memref sig .tc .vmem S1024x3 .f32) (harg8 : arg8.IsWhole) (arg9 : Memref sig .tc .vmem S1024x2 .f32) (harg9 : arg9.IsWhole) (arg10 : Memref sig .tc .vmem S1024x1 .f32) (harg10 : arg10.IsWhole)
    (hr : ¬resets1 i) (he : ¬emits1 i) (x0 : FVec Ideal S1024x512 .bf16) (x1 : FVec Ideal S512x512 .bf16) (x2 : FVec Ideal S1024x80 .bf16) (x3 : FVec Ideal S512x80 .bf16) (x4 : FVec Ideal S1024x2 .f32) (x5 : FVec Ideal S2x512 .f32) (x6 : Vec Ideal S1024x3 .f32) (xs : Vec Ideal S1024x1 .f32) (p : Fin 1024) :
    View.canon (runMid1 (F := Ideal) c i arg2 harg2 arg3 harg3 arg4 harg4 arg5 harg5 arg6 harg6 arg7 harg7 arg8 harg8 arg9 harg9 arg10 harg10 hr he x0 x1 x2 x3 x4 x5 x6 xs).1 (ix2 p (0 : Fin 1))
      = xs (ix2 p 0) + ∑ q : Fin 512, hingeBlk (BitVec.ofNat 32 (i 0).val) (BitVec.ofNat 32 (i 1).val) (k1_pay9 (F := Ideal) x0 x1 x4 x5) (k1_pay10 (F := Ideal) x2 x3) (k1_pay11 (F := Ideal) x4 x5 x2 x3) (View.ld (Val := Elt Ideal) (e' := EltTy.f32) x6 (Rect.unit (s := S1024x3) ![0, 0] ![1024, 1] inb_S1024x3_S1024x1_0_0)) (ix2 p q) := by
  unfold runMid1
  dsimp only
  sl_unfold_words
  simp only [View.readAt_eq_ld, harg2.read_unread, harg3.read_unread, harg4.read_unread, harg5.read_unread,
    harg6.read_unread, harg7.read_unread, harg8.read_unread, harg10.read_unread,
    View.ld_unit_zero (S := S1024x512) hz2, View.ld_unit_zero (S := S512x512) hz2, View.ld_unit_zero (S := S1024x80) hz2,
    View.ld_unit_zero (S := S512x80) hz2, View.ld_unit_zero (S := S1024x2) hz2, View.ld_unit_zero (S := S2x512) hz2,
    View.ld_unit_zero (S := S1024x1) hz2]
  rw [View.canon_unit_zero (Val := Elt Ideal) (S := S1024x1) hz2]
  exact sumCol_apply _ _ _ _ _ _ xs p

/-- After a first column block: zero plus the block's masked hinge row sums. -/
theorem first_canon1 (c : Dev nD) (i : grid1.Coords) (arg2 : Memref sig .tc .vmem S1024x512 .bf16) (harg2 : arg2.IsWhole) (arg3 : Memref sig .tc .vmem S512x512 .bf16) (harg3 : arg3.IsWhole) (arg4 : Memref sig .tc .vmem S1024x80 .bf16) (harg4 : arg4.IsWhole) (arg5 : Memref sig .tc .vmem S512x80 .bf16) (harg5 : arg5.IsWhole) (arg6 : Memref sig .tc .vmem S1024x2 .f32) (harg6 : arg6.IsWhole) (arg7 : Memref sig .tc .vmem S2x512 .f32) (harg7 : arg7.IsWhole) (arg8 : Memref sig .tc .vmem S1024x3 .f32) (harg8 : arg8.IsWhole) (arg9 : Memref sig .tc .vmem S1024x2 .f32) (harg9 : arg9.IsWhole) (arg10 : Memref sig .tc .vmem S1024x1 .f32) (harg10 : arg10.IsWhole)
    (hr : resets1 i) (he : ¬emits1 i) (x0 : FVec Ideal S1024x512 .bf16) (x1 : FVec Ideal S512x512 .bf16) (x2 : FVec Ideal S1024x80 .bf16) (x3 : FVec Ideal S512x80 .bf16) (x4 : FVec Ideal S1024x2 .f32) (x5 : FVec Ideal S2x512 .f32) (x6 : Vec Ideal S1024x3 .f32) (p : Fin 1024) :
    View.canon (runFirst1 (F := Ideal) c i arg2 harg2 arg3 harg3 arg4 harg4 arg5 harg5 arg6 harg6 arg7 harg7 arg8 harg8 arg9 harg9 arg10 harg10 hr he x0 x1 x2 x3 x4 x5 x6).1 (ix2 p (0 : Fin 1))
      = zeroE + ∑ q : Fin 512, hingeBlk (BitVec.ofNat 32 (i 0).val) (BitVec.ofNat 32 (i 1).val) (k1_pay9 (F := Ideal) x0 x1 x4 x5) (k1_pay10 (F := Ideal) x2 x3) (k1_pay11 (F := Ideal) x4 x5 x2 x3) (View.ld (Val := Elt Ideal) (e' := EltTy.f32) x6 (Rect.unit (s := S1024x3) ![0, 0] ![1024, 1] inb_S1024x3_S1024x1_0_0)) (ix2 p q) := by
  unfold runFirst1
  dsimp only
  sl_unfold_words
  simp only [View.readAt_eq_ld, harg2.read_unread, harg3.read_unread, harg4.read_unread, harg5.read_unread,
    harg6.read_unread, harg7.read_unread, harg8.read_unread, harg10.read_unread,
    View.ld_unit_zero (S := S1024x512) hz2, View.ld_unit_zero (S := S512x512) hz2, View.ld_unit_zero (S := S1024x80) hz2,
    View.ld_unit_zero (S := S512x80) hz2, View.ld_unit_zero (S := S1024x2) hz2, View.ld_unit_zero (S := S2x512) hz2,
    View.ld_unit_zero (S := S1024x1) hz2]
  rw [View.canon_cons_unit_zero (Val := Elt Ideal) (S := S1024x1) hz2]
  refine (sumCol_apply _ _ _ _ _ _ _ p).trans ?_
  refine congrArg (· + _) ?_
  rw [View.readCov_unit_zero (Val := Elt Ideal) (S := S1024x1) _ hz2]
  unfold k1_pay6; simp only [shapeCast_self]; rfl

/-- After a last column block the running column is folded as at a middle one, -/
theorem last_canon1 (c : Dev nD) (i : grid1.Coords) (arg2 : Memref sig .tc .vmem S1024x512 .bf16) (harg2 : arg2.IsWhole) (arg3 : Memref sig .tc .vmem S512x512 .bf16) (harg3 : arg3.IsWhole) (arg4 : Memref sig .tc .vmem S1024x80 .bf16) (harg4 : arg4.IsWhole) (arg5 : Memref sig .tc .vmem S512x80 .bf16) (harg5 : arg5.IsWhole) (arg6 : Memref sig .tc .vmem S1024x2 .f32) (harg6 : arg6.IsWhole) (arg7 : Memref sig .tc .vmem S2x512 .f32) (harg7 : arg7.IsWhole) (arg8 : Memref sig .tc .vmem S1024x3 .f32) (harg8 : arg8.IsWhole) (arg9 : Memref sig .tc .vmem S1024x2 .f32) (harg9 : arg9.IsWhole) (arg10 : Memref sig .tc .vmem S1024x1 .f32) (harg10 : arg10.IsWhole)
    (hr : ¬resets1 i) (he : emits1 i) (x0 : FVec Ideal S1024x512 .bf16) (x1 : FVec Ideal S512x512 .bf16) (x2 : FVec Ideal S1024x80 .bf16) (x3 : FVec Ideal S512x80 .bf16) (x4 : FVec Ideal S1024x2 .f32) (x5 : FVec Ideal S2x512 .f32) (x6 : Vec Ideal S1024x3 .f32) (xs : Vec Ideal S1024x1 .f32) (p : Fin 1024) :
    View.canon (runLast1 (F := Ideal) c i arg2 harg2 arg3 harg3 arg4 harg4 arg5 harg5 arg6 harg6 arg7 harg7 arg8 harg8 arg9 harg9 arg10 harg10 hr he x0 x1 x2 x3 x4 x5 x6 xs).2.1 (ix2 p (0 : Fin 1))
      = xs (ix2 p 0) + ∑ q : Fin 512, hingeBlk (BitVec.ofNat 32 (i 0).val) (BitVec.ofNat 32 (i 1).val) (k1_pay9 (F := Ideal) x0 x1 x4 x5) (k1_pay10 (F := Ideal) x2 x3) (k1_pay11 (F := Ideal) x4 x5 x2 x3) (View.ld (Val := Elt Ideal) (e' := EltTy.f32) x6 (Rect.unit (s := S1024x3) ![0, 0] ![1024, 1] inb_S1024x3_S1024x1_0_0)) (ix2 p q) := by
  unfold runLast1
  dsimp only
  sl_unfold_words
  simp only [View.readAt_eq_ld, harg2.read_unread, harg3.read_unread, harg4.read_unread, harg5.read_unread,
    harg6.read_unread, harg7.read_unread, harg8.read_unread, harg10.read_unread,
    View.ld_unit_zero (S := S1024x512) hz2, View.ld_unit_zero (S := S512x512) hz2, View.ld_unit_zero (S := S1024x80) hz2,
    View.ld_unit_zero (S := S512x80) hz2, View.ld_unit_zero (S := S1024x2) hz2, View.ld_unit_zero (S := S2x512) hz2,
    View.ld_unit_zero (S := S1024x1) hz2]
  rw [View.canon_unit_zero (Val := Elt Ideal) (S := S1024x1) hz2]
  exact sumCol_apply _ _ _ _ _ _ xs p

/-- and the result block receives the row losses and the validity flags computed from it. -/
theorem last_out_canon1 (c : Dev nD) (i : grid1.Coords) (arg2 : Memref sig .tc .vmem S1024x512 .bf16) (harg2 : arg2.IsWhole) (arg3 : Memref sig .tc .vmem S512x512 .bf16) (harg3 : arg3.IsWhole) (arg4 : Memref sig .tc .vmem S1024x80 .bf16) (harg4 : arg4.IsWhole) (arg5 : Memref sig .tc .vmem S512x80 .bf16) (harg5 : arg5.IsWhole) (arg6 : Memref sig .tc .vmem S1024x2 .f32) (harg6 : arg6.IsWhole) (arg7 : Memref sig .tc .vmem S2x512 .f32) (harg7 : arg7.IsWhole) (arg8 : Memref sig .tc .vmem S1024x3 .f32) (harg8 : arg8.IsWhole) (arg9 : Memref sig .tc .vmem S1024x2 .f32) (harg9 : arg9.IsWhole) (arg10 : Memref sig .tc .vmem S1024x1 .f32) (harg10 : arg10.IsWhole)
    (hr : ¬resets1 i) (he : emits1 i) (x0 : FVec Ideal S1024x512 .bf16) (x1 : FVec Ideal S512x512 .bf16) (x2 : FVec Ideal S1024x80 .bf16) (x3 : FVec Ideal S512x80 .bf16) (x4 : FVec Ideal S1024x2 .f32) (x5 : FVec Ideal S2x512 .f32) (x6 : Vec Ideal S1024x3 .f32) (xs : Vec Ideal S1024x1 .f32) (p : Fin 1024) :
    View.canon (runLast1 (F := Ideal) c i arg2 harg2 arg3 harg3 arg4 harg4 arg5 harg5 arg6 harg6 arg7 harg7 arg8 harg8 arg9 harg9 arg10 harg10 hr he x0 x1 x2 x3 x4 x5 x6 xs).1 (ix2 p (0 : Fin 2))
        = lossVec (View.ld (Val := Elt Ideal) (e' := EltTy.f32) x6 (Rect.unit (s := S1024x3) ![0, 1] ![1024, 1] inb_S1024x3_S1024x1_0_1)) (View.ld (Val := Elt Ideal) (e' := EltTy.f32) x6 (Rect.unit (s := S1024x3) ![0, 2] ![1024, 1] inb_S1024x3_S1024x1_0_2))
            (View.canon (runLast1 (F := Ideal) c i arg2 harg2 arg3 harg3 arg4 harg4 arg5 harg5 arg6 harg6 arg7 harg7 arg8 harg8 arg9 harg9 arg10 harg10 hr he x0 x1 x2 x3 x4 x5 x6 xs).2.1) (ix2 p (0 : Fin 1))
      ∧ View.canon (runLast1 (F := Ideal) c i arg2 harg2 arg3 harg3 arg4 harg4 arg5 harg5 arg6 harg6 arg7 harg7 arg8 harg8 arg9 harg9 arg10 harg10 hr he x0 x1 x2 x3 x4 x5 x6 xs).1 (ix2 p (1 : Fin 2))
        = validfVec (View.ld (Val := Elt Ideal) (e' := EltTy.f32) x6 (Rect.unit (s := S1024x3) ![0, 1] ![1024, 1] inb_S1024x3_S1024x1_0_1)) (View.ld (Val := Elt Ideal) (e' := EltTy.f32) x6 (Rect.unit (s := S1024x3) ![0, 2] ![1024, 1] inb_S1024x3_S1024x1_0_2)) (ix2 p (0 : Fin 1)) := by
  unfold runLast1
  dsimp only
  sl_unfold_words
  simp only [View.readAt_eq_ld, harg2.read_unread, harg3.read_unread, harg4.read_unread, harg5.read_unread,
    harg6.read_unread, harg7.read_unread, harg8.read_unread, harg10.read_unread,
    View.ld_unit_zero (S := S1024x512) hz2, View.ld_unit_zero (S := S512x512) hz2, View.ld_unit_zero (S := S1024x80) hz2,
    View.ld_unit_zero (S := S512x80) hz2, View.ld_unit_zero (S := S1024x2) hz2, View.ld_unit_zero (S := S2x512) hz2,
    View.ld_unit_zero (S := S1024x1) hz2]
  refine ⟨?_, ?_⟩
  · rw [Cert.LibColSlabs.canon_col_skip 1 (0 : Fin 2) (by decide), Cert.LibColSlabs.canon_col_hit 0 (0 : Fin 2) rfl, pay4_eq]
    rw [View.readCov_unit_zero (Val := Elt Ideal) (S := S1024x1) _ hz2, View.canon_unit_zero (Val := Elt Ideal) (S := S1024x1) hz2]
  · rw [Cert.LibColSlabs.canon_col_hit 1 (1 : Fin 2) rfl, pay5_eq]

end Cert.KernelIdeal.Val

end
-- ==== Proof.Val.LossOut.lean ====
/-
  The loss kernel's running column over a row block in closed form, and its result array after the region.

  After point `n` the running column is zero plus the masked hinge row sums of the row block's column blocks so far.
  Row `i` of the result array, of row block `i / 1024`, holds what the row block's last column block stores: the row
  loss and the validity flag computed from the running column after that point and from the statistics block's
  count and flag columns.
-/
import proofs.«155278_j51788715655787_1_alg».proof.Proof.Val.LossStep
import Idealize.ShloMosaic.Lib.Pipeline.Value

set_option maxRecDepth 16384

noncomputable section

namespace Cert.KernelIdeal.Val

open Cert.KernelIdeal Cert.KernelIdeal.Gen Cert.KernelIdeal.Hand
open Idealize.ShloMosaic Idealize.ShloMosaic.ValueIdx Idealize.ShloMosaic.TcCoe
open Idealize.SL.Sem
open Idealize.ShloMosaic.Pipeline (Dat)

variable (V : (c : Dev nD) → (b : Ref sig .tc) → Buf (Elt Ideal) ((c : Thread nD τ).loc b))

/-- The three pairwise matrices of the block at point `t`, and the three columns of its statistics block. -/
def D1t (c : Dev nD) (t : Fin cfg1.N) : FVec Ideal S1024x512 .f32 :=
  k1_pay9 (F := Ideal) (blk1 V c 0 t) (blk1 V c 1 t) (blk1 V c 4 t) (blk1 V c 5 t)
def I1t (c : Dev nD) (t : Fin cfg1.N) : FVec Ideal S1024x512 .f32 :=
  k1_pay10 (F := Ideal) (blk1 V c 2 t) (blk1 V c 3 t)
def U1t (c : Dev nD) (t : Fin cfg1.N) : FVec Ideal S1024x512 .f32 :=
  k1_pay11 (F := Ideal) (blk1 V c 4 t) (blk1 V c 5 t) (blk1 V c 2 t) (blk1 V c 3 t)
def statCol (c : Dev nD) (t : Fin cfg1.N) (k : Fin 3) : FVec Ideal S1024x1 .f32 :=
  match k with
  | ⟨0, _⟩ => View.ld (Val := Elt Ideal) (e' := EltTy.f32) (blk1 V c 6 t) (Rect.unit (s := S1024x3) ![0, 0] ![1024, 1] inb_S1024x3_S1024x1_0_0)
  | ⟨1, _⟩ => View.ld (Val := Elt Ideal) (e' := EltTy.f32) (blk1 V c 6 t) (Rect.unit (s := S1024x3) ![0, 1] ![1024, 1] inb_S1024x3_S1024x1_0_1)
  | ⟨2, _⟩ => View.ld (Val := Elt Ideal) (e' := EltTy.f32) (blk1 V c 6 t) (Rect.unit (s := S1024x3) ![0, 2] ![1024, 1] inb_S1024x3_S1024x1_0_2)

/-- Row p's masked hinge sum in the block at point `n` (junk past the grid, never used). -/
def hsumN (c : Dev nD) (n : ℕ) (p : Fin 1024) : EReal :=
  if h : n < cfg1.N then
    ∑ q : Fin 512, hingeBlk (BitVec.ofNat 32 ((grid1.coords ⟨n, h⟩) 0).val) (BitVec.ofNat 32 ((grid1.coords ⟨n, h⟩) 1).val)
      (D1t V c ⟨n, h⟩) (I1t V c ⟨n, h⟩) (U1t V c ⟨n, h⟩) (statCol V c ⟨n, h⟩ 0) (ix2 p q)
  else 0

theorem acc1_first (c : Dev nD) (t : Fin cfg1.N) (h0 : t.val % 16 = 0) (p : Fin 1024) :
    accAt1 V c t.val t.isLt (ix2 p (0 : Fin 1)) = zeroE + hsumN V c t.val p := by
  unfold hsumN
  simp only [dif_pos t.isLt]
  rw [accAt1_first V c t h0]
  unfold firstAcc1
  rw [View.read_writes_eq_canon _ _ _ (cover_firstAcc1 V c t h0)]
  exact first_canon1 c (grid1.coords t) _ _ _ _ _ _ _ _ _ _ _ _ _ _ _ _ _ _ _ _ _ _ _ _ _ _ _ p

theorem acc1_later (c : Dev nD) (t : Fin cfg1.N) (h0 : ¬t.val % 16 = 0) (p : Fin 1024) :
    accAt1 V c t.val t.isLt (ix2 p (0 : Fin 1))
      = accAt1 V c (t.val - 1) (Nat.lt_of_le_of_lt (Nat.sub_le _ _) t.isLt) (ix2 p 0) + hsumN V c t.val p := by
  unfold hsumN
  simp only [dif_pos t.isLt]
  by_cases h1 : t.val % 16 = 15
  · rw [accAt1_last V c t h0 h1]
    unfold lastAcc1
    rw [View.read_writes_eq_canon _ _ _ (cover_lastAcc1 V c t h0 h1 _)]
    exact last_canon1 c (grid1.coords t) _ _ _ _ _ _ _ _ _ _ _ _ _ _ _ _ _ _ _ _ _ _ _ _ _ _ _ _ p
  · rw [accAt1_mid V c t h0 h1]
    unfold midAcc1
    rw [View.read_writes_eq_canon _ _ _ (cover_midAcc1 V c t h0 h1 _)]
    exact mid_canon1 c (grid1.coords t) _ _ _ _ _ _ _ _ _ _ _ _ _ _ _ _ _ _ _ _ _ _ _ _ _ _ _ _ p

/-- The running column after point `n`: zero plus the masked hinge row sums of the row block's column blocks so far. -/
theorem acc1_sum (c : Dev nD) : ∀ (n : ℕ) (hn : n < cfg1.N) (p : Fin 1024),
    accAt1 V c n hn (ix2 p (0 : Fin 1)) = zeroE + ∑ j ∈ Finset.range (n % 16 + 1), hsumN V c (16 * (n / 16) + j) p
  | n, hn, p => by
    by_cases h0 : n % 16 = 0
    · have h := acc1_first V c ⟨n, hn⟩ h0 p
      have e : 16 * (n / 16) + 0 = n := by omega
      rw [h0, Finset.sum_range_one, e]
      exact h
    · have hn1 : n - 1 < cfg1.N := Nat.lt_of_le_of_lt (Nat.sub_le _ _) hn
      have h := acc1_later V c ⟨n, hn⟩ h0 p
      have ih := acc1_sum c (n - 1) hn1 p
      have e1 : (n - 1) % 16 + 1 = n % 16 := by omega
      have e2 : (n - 1) / 16 = n / 16 := by omega
      have e3 : 16 * (n / 16) + n % 16 = n := by omega
      rw [e1, e2] at ih
      rw [Finset.sum_range_succ, e3, ← add_assoc, ← ih]
      exact h
  termination_by n => n
  decreasing_by omega

theorem accAt1_congr (c : Dev nD) {n n' : ℕ} (h : n = n') (hn : n < cfg1.N) (hn' : n' < cfg1.N) :
    accAt1 V c n hn = accAt1 V c n' hn' := by subst h; rfl

/-- The result block after a last column block. -/
def outBlk (c : Dev nD) (t : Fin cfg1.N) : S1024x2.Idx → EReal := fun y =>
  if (y 1).val = 0 then
    lossVec (statCol V c t 1) (statCol V c t 2) (accAt1 V c t.val t.isLt) (ix2 (⟨(y 0).val, (y 0).isLt⟩ : Fin 1024) (0 : Fin 1))
  else validfVec (statCol V c t 1) (statCol V c t 2) (ix2 (⟨(y 0).val, (y 0).isLt⟩ : Fin 1024) (0 : Fin 1))

theorem outAt1_eq (c : Dev nD) (t : Fin cfg1.N) (h1 : t.val % 16 = 15) : outAt1 V c t = outBlk V c t := by
  have h0 : ¬t.val % 16 = 0 := by omega
  unfold outAt1
  rw [dif_pos h1]
  unfold lastOut1
  rw [View.read_writes_eq_canon _ _ _ (cover_lastOut1 V c t h0 h1 _)]
  have hacc : accAt1 V c t.val t.isLt = View.canon (runLast1 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) acc1 (Memref.isWhole_whole _)
      (not_resets1_of t h0) ((emits1_iff t).mpr h1) (blk1 V c 0 t) (blk1 V c 1 t) (blk1 V c 2 t) (blk1 V c 3 t) (blk1 V c 4 t) (blk1 V c 5 t) (blk1 V c 6 t)
      (accAt1 V c (t.val - 1) (Nat.lt_of_le_of_lt (Nat.sub_le _ _) t.isLt))).2.1 := by
    rw [accAt1_last V c t h0 h1]
    unfold lastAcc1
    rw [View.read_writes_eq_canon _ _ _ (cover_lastAcc1 V c t h0 h1 _)]
  funext y
  obtain ⟨p, k, rfl⟩ : ∃ (p : Fin 1024) (k : Fin 2), y = ix2 p k := ⟨y 0, y 1, eq_ix2 y⟩
  have hl := last_out_canon1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) acc1 (Memref.isWhole_whole _) (not_resets1_of t h0) ((emits1_iff t).mpr h1) (blk1 V c 0 t) (blk1 V c 1 t) (blk1 V c 2 t) (blk1 V c 3 t) (blk1 V c 4 t) (blk1 V c 5 t) (blk1 V c 6 t)
      (accAt1 V c (t.val - 1) (Nat.lt_of_le_of_lt (Nat.sub_le _ _) t.isLt)) p
  unfold outBlk
  match k with
  | ⟨0, _⟩ =>
    rw [if_pos rfl, hacc]
    exact hl.1
  | ⟨1, _⟩ =>
    rw [if_neg (by show ¬((1 : ℕ) = 0); omega)]
    exact hl.2

/-- The loss kernel's result array, index by index. -/
def out2G (c : Dev nD) : S8192x2.Idx → EReal := fun i =>
  outBlk V c ⟨16 * ((i 0).val / 1024) + 15, by
      have hN : cfg1.N = 128 := N_1
      have : (i 0).val < 8192 := (i 0).isLt
      rw [hN]; omega⟩
    (ix2 (⟨(i 0).val % 1024, Nat.mod_lt _ (by decide)⟩ : Fin 1024) (⟨(i 1).val, (i 1).isLt⟩ : Fin 2))

theorem idx_out1 : ∀ t : Fin cfg1.N, win1_7.index t (0 : Fin 2) = t.val / 16 ∧ win1_7.index t (1 : Fin 2) = 0 :=
  (by decide +kernel : ∀ t : Fin grid1.N, win1_7.index t (0 : Fin 2) = t.val / 16 ∧ win1_7.index t (1 : Fin 2) = 0)

theorem flushed1_eq (c : Dev nD) (t : Fin cfg1.N) (hf : (cfg1.win 7).flush t = true) :
    (dat1 V c).flushed 7 t = ((cfg1.win 7).blk t).view.read (Elt Ideal) (out2G V c) := by
  have h1 : t.val % 16 = 15 := (flush1_7 t).mp hf
  have hN : t.val < 128 := lt_of_lt_of_eq t.isLt (show cfg1.N = 128 from N_1)
  obtain ⟨e0, e1⟩ := idx_out1 t
  show (cfg1.win 7).cut (grid1.coords t) ((dat1 V c).after 7 t) = _
  rw [after1_7, outAt1_eq V c t h1]
  funext y
  show outBlk V c t y = out2G V c (((cfg1.win 7).blk t).view.emb y)
  unfold out2G
  have hy0 : (y 0).val < 1024 := (y 0).isLt
  have hy1 : (y 1).val < 2 := (y 1).isLt
  have hr : ((((cfg1.win 7).blk t).view.emb y) 0).val = win1_7.index t (0 : Fin 2) * 1024 + 1 * (y 0).val := rfl
  have hc : ((((cfg1.win 7).blk t).view.emb y) 1).val = win1_7.index t (1 : Fin 2) * 2 + 1 * (y 1).val := rfl
  have ht : (⟨16 * (((((cfg1.win 7).blk t).view.emb y) 0).val / 1024) + 15, by
      have hN' : cfg1.N = 128 := N_1
      rw [hN', hr, e0]; omega⟩ : Fin cfg1.N) = t := Fin.ext (by show 16 * (_ / 1024) + 15 = t.val; rw [hr, e0]; omega)
  rw [ht]
  refine congrArg (outBlk V c t) (funext fun a => Fin.ext ?_)
  match a with
  | ⟨0, _⟩ => show (y 0).val = ((((cfg1.win 7).blk t).view.emb y) 0).val % 1024; rw [hr, e0]; omega
  | ⟨1, _⟩ => show (y 1).val = ((((cfg1.win 7).blk t).view.emb y) 1).val; rw [hc, e1]; omega

theorem mem_blk1 (t : Fin cfg1.N) (i : S8192x2.Idx) :
    i ∈ ((cfg1.win 7).blk t).view.set ↔ ∀ a : Fin 2, win1_7.index t a * S1024x2.size a ≤ (i a).val
      ∧ (i a).val < win1_7.index t a * S1024x2.size a + S1024x2.size a := by
  show i ∈ ((View.whole main_v15).slice (win1_7.rect t)).set ↔ _
  rw [View.set_slice_whole, Rect.mem_set_unit]
  exact Iff.rfl

/-- THE RESULT ARRAY after the region. -/
theorem out2_final (c : Dev nD) : (dat1 V c).arrAt 7 cfg1.N = out2G V c :=
  (dat1 V c).arrAt_eq_of_cover 7 (out2G V c) (flushed1_eq V c) fun i => by
    have hi0 : (i 0).val < 8192 := (i 0).isLt
    have hi1 : (i 1).val < 2 := (i 1).isLt
    have hN : cfg1.N = 128 := N_1
    refine ⟨⟨16 * ((i 0).val / 1024) + 15, by rw [hN]; omega⟩, (flush1_7 _).mpr (by show (16 * ((i 0).val / 1024) + 15) % 16 = 15; omega), ?_⟩
    rw [mem_blk1]
    obtain ⟨e0, e1⟩ := idx_out1 ⟨16 * ((i 0).val / 1024) + 15, by rw [hN]; omega⟩
    intro a
    match a with
    | ⟨0, _⟩ =>
      show win1_7.index _ (0 : Fin 2) * 1024 ≤ (i 0).val ∧ (i 0).val < win1_7.index _ (0 : Fin 2) * 1024 + 1024
      rw [e0]; show (16 * ((i 0).val / 1024) + 15) / 16 * 1024 ≤ _ ∧ _ < (16 * ((i 0).val / 1024) + 15) / 16 * 1024 + 1024; omega
    | ⟨1, _⟩ =>
      show win1_7.index _ (1 : Fin 2) * 2 ≤ (i 1).val ∧ (i 1).val < win1_7.index _ (1 : Fin 2) * 2 + 2
      rw [e1]; omega

end Cert.KernelIdeal.Val

end
-- ==== Proof.Val.Blocks.lean ====
/-
  The windows' blocks, entry by entry, in the arrays as the regions find them.

  At point `t` of either grid the row block is `t / 16` and the column block `t % 16`: a row-block window's entry
  (y0, y1) is its array's (1024 · (t / 16) + y0, y1); a column-block window's entry its array's
  (512 · (t % 16) + y0, y1), or (y0, 512 · (t % 16) + y1) for the transposed auxiliary rows.
-/
import proofs.«155278_j51788715655787_1_alg».proof.Proof.Stats.Data
import proofs.«155278_j51788715655787_1_alg».proof.Proof.Loss.Data
import Idealize.ShloMosaic.Lib.ValueIdx

set_option maxRecDepth 16384

noncomputable section

namespace Cert.KernelIdeal.Val

open Cert.KernelIdeal Cert.KernelIdeal.Gen Cert.KernelIdeal.Hand
open Idealize.ShloMosaic Idealize.ShloMosaic.ValueIdx Idealize.ShloMosaic.TcCoe
open Idealize.SL.Sem

variable {F : FTy → Type} [FloatOps F]
variable (V : (c : Dev nD) → (b : Ref sig .tc) → Buf (Elt F) ((c : Thread nD τ).loc b))

theorem idx0_0 : ∀ t : Fin cfg0.N, win0_0.index t (0 : Fin 2) = t.val / 16 ∧ win0_0.index t (1 : Fin 2) = 0 :=
  (by decide +kernel : ∀ t : Fin grid0.N, win0_0.index t (0 : Fin 2) = t.val / 16 ∧ win0_0.index t (1 : Fin 2) = 0)
/-- Window 0's block at point `t`, entry by entry, in its array. -/
theorem blk0_0_apply (c : Dev nD) (t : Fin cfg0.N) (y0 : Fin 1024) (y1 : Fin 512) (g0 : Fin 8192) (g1 : Fin 512)
    (h0 : g0.val = 1024 * (t.val / 16) + y0.val) (h1 : g1.val = y1.val) :
    blk0 V c 0 t (ix2 y0 y1) = V c main_v12 (ix2 g0 g1) := by
  obtain ⟨e0, e1⟩ := idx0_0 t
  show V c main_v12 (((cfg0.win 0).blk t).view.emb (ix2 y0 y1)) = V c main_v12 (ix2 g0 g1)
  refine congrArg _ (funext fun a => Fin.ext ?_)
  match a with
  | ⟨0, _⟩ => show win0_0.index t (0 : Fin 2) * 1024 + 1 * y0.val = g0.val; rw [e0, h0]; omega
  | ⟨1, _⟩ => show win0_0.index t (1 : Fin 2) * 512 + 1 * y1.val = g1.val; rw [e1, h1]; omega
theorem idx0_1 : ∀ t : Fin cfg0.N, win0_1.index t (0 : Fin 2) = t.val % 16 ∧ win0_1.index t (1 : Fin 2) = 0 :=
  (by decide +kernel : ∀ t : Fin grid0.N, win0_1.index t (0 : Fin 2) = t.val % 16 ∧ win0_1.index t (1 : Fin 2) = 0)
/-- Window 1's block at point `t`, entry by entry, in its array. -/
theorem blk0_1_apply (c : Dev nD) (t : Fin cfg0.N) (y0 : Fin 512) (y1 : Fin 512) (g0 : Fin 8192) (g1 : Fin 512)
    (h0 : g0.val = 512 * (t.val % 16) + y0.val) (h1 : g1.val = y1.val) :
    blk0 V c 1 t (ix2 y0 y1) = V c main_v12 (ix2 g0 g1) := by
  obtain ⟨e0, e1⟩ := idx0_1 t
  show V c main_v12 (((cfg0.win 1).blk t).view.emb (ix2 y0 y1)) = V c main_v12 (ix2 g0 g1)
  refine congrArg _ (funext fun a => Fin.ext ?_)
  match a with
  | ⟨0, _⟩ => show win0_1.index t (0 : Fin 2) * 512 + 1 * y0.val = g0.val; rw [e0, h0]; omega
  | ⟨1, _⟩ => show win0_1.index t (1 : Fin 2) * 512 + 1 * y1.val = g1.val; rw [e1, h1]; omega
theorem idx0_2 : ∀ t : Fin cfg0.N, win0_2.index t (0 : Fin 2) = t.val / 16 ∧ win0_2.index t (1 : Fin 2) = 0 :=
  (by decide +kernel : ∀ t : Fin grid0.N, win0_2.index t (0 : Fin 2) = t.val / 16 ∧ win0_2.index t (1 : Fin 2) = 0)
/-- Window 2's block at point `t`, entry by entry, in its array. -/
theorem blk0_2_apply (c : Dev nD) (t : Fin cfg0.N) (y0 : Fin 1024) (y1 : Fin 80) (g0 : Fin 8192) (g1 : Fin 80)
    (h0 : g0.val = 1024 * (t.val / 16) + y0.val) (h1 : g1.val = y1.val) :
    blk0 V c 2 t (ix2 y0 y1) = V c main_v13 (ix2 g0 g1) := by
  obtain ⟨e0, e1⟩ := idx0_2 t
  show V c main_v13 (((cfg0.win 2).blk t).view.emb (ix2 y0 y1)) = V c main_v13 (ix2 g0 g1)
  refine congrArg _ (funext fun a => Fin.ext ?_)
  match a with
  | ⟨0, _⟩ => show win0_2.index t (0 : Fin 2) * 1024 + 1 * y0.val = g0.val; rw [e0, h0]; omega
  | ⟨1, _⟩ => show win0_2.index t (1 : Fin 2) * 80 + 1 * y1.val = g1.val; rw [e1, h1]; omega
theorem idx0_3 : ∀ t : Fin cfg0.N, win0_3.index t (0 : Fin 2) = t.val % 16 ∧ win0_3.index t (1 : Fin 2) = 0 :=
  (by decide +kernel : ∀ t : Fin grid0.N, win0_3.index t (0 : Fin 2) = t.val % 16 ∧ win0_3.index t (1 : Fin 2) = 0)
/-- Window 3's block at point `t`, entry by entry, in its array. -/
theorem blk0_3_apply (c : Dev nD) (t : Fin cfg0.N) (y0 : Fin 512) (y1 : Fin 80) (g0 : Fin 8192) (g1 : Fin 80)
    (h0 : g0.val = 512 * (t.val % 16) + y0.val) (h1 : g1.val = y1.val) :
    blk0 V c 3 t (ix2 y0 y1) = V c main_v13 (ix2 g0 g1) := by
  obtain ⟨e0, e1⟩ := idx0_3 t
  show V c main_v13 (((cfg0.win 3).blk t).view.emb (ix2 y0 y1)) = V c main_v13 (ix2 g0 g1)
  refine congrArg _ (funext fun a => Fin.ext ?_)
  match a with
  | ⟨0, _⟩ => show win0_3.index t (0 : Fin 2) * 512 + 1 * y0.val = g0.val; rw [e0, h0]; omega
  | ⟨1, _⟩ => show win0_3.index t (1 : Fin 2) * 80 + 1 * y1.val = g1.val; rw [e1, h1]; omega
theorem idx0_4 : ∀ t : Fin cfg0.N, win0_4.index t (0 : Fin 2) = t.val / 16 ∧ win0_4.index t (1 : Fin 2) = 0 :=
  (by decide +kernel : ∀ t : Fin grid0.N, win0_4.index t (0 : Fin 2) = t.val / 16 ∧ win0_4.index t (1 : Fin 2) = 0)
/-- Window 4's block at point `t`, entry by entry, in its array. -/
theorem blk0_4_apply (c : Dev nD) (t : Fin cfg0.N) (y0 : Fin 1024) (y1 : Fin 2) (g0 : Fin 8192) (g1 : Fin 2)
    (h0 : g0.val = 1024 * (t.val / 16) + y0.val) (h1 : g1.val = y1.val) :
    blk0 V c 4 t (ix2 y0 y1) = V c main_v10 (ix2 g0 g1) := by
  obtain ⟨e0, e1⟩ := idx0_4 t
  show V c main_v10 (((cfg0.win 4).blk t).view.emb (ix2 y0 y1)) = V c main_v10 (ix2 g0 g1)
  refine congrArg _ (funext fun a => Fin.ext ?_)
  match a with
  | ⟨0, _⟩ => show win0_4.index t (0 : Fin 2) * 1024 + 1 * y0.val = g0.val; rw [e0, h0]; omega
  | ⟨1, _⟩ => show win0_4.index t (1 : Fin 2) * 2 + 1 * y1.val = g1.val; rw [e1, h1]; omega
theorem idx0_5 : ∀ t : Fin cfg0.N, win0_5.index t (0 : Fin 2) = 0 ∧ win0_5.index t (1 : Fin 2) = t.val % 16 :=
  (by decide +kernel : ∀ t : Fin grid0.N, win0_5.index t (0 : Fin 2) = 0 ∧ win0_5.index t (1 : Fin 2) = t.val % 16)
/-- Window 5's block at point `t`, entry by entry, in its array. -/
theorem blk0_5_apply (c : Dev nD) (t : Fin cfg0.N) (y0 : Fin 2) (y1 : Fin 512) (g0 : Fin 2) (g1 : Fin 8192)
    (h0 : g0.val = y0.val) (h1 : g1.val = 512 * (t.val % 16) + y1.val) :
    blk0 V c 5 t (ix2 y0 y1) = V c main_v11 (ix2 g0 g1) := by
  obtain ⟨e0, e1⟩ := idx0_5 t
  show V c main_v11 (((cfg0.win 5).blk t).view.emb (ix2 y0 y1)) = V c main_v11 (ix2 g0 g1)
  refine congrArg _ (funext fun a => Fin.ext ?_)
  match a with
  | ⟨0, _⟩ => show win0_5.index t (0 : Fin 2) * 2 + 1 * y0.val = g0.val; rw [e0, h0]; omega
  | ⟨1, _⟩ => show win0_5.index t (1 : Fin 2) * 512 + 1 * y1.val = g1.val; rw [e1, h1]; omega

theorem idx1_0 : ∀ t : Fin cfg1.N, win1_0.index t (0 : Fin 2) = t.val / 16 ∧ win1_0.index t (1 : Fin 2) = 0 :=
  (by decide +kernel : ∀ t : Fin grid1.N, win1_0.index t (0 : Fin 2) = t.val / 16 ∧ win1_0.index t (1 : Fin 2) = 0)
/-- Window 0's block at point `t`, entry by entry, in its array. -/
theorem blk1_0_apply (c : Dev nD) (t : Fin cfg1.N) (y0 : Fin 1024) (y1 : Fin 512) (g0 : Fin 8192) (g1 : Fin 512)
    (h0 : g0.val = 1024 * (t.val / 16) + y0.val) (h1 : g1.val = y1.val) :
    blk1 V c 0 t (ix2 y0 y1) = V c main_v12 (ix2 g0 g1) := by
  obtain ⟨e0, e1⟩ := idx1_0 t
  show V c main_v12 (((cfg1.win 0).blk t).view.emb (ix2 y0 y1)) = V c main_v12 (ix2 g0 g1)
  refine congrArg _ (funext fun a => Fin.ext ?_)
  match a with
  | ⟨0, _⟩ => show win1_0.index t (0 : Fin 2) * 1024 + 1 * y0.val = g0.val; rw [e0, h0]; omega
  | ⟨1, _⟩ => show win1_0.index t (1 : Fin 2) * 512 + 1 * y1.val = g1.val; rw [e1, h1]; omega
theorem idx1_1 : ∀ t : Fin cfg1.N, win1_1.index t (0 : Fin 2) = t.val % 16 ∧ win1_1.index t (1 : Fin 2) = 0 :=
  (by decide +kernel : ∀ t : Fin grid1.N, win1_1.index t (0 : Fin 2) = t.val % 16 ∧ win1_1.index t (1 : Fin 2) = 0)
/-- Window 1's block at point `t`, entry by entry, in its array. -/
theorem blk1_1_apply (c : Dev nD) (t : Fin cfg1.N) (y0 : Fin 512) (y1 : Fin 512) (g0 : Fin 8192) (g1 : Fin 512)
    (h0 : g0.val = 512 * (t.val % 16) + y0.val) (h1 : g1.val = y1.val) :
    blk1 V c 1 t (ix2 y0 y1) = V c main_v12 (ix2 g0 g1) := by
  obtain ⟨e0, e1⟩ := idx1_1 t
  show V c main_v12 (((cfg1.win 1).blk t).view.emb (ix2 y0 y1)) = V c main_v12 (ix2 g0 g1)
  refine congrArg _ (funext fun a => Fin.ext ?_)
  match a with
  | ⟨0, _⟩ => show win1_1.index t (0 : Fin 2) * 512 + 1 * y0.val = g0.val; rw [e0, h0]; omega
  | ⟨1, _⟩ => show win1_1.index t (1 : Fin 2) * 512 + 1 * y1.val = g1.val; rw [e1, h1]; omega
theorem idx1_2 : ∀ t : Fin cfg1.N, win1_2.index t (0 : Fin 2) = t.val / 16 ∧ win1_2.index t (1 : Fin 2) = 0 :=
  (by decide +kernel : ∀ t : Fin grid1.N, win1_2.index t (0 : Fin 2) = t.val / 16 ∧ win1_2.index t (1 : Fin 2) = 0)
/-- Window 2's block at point `t`, entry by entry, in its array. -/
theorem blk1_2_apply (c : Dev nD) (t : Fin cfg1.N) (y0 : Fin 1024) (y1 : Fin 80) (g0 : Fin 8192) (g1 : Fin 80)
    (h0 : g0.val = 1024 * (t.val / 16) + y0.val) (h1 : g1.val = y1.val) :
    blk1 V c 2 t (ix2 y0 y1) = V c main_v13 (ix2 g0 g1) := by
  obtain ⟨e0, e1⟩ := idx1_2 t
  show V c main_v13 (((cfg1.win 2).blk t).view.emb (ix2 y0 y1)) = V c main_v13 (ix2 g0 g1)
  refine congrArg _ (funext fun a => Fin.ext ?_)
  match a with
  | ⟨0, _⟩ => show win1_2.index t (0 : Fin 2) * 1024 + 1 * y0.val = g0.val; rw [e0, h0]; omega
  | ⟨1, _⟩ => show win1_2.index t (1 : Fin 2) * 80 + 1 * y1.val = g1.val; rw [e1, h1]; omega
theorem idx1_3 : ∀ t : Fin cfg1.N, win1_3.index t (0 : Fin 2) = t.val % 16 ∧ win1_3.index t (1 : Fin 2) = 0 :=
  (by decide +kernel : ∀ t : Fin grid1.N, win1_3.index t (0 : Fin 2) = t.val % 16 ∧ win1_3.index t (1 : Fin 2) = 0)
/-- Window 3's block at point `t`, entry by entry, in its array. -/
theorem blk1_3_apply (c : Dev nD) (t : Fin cfg1.N) (y0 : Fin 512) (y1 : Fin 80) (g0 : Fin 8192) (g1 : Fin 80)
    (h0 : g0.val = 512 * (t.val % 16) + y0.val) (h1 : g1.val = y1.val) :
    blk1 V c 3 t (ix2 y0 y1) = V c main_v13 (ix2 g0 g1) := by
  obtain ⟨e0, e1⟩ := idx1_3 t
  show V c main_v13 (((cfg1.win 3).blk t).view.emb (ix2 y0 y1)) = V c main_v13 (ix2 g0 g1)
  refine congrArg _ (funext fun a => Fin.ext ?_)
  match a with
  | ⟨0, _⟩ => show win1_3.index t (0 : Fin 2) * 512 + 1 * y0.val = g0.val; rw [e0, h0]; omega
  | ⟨1, _⟩ => show win1_3.index t (1 : Fin 2) * 80 + 1 * y1.val = g1.val; rw [e1, h1]; omega
theorem idx1_4 : ∀ t : Fin cfg1.N, win1_4.index t (0 : Fin 2) = t.val / 16 ∧ win1_4.index t (1 : Fin 2) = 0 :=
  (by decide +kernel : ∀ t : Fin grid1.N, win1_4.index t (0 : Fin 2) = t.val / 16 ∧ win1_4.index t (1 : Fin 2) = 0)
/-- Window 4's block at point `t`, entry by entry, in its array. -/
theorem blk1_4_apply (c : Dev nD) (t : Fin cfg1.N) (y0 : Fin 1024) (y1 : Fin 2) (g0 : Fin 8192) (g1 : Fin 2)
    (h0 : g0.val = 1024 * (t.val / 16) + y0.val) (h1 : g1.val = y1.val) :
    blk1 V c 4 t (ix2 y0 y1) = V c main_v10 (ix2 g0 g1) := by
  obtain ⟨e0, e1⟩ := idx1_4 t
  show V c main_v10 (((cfg1.win 4).blk t).view.emb (ix2 y0 y1)) = V c main_v10 (ix2 g0 g1)
  refine congrArg _ (funext fun a => Fin.ext ?_)
  match a with
  | ⟨0, _⟩ => show win1_4.index t (0 : Fin 2) * 1024 + 1 * y0.val = g0.val; rw [e0, h0]; omega
  | ⟨1, _⟩ => show win1_4.index t (1 : Fin 2) * 2 + 1 * y1.val = g1.val; rw [e1, h1]; omega
theorem idx1_5 : ∀ t : Fin cfg1.N, win1_5.index t (0 : Fin 2) = 0 ∧ win1_5.index t (1 : Fin 2) = t.val % 16 :=
  (by decide +kernel : ∀ t : Fin grid1.N, win1_5.index t (0 : Fin 2) = 0 ∧ win1_5.index t (1 : Fin 2) = t.val % 16)
/-- Window 5's block at point `t`, entry by entry, in its array. -/
theorem blk1_5_apply (c : Dev nD) (t : Fin cfg1.N) (y0 : Fin 2) (y1 : Fin 512) (g0 : Fin 2) (g1 : Fin 8192)
    (h0 : g0.val = y0.val) (h1 : g1.val = 512 * (t.val % 16) + y1.val) :
    blk1 V c 5 t (ix2 y0 y1) = V c main_v11 (ix2 g0 g1) := by
  obtain ⟨e0, e1⟩ := idx1_5 t
  show V c main_v11 (((cfg1.win 5).blk t).view.emb (ix2 y0 y1)) = V c main_v11 (ix2 g0 g1)
  refine congrArg _ (funext fun a => Fin.ext ?_)
  match a with
  | ⟨0, _⟩ => show win1_5.index t (0 : Fin 2) * 2 + 1 * y0.val = g0.val; rw [e0, h0]; omega
  | ⟨1, _⟩ => show win1_5.index t (1 : Fin 2) * 512 + 1 * y1.val = g1.val; rw [e1, h1]; omega
theorem idx1_6 : ∀ t : Fin cfg1.N, win1_6.index t (0 : Fin 2) = t.val / 16 ∧ win1_6.index t (1 : Fin 2) = 0 :=
  (by decide +kernel : ∀ t : Fin grid1.N, win1_6.index t (0 : Fin 2) = t.val / 16 ∧ win1_6.index t (1 : Fin 2) = 0)
/-- Window 6's block at point `t`, entry by entry, in its array. -/
theorem blk1_6_apply (c : Dev nD) (t : Fin cfg1.N) (y0 : Fin 1024) (y1 : Fin 3) (g0 : Fin 8192) (g1 : Fin 3)
    (h0 : g0.val = 1024 * (t.val / 16) + y0.val) (h1 : g1.val = y1.val) :
    blk1 V c 6 t (ix2 y0 y1) = V c main_v14 (ix2 g0 g1) := by
  obtain ⟨e0, e1⟩ := idx1_6 t
  show V c main_v14 (((cfg1.win 6).blk t).view.emb (ix2 y0 y1)) = V c main_v14 (ix2 g0 g1)
  refine congrArg _ (funext fun a => Fin.ext ?_)
  match a with
  | ⟨0, _⟩ => show win1_6.index t (0 : Fin 2) * 1024 + 1 * y0.val = g0.val; rw [e0, h0]; omega
  | ⟨1, _⟩ => show win1_6.index t (1 : Fin 2) * 3 + 1 * y1.val = g1.val; rw [e1, h1]; omega

end Cert.KernelIdeal.Val

end
-- ==== Proof.Val.Global.lean ====
/-
  The pairwise matrices of a block as entries of the whole pairwise matrices.

  With `E`, `L` the arrays of normalized embeddings and labels and `A`, `T` the two-column auxiliary array and its
  transpose as the regions find them, the block at point `t` (row block `t / 16`, column block `t % 16`) has at
  (p, q) the entries (i, j) = (1024 · (t / 16) + p, 512 · (t % 16) + q) of: the label inner products
  Σ_k L[i,k] · L[j,k]; the guarded unions (A[i,1] + T[1,j] − inner) + ε; the distances
  √(max((A[i,0] + T[0,j]) − 2 · Σ_k E[i,k] · E[j,k], 0)).
-/
import proofs.«155278_j51788715655787_1_alg».proof.Proof.Val.StatsAcc
import proofs.«155278_j51788715655787_1_alg».proof.Proof.Val.LossOut
import proofs.«155278_j51788715655787_1_alg».proof.Proof.Val.Blocks

set_option maxRecDepth 16384

noncomputable section

namespace Cert.KernelIdeal.Val

open Cert.KernelIdeal Cert.KernelIdeal.Gen Cert.KernelIdeal.Hand
open Idealize.ShloMosaic Idealize.ShloMosaic.ValueIdx Idealize.ShloMosaic.TcCoe
open Idealize.SL.Sem

/-- The whole pairwise matrices, entry by entry. -/
def gI (L : FVec Ideal S8192x80 .bf16) (i j : Fin 8192) : EReal := ∑ k : Fin 80, L (ix2 i k) * L (ix2 j k)
def gU (L : FVec Ideal S8192x80 .bf16) (A : FVec Ideal S8192x2 .f32) (T : FVec Ideal S2x8192 .f32) (i j : Fin 8192) : EReal :=
  ((A (ix2 i 1) + T (ix2 1 j)) - gI L i j) + Ideal.ofBits .f32 0x322BCC77#32
def gD (E : FVec Ideal S8192x512 .bf16) (A : FVec Ideal S8192x2 .f32) (T : FVec Ideal S2x8192 .f32) (i j : Fin 8192) : EReal :=
  Ideal.sqrt (max ((A (ix2 i 0) + T (ix2 0 j)) - Ideal.ofBits .f32 0x40000000#32 * ∑ k : Fin 512, E (ix2 i k) * E (ix2 j k))
    (Ideal.ofBits .f32 0x00000000#32))

/-- The global row and column of a block's entry. -/
def rowOf (n : ℕ) (p : Fin 1024) : Fin 8192 := ⟨(1024 * (n / 16) + p.val) % 8192, Nat.mod_lt _ (by decide)⟩
def colOf (n : ℕ) (q : Fin 512) : Fin 8192 := ⟨(512 * (n % 16) + q.val) % 8192, Nat.mod_lt _ (by decide)⟩

theorem rowOf_val (n : ℕ) (hn : n < 128) (p : Fin 1024) : (rowOf n p).val = 1024 * (n / 16) + p.val := by
  show (1024 * (n / 16) + p.val) % 8192 = _
  have := p.isLt; omega
theorem colOf_val (n : ℕ) (q : Fin 512) : (colOf n q).val = 512 * (n % 16) + q.val := by
  show (512 * (n % 16) + q.val) % 8192 = _
  have := q.isLt; omega

variable (V : (c : Dev nD) → (b : Ref sig .tc) → Buf (Elt Ideal) ((c : Thread nD τ).loc b))

/-- The statistics kernel's block matrices are entries of the whole ones. -/
theorem It_apply (c : Dev nD) (t : Fin cfg0.N) (p : Fin 1024) (q : Fin 512) :
    It V c t (ix2 p q) = gI (V c main_v13) (rowOf t.val p) (colOf t.val q) := by
  have hN : t.val < 128 := lt_of_lt_of_eq t.isLt (show cfg0.N = 128 from N_0)
  unfold It gI
  refine (interBlock_apply (blk0 V c 2 t) (blk0 V c 3 t) p q).trans ?_
  refine Finset.sum_congr rfl fun k _ => ?_
  rw [blk0_2_apply V c t p k (rowOf t.val p) k (rowOf_val _ hN p) rfl, blk0_3_apply V c t q k (colOf t.val q) k (colOf_val _ q) rfl]

theorem Ut_apply (c : Dev nD) (t : Fin cfg0.N) (p : Fin 1024) (q : Fin 512) :
    Ut V c t (ix2 p q) = gU (V c main_v13) (V c main_v10) (V c main_v11) (rowOf t.val p) (colOf t.val q) := by
  have hN : t.val < 128 := lt_of_lt_of_eq t.isLt (show cfg0.N = 128 from N_0)
  unfold Ut gU
  refine (unionBlock_apply (blk0 V c 4 t) (blk0 V c 5 t) (blk0 V c 2 t) (blk0 V c 3 t) p q).trans ?_
  have hI := It_apply V c t p q
  unfold It at hI
  rw [interBlock_apply (blk0 V c 2 t) (blk0 V c 3 t) p q] at hI
  rw [hI, blk0_4_apply V c t p 1 (rowOf t.val p) 1 (rowOf_val _ hN p) rfl, blk0_5_apply V c t 1 q 1 (colOf t.val q) rfl (colOf_val _ q)]

theorem dist_congr (a : FVec Ideal S1024x512 .bf16) (b : FVec Ideal S512x512 .bf16) (u : FVec Ideal S1024x2 .f32)
    (w : FVec Ideal S2x512 .f32) (E : FVec Ideal S8192x512 .bf16) (A : FVec Ideal S8192x2 .f32) (T : FVec Ideal S2x8192 .f32)
    (i j : Fin 8192) (p : Fin 1024) (q : Fin 512) (ha : ∀ k, a (ix2 p k) = E (ix2 i k)) (hb : ∀ k, b (ix2 q k) = E (ix2 j k))
    (hu : u (ix2 p 0) = A (ix2 i 0)) (hw : w (ix2 0 q) = T (ix2 0 j)) :
    k0_pay7 (F := Ideal) a b u w (ix2 p q) = gD E A T i j := by
  rw [distBlock_apply, hu, hw]
  unfold gD
  simp only [ha, hb]

theorem Dt_apply (c : Dev nD) (t : Fin cfg0.N) (p : Fin 1024) (q : Fin 512) :
    Dt V c t (ix2 p q) = gD (V c main_v12) (V c main_v10) (V c main_v11) (rowOf t.val p) (colOf t.val q) := by
  have hN : t.val < 128 := lt_of_lt_of_eq t.isLt (show cfg0.N = 128 from N_0)
  exact dist_congr (blk0 V c 0 t) (blk0 V c 1 t) (blk0 V c 4 t) (blk0 V c 5 t) (V c main_v12) (V c main_v10) (V c main_v11)
    (rowOf t.val p) (colOf t.val q) p q
    (fun k => blk0_0_apply V c t p k (rowOf t.val p) k (rowOf_val _ hN p) rfl)
    (fun k => blk0_1_apply V c t q k (colOf t.val q) k (colOf_val _ q) rfl)
    (blk0_4_apply V c t p 0 (rowOf t.val p) 0 (rowOf_val _ hN p) rfl)
    (blk0_5_apply V c t 0 q 0 (colOf t.val q) rfl (colOf_val _ q))

end Cert.KernelIdeal.Val

end
-- ==== Proof.Val.Rows.lean ====
/-
  The positives' and negatives' bits of a block entry in terms of its global row and column.

  The kernel tells the diagonal by comparing the 32-bit words 1024 · r + p and 512 · k + q, formed from the grid
  coordinates and the lane numbers; with row and column below 8192 the words are the numbers, so the comparison is
  the comparison of the global row and column.
-/
import proofs.«155278_j51788715655787_1_alg».proof.Proof.Val.Global

set_option maxRecDepth 16384

noncomputable section

namespace Cert.KernelIdeal.Val

open Cert.KernelIdeal Cert.KernelIdeal.Gen Cert.KernelIdeal.Hand
open Idealize.ShloMosaic Idealize.ShloMosaic.ValueIdx Idealize.ShloMosaic.TcCoe
open Idealize.SL.Sem

/-- The diagonal's bit, and a positive's bit: a positive Jaccard entry off the diagonal. -/
def eyeB (i j : Fin 8192) : BitVec 1 := IntOp.cmpi .eq (BitVec.ofNat 32 i.val) (BitVec.ofNat 32 j.val)
def posB (J : EReal) (i j : Fin 8192) : BitVec 1 :=
  IntOp.andi (Ideal.cmp .ogt J (Ideal.ofBits .f32 0x00000000#32)) (IntOp.xori (eyeB i j) 1#1)

theorem word_row (n : ℕ) (hn : n < 128) (p : Fin 1024) :
    Scalar.muli (BitVec.ofNat 32 (n / 16)) 1024#32 + BitVec.ofNat 32 p.val = BitVec.ofNat 32 (rowOf n p).val := by
  rw [rowOf_val n hn p]
  show BitVec.ofNat 32 (n / 16) * BitVec.ofNat 32 1024 + BitVec.ofNat 32 p.val = _
  rw [← BitVec.ofNat_mul, ← BitVec.ofNat_add, Nat.mul_comm]
theorem word_col (n : ℕ) (q : Fin 512) :
    Scalar.muli (BitVec.ofNat 32 (n % 16)) 512#32 + BitVec.ofNat 32 q.val = BitVec.ofNat 32 (colOf n q).val := by
  rw [colOf_val n q]
  show BitVec.ofNat 32 (n % 16) * BitVec.ofNat 32 512 + BitVec.ofNat 32 q.val = _
  rw [← BitVec.ofNat_mul, ← BitVec.ofNat_add, Nat.mul_comm]

/-- The grid coordinates of point `t`: its row block and its column block. -/
theorem coords0 : ∀ t : Fin cfg0.N, ((grid0.coords t) 0).val = t.val / 16 ∧ ((grid0.coords t) 1).val = t.val % 16 :=
  (by decide +kernel : ∀ t : Fin grid0.N, ((grid0.coords t) 0).val = t.val / 16 ∧ ((grid0.coords t) 1).val = t.val % 16)
theorem coords1 : ∀ t : Fin cfg1.N, ((grid1.coords t) 0).val = t.val / 16 ∧ ((grid1.coords t) 1).val = t.val % 16 :=
  (by decide +kernel : ∀ t : Fin grid1.N, ((grid1.coords t) 0).val = t.val / 16 ∧ ((grid1.coords t) 1).val = t.val % 16)

/-- The block's positive bit at (p, q) is the positive bit of the global entry. -/
theorem posBit_apply (n : ℕ) (hn : n < 128) (v31 v37 : FVec Ideal S1024x512 .f32) (p : Fin 1024) (q : Fin 512) :
    posBit (BitVec.ofNat 32 (n / 16)) (BitVec.ofNat 32 (n % 16)) v31 v37 (ix2 p q)
      = posB (Ideal.div (v31 (ix2 p q)) (v37 (ix2 p q))) (rowOf n p) (colOf n q) := by
  unfold posBit posB eyeB
  show IntOp.andi _ (IntOp.xori (IntOp.cmpi .eq
      (IntOp.addi (Scalar.muli (BitVec.ofNat 32 (n / 16)) 1024#32) (iota .tc S1024x512 32 [0] iota_S1024x512_d0_w32 (ix2 p q)))
      (IntOp.addi (Scalar.muli (BitVec.ofNat 32 (n % 16)) 512#32) (iota .tc S1024x512 32 [1] iota_S1024x512_d1_w32 (ix2 p q)))) 1#1) = _
  rw [iota_single_apply, iota_single_apply]
  show IntOp.andi _ (IntOp.xori (IntOp.cmpi .eq
      (Scalar.muli (BitVec.ofNat 32 (n / 16)) 1024#32 + BitVec.ofNat 32 p.val)
      (Scalar.muli (BitVec.ofNat 32 (n % 16)) 512#32 + BitVec.ofNat 32 q.val)) 1#1) = _
  rw [word_row n hn p, word_col n q]
  rfl

end Cert.KernelIdeal.Val

end
-- ==== Proof.Val.StatsOut.lean ====
/-
  The statistics array after its region: row `i`, of row block `i / 1024`, holds the running columns as they stand
  after the row block's last column block (point `16 · (i / 1024) + 15`), at local row `i % 1024`.

  Only a last column block writes the result block back; what it writes is the running columns after that point; and
  the eight row blocks written back tile the array.
-/
import proofs.«155278_j51788715655787_1_alg».proof.Proof.Val.StatsAcc
import Idealize.ShloMosaic.Lib.Pipeline.Value

set_option maxRecDepth 16384

noncomputable section

namespace Cert.KernelIdeal.Val

open Cert.KernelIdeal Cert.KernelIdeal.Gen Cert.KernelIdeal.Hand
open Idealize.ShloMosaic Idealize.ShloMosaic.ValueIdx Idealize.ShloMosaic.TcCoe
open Idealize.SL.Sem
open Idealize.ShloMosaic.Pipeline (Dat)

variable (V : (c : Dev nD) → (b : Ref sig .tc) → Buf (Elt Ideal) ((c : Thread nD τ).loc b))

theorem accAt0_congr (c : Dev nD) {n n' : ℕ} (h : n = n') (hn : n < cfg0.N) (hn' : n' < cfg0.N) :
    accAt0 V c n hn = accAt0 V c n' hn' := by subst h; rfl

/-- The statistics array, index by index. -/
def statsG (c : Dev nD) : S8192x3.Idx → EReal := fun i =>
  accAt0 V c (16 * ((i 0).val / 1024) + 15)
    (by have := (i 0).isLt; have hN : cfg0.N = 128 := N_0; show _ < cfg0.N; rw [hN]
        have : (i 0).val < 8192 := (i 0).isLt; omega)
    (ix2 (⟨(i 0).val % 1024, Nat.mod_lt _ (by decide)⟩ : Fin 1024) (⟨(i 1).val, (i 1).isLt⟩ : Fin 3))

/-- The result window's block index at a point: its row block; one column block. -/
theorem idx_out0 : ∀ t : Fin cfg0.N, win0_6.index t (0 : Fin 2) = t.val / 16 ∧ win0_6.index t (1 : Fin 2) = 0 :=
  (by decide +kernel : ∀ t : Fin grid0.N, win0_6.index t (0 : Fin 2) = t.val / 16 ∧ win0_6.index t (1 : Fin 2) = 0)

/-- The result block after a last column block is the running columns after it. -/
theorem outAt0_eq_acc (c : Dev nD) (t : Fin cfg0.N) (h1 : t.val % 16 = 15) :
    outAt0 V c t = accAt0 V c t.val t.isLt := by
  have h0 : ¬t.val % 16 = 0 := by omega
  rw [accAt0_last V c t h0 h1]
  unfold outAt0
  rw [dif_pos h1]
  unfold lastOut0 lastAcc0
  rw [View.read_writes_eq_canon _ _ _ (cover_lastOut0 V c t h0 h1 _), View.read_writes_eq_canon _ _ _ (cover_lastAcc0 V c t h0 h1 _)]
  exact funext fun y => last_out_canon c (grid0.coords t) _ _ _ _ _ _ _ _ _ _ _ _ _ _ _ _ _ _ _ _ _ _ _ _ _ y

/-- WHAT A LAST COLUMN BLOCK WRITES BACK is its row block of the statistics array. -/
theorem flushed0_eq (c : Dev nD) (t : Fin cfg0.N) (hf : (cfg0.win 6).flush t = true) :
    (dat0 V c).flushed 6 t = ((cfg0.win 6).blk t).view.read (Elt Ideal) (statsG V c) := by
  have h1 : t.val % 16 = 15 := (flush0_6 t).mp hf
  have hN : t.val < 128 := lt_of_lt_of_eq t.isLt (show cfg0.N = 128 from N_0)
  obtain ⟨e0, e1⟩ := idx_out0 t
  show (cfg0.win 6).cut (grid0.coords t) ((dat0 V c).after 6 t) = _
  rw [after0_6, outAt0_eq_acc V c t h1]
  funext y
  show accAt0 V c t.val t.isLt y = statsG V c (((cfg0.win 6).blk t).view.emb y)
  unfold statsG
  have hy0 : (y 0).val < 1024 := (y 0).isLt
  have hy1 : (y 1).val < 3 := (y 1).isLt
  have hr : ((((cfg0.win 6).blk t).view.emb y) 0).val = win0_6.index t (0 : Fin 2) * 1024 + 1 * (y 0).val := rfl
  have hc : ((((cfg0.win 6).blk t).view.emb y) 1).val = win0_6.index t (1 : Fin 2) * 3 + 1 * (y 1).val := rfl
  have hn : 16 * (((((cfg0.win 6).blk t).view.emb y) 0).val / 1024) + 15 = t.val := by rw [hr, e0]; omega
  rw [accAt0_congr V c hn _ t.isLt]
  refine congrArg _ (funext fun a => Fin.ext ?_)
  match a with
  | ⟨0, _⟩ => show (y 0).val = ((((cfg0.win 6).blk t).view.emb y) 0).val % 1024; rw [hr, e0]; omega
  | ⟨1, _⟩ => show (y 1).val = ((((cfg0.win 6).blk t).view.emb y) 1).val; rw [hc, e1]; omega

theorem mem_blk0 (t : Fin cfg0.N) (i : S8192x3.Idx) :
    i ∈ ((cfg0.win 6).blk t).view.set ↔ ∀ a : Fin 2, win0_6.index t a * S1024x3.size a ≤ (i a).val
      ∧ (i a).val < win0_6.index t a * S1024x3.size a + S1024x3.size a := by
  show i ∈ ((View.whole main_v14).slice (win0_6.rect t)).set ↔ _
  rw [View.set_slice_whole, Rect.mem_set_unit]
  exact Iff.rfl

/-- THE STATISTICS ARRAY after the region. -/
theorem stats_final (c : Dev nD) : (dat0 V c).arrAt 6 cfg0.N = statsG V c :=
  (dat0 V c).arrAt_eq_of_cover 6 (statsG V c) (flushed0_eq V c) fun i => by
    have hi0 : (i 0).val < 8192 := (i 0).isLt
    have hi1 : (i 1).val < 3 := (i 1).isLt
    have hN : cfg0.N = 128 := N_0
    refine ⟨⟨16 * ((i 0).val / 1024) + 15, by rw [hN]; omega⟩, (flush0_6 _).mpr (by show (16 * ((i 0).val / 1024) + 15) % 16 = 15; omega), ?_⟩
    rw [mem_blk0]
    obtain ⟨e0, e1⟩ := idx_out0 ⟨16 * ((i 0).val / 1024) + 15, by rw [hN]; omega⟩
    intro a
    match a with
    | ⟨0, _⟩ =>
      show win0_6.index _ (0 : Fin 2) * 1024 ≤ (i 0).val ∧ (i 0).val < win0_6.index _ (0 : Fin 2) * 1024 + 1024
      rw [e0]; show (16 * ((i 0).val / 1024) + 15) / 16 * 1024 ≤ _ ∧ _ < (16 * ((i 0).val / 1024) + 15) / 16 * 1024 + 1024; omega
    | ⟨1, _⟩ =>
      show win0_6.index _ (1 : Fin 2) * 3 ≤ (i 1).val ∧ (i 1).val < win0_6.index _ (1 : Fin 2) * 3 + 3
      rw [e1]; omega

end Cert.KernelIdeal.Val

end
-- ==== Proof.Spec.lean ====
/-
  The arithmetic both programs share, over the extended reals, and the facts that join their two spellings of it.

  A bit as a float is 0 or 1. A 32-bit sum of at most 2³¹ − 1 bits is their number, so the number of set bits read
  as a float is the float sum of the bits. A disjunction of bits is set exactly when some bit is, which is when the
  maximum of the bits as floats exceeds one half. And a minimum folded from +∞ agrees with the same minimum folded
  from a sentinel as soon as one of the folded values does not exceed the sentinel.
-/
import Idealize.ShloMosaic.PureOps.Ideal
import Idealize.ShloMosaic.PureOps.Ideal.Laws
import Idealize.ShloMosaic.PureOps.Reduce

noncomputable section

namespace Cert.Spec

open Idealize.ShloMosaic

abbrev zeroE : EReal := Ideal.ofBits .f32 0x00000000#32
abbrev oneE : EReal := Ideal.ofBits .f32 0x3F800000#32
abbrev halfE : EReal := Ideal.ofBits .f32 0x3F000000#32
abbrev bigE : EReal := Ideal.ofBits .f32 0x4E6E6B28#32
abbrev topE : EReal := Ideal.ofBits .f32 0x7F800000#32
abbrev botE : EReal := Ideal.ofBits .f32 0xFF800000#32

theorem zeroE_eq : zeroE = 0 := by simp [Ideal.ofBits, Ideal.ieee]
theorem oneE_eq : oneE = 1 := by simp [Ideal.ofBits, Ideal.ieee, -EReal.coe_mul]; norm_num
theorem halfE_eq : halfE = ((1 / 2 : ℝ) : EReal) := by simp [Ideal.ofBits, Ideal.ieee, -EReal.coe_mul]; norm_num
theorem topE_eq : topE = ⊤ := by simp [Ideal.ofBits, Ideal.ieee]
theorem botE_eq : botE = ⊥ := by simp [Ideal.ofBits, Ideal.ieee]
theorem bigE_nonneg : (0 : EReal) ≤ bigE := by
  have h : bigE = ((1000000000 : ℝ) : EReal) := by simp [Ideal.ofBits, Ideal.ieee, -EReal.coe_mul]; norm_num
  rw [h]; exact_mod_cast (by norm_num : (0 : ℝ) ≤ 1000000000)

/-- A bit as a float. -/
def ind (b : BitVec 1) : EReal := FloatOps.sitofp (F := Ideal) .f32 (b.setWidth 32)

theorem ind_one : ind 1#1 = 1 := by
  show (((BitVec.setWidth 32 (1#1 : BitVec 1)).toInt : ℝ) : EReal) = 1
  rw [show (BitVec.setWidth 32 (1#1 : BitVec 1)).toInt = 1 from by decide]; simp
theorem ind_zero : ind 0#1 = 0 := by
  show (((BitVec.setWidth 32 (0#1 : BitVec 1)).toInt : ℝ) : EReal) = 0
  rw [show (BitVec.setWidth 32 (0#1 : BitVec 1)).toInt = 0 from by decide]; simp
theorem ind_eq (b : BitVec 1) : ind b = if b = 1#1 then 1 else 0 := by
  rcases BitVec.eq_zero_or_eq_one b with h | h <;> subst h
  · rw [ind_zero, if_neg (by decide)]
  · rw [ind_one, if_pos rfl]

variable {ι : Type} [DecidableEq ι]

/-- The number of set bits among `f` over `s`. -/
def cnt (s : Finset ι) (f : ι → BitVec 1) : ℕ := (s.filter fun j => f j = 1#1).card

theorem cnt_le (s : Finset ι) (f : ι → BitVec 1) : cnt s f ≤ s.card := Finset.card_filter_le _ _

/-- The float sum of the bits is their number. -/
theorem sum_ind (s : Finset ι) (f : ι → BitVec 1) : ∑ j ∈ s, ind (f j) = ((cnt s f : ℕ) : EReal) := by
  simp only [ind_eq]
  rw [Finset.sum_ite, Finset.sum_const_zero, add_zero, Finset.sum_const, cnt]
  simp

/-- The 32-bit sum of the bits is their number, when fewer than 2³² are summed. -/
theorem fold_addi_toNat (s : Finset ι) (f : ι → BitVec 1) (hs : s.card < 2 ^ 32) :
    (s.fold IntOp.addi 0#32 fun j => (f j).setWidth 32).toNat = cnt s f := by
  induction s using Finset.induction_on with
  | empty => simp [cnt]
  | insert a s ha ih =>
    have hc : (insert a s).card = s.card + 1 := Finset.card_insert_of_notMem ha
    have hs' : s.card < 2 ^ 32 := by omega
    have ih' := ih hs'
    have hle := cnt_le s f
    rw [Finset.fold_insert ha]
    show (((f a).setWidth 32) + _).toNat = _
    rw [BitVec.toNat_add, ih']
    unfold cnt
    rw [Finset.filter_insert]
    rcases BitVec.eq_zero_or_eq_one (f a) with h | h
    · rw [h, if_neg (by decide)]
      show (0 + (s.filter fun j => f j = 1#1).card) % 2 ^ 32 = _
      unfold cnt at hle; omega
    · rw [h, if_pos rfl, Finset.card_insert_of_notMem (by simp [ha])]
      show (1 + (s.filter fun j => f j = 1#1).card) % 2 ^ 32 = _
      unfold cnt at hle; omega

/-- A 32-bit word below 2³¹ read as a signed integer is its number. -/
theorem toInt_of_toNat_lt (x : BitVec 32) (c : ℕ) (hx : x.toNat = c) (hc : c < 2 ^ 31) : x.toInt = (c : ℤ) := by
  rw [BitVec.toInt_eq_toNat_cond, hx, if_pos (by omega)]

/-- The signed conversion of such a word is the number as an extended real. -/
theorem sitofp_of_toNat (x : BitVec 32) (c : ℕ) (hx : x.toNat = c) (hc : c < 2 ^ 31) :
    FloatOps.sitofp (F := Ideal) .f32 x = ((c : ℕ) : EReal) := by
  show (((x.toInt : ℝ)) : EReal) = _
  rw [toInt_of_toNat_lt x c hx hc]
  simp

theorem natCast_pos_iff (c : ℕ) : (0 : EReal) < ((c : ℕ) : EReal) ↔ 0 < c := by
  constructor
  · intro h
    rcases Nat.eq_zero_or_pos c with h0 | h0
    · subst h0; simp at h
    · exact h0
  · intro h
    exact_mod_cast (show (0 : ℝ) < (c : ℝ) from by exact_mod_cast h)

variable [Fintype ι]

/-- The float count of set bits, against the 32-bit count: the same positivity test and the same divisor. -/
theorem cnt_bridge (f : ι → BitVec 1) (hcard : Fintype.card ι < 2 ^ 31) (ck : EReal) (hck : ck = zeroE + ∑ j, ind (f j)) :
    Ideal.cmp .ogt ck zeroE = IntOp.cmpi .sgt (Finset.univ.fold IntOp.addi 0#32 fun j => (f j).setWidth 32) 0#32
      ∧ max ck oneE = FloatOps.sitofp (F := Ideal) .f32
          (IntOp.maxsi (Finset.univ.fold IntOp.addi 0#32 fun j => (f j).setWidth 32) 1#32) := by
  have hc := fold_addi_toNat Finset.univ f (by rw [Finset.card_univ]; omega)
  have hle : cnt Finset.univ f ≤ Fintype.card ι := by simpa using cnt_le Finset.univ f
  have hck' : ck = ((cnt Finset.univ f : ℕ) : EReal) := by rw [hck, sum_ind, zeroE_eq, zero_add]
  generalize (Finset.univ.fold IntOp.addi 0#32 fun j => (f j).setWidth 32) = x at hc ⊢
  generalize cnt Finset.univ f = c at hc hle hck'
  have hc31 : c < 2 ^ 31 := by omega
  have hxi : x.toInt = (c : ℤ) := toInt_of_toNat_lt x c hc hc31
  subst hck'
  rw [zeroE_eq, oneE_eq]
  constructor
  · show BitVec.ofBool (decide ((0 : EReal) < ((c : ℕ) : EReal))) = BitVec.ofBool ((0#32).slt x)
    congr 1
    rw [BitVec.slt, hxi]
    simp only [BitVec.toInt_zero, natCast_pos_iff]
    simp
  · by_cases h1 : (1#32).slt x = true
    · have : (1 : ℤ) < (c : ℤ) := by rw [BitVec.slt, hxi] at h1; simpa using h1
      have hc1 : 1 ≤ c := by omega
      rw [show IntOp.maxsi x 1#32 = x from if_pos h1, sitofp_of_toNat x c hc hc31]
      exact max_eq_left (by exact_mod_cast (show (1 : ℝ) ≤ (c : ℝ) from by exact_mod_cast hc1))
    · have : ¬((1 : ℤ) < (c : ℤ)) := by rw [BitVec.slt, hxi] at h1; simpa using h1
      have hc1 : c ≤ 1 := by omega
      rw [show IntOp.maxsi x 1#32 = 1#32 from if_neg h1, sitofp_of_toNat (1#32) 1 (by decide) (by decide)]
      rw [Nat.cast_one]
      exact max_eq_right (by exact_mod_cast (show (c : ℝ) ≤ (1 : ℝ) from by exact_mod_cast hc1))

/-- The number of set bits as a float sum and as a converted 32-bit sum. -/
theorem nv_bridge (v : ι → BitVec 1) (hcard : Fintype.card ι < 2 ^ 31) :
    zeroE + ∑ i, ind (v i) = FloatOps.sitofp (F := Ideal) .f32 (Finset.univ.fold IntOp.addi 0#32 fun i => (v i).setWidth 32) := by
  have hc := fold_addi_toNat Finset.univ v (by rw [Finset.card_univ]; omega)
  have hle : cnt Finset.univ v ≤ Fintype.card ι := by simpa using cnt_le Finset.univ v
  rw [sum_ind, zeroE_eq, zero_add, sitofp_of_toNat _ _ hc (by omega)]

/-- A disjunction of bits is set exactly when some bit is. -/
theorem fold_ori_eq_one (s : Finset ι) (f : ι → BitVec 1) : s.fold IntOp.ori 0#1 f = 1#1 ↔ ∃ j ∈ s, f j = 1#1 := by
  induction s using Finset.induction_on with
  | empty => simp
  | insert a s ha ih =>
    rw [Finset.fold_insert ha, Finset.exists_mem_insert]
    show (f a ||| s.fold IntOp.ori 0#1 f) = 1#1 ↔ _
    rcases BitVec.eq_zero_or_eq_one (f a) with h | h
    · rw [h, BitVec.zero_or, ih]
      simp
    · rw [h]
      constructor
      · intro _; exact Or.inl rfl
      · intro _
        rcases BitVec.eq_zero_or_eq_one (s.fold IntOp.ori 0#1 f) with h' | h' <;> rw [h'] <;> decide

/-- The maximum of the bits as floats, from zero, exceeds one half exactly when the disjunction is set. -/
theorem any_bridge (f : ι → BitVec 1) (ak : EReal) (hchar : ∀ z, ak ≤ z ↔ zeroE ≤ z ∧ ∀ j, ind (f j) ≤ z) :
    Ideal.cmp .ogt ak halfE = Finset.univ.fold IntOp.ori 0#1 f := by
  have hhalf : halfE = ((1 / 2 : ℝ) : EReal) := halfE_eq
  by_cases hex : ∃ j ∈ (Finset.univ : Finset ι), f j = 1#1
  · rw [(fold_ori_eq_one Finset.univ f).mpr hex]
    obtain ⟨j, -, hj⟩ := hex
    have h1 : (1 : EReal) ≤ ak := by
      have := ((hchar ak).mp le_rfl).2 j
      rwa [hj, ind_one] at this
    show BitVec.ofBool (decide (halfE < ak)) = 1#1
    rw [decide_eq_true (lt_of_lt_of_le (by rw [hhalf]; exact_mod_cast (by norm_num : (1 / 2 : ℝ) < 1)) h1)]
    rfl
  · have hz : Finset.univ.fold IntOp.ori 0#1 f = 0#1 := by
      rcases BitVec.eq_zero_or_eq_one (Finset.univ.fold IntOp.ori 0#1 f) with h | h
      · exact h
      · exact absurd ((fold_ori_eq_one Finset.univ f).mp h) hex
    rw [hz]
    have hall : ∀ j, ind (f j) = 0 := fun j => by
      rcases BitVec.eq_zero_or_eq_one (f j) with h | h
      · rw [h, ind_zero]
      · exact absurd ⟨j, Finset.mem_univ j, h⟩ hex
    have h0 : ak ≤ 0 := (hchar 0).mpr ⟨by rw [zeroE_eq], fun j => by rw [hall j]⟩
    show BitVec.ofBool (decide (halfE < ak)) = 0#1
    rw [decide_eq_false (not_lt.mpr (h0.trans (by rw [hhalf]; exact_mod_cast (by norm_num : (0 : ℝ) ≤ 1 / 2))))]
    rfl

/-- A minimum folded from the sentinel is the minimum folded from +∞ when some folded value does not exceed the sentinel. -/
theorem hard_eq (M : ι → EReal) (i0 : ι) (h0 : M i0 ≤ bigE) (hk : EReal) (hchar : ∀ z, z ≤ hk ↔ z ≤ bigE ∧ ∀ j, z ≤ M j) :
    hk = Finset.univ.fold min topE M := by
  refine eq_of_forall_le_iff fun z => ?_
  rw [hchar, Finset.le_fold_min, topE_eq]
  constructor
  · rintro ⟨_, h⟩; exact ⟨le_top, fun j _ => h j⟩
  · rintro ⟨_, h⟩; exact ⟨(h i0 (Finset.mem_univ _)).trans h0, fun j => h j (Finset.mem_univ _)⟩

/-! ## The loss, in the two spellings -/

section Loss

variable {n : ℕ} (D J : Fin n → Fin n → EReal) (eye : Fin n → Fin n → BitVec 1)

abbrev epsE : EReal := Ideal.ofBits .f32 0x322BCC77#32
abbrev marginE : EReal := Ideal.ofBits .f32 0x3E99999A#32

/-- A negative: the Jaccard entry is zero. A positive: it is positive, off the diagonal. -/
def negb (i j : Fin n) : BitVec 1 := Ideal.cmp .oeq (J i j) zeroE
def posb (i j : Fin n) : BitVec 1 := IntOp.andi (Ideal.cmp .ogt (J i j) zeroE) (IntOp.xori (eye i j) 1#1)
/-- The masked distance and the masked hinge term against a hardest-negative distance `h`. -/
def md (i j : Fin n) : EReal := Scalar.select (negb J i j) (D i j) bigE
def hinge (h : EReal) (i j : Fin n) : EReal :=
  Scalar.select (posb J eye i j) (max ((D i j - h) + marginE) zeroE * J i j) zeroE

/-- The reference's spelling: the minimum from +∞, the 32-bit count, the disjunction. -/
def hardR (i : Fin n) : EReal := Finset.univ.fold min topE (md D J i)
def cntI (i : Fin n) : BitVec 32 := Finset.univ.fold IntOp.addi 0#32 fun j => (posb J eye i j).setWidth 32
def anyB (i : Fin n) : BitVec 1 := Finset.univ.fold IntOp.ori 0#1 (negb J i)
def numR (i : Fin n) : EReal := zeroE + ∑ j, hinge D J eye (hardR D J i) i j
def validR (i : Fin n) : BitVec 1 := IntOp.andi (IntOp.cmpi .sgt (cntI J eye i) 0#32) (anyB J i)
def rowR (i : Fin n) : EReal :=
  Ideal.div (numR D J eye i) (FloatOps.sitofp (F := Ideal) .f32 (IntOp.maxsi (cntI J eye i) 1#32))
def lossR : EReal :=
  Ideal.div (zeroE + ∑ i, Scalar.select (validR J eye i) (rowR D J eye i) zeroE)
    (FloatOps.sitofp (F := Ideal) .f32 (Finset.univ.fold IntOp.addi 0#32 fun i => (validR J eye i).setWidth 32) + epsE)

/-- The kernels' spelling, from the four per-row quantities they compute. -/
def validK (cntK anyK : Fin n → EReal) (i : Fin n) : BitVec 1 :=
  IntOp.andi (Ideal.cmp .ogt (cntK i) zeroE) (Ideal.cmp .ogt (anyK i) halfE)
def lossK (cntK anyK numK : Fin n → EReal) : EReal :=
  Ideal.div (zeroE + ∑ i, Scalar.select (validK cntK anyK i) (Ideal.div (numK i) (max (cntK i) oneE)) zeroE)
    ((zeroE + ∑ i, ind (validK cntK anyK i)) + epsE)

/-- THE BRIDGE: the two spellings agree as soon as no diagonal masked distance exceeds the sentinel. -/
theorem loss_bridge (hn : n < 2 ^ 31) (hdiag : ∀ i, md D J i i ≤ bigE)
    (hardK cntK anyK numK : Fin n → EReal)
    (h1 : ∀ i z, z ≤ hardK i ↔ z ≤ bigE ∧ ∀ j, z ≤ md D J i j)
    (h2 : ∀ i, cntK i = zeroE + ∑ j, ind (posb J eye i j))
    (h3 : ∀ i z, anyK i ≤ z ↔ zeroE ≤ z ∧ ∀ j, ind (negb J i j) ≤ z)
    (h4 : ∀ i, numK i = zeroE + ∑ j, hinge D J eye (hardK i) i j) :
    lossK cntK anyK numK = lossR D J eye := by
  have hcard : Fintype.card (Fin n) < 2 ^ 31 := by rw [Fintype.card_fin]; exact hn
  have hhard : ∀ i, hardK i = hardR D J i := fun i => hard_eq (md D J i) i (hdiag i) (hardK i) (h1 i)
  have hnum : ∀ i, numK i = numR D J eye i := fun i => by rw [h4 i, hhard i]; rfl
  have hvalid : ∀ i, validK cntK anyK i = validR J eye i := fun i => by
    unfold validK validR
    rw [(cnt_bridge (posb J eye i) hcard (cntK i) (h2 i)).1, any_bridge (negb J i) (anyK i) (h3 i)]
    rfl
  have hrow : ∀ i, Ideal.div (numK i) (max (cntK i) oneE) = rowR D J eye i := fun i => by
    unfold rowR
    rw [hnum i, (cnt_bridge (posb J eye i) hcard (cntK i) (h2 i)).2]
    rfl
  unfold lossK lossR
  rw [← nv_bridge (fun i => validR J eye i) hcard]
  simp only [hvalid, hrow]

end Loss

end Cert.Spec

end
-- ==== Proof.Val.KRows.lean ====
/-
  The statistics array's three columns, row by row, in terms of the whole pairwise matrices.

  For row `i` the sixteen column blocks of its row block cover all 8192 columns, each column `j` being
  512 · (j / 512) + j % 512. So the minimum column is the greatest lower bound of the sentinel and of all the row's
  masked distances; the count column is zero plus the sum over all columns of the positives' bits; the maximum column
  the least upper bound of zero and of all the row's negatives' bits.
-/
import proofs.«155278_j51788715655787_1_alg».proof.Proof.Val.Rows
import proofs.«155278_j51788715655787_1_alg».proof.Proof.Val.StatsOut
import proofs.«155278_j51788715655787_1_alg».proof.Proof.Spec

set_option maxRecDepth 16384

noncomputable section

namespace Cert.KernelIdeal.Val

open Cert.KernelIdeal Cert.KernelIdeal.Gen Cert.KernelIdeal.Hand
open Idealize.ShloMosaic Idealize.ShloMosaic.ValueIdx Idealize.ShloMosaic.TcCoe
open Idealize.SL.Sem

variable (V : (c : Dev nD) → (b : Ref sig .tc) → Buf (Elt Ideal) ((c : Thread nD τ).loc b))

/-- The whole Jaccard matrix, the negatives' bits and the masked distances of the arrays as the first region finds them. -/
def gJ (c : Dev nD) (i j : Fin 8192) : EReal :=
  Ideal.div (gI (V c main_v13) i j) (gU (V c main_v13) (V c main_v10) (V c main_v11) i j)
def gDist (c : Dev nD) (i j : Fin 8192) : EReal := gD (V c main_v12) (V c main_v10) (V c main_v11) i j
def gNeg (c : Dev nD) (i j : Fin 8192) : BitVec 1 := Ideal.cmp .oeq (gJ V c i j) (Ideal.ofBits .f32 0x00000000#32)
def gMasked (c : Dev nD) (i j : Fin 8192) : EReal :=
  Scalar.select (gNeg V c i j) (gDist V c i j) (Ideal.ofBits .f32 0x4E6E6B28#32)

/-- Column `j` as a column block and a lane. -/
theorem col_split (j : Fin 8192) : ∃ (k : ℕ) (q : Fin 512), k < 16 ∧ ∀ n, n % 16 = k → colOf n q = j :=
  ⟨j.val / 512, ⟨j.val % 512, Nat.mod_lt _ (by decide)⟩, by have := j.isLt; omega, fun n hn => Fin.ext (by
    rw [colOf_val]; show 512 * (n % 16) + j.val % 512 = j.val; rw [hn]; omega)⟩

theorem row_of (i : Fin 8192) (k : ℕ) (hk : k < 16) :
    rowOf (16 * (i.val / 1024) + k) (⟨i.val % 1024, Nat.mod_lt _ (by decide)⟩ : Fin 1024) = i := Fin.ext (by
  have := i.isLt
  rw [rowOf_val _ (by omega)]
  show 1024 * ((16 * (i.val / 1024) + k) / 16) + i.val % 1024 = i.val
  omega)

/-- A block's masked-distance minimum of row p bounds `z` exactly when every masked distance of the block's row does. -/
theorem le_bminN (c : Dev nD) (n : ℕ) (hn : n < cfg0.N) (p : Fin 1024) (z : EReal) :
    z ≤ bminN V c n p ↔ ∀ q : Fin 512, z ≤ gMasked V c (rowOf n p) (colOf n q) := by
  unfold bminN bmin
  rw [dif_pos hn, Finset.le_fold_min]
  have htop : z ≤ Ideal.ofBits .f32 0x7F800000#32 := by
    have h : Ideal.ofBits .f32 0x7F800000#32 = ⊤ := Cert.Spec.topE_eq
    rw [h]; exact le_top
  constructor
  · rintro ⟨-, h⟩ q
    have := h q (Finset.mem_univ q)
    rw [Dt_apply V c ⟨n, hn⟩ p q, It_apply V c ⟨n, hn⟩ p q, Ut_apply V c ⟨n, hn⟩ p q] at this
    exact this
  · intro h
    refine ⟨htop, fun q _ => ?_⟩
    rw [Dt_apply V c ⟨n, hn⟩ p q, It_apply V c ⟨n, hn⟩ p q, Ut_apply V c ⟨n, hn⟩ p q]
    exact h q

/-- THE MINIMUM COLUMN of row `i`. -/
theorem stats_min (c : Dev nD) (i : Fin 8192) (z : EReal) :
    z ≤ statsG V c (ix2 i (0 : Fin 3)) ↔ z ≤ bigE ∧ ∀ j : Fin 8192, z ≤ gMasked V c i j := by
  have hi := i.isLt
  have hN : cfg0.N = 128 := N_0
  unfold statsG
  have hn : 16 * (i.val / 1024) + 15 < cfg0.N := by rw [hN]; omega
  have hacc := acc_min V c (16 * (i.val / 1024) + 15) hn (⟨i.val % 1024, Nat.mod_lt _ (by decide)⟩ : Fin 1024) z
  have e1 : (16 * (i.val / 1024) + 15) % 16 + 1 = 16 := by omega
  have e2 : 16 * ((16 * (i.val / 1024) + 15) / 16) = 16 * (i.val / 1024) := by omega
  rw [e1, e2] at hacc
  show z ≤ accAt0 V c (16 * (i.val / 1024) + 15) _ (ix2 (⟨i.val % 1024, _⟩ : Fin 1024) (⟨0, _⟩ : Fin 3)) ↔ _
  refine hacc.trans (and_congr_right fun _ => ?_)
  constructor
  · intro h j
    obtain ⟨k, q, hk, hq⟩ := col_split j
    have := (le_bminN V c (16 * (i.val / 1024) + k) (by rw [hN]; omega) _ z).mp (h k hk) q
    rwa [row_of i k hk, hq _ (by omega)] at this
  · intro h k hk
    refine (le_bminN V c (16 * (i.val / 1024) + k) (by rw [hN]; omega) _ z).mpr fun q => ?_
    rw [row_of i k hk]
    exact h _

/-- A sum over the sixteen column blocks and their 512 lanes is the sum over all columns. -/
theorem sum_blocks (g : Fin 8192 → EReal) :
    ∑ k ∈ Finset.range 16, ∑ q : Fin 512, g (colOf k q) = ∑ j, g j := by
  rw [Finset.sum_range]
  rw [← Fintype.sum_prod_type' (f := fun (k : Fin 16) (q : Fin 512) => g (colOf k.val q))]
  refine Fintype.sum_equiv ((finProdFinEquiv (m := 16) (n := 512)).trans (finCongr (by norm_num : 16 * 512 = 8192))) _ _ fun x => ?_
  refine congrArg g (Fin.ext ?_)
  rw [colOf_val]
  have h1 := x.1.isLt
  have h2 := x.2.isLt
  show 512 * (x.1.val % 16) + x.2.val = x.2.val + 512 * x.1.val
  rw [Nat.mod_eq_of_lt h1]; omega

theorem colOf_mod (n k : ℕ) (h : n % 16 = k % 16) (q : Fin 512) : colOf n q = colOf k q := Fin.ext (by
  rw [colOf_val, colOf_val, h])

/-- A block's positives of row p. -/
theorem bcntN_eq (c : Dev nD) (n : ℕ) (hn : n < cfg0.N) (p : Fin 1024) :
    bcntN V c n p = ∑ q : Fin 512, Cert.Spec.ind (posB (gJ V c (rowOf n p) (colOf n q)) (rowOf n p) (colOf n q)) := by
  have hn' : n < 128 := lt_of_lt_of_eq hn (show cfg0.N = 128 from N_0)
  unfold bcntN bcnt
  rw [dif_pos hn, (coords0 ⟨n, hn⟩).1, (coords0 ⟨n, hn⟩).2]
  refine Finset.sum_congr rfl fun q _ => ?_
  rw [posBlk_eq]
  show Cert.Spec.ind (posBit (BitVec.ofNat 32 (n / 16)) (BitVec.ofNat 32 (n % 16)) (It V c ⟨n, hn⟩) (Ut V c ⟨n, hn⟩) (ix2 p q)) = _
  rw [posBit_apply n hn', It_apply V c ⟨n, hn⟩ p q, Ut_apply V c ⟨n, hn⟩ p q]
  rfl

/-- THE COUNT COLUMN of row `i`. -/
theorem stats_cnt (c : Dev nD) (i : Fin 8192) :
    statsG V c (ix2 i (1 : Fin 3)) = zeroE + ∑ j : Fin 8192, Cert.Spec.ind (posB (gJ V c i j) i j) := by
  have hi := i.isLt
  have hN : cfg0.N = 128 := N_0
  unfold statsG
  have hn : 16 * (i.val / 1024) + 15 < cfg0.N := by rw [hN]; omega
  have hacc := acc_cnt V c (16 * (i.val / 1024) + 15) hn (⟨i.val % 1024, Nat.mod_lt _ (by decide)⟩ : Fin 1024)
  have e1 : (16 * (i.val / 1024) + 15) % 16 + 1 = 16 := by omega
  have e2 : 16 * ((16 * (i.val / 1024) + 15) / 16) = 16 * (i.val / 1024) := by omega
  rw [e1, e2] at hacc
  show accAt0 V c (16 * (i.val / 1024) + 15) _ (ix2 (⟨i.val % 1024, _⟩ : Fin 1024) (⟨1, _⟩ : Fin 3)) = _
  refine hacc.trans (congrArg (zeroE + ·) ?_)
  rw [← sum_blocks fun j => Cert.Spec.ind (posB (gJ V c i j) i j)]
  refine Finset.sum_congr rfl fun k hk => ?_
  have hk' : k < 16 := Finset.mem_range.mp hk
  rw [bcntN_eq V c _ (by rw [hN]; omega), row_of i k hk']
  refine Finset.sum_congr rfl fun q _ => ?_
  rw [colOf_mod (16 * (i.val / 1024) + k) k (by omega) q]

/-- A block's negatives' maximum of row p lies below `z` exactly when every negative's bit of the block's row does. -/
theorem banyN_le (c : Dev nD) (n : ℕ) (hn : n < cfg0.N) (p : Fin 1024) (z : EReal) :
    banyN V c n p ≤ z ↔ ∀ q : Fin 512, Cert.Spec.ind (gNeg V c (rowOf n p) (colOf n q)) ≤ z := by
  unfold banyN bany
  rw [dif_pos hn, Finset.fold_max_le]
  have hbot : Ideal.ofBits .f32 0xFF800000#32 ≤ z := by
    have h : Ideal.ofBits .f32 0xFF800000#32 = ⊥ := Cert.Spec.botE_eq
    rw [h]; exact bot_le
  constructor
  · rintro ⟨-, h⟩ q
    have := h q (Finset.mem_univ q)
    rw [It_apply V c ⟨n, hn⟩ p q, Ut_apply V c ⟨n, hn⟩ p q] at this
    exact this
  · intro h
    refine ⟨hbot, fun q _ => ?_⟩
    rw [It_apply V c ⟨n, hn⟩ p q, Ut_apply V c ⟨n, hn⟩ p q]
    exact h q

/-- THE MAXIMUM COLUMN of row `i`. -/
theorem stats_any (c : Dev nD) (i : Fin 8192) (z : EReal) :
    statsG V c (ix2 i (2 : Fin 3)) ≤ z ↔ zeroE ≤ z ∧ ∀ j : Fin 8192, Cert.Spec.ind (gNeg V c i j) ≤ z := by
  have hi := i.isLt
  have hN : cfg0.N = 128 := N_0
  unfold statsG
  have hn : 16 * (i.val / 1024) + 15 < cfg0.N := by rw [hN]; omega
  have hacc := acc_any V c (16 * (i.val / 1024) + 15) hn (⟨i.val % 1024, Nat.mod_lt _ (by decide)⟩ : Fin 1024) z
  have e1 : (16 * (i.val / 1024) + 15) % 16 + 1 = 16 := by omega
  have e2 : 16 * ((16 * (i.val / 1024) + 15) / 16) = 16 * (i.val / 1024) := by omega
  rw [e1, e2] at hacc
  show accAt0 V c (16 * (i.val / 1024) + 15) _ (ix2 (⟨i.val % 1024, _⟩ : Fin 1024) (⟨2, _⟩ : Fin 3)) ≤ z ↔ _
  refine hacc.trans (and_congr_right fun _ => ?_)
  constructor
  · intro h j
    obtain ⟨k, q, hk, hq⟩ := col_split j
    have := (banyN_le V c (16 * (i.val / 1024) + k) (by rw [hN]; omega) _ z).mp (h k hk) q
    rwa [row_of i k hk, hq _ (by omega)] at this
  · intro h k hk
    refine (banyN_le V c (16 * (i.val / 1024) + k) (by rw [hN]; omega) _ z).mpr fun q => ?_
    rw [row_of i k hk]
    exact h _

end Cert.KernelIdeal.Val

end
-- ==== Proof.Val.LRows.lean ====
/-
  The loss kernel's result array, row by row, in terms of the whole pairwise matrices.

  The running column after a row block's last column block is zero plus the sum over all columns of the masked hinge
  terms: at a positive, max((D − h) + 0.3, 0) · J with `h` the row's entry of the statistics array's first column;
  zero elsewhere.
-/
import proofs.«155278_j51788715655787_1_alg».proof.Proof.Val.KRows

set_option maxRecDepth 16384

noncomputable section

namespace Cert.KernelIdeal.Val

open Cert.KernelIdeal Cert.KernelIdeal.Gen Cert.KernelIdeal.Hand
open Idealize.ShloMosaic Idealize.ShloMosaic.ValueIdx Idealize.ShloMosaic.TcCoe
open Idealize.SL.Sem

variable (V : (c : Dev nD) → (b : Ref sig .tc) → Buf (Elt Ideal) ((c : Thread nD τ).loc b))

theorem inter_congr (a : FVec Ideal S1024x80 .bf16) (b : FVec Ideal S512x80 .bf16) (L : FVec Ideal S8192x80 .bf16)
    (i j : Fin 8192) (p : Fin 1024) (q : Fin 512) (ha : ∀ k, a (ix2 p k) = L (ix2 i k)) (hb : ∀ k, b (ix2 q k) = L (ix2 j k)) :
    k0_pay8 (F := Ideal) a b (ix2 p q) = gI L i j := by
  rw [interBlock_apply]
  unfold gI
  simp only [ha, hb]

theorem union_congr (u : FVec Ideal S1024x2 .f32) (w : FVec Ideal S2x512 .f32) (a : FVec Ideal S1024x80 .bf16)
    (b : FVec Ideal S512x80 .bf16) (L : FVec Ideal S8192x80 .bf16) (A : FVec Ideal S8192x2 .f32) (T : FVec Ideal S2x8192 .f32)
    (i j : Fin 8192) (p : Fin 1024) (q : Fin 512) (ha : ∀ k, a (ix2 p k) = L (ix2 i k)) (hb : ∀ k, b (ix2 q k) = L (ix2 j k))
    (hu : u (ix2 p 1) = A (ix2 i 1)) (hw : w (ix2 1 q) = T (ix2 1 j)) :
    k0_pay9 (F := Ideal) u w a b (ix2 p q) = gU L A T i j := by
  rw [unionBlock_apply, hu, hw]
  unfold gU gI
  simp only [ha, hb]

theorem I1t_apply (c : Dev nD) (t : Fin cfg1.N) (p : Fin 1024) (q : Fin 512) :
    I1t V c t (ix2 p q) = gI (V c main_v13) (rowOf t.val p) (colOf t.val q) := by
  have hN : t.val < 128 := lt_of_lt_of_eq t.isLt (show cfg1.N = 128 from N_1)
  exact inter_congr (blk1 V c 2 t) (blk1 V c 3 t) (V c main_v13) (rowOf t.val p) (colOf t.val q) p q
    (fun k => blk1_2_apply V c t p k (rowOf t.val p) k (rowOf_val _ hN p) rfl)
    (fun k => blk1_3_apply V c t q k (colOf t.val q) k (colOf_val _ q) rfl)

theorem U1t_apply (c : Dev nD) (t : Fin cfg1.N) (p : Fin 1024) (q : Fin 512) :
    U1t V c t (ix2 p q) = gU (V c main_v13) (V c main_v10) (V c main_v11) (rowOf t.val p) (colOf t.val q) := by
  have hN : t.val < 128 := lt_of_lt_of_eq t.isLt (show cfg1.N = 128 from N_1)
  exact union_congr (blk1 V c 4 t) (blk1 V c 5 t) (blk1 V c 2 t) (blk1 V c 3 t) (V c main_v13) (V c main_v10) (V c main_v11)
    (rowOf t.val p) (colOf t.val q) p q
    (fun k => blk1_2_apply V c t p k (rowOf t.val p) k (rowOf_val _ hN p) rfl)
    (fun k => blk1_3_apply V c t q k (colOf t.val q) k (colOf_val _ q) rfl)
    (blk1_4_apply V c t p 1 (rowOf t.val p) 1 (rowOf_val _ hN p) rfl)
    (blk1_5_apply V c t 1 q 1 (colOf t.val q) rfl (colOf_val _ q))

theorem D1t_apply (c : Dev nD) (t : Fin cfg1.N) (p : Fin 1024) (q : Fin 512) :
    D1t V c t (ix2 p q) = gD (V c main_v12) (V c main_v10) (V c main_v11) (rowOf t.val p) (colOf t.val q) := by
  have hN : t.val < 128 := lt_of_lt_of_eq t.isLt (show cfg1.N = 128 from N_1)
  exact dist_congr (blk1 V c 0 t) (blk1 V c 1 t) (blk1 V c 4 t) (blk1 V c 5 t) (V c main_v12) (V c main_v10) (V c main_v11)
    (rowOf t.val p) (colOf t.val q) p q
    (fun k => blk1_0_apply V c t p k (rowOf t.val p) k (rowOf_val _ hN p) rfl)
    (fun k => blk1_1_apply V c t q k (colOf t.val q) k (colOf_val _ q) rfl)
    (blk1_4_apply V c t p 0 (rowOf t.val p) 0 (rowOf_val _ hN p) rfl)
    (blk1_5_apply V c t 0 q 0 (colOf t.val q) rfl (colOf_val _ q))

/-- A column of the statistics block at point `t` is the statistics array's column on the block's rows. -/
theorem statCol_apply (c : Dev nD) (t : Fin cfg1.N) (k : Fin 3) (p : Fin 1024) :
    statCol V c t k (ix2 p (0 : Fin 1)) = V c main_v14 (ix2 (rowOf t.val p) k) := by
  have hN : t.val < 128 := lt_of_lt_of_eq t.isLt (show cfg1.N = 128 from N_1)
  match k with
  | ⟨0, _⟩ =>
    exact (Cert.LibColSlabs.ld_col (Val := Elt Ideal) (blk1 V c 6 t) 0 (0 : Fin 3) rfl _ p).trans
      (blk1_6_apply V c t p 0 (rowOf t.val p) 0 (rowOf_val _ hN p) rfl)
  | ⟨1, _⟩ =>
    exact (Cert.LibColSlabs.ld_col (Val := Elt Ideal) (blk1 V c 6 t) 1 (1 : Fin 3) rfl _ p).trans
      (blk1_6_apply V c t p 1 (rowOf t.val p) 1 (rowOf_val _ hN p) rfl)
  | ⟨2, _⟩ =>
    exact (Cert.LibColSlabs.ld_col (Val := Elt Ideal) (blk1 V c 6 t) 2 (2 : Fin 3) rfl _ p).trans
      (blk1_6_apply V c t p 2 (rowOf t.val p) 2 (rowOf_val _ hN p) rfl)

/-- One masked hinge term. -/
def hingeG (D J H : EReal) (b : BitVec 1) : EReal :=
  Scalar.select b (max ((D - H) + Ideal.ofBits .f32 0x3E99999A#32) (Ideal.ofBits .f32 0x00000000#32) * J)
    (Ideal.ofBits .f32 0x00000000#32)

theorem hingeBlk_apply (a0 a1 : BitVec 32) (D I U : FVec Ideal S1024x512 .f32) (h : FVec Ideal S1024x1 .f32)
    (p : Fin 1024) (q : Fin 512) :
    hingeBlk a0 a1 D I U h (ix2 p q)
      = hingeG (D (ix2 p q)) (Ideal.div (I (ix2 p q)) (U (ix2 p q))) (h (ix2 p 0)) (posBit a0 a1 I U (ix2 p q)) := by
  unfold hingeBlk hingeG
  show Scalar.select _ (max ((D (ix2 p q) - broadcastTo S1024x512 h broadcasts_S1024x1_S1024x512 (ix2 p q)) + _) _ * _) _ = _
  rw [Cert.LibColumns.broadcastTo_a1_ab_apply]
  rfl

/-- A block's masked hinge sum of row p. -/
theorem hsumN_eq (c : Dev nD) (n : ℕ) (hn : n < cfg1.N) (p : Fin 1024) :
    hsumN V c n p = ∑ q : Fin 512, hingeG (gDist V c (rowOf n p) (colOf n q)) (gJ V c (rowOf n p) (colOf n q))
      (V c main_v14 (ix2 (rowOf n p) 0)) (posB (gJ V c (rowOf n p) (colOf n q)) (rowOf n p) (colOf n q)) := by
  have hn' : n < 128 := lt_of_lt_of_eq hn (show cfg1.N = 128 from N_1)
  unfold hsumN
  rw [dif_pos hn, (coords1 ⟨n, hn⟩).1, (coords1 ⟨n, hn⟩).2]
  refine Finset.sum_congr rfl fun q _ => ?_
  rw [hingeBlk_apply, posBit_apply n hn', D1t_apply V c ⟨n, hn⟩ p q, I1t_apply V c ⟨n, hn⟩ p q, U1t_apply V c ⟨n, hn⟩ p q,
    statCol_apply V c ⟨n, hn⟩ 0 p]
  rfl

/-- THE HINGE SUM of row `i` after its row block's last column block. -/
theorem loss_num (c : Dev nD) (i : Fin 8192) (hn : 16 * (i.val / 1024) + 15 < cfg1.N) :
    accAt1 V c (16 * (i.val / 1024) + 15) hn (ix2 (⟨i.val % 1024, Nat.mod_lt _ (by decide)⟩ : Fin 1024) (0 : Fin 1))
      = zeroE + ∑ j : Fin 8192, hingeG (gDist V c i j) (gJ V c i j) (V c main_v14 (ix2 i 0)) (posB (gJ V c i j) i j) := by
  have hi := i.isLt
  have hN : cfg1.N = 128 := N_1
  have hacc := acc1_sum V c (16 * (i.val / 1024) + 15) hn (⟨i.val % 1024, Nat.mod_lt _ (by decide)⟩ : Fin 1024)
  have e1 : (16 * (i.val / 1024) + 15) % 16 + 1 = 16 := by omega
  have e2 : 16 * ((16 * (i.val / 1024) + 15) / 16) = 16 * (i.val / 1024) := by omega
  rw [e1, e2] at hacc
  refine hacc.trans (congrArg (zeroE + ·) ?_)
  rw [← sum_blocks fun j => hingeG (gDist V c i j) (gJ V c i j) (V c main_v14 (ix2 i 0)) (posB (gJ V c i j) i j)]
  refine Finset.sum_congr rfl fun k hk => ?_
  have hk' : k < 16 := Finset.mem_range.mp hk
  rw [hsumN_eq V c _ (by rw [hN]; omega), row_of i k hk']
  refine Finset.sum_congr rfl fun q _ => ?_
  rw [colOf_mod (16 * (i.val / 1024) + k) k (by omega) q]

end Cert.KernelIdeal.Val

end
-- ==== Proof.Val.Entry.lean ====
/-
  The arrays the kernels read, as functions of the two arguments: the host operations before the first kernel divide
  each embedding row by its Euclidean norm (floored at 1e-12), sum each row's squares and each label row, and lay the
  two per-row sums side by side as a two-column array and as its transpose; the matrix unit's operands are the
  normalized embeddings and the labels, unchanged at the extended reals.
-/
import proofs.«155278_j51788715655787_1_alg».proof.Proof.Run
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Val

open Cert.KernelIdeal Cert.KernelIdeal.Gen
open Idealize.ShloMosaic Idealize.ShloMosaic.ValueIdx Idealize.ShloMosaic.TcCoe
open Idealize.SL.Sem

/-- The row norms, the normalized embeddings, the rows' squared norms and label sums, and the auxiliary array. -/
def nrmT (x0 : FVec Ideal S8192x512 .f32) : FVec Ideal S8192x1 .f32 :=
  Host.sqrt (broadcastInDim S8192x1 ![0] bcast_S8192_S8192x1_0
    (Host.reduceAdd (mulf x0 x0) (constant S_ .f32 0x00000000#32) reducesTo_S8192x512_S8192_d1 h_S_))
def eT (x0 : FVec Ideal S8192x512 .f32) : FVec Ideal S8192x512 .f32 :=
  Host.divf x0 (broadcastInDim S8192x512 ![0, 1] bcast_S8192x1_S8192x512_0_1
    (maximumf (nrmT x0) (broadcastInDim S8192x1 ![] bcast_S_S8192x1 (constant S_ .f32 0x2B8CBCCC#32))))
def sqT (x0 : FVec Ideal S8192x512 .f32) : FVec Ideal S8192 .f32 :=
  Host.reduceAdd (mulf (eT x0) (eT x0)) (constant S_ .f32 0x00000000#32) reducesTo_S8192x512_S8192_d1 h_S_
def sT (x1 : FVec Ideal S8192x80 .f32) : FVec Ideal S8192 .f32 :=
  Host.reduceAdd x1 (constant S_ .f32 0x00000000#32) reducesTo_S8192x80_S8192_d1 h_S_
def auxA (x0 : FVec Ideal S8192x512 .f32) (x1 : FVec Ideal S8192x80 .f32) : FVec Ideal S8192x2 .f32 :=
  concatenate S8192x2 1 [⟨S8192x1, broadcastInDim S8192x1 ![0] bcast_S8192_S8192x1_0 (sqT x0)⟩,
    ⟨S8192x1, broadcastInDim S8192x1 ![0] bcast_S8192_S8192x1_0 (sT x1)⟩] concatenates_S8192x1_S8192x1_S8192x2_d1

variable (m : (ℓ : Loc nD τ sig) → Buf (Elt Ideal) ℓ)

theorem V2_v12 (c : Dev nD) :
    (Hand.V2 m c main_v12 : S8192x512.Idx → EReal) = truncf .bf16 (eT (m ((c : Thread nD τ).loc main_arg0))) bitsLt_bf16_f32 := by
  show StableHlo.after hostOps0_1 (StableHlo.after hostOps0 (Hand.W0 m c)) (Proc.devRef .tc main_v12) = _
  after_results
  rfl
/-- The labels as the matrix unit's operand. -/
def lT (x1 : FVec Ideal S8192x80 .f32) : FVec Ideal S8192x80 .bf16 := truncf .bf16 x1 bitsLt_bf16_f32
theorem V2_v13 (c : Dev nD) :
    (Hand.V2 m c main_v13 : S8192x80.Idx → EReal) = lT (m ((c : Thread nD τ).loc main_arg1)) := by
  show StableHlo.after hostOps0_1 (StableHlo.after hostOps0 (Hand.W0 m c)) (Proc.devRef .tc main_v13) = _
  after_results
  rfl
theorem V2_v10 (c : Dev nD) :
    (Hand.V2 m c main_v10 : S8192x2.Idx → EReal)
      = auxA (m ((c : Thread nD τ).loc main_arg0)) (m ((c : Thread nD τ).loc main_arg1)) := by
  show StableHlo.after hostOps0_1 (StableHlo.after hostOps0 (Hand.W0 m c)) (Proc.devRef .tc main_v10) = _
  after_results
  rfl
theorem V2_v11 (c : Dev nD) :
    (Hand.V2 m c main_v11 : S2x8192.Idx → EReal)
      = transpose S2x8192 [1, 0] (auxA (m ((c : Thread nD τ).loc main_arg0)) (m ((c : Thread nD τ).loc main_arg1)))
          transposes_S8192x2_S2x8192_1_0 := by
  show StableHlo.after hostOps0_1 (StableHlo.after hostOps0 (Hand.W0 m c)) (Proc.devRef .tc main_v11) = _
  after_results
  rfl

/-- The auxiliary array's two columns are the per-row sums. -/
theorem auxA_col0 (x0 : FVec Ideal S8192x512 .f32) (x1 : FVec Ideal S8192x80 .f32) (i : Fin 8192) :
    auxA x0 x1 (ix2 i 0) = sqT x0 (ix1 i) := by
  unfold auxA
  refine (concatenate_pair_apply_left (t := S8192x2) (s₁ := S8192x1) (s₂ := S8192x1) (1 : Fin 2) _ _
    concatenates_S8192x1_S8192x1_S8192x2_d1 (ix2 i (0 : Fin 2)) rfl
    (ix2 i (0 : Fin 1)) (fun b => by match b with | ⟨0, _⟩ => rfl | ⟨1, _⟩ => rfl)).trans ?_
  exact broadcastInDim_apply _ _ _ _ (ix1 i) (fun a => by
    match a with
    | ⟨0, _⟩ => show i.val = if (8192 : ℕ) = 1 then 0 else i.val; rw [if_neg (by decide)])
theorem auxA_col1 (x0 : FVec Ideal S8192x512 .f32) (x1 : FVec Ideal S8192x80 .f32) (i : Fin 8192) :
    auxA x0 x1 (ix2 i 1) = sT x1 (ix1 i) := by
  unfold auxA
  refine (concatenate_pair_apply_right (t := S8192x2) (s₁ := S8192x1) (s₂ := S8192x1) (1 : Fin 2) _ _
    concatenates_S8192x1_S8192x1_S8192x2_d1 (ix2 i (1 : Fin 2)) rfl rfl
    (ix2 i (0 : Fin 1)) (fun b hb => by
      match b with
      | ⟨0, _⟩ => rfl
      | ⟨1, _⟩ => exact absurd rfl hb) rfl).trans ?_
  exact broadcastInDim_apply _ _ _ _ (ix1 i) (fun a => by
    match a with
    | ⟨0, _⟩ => show i.val = if (8192 : ℕ) = 1 then 0 else i.val; rw [if_neg (by decide)])

end Cert.KernelIdeal.Val

end
-- ==== Proof.Val.KVal.lean ====
/-
  The kernel program's scalar result in terms of the whole pairwise matrices of the arrays the first kernel reads.

  The second kernel reads the same four arrays and the statistics array the first kernel left; row `i` of its result
  is, on a valid row (a positive count and a negative flag above one half), its hinge sum over max(count, 1), and
  zero elsewhere, beside the validity flag as 0 or 1. The final host operations sum the two columns and divide the
  first sum by the second plus ε.
-/
import proofs.«155278_j51788715655787_1_alg».proof.Proof.Val.LRows
import proofs.«155278_j51788715655787_1_alg».proof.Proof.Val.Entry

set_option maxRecDepth 16384

noncomputable section

namespace Cert.KernelIdeal.Val

open Cert.KernelIdeal Cert.KernelIdeal.Gen
open Idealize.ShloMosaic Idealize.ShloMosaic.ValueIdx Idealize.ShloMosaic.TcCoe
open Idealize.SL.Sem

variable (V : (c : Dev nD) → (b : Ref sig .tc) → Buf (Elt Ideal) ((c : Thread nD τ).loc b))

/-- A row's validity bit from its count and flag entries of the statistics array. -/
def vbitG (c : Dev nD) (i : Fin 8192) : BitVec 1 :=
  IntOp.andi (Ideal.cmp .ogt (V c main_v14 (ix2 i 1)) (Ideal.ofBits .f32 0x00000000#32))
    (Ideal.cmp .ogt (V c main_v14 (ix2 i 2)) (Ideal.ofBits .f32 0x3F000000#32))

theorem row_last (i : Fin 8192) : rowOf (16 * (i.val / 1024) + 15) (⟨i.val % 1024, Nat.mod_lt _ (by decide)⟩ : Fin 1024) = i :=
  row_of i 15 (by decide)

/-- THE RESULT ARRAY's first column: the row losses. -/
theorem out2G_col0 (c : Dev nD) (i : Fin 8192) (hn : 16 * (i.val / 1024) + 15 < cfg1.N) :
    out2G V c (ix2 i (0 : Fin 2))
      = Scalar.select (vbitG V c i)
          (Ideal.div (Hand.accAt1 V c (16 * (i.val / 1024) + 15) hn (ix2 (⟨i.val % 1024, Nat.mod_lt _ (by decide)⟩ : Fin 1024) (0 : Fin 1)))
            (max (V c main_v14 (ix2 i 1)) (Ideal.ofBits .f32 0x3F800000#32)))
          (Ideal.ofBits .f32 0x00000000#32) := by
  unfold vbitG
  have h1 : V c main_v14 (ix2 i 1) = statCol V c ⟨16 * (i.val / 1024) + 15, hn⟩ 1 (ix2 (⟨i.val % 1024, Nat.mod_lt _ (by decide)⟩ : Fin 1024) (0 : Fin 1)) := by
    rw [statCol_apply]; show _ = V c main_v14 (ix2 (rowOf (16 * (i.val / 1024) + 15) _) 1); rw [row_last i]
  have h2 : V c main_v14 (ix2 i 2) = statCol V c ⟨16 * (i.val / 1024) + 15, hn⟩ 2 (ix2 (⟨i.val % 1024, Nat.mod_lt _ (by decide)⟩ : Fin 1024) (0 : Fin 1)) := by
    rw [statCol_apply]; show _ = V c main_v14 (ix2 (rowOf (16 * (i.val / 1024) + 15) _) 2); rw [row_last i]
  rw [h1, h2]
  show outBlk V c ⟨16 * (i.val / 1024) + 15, hn⟩ (ix2 (⟨i.val % 1024, _⟩ : Fin 1024) (⟨0, _⟩ : Fin 2)) = _
  unfold outBlk
  rw [if_pos rfl]
  rfl

/-- THE RESULT ARRAY's second column: the validity flags. -/
theorem out2G_col1 (c : Dev nD) (i : Fin 8192) (hn : 16 * (i.val / 1024) + 15 < cfg1.N) :
    out2G V c (ix2 i (1 : Fin 2)) = Cert.Spec.ind (vbitG V c i) := by
  unfold vbitG
  have h1 : V c main_v14 (ix2 i 1) = statCol V c ⟨16 * (i.val / 1024) + 15, hn⟩ 1 (ix2 (⟨i.val % 1024, Nat.mod_lt _ (by decide)⟩ : Fin 1024) (0 : Fin 1)) := by
    rw [statCol_apply]; show _ = V c main_v14 (ix2 (rowOf (16 * (i.val / 1024) + 15) _) 1); rw [row_last i]
  have h2 : V c main_v14 (ix2 i 2) = statCol V c ⟨16 * (i.val / 1024) + 15, hn⟩ 2 (ix2 (⟨i.val % 1024, Nat.mod_lt _ (by decide)⟩ : Fin 1024) (0 : Fin 1)) := by
    rw [statCol_apply]; show _ = V c main_v14 (ix2 (rowOf (16 * (i.val / 1024) + 15) _) 2); rw [row_last i]
  rw [h1, h2]
  show outBlk V c ⟨16 * (i.val / 1024) + 15, hn⟩ (ix2 (⟨i.val % 1024, _⟩ : Fin 1024) (⟨1, _⟩ : Fin 2)) = _
  unfold outBlk
  rw [if_neg (by show ¬((1 : ℕ) = 0); omega)]
  rfl

end Cert.KernelIdeal.Val

end
-- ==== Proof.Val.DJ.lean ====
/-
  The whole distance and Jaccard matrices as functions of the two arguments, and the arrays the kernels read
  unfolded into them: the distances from the normalized embeddings and their rows' squared norms, the Jaccard
  entries from the labels and their rows' sums. A change of float format is the identity at the extended reals.
-/
import proofs.«155278_j51788715655787_1_alg».proof.Proof.Val.KVal

set_option maxRecDepth 16384

noncomputable section

namespace Cert.KernelIdeal.Val

open Cert.KernelIdeal Cert.KernelIdeal.Gen
open Idealize.ShloMosaic Idealize.ShloMosaic.ValueIdx Idealize.ShloMosaic.TcCoe
open Idealize.SL.Sem

/-- The distance, label inner product and Jaccard matrices. -/
def Dm (x0 : FVec Ideal S8192x512 .f32) (i j : Fin 8192) : EReal :=
  Ideal.sqrt (max ((sqT x0 (ix1 i) + sqT x0 (ix1 j))
      - Ideal.ofBits .f32 0x40000000#32 * ∑ k : Fin 512, eT x0 (ix2 i k) * eT x0 (ix2 j k)) (Ideal.ofBits .f32 0x00000000#32))
def Im (x1 : FVec Ideal S8192x80 .f32) (i j : Fin 8192) : EReal := ∑ k : Fin 80, x1 (ix2 i k) * x1 (ix2 j k)
def Jm (x1 : FVec Ideal S8192x80 .f32) (i j : Fin 8192) : EReal :=
  Ideal.div (Im x1 i j) (((sT x1 (ix1 i) + sT x1 (ix1 j)) - Im x1 i j) + Ideal.ofBits .f32 0x322BCC77#32)

variable (m : (ℓ : Loc nD τ sig) → Buf (Elt Ideal) ℓ)

theorem auxT_row (x0 : FVec Ideal S8192x512 .f32) (x1 : FVec Ideal S8192x80 .f32) (k : Fin 2) (j : Fin 8192) :
    transpose S2x8192 [1, 0] (auxA x0 x1) transposes_S8192x2_S2x8192_1_0 (ix2 k j) = auxA x0 x1 (ix2 j k) :=
  transpose_ix2_apply (auxA x0 x1) transposes_S8192x2_S2x8192_1_0 k j

theorem gDist_V2 (c : Dev nD) (i j : Fin 8192) :
    gDist (Hand.V2 m) c i j = Dm (m ((c : Thread nD τ).loc main_arg0)) i j := by
  unfold gDist gD Dm
  rw [V2_v12 m c, V2_v10 m c, V2_v11 m c, auxT_row, auxA_col0, auxA_col0]
  rfl

theorem gJ_V2 (c : Dev nD) (i j : Fin 8192) :
    gJ (Hand.V2 m) c i j = Jm (m ((c : Thread nD τ).loc main_arg1)) i j := by
  unfold gJ gU gI Jm Im
  rw [V2_v13 m c, V2_v10 m c, V2_v11 m c, auxT_row, auxA_col1, auxA_col1]
  rfl

/-- The second kernel finds the same four arrays, and the statistics array the first one left. -/
theorem gDist_V3 (c : Dev nD) (i j : Fin 8192) : gDist (Hand.V3 m) c i j = gDist (Hand.V2 m) c i j := by
  unfold gDist
  rw [show Hand.V3 m c main_v12 = Hand.V2 m c main_v12 from Hand.W3_of_ne m c main_v12 (by decide),
    show Hand.V3 m c main_v10 = Hand.V2 m c main_v10 from Hand.W3_of_ne m c main_v10 (by decide),
    show Hand.V3 m c main_v11 = Hand.V2 m c main_v11 from Hand.W3_of_ne m c main_v11 (by decide)]
theorem gJ_V3 (c : Dev nD) (i j : Fin 8192) : gJ (Hand.V3 m) c i j = gJ (Hand.V2 m) c i j := by
  unfold gJ
  rw [show Hand.V3 m c main_v13 = Hand.V2 m c main_v13 from Hand.W3_of_ne m c main_v13 (by decide),
    show Hand.V3 m c main_v10 = Hand.V2 m c main_v10 from Hand.W3_of_ne m c main_v10 (by decide),
    show Hand.V3 m c main_v11 = Hand.V2 m c main_v11 from Hand.W3_of_ne m c main_v11 (by decide)]
theorem V3_v14 (c : Dev nD) : (Hand.V3 m c main_v14 : S8192x3.Idx → EReal) = statsG (Hand.V2 m) c :=
  (Hand.W3_self m c).trans (stats_final (Hand.V2 m) c)
theorem O_eq (c : Dev nD) : (Hand.W4 m c main_v15 : S8192x2.Idx → EReal) = out2G (Hand.V3 m) c :=
  (Hand.W4_self m c).trans (out2_final (Hand.V3 m) c)

end Cert.KernelIdeal.Val

end
-- ==== Proof.Val.KFinal.lean ====
/-
  The kernel program's scalar result is the kernels' spelling of the loss over the distance and Jaccard matrices of
  the two arguments, and the four per-row quantities it is spelt from are what that spelling requires: the
  sentinel-capped minimum of the masked distances, the float count of positives, the float maximum of the negatives'
  bits, and the sum of the masked hinge terms against that minimum.
-/
import proofs.«155278_j51788715655787_1_alg».proof.Proof.Val.DJ

set_option maxRecDepth 16384

noncomputable section

namespace Cert.KernelIdeal.Val

open Cert.KernelIdeal Cert.KernelIdeal.Gen
open Idealize.ShloMosaic Idealize.ShloMosaic.ValueIdx Idealize.ShloMosaic.TcCoe
open Idealize.SL.Sem

variable (m : (ℓ : Loc nD τ sig) → Buf (Elt Ideal) ℓ)

/-- A sum over the indices of a vector of length 8192 is the sum over its positions. -/
theorem sum_idx1 (X : S8192.Idx → EReal) : ∑ j : S8192.Idx, X j = ∑ i : Fin 8192, X (ix1 i) :=
  Fintype.sum_equiv ⟨fun j => j 0, fun i => ix1 i, fun j => (eq_ix1 j).symm, fun _ => rfl⟩ _ _ fun j => congrArg X (eq_ix1 j)

theorem last_lt (i : Fin 8192) : 16 * (i.val / 1024) + 15 < cfg1.N := by
  have hN : cfg1.N = 128 := N_1
  have := i.isLt
  rw [hN]; omega

/-- The four per-row quantities. -/
def hardKf (c : Dev nD) (i : Fin 8192) : EReal := statsG (Hand.V2 m) c (ix2 i 0)
def cntKf (c : Dev nD) (i : Fin 8192) : EReal := statsG (Hand.V2 m) c (ix2 i 1)
def anyKf (c : Dev nD) (i : Fin 8192) : EReal := statsG (Hand.V2 m) c (ix2 i 2)
def numKf (c : Dev nD) (i : Fin 8192) : EReal :=
  Hand.accAt1 (Hand.V3 m) c (16 * (i.val / 1024) + 15) (last_lt i) (ix2 (⟨i.val % 1024, Nat.mod_lt _ (by decide)⟩ : Fin 1024) (0 : Fin 1))

/-- The second kernel's result array and the program's scalar, as vectors of extended reals. -/
def Oarr (c : Dev nD) : FVec Ideal S8192x2 .f32 := Hand.W4 m c main_v15
def resK (c : Dev nD) : FVec Ideal S_ .f32 := Hand.W5 m c main_v23

theorem Oarr_eq (c : Dev nD) : Oarr m c = out2G (Hand.V3 m) c := O_eq m c

/-- The final host operations on any two-column array: the two column sums and their quotient. -/
theorem tail_generic (O : FVec Ideal S8192x2 .f32) :
    (Host.divf
      (Host.reduceAdd (fun i => shapeCast S8192 (extractStridedSlice S8192x1 ![0, 0] O slices_S8192x2_S8192x1_0_0) shapeCasts_S8192x1_S8192 i)
        (constant S_ .f32 0x00000000#32) reducesTo_S8192_S_d0 h_S_)
      (addf (Host.reduceAdd (fun i => shapeCast S8192 (extractStridedSlice S8192x1 ![0, 1] O slices_S8192x2_S8192x1_0_1) shapeCasts_S8192x1_S8192 i)
        (constant S_ .f32 0x00000000#32) reducesTo_S8192_S_d0 h_S_) (constant S_ .f32 0x322BCC77#32)) : FVec Ideal S_ .f32) ix0
      = Ideal.div (Ideal.ofBits .f32 0x00000000#32 + ∑ i : Fin 8192, O (ix2 i 0))
          ((Ideal.ofBits .f32 0x00000000#32 + ∑ i : Fin 8192, O (ix2 i 1)) + Ideal.ofBits .f32 0x322BCC77#32) := by
  have hcol0 : ∀ i : Fin 8192, shapeCast S8192 (extractStridedSlice S8192x1 ![0, 0] O slices_S8192x2_S8192x1_0_0) shapeCasts_S8192x1_S8192 (ix1 i)
      = O (ix2 i 0) := fun i =>
    (Cert.LibColumns.shapeCast_a1_a_apply _ _ i).trans (slice2_axis1_apply 0 O slices_S8192x2_S8192x1_0_0 i (0 : Fin 1) (0 : Fin 2) rfl)
  have hcol1 : ∀ i : Fin 8192, shapeCast S8192 (extractStridedSlice S8192x1 ![0, 1] O slices_S8192x2_S8192x1_0_1) shapeCasts_S8192x1_S8192 (ix1 i)
      = O (ix2 i 1) := fun i =>
    (Cert.LibColumns.shapeCast_a1_a_apply _ _ i).trans (slice2_axis1_apply 1 O slices_S8192x2_S8192x1_0_1 i (0 : Fin 1) (1 : Fin 2) rfl)
  simp only [Host.divf, addf, Host.reduceAdd, Ideal.hostReduceAdd_def, Ideal.hostDivf_def, Ideal.addf_def]
  rw [Ideal.hostReduceAdd_total reducesTo_S8192_S_d0 (fun b => b.elim0), Ideal.hostReduceAdd_total reducesTo_S8192_S_d0 (fun b => b.elim0)]
  rw [sum_idx1, sum_idx1]
  simp only [hcol0, hcol1]
  rfl

/-- The final host operations: the two column sums and their quotient. -/
theorem tail_eq (c : Dev nD) :
    resK m c ix0
      = Ideal.div (Ideal.ofBits .f32 0x00000000#32 + ∑ i : Fin 8192, Oarr m c (ix2 i 0))
          ((Ideal.ofBits .f32 0x00000000#32 + ∑ i : Fin 8192, Oarr m c (ix2 i 1)) + Ideal.ofBits .f32 0x322BCC77#32) := by
  have h : resK m c
      = Host.divf
          (Host.reduceAdd (fun i => shapeCast S8192 (extractStridedSlice S8192x1 ![0, 0]
            (Oarr m c) slices_S8192x2_S8192x1_0_0) shapeCasts_S8192x1_S8192 i)
            (constant S_ .f32 0x00000000#32) reducesTo_S8192_S_d0 h_S_)
          (addf (Host.reduceAdd (fun i => shapeCast S8192 (extractStridedSlice S8192x1 ![0, 1]
            (Oarr m c) slices_S8192x2_S8192x1_0_1) shapeCasts_S8192x1_S8192 i)
            (constant S_ .f32 0x00000000#32) reducesTo_S8192_S_d0 h_S_) (constant S_ .f32 0x322BCC77#32)) := by
    show StableHlo.after hostOps2 (Hand.W4 m c) (Proc.devRef .tc main_v23) = _
    after_results
    rfl
  rw [h]
  exact tail_generic (Oarr m c)

/-- THE KERNEL PROGRAM'S SCALAR is the kernels' spelling of the loss from the four per-row quantities. -/
theorem kernel_scalar (c : Dev nD) :
    resK m c ix0 = Cert.Spec.lossK (cntKf m c) (anyKf m c) (numKf m c) := by
  have h0 : ∀ i : Fin 8192, out2G (Hand.V3 m) c (ix2 i 0)
      = Scalar.select (Cert.Spec.validK (cntKf m c) (anyKf m c) i)
          (Ideal.div (numKf m c i) (max (cntKf m c i) Cert.Spec.oneE)) Cert.Spec.zeroE := fun i => by
    rw [out2G_col0 (Hand.V3 m) c i (last_lt i)]
    unfold vbitG Cert.Spec.validK cntKf anyKf numKf
    rw [V3_v14 m c]
  have h1 : ∀ i : Fin 8192, out2G (Hand.V3 m) c (ix2 i 1) = Cert.Spec.ind (Cert.Spec.validK (cntKf m c) (anyKf m c) i) := fun i => by
    rw [out2G_col1 (Hand.V3 m) c i (last_lt i)]
    unfold vbitG Cert.Spec.validK cntKf anyKf
    rw [V3_v14 m c]
  rw [tail_eq m c, Oarr_eq m c]
  simp only [h0, h1]
  rfl

/-- The four quantities are what the spelling requires. -/
theorem kh1 (c : Dev nD) (i : Fin 8192) (z : EReal) :
    z ≤ hardKf m c i ↔ z ≤ Cert.Spec.bigE ∧ ∀ j, z ≤ Cert.Spec.md (Dm (m ((c : Thread nD τ).loc main_arg0))) (Jm (m ((c : Thread nD τ).loc main_arg1))) i j := by
  unfold hardKf
  rw [stats_min (Hand.V2 m) c i z]
  refine and_congr_right fun _ => forall_congr' fun j => ?_
  unfold gMasked gNeg Cert.Spec.md Cert.Spec.negb
  rw [gDist_V2 m c, gJ_V2 m c]

theorem kh2 (c : Dev nD) (i : Fin 8192) :
    cntKf m c i = Cert.Spec.zeroE + ∑ j, Cert.Spec.ind (Cert.Spec.posb (Jm (m ((c : Thread nD τ).loc main_arg1))) eyeB i j) := by
  unfold cntKf
  rw [stats_cnt (Hand.V2 m) c i]
  refine congrArg (Cert.Spec.zeroE + ·) (Finset.sum_congr rfl fun j _ => ?_)
  unfold posB Cert.Spec.posb
  rw [gJ_V2 m c]

theorem kh3 (c : Dev nD) (i : Fin 8192) (z : EReal) :
    anyKf m c i ≤ z ↔ Cert.Spec.zeroE ≤ z ∧ ∀ j, Cert.Spec.ind (Cert.Spec.negb (Jm (m ((c : Thread nD τ).loc main_arg1))) i j) ≤ z := by
  unfold anyKf
  rw [stats_any (Hand.V2 m) c i z]
  refine and_congr_right fun _ => forall_congr' fun j => ?_
  unfold gNeg Cert.Spec.negb
  rw [gJ_V2 m c]

theorem kh4 (c : Dev nD) (i : Fin 8192) :
    numKf m c i = Cert.Spec.zeroE + ∑ j, Cert.Spec.hinge (Dm (m ((c : Thread nD τ).loc main_arg0))) (Jm (m ((c : Thread nD τ).loc main_arg1))) eyeB (hardKf m c i) i j := by
  unfold numKf
  rw [loss_num (Hand.V3 m) c i (last_lt i)]
  refine congrArg (Cert.Spec.zeroE + ·) (Finset.sum_congr rfl fun j _ => ?_)
  unfold hingeG Cert.Spec.hinge posB Cert.Spec.posb hardKf
  rw [gDist_V3 m c, gJ_V3 m c, gDist_V2 m c, gJ_V2 m c, V3_v14 m c]

end Cert.KernelIdeal.Val

end
-- ==== Proof.Ref.RFinal.lean ====
/-
  The reference program's scalar result is the reference's spelling of the loss over the same distance and Jaccard
  matrices of the two arguments: its operations are read one entry at a time; its three reductions along a row — a
  minimum from +∞, a 32-bit sum, a disjunction — are folds over the row, in any order.
-/
import proofs.«155278_j51788715655787_1_alg».proof.Proof.Val.DJ
import proofs.«155278_j51788715655787_1_alg».proof.Proof.Gen.ReferenceIdeal.Read

set_option maxRecDepth 16384

noncomputable section

namespace Cert.Proof.RefVal

open Idealize.ShloMosaic Idealize.ShloMosaic.ValueIdx
open Cert.ReferenceIdeal Cert.ReferenceIdeal.Read

abbrev X0 := (⟨S8192x512, .f32⟩ : BufTy).Contents (Elt Ideal)
abbrev X1 := (⟨S8192x80, .f32⟩ : BufTy).Contents (Elt Ideal)

theorem eT_eq (x0 : X0) : Cert.KernelIdeal.Val.eT x0 = val_main_v4 (F := Ideal) x0 := rfl
theorem sqT_eq (x0 : X0) : Cert.KernelIdeal.Val.sqT x0 = val_main_v6 (F := Ideal) x0 := rfl
theorem sT_eq (x1 : X1) : Cert.KernelIdeal.Val.sT x1 = val_main_v22 (F := Ideal) x1 := rfl

/-- Two indices with the same coordinates are the same. -/
theorem idx_eq1 (a b : S8192.Idx) (h : (a 0).val = (b 0).val) : a = b :=
  funext fun d => Fin.ext (by match d with | ⟨0, _⟩ => exact h)
theorem idx_eq2 {n0 n1 : ℕ} (a b : (⟨2, ![n0, n1]⟩ : Shape).Idx) (h0 : (a 0).val = (b 0).val) (h1 : (a 1).val = (b 1).val) : a = b :=
  funext fun d => Fin.ext (by match d with | ⟨0, _⟩ => exact h0 | ⟨1, _⟩ => exact h1)

/-- The distance matrix. -/
theorem rD (x0 : X0) (i j : Fin 8192) : val_main_v19 (F := Ideal) x0 (ix2 i j) = Cert.KernelIdeal.Val.Dm x0 i j := by
  rw [val_main_v19_apply, val_main_v18_apply, val_main_v16_apply, val_main_v11_apply, val_main_v15_apply,
    val_main_v17_apply, val_main_v14_apply, val_main_v9_apply, val_main_v10_apply, val_main_v7_apply, val_main_v8_apply,
    val_main_v13_apply]
  unfold Cert.KernelIdeal.Val.Dm
  rw [sqT_eq, eT_eq]
  have e1 : idx_main_v7 (idx_main_v9 (ix2 i j)) = ix1 i := idx_eq1 _ _ rfl
  have e2 : idx_main_v8 (idx_main_v10 (ix2 i j)) = ix1 j := idx_eq1 _ _ rfl
  rw [e1, e2]
  have hs : (∑ k : Fin 512, val_main_v4 (F := Ideal) x0 (lidx_main_v13 (ix2 i j) k) * val_main_v12 (F := Ideal) x0 (ridx_main_v13 (ix2 i j) k))
      = ∑ k : Fin 512, val_main_v4 (F := Ideal) x0 (ix2 i k) * val_main_v4 (F := Ideal) x0 (ix2 j k) :=
    Finset.sum_congr rfl fun k _ => by
      rw [val_main_v12_apply]
      rw [show lidx_main_v13 (ix2 i j) k = ix2 i k from idx_eq2 _ _ rfl rfl,
        show idx_main_v12 (ridx_main_v13 (ix2 i j) k) = ix2 j k from idx_eq2 _ _ rfl rfl]
  rw [hs]
  rfl

/-- The label inner products and the Jaccard matrix. -/
theorem rI (x1 : X1) (i j : Fin 8192) : val_main_v21 (F := Ideal) x1 (ix2 i j) = Cert.KernelIdeal.Val.Im x1 i j := by
  rw [val_main_v21_apply]
  unfold Cert.KernelIdeal.Val.Im
  refine Finset.sum_congr rfl fun k _ => ?_
  rw [val_main_v20_apply, show lidx_main_v21 (ix2 i j) k = ix2 i k from idx_eq2 _ _ rfl rfl,
    show idx_main_v20 (ridx_main_v21 (ix2 i j) k) = ix2 j k from idx_eq2 _ _ rfl rfl]

theorem rJ (x1 : X1) (i j : Fin 8192) : val_main_v31 (F := Ideal) x1 (ix2 i j) = Cert.KernelIdeal.Val.Jm x1 i j := by
  rw [val_main_v31_apply, val_main_v30_apply, val_main_v28_apply, val_main_v27_apply, val_main_v29_apply,
    val_main_v25_apply, val_main_v26_apply, val_main_v23_apply, val_main_v24_apply, rI]
  unfold Cert.KernelIdeal.Val.Jm
  rw [sT_eq]
  have e1 : idx_main_v23 (idx_main_v25 (ix2 i j)) = ix1 i := idx_eq1 _ _ rfl
  have e2 : idx_main_v24 (idx_main_v26 (ix2 i j)) = ix1 j := idx_eq1 _ _ rfl
  rw [e1, e2]
  rfl

theorem not_eq_xor (b : BitVec 1) : ~~~b = IntOp.xori b 1#1 := by
  rcases BitVec.eq_zero_or_eq_one b with h | h <;> subst h <;> decide

/-- The negatives' and positives' bits, and the masked distances. -/
theorem rNeg (x1 : X1) (i j : Fin 8192) : val_main_v42 (F := Ideal) x1 (ix2 i j) = Cert.Spec.negb (Cert.KernelIdeal.Val.Jm x1) i j := by
  rw [val_main_v42_apply, rJ, val_main_v41_apply]
  rfl

theorem rPos (x1 : X1) (i j : Fin 8192) :
    val_main_v40 (F := Ideal) x1 (ix2 i j) = Cert.Spec.posb (Cert.KernelIdeal.Val.Jm x1) Cert.KernelIdeal.Val.eyeB i j := by
  rw [val_main_v40_apply, val_main_v38_apply, val_main_v39_apply, val_main_v36_apply, val_main_v35_apply, val_main_v32_apply,
    val_main_v33_apply, val_main_v34_apply, val_main_v37_apply, rJ, not_eq_xor]
  unfold Cert.Spec.posb Cert.KernelIdeal.Val.eyeB
  have h0 : IntOp.addi (BitVec.ofNat 32 ((ix2 i j : S8192x8192.Idx) 0).val) (val_main_c (F := Ideal) (idx_main_v34 (ix2 i j)))
      = BitVec.ofNat 32 i.val := by
    show BitVec.ofNat 32 i.val + 0#32 = _
    exact BitVec.add_zero _
  rw [h0]
  rfl

theorem rMd (x0 : X0) (x1 : X1) (i j : Fin 8192) :
    val_main_v43 (F := Ideal) x0 x1 (ix2 i j) = Cert.Spec.md (Cert.KernelIdeal.Val.Dm x0) (Cert.KernelIdeal.Val.Jm x1) i j := by
  rw [val_main_v43_apply, rNeg, rD, val_main_call1_v0_apply]
  rfl

/-- A row of the 8192 × 8192 matrices: the column put back is the entry. -/
theorem lift_rowR (i j : Fin 8192) :
    (by decide : S8192x8192.Reduces [1] S8192).lift (ix1 i) j = (ix2 i j : S8192x8192.Idx) :=
  funext fun a => Fin.ext (by match a with | ⟨0, _⟩ => rfl | ⟨1, _⟩ => rfl)

/-- The three reductions along a row. -/
theorem rHard (x0 : X0) (x1 : X1) (i : Fin 8192) :
    val_main_v44 (F := Ideal) x0 x1 (ix1 i) = Cert.Spec.hardR (Cert.KernelIdeal.Val.Dm x0) (Cert.KernelIdeal.Val.Jm x1) i := by
  unfold val_main_v44 Cert.Spec.hardR
  rw [Host.reduce_eq_fold_single FloatOps.minimumf _ _ Cert.ReferenceIdeal.Gen.reducesTo_S8192x8192_S8192_d1 (by decide) Cert.ReferenceIdeal.Gen.h_S_ (ix1 i)]
  show Finset.fold min _ _ _ = _
  refine congrArg (fun f => Finset.fold min Cert.Spec.topE f Finset.univ) (funext fun j => ?_)
  show val_main_v43 (F := Ideal) x0 x1 ((by decide : S8192x8192.Reduces [1] S8192).lift (ix1 i) j) = _
  rw [lift_rowR i j]
  exact rMd x0 x1 i j

theorem rCnt (x1 : X1) (i : Fin 8192) :
    val_main_v53 (F := Ideal) x1 (ix1 i) = Cert.Spec.cntI (Cert.KernelIdeal.Val.Jm x1) Cert.KernelIdeal.Val.eyeB i := by
  unfold val_main_v53 Cert.Spec.cntI
  rw [Host.reduce_eq_fold_single IntOp.addi _ _ Cert.ReferenceIdeal.Gen.reducesTo_S8192x8192_S8192_d1 (by decide) Cert.ReferenceIdeal.Gen.h_S_ (ix1 i)]
  refine congrArg (fun f => Finset.fold IntOp.addi 0#32 f Finset.univ) (funext fun j => ?_)
  show val_main_v52 (F := Ideal) x1 ((by decide : S8192x8192.Reduces [1] S8192).lift (ix1 i) j) = _
  rw [lift_rowR i j]
  exact (val_main_v52_apply x1 (ix2 i j)).trans (congrArg (BitVec.setWidth 32) (rPos x1 i j))

theorem rAny (x1 : X1) (i : Fin 8192) :
    val_main_v62 (F := Ideal) x1 (ix1 i) = Cert.Spec.anyB (Cert.KernelIdeal.Val.Jm x1) i := by
  unfold val_main_v62 Cert.Spec.anyB
  rw [Host.reduce_eq_fold_single IntOp.ori _ _ Cert.ReferenceIdeal.Gen.reducesTo_S8192x8192_S8192_d1 (by decide) Cert.ReferenceIdeal.Gen.h_S_ (ix1 i)]
  refine congrArg (fun f => Finset.fold IntOp.ori 0#1 f Finset.univ) (funext fun j => ?_)
  show val_main_v42 (F := Ideal) x1 ((by decide : S8192x8192.Reduces [1] S8192).lift (ix1 i) j) = _
  rw [lift_rowR i j]
  exact rNeg x1 i j

/-- The per-row hinge sums, validity bits and losses. -/
theorem rNum (x0 : X0) (x1 : X1) (i : Fin 8192) :
    val_main_v55 (F := Ideal) x0 x1 (ix1 i) = Cert.Spec.numR (Cert.KernelIdeal.Val.Dm x0) (Cert.KernelIdeal.Val.Jm x1) Cert.KernelIdeal.Val.eyeB i := by
  rw [val_main_v55_apply]
  unfold Cert.Spec.numR
  refine congrArg₂ (· + ·) rfl (Finset.sum_congr rfl fun j _ => ?_)
  rw [show idx_main_v55 (ix1 i) j = ix2 i j from idx_eq2 _ _ rfl rfl]
  rw [val_main_v54_apply, rPos, val_main_v51_apply, val_main_v50_apply, val_main_v49_apply, val_main_v47_apply,
    val_main_v46_apply, val_main_v45_apply, rD, rJ, val_main_v48_apply, val_main_call2_v0_apply, val_main_call3_v1_apply]
  rw [show idx_main_v45 (idx_main_v46 (ix2 i j)) = ix1 i from idx_eq1 _ _ rfl, rHard]
  rfl

theorem rValid (x1 : X1) (i : Fin 8192) :
    val_main_v63 (F := Ideal) x1 (ix1 i) = Cert.Spec.validR (Cert.KernelIdeal.Val.Jm x1) Cert.KernelIdeal.Val.eyeB i := by
  rw [val_main_v63_apply, val_main_v61_apply, rCnt, rAny, val_main_v60_apply]
  rfl

theorem rRow (x0 : X0) (x1 : X1) (i : Fin 8192) :
    val_main_v59 (F := Ideal) x0 x1 (ix1 i) = Cert.Spec.rowR (Cert.KernelIdeal.Val.Dm x0) (Cert.KernelIdeal.Val.Jm x1) Cert.KernelIdeal.Val.eyeB i := by
  rw [val_main_v59_apply, rNum, val_main_v58_apply, val_main_v57_apply, rCnt, val_main_v56_apply]
  rfl

theorem sum_idx1R (X : S8192.Idx → EReal) : ∑ j : S8192.Idx, X j = ∑ i : Fin 8192, X (ix1 i) :=
  Fintype.sum_equiv ⟨fun j => j 0, fun i => ix1 i, fun j => (eq_ix1 j).symm, fun _ => rfl⟩ _ _ fun j => congrArg X (eq_ix1 j)

/-- THE REFERENCE PROGRAM'S SCALAR is the reference's spelling of the loss. -/
theorem ref_scalar (x0 : X0) (x1 : X1) :
    val_main_v70 (F := Ideal) x0 x1 ix0 = Cert.Spec.lossR (Cert.KernelIdeal.Val.Dm x0) (Cert.KernelIdeal.Val.Jm x1) Cert.KernelIdeal.Val.eyeB := by
  rw [val_main_v70_apply, val_main_v68_apply, val_main_v69_apply, val_main_v66_apply]
  unfold Cert.Spec.lossR
  have hsum : (∑ j : S8192.Idx, val_main_v67 (F := Ideal) x0 x1 j)
      = ∑ i : Fin 8192, Scalar.select (Cert.Spec.validR (Cert.KernelIdeal.Val.Jm x1) Cert.KernelIdeal.Val.eyeB i)
          (Cert.Spec.rowR (Cert.KernelIdeal.Val.Dm x0) (Cert.KernelIdeal.Val.Jm x1) Cert.KernelIdeal.Val.eyeB i) Cert.Spec.zeroE := by
    rw [sum_idx1R]
    refine Finset.sum_congr rfl fun i _ => ?_
    rw [val_main_v67_apply, rValid, rRow, val_main_call4_v1_apply]
    rfl
  have hcnt : val_main_v65 (F := Ideal) x1 ix0
      = Finset.univ.fold IntOp.addi 0#32 fun i => (Cert.Spec.validR (Cert.KernelIdeal.Val.Jm x1) Cert.KernelIdeal.Val.eyeB i).setWidth 32 := by
    unfold val_main_v65
    rw [Host.reduce_eq_fold IntOp.addi _ _ Cert.ReferenceIdeal.Gen.reducesTo_S8192_S_d0 Cert.ReferenceIdeal.Gen.h_S_ ix0]
    rw [Finset.filter_true_of_mem fun i _ => funext fun b => b.elim0]
    have himg : (Finset.univ : Finset S8192.Idx) = Finset.univ.image (fun i : Fin 8192 => (ix1 i : S8192.Idx)) := by
      ext j
      simp only [Finset.mem_univ, Finset.mem_image, true_and, true_iff]
      exact ⟨j 0, (eq_ix1 j).symm⟩
    rw [himg, Finset.fold_image (fun a _ b _ h => by have := congrFun h 0; exact this)]
    refine congrArg (fun f => Finset.fold IntOp.addi 0#32 f Finset.univ) (funext fun i => ?_)
    exact (val_main_v64_apply x1 (ix1 i)).trans (congrArg (BitVec.setWidth 32) (rValid x1 i))
  rw [hsum, hcnt]
  rfl

end Cert.Proof.RefVal

end
-- ==== Proof.Diag.lean ====
/-
  A row's distance to itself is zero, whatever the row: with S the sum of the squares of its normalized entries,
  the expression is √(max((S + S) − 2 · S, 0)); for a real S the difference is 0, and at an infinite S the
  extended reals' conventions make it −∞, which the maximum with 0 replaces by 0. So a diagonal masked distance
  never exceeds the sentinel: it is the sentinel itself off the negatives, and 0 at a negative.
-/
import proofs.«155278_j51788715655787_1_alg».proof.Proof.Spec
import proofs.«155278_j51788715655787_1_alg».proof.Proof.Val.DJ

noncomputable section

namespace Cert.Proof.Diag

open Idealize.ShloMosaic Idealize.ShloMosaic.ValueIdx
open Cert.Spec (zeroE zeroE_eq)

theorem twoE_eq : Ideal.ofBits .f32 0x40000000#32 = ((2 : ℝ) : EReal) := by
  simp [Ideal.ofBits, Ideal.ieee, -EReal.coe_mul]; norm_num

theorem sqrt_zero : Ideal.sqrt ((0 : ℝ) : EReal) = ((0 : ℝ) : EReal) := by
  show (if (0 : ℝ) < 0 then (⊥ : EReal) else ((Real.sqrt 0 : ℝ) : EReal)) = _
  simp

theorem diag_zero (S : EReal) : Ideal.sqrt (max ((S + S) - Ideal.ofBits .f32 0x40000000#32 * S) zeroE) = 0 := by
  rw [twoE_eq, zeroE_eq]
  have hmax : max ((S + S) - ((2 : ℝ) : EReal) * S) 0 = ((0 : ℝ) : EReal) := by
    induction S using EReal.rec with
    | bot =>
      rw [EReal.coe_mul_bot_of_pos (by norm_num : (0 : ℝ) < 2)]; simp
    | top =>
      rw [EReal.coe_mul_top_of_pos (by norm_num : (0 : ℝ) < 2)]; simp
    | coe r =>
      rw [← EReal.coe_add, ← EReal.coe_mul, ← EReal.coe_sub]
      have : r + r - 2 * r = 0 := by ring
      rw [this]; simp
  rw [hmax, sqrt_zero]; simp

/-- A row's squared norm is zero plus the sum of the squares of its normalized entries. -/
theorem sqT_apply (x0 : FVec Ideal Cert.KernelIdeal.S8192x512 .f32) (i : Fin 8192) :
    Cert.KernelIdeal.Val.sqT x0 (ix1 i)
      = Cert.Spec.zeroE + ∑ k : Fin 512, Cert.KernelIdeal.Val.eT x0 (ix2 i k) * Cert.KernelIdeal.Val.eT x0 (ix2 i k) := by
  unfold Cert.KernelIdeal.Val.sqT
  simp only [Host.reduceAdd, Ideal.hostReduceAdd_def]
  rw [Ideal.hostReduceAdd_single Cert.KernelIdeal.Gen.reducesTo_S8192x512_S8192_d1 (by decide)]
  refine congrArg (_ + ·) (Finset.sum_congr rfl fun k _ => ?_)
  show mulf (Cert.KernelIdeal.Val.eT x0) (Cert.KernelIdeal.Val.eT x0) _ = _
  rw [show (by decide : Cert.KernelIdeal.S8192x512.Reduces [1] Cert.KernelIdeal.S8192).lift (ix1 i) k = (ix2 i k : Cert.KernelIdeal.S8192x512.Idx)
    from funext fun a => Fin.ext (by match a with | ⟨0, _⟩ => rfl | ⟨1, _⟩ => rfl)]
  rfl

/-- A diagonal masked distance never exceeds the sentinel. -/
theorem diag_le (x0 : FVec Ideal Cert.KernelIdeal.S8192x512 .f32) (x1 : FVec Ideal Cert.KernelIdeal.S8192x80 .f32) (i : Fin 8192) :
    Cert.Spec.md (Cert.KernelIdeal.Val.Dm x0) (Cert.KernelIdeal.Val.Jm x1) i i ≤ Cert.Spec.bigE := by
  unfold Cert.Spec.md
  show (if Cert.Spec.negb (Cert.KernelIdeal.Val.Jm x1) i i = 1#1 then Cert.KernelIdeal.Val.Dm x0 i i else Cert.Spec.bigE) ≤ Cert.Spec.bigE
  split
  · unfold Cert.KernelIdeal.Val.Dm
    rw [sqT_apply, Cert.Spec.zeroE_eq, zero_add]
    have h := diag_zero (∑ k : Fin 512, Cert.KernelIdeal.Val.eT x0 (ix2 i k) * Cert.KernelIdeal.Val.eT x0 (ix2 i k))
    rw [Cert.Spec.zeroE_eq] at h
    rw [show (Ideal.ofBits .f32 0x00000000#32 : EReal) = 0 from Cert.Spec.zeroE_eq, h]
    exact Cert.Spec.bigE_nonneg
  · exact le_rfl

end Cert.Proof.Diag

end
-- ==== Proof.Algebraic.lean ====
/-
  The value claim. Both programs run: the kernel program by the run of its five stretches, the reference by the run
  of its host operations. The kernel program's scalar is the kernels' spelling of the loss over the distance and
  Jaccard matrices of the two arguments; the reference's scalar is the reference's spelling over the same matrices;
  and the two spellings agree, a row's distance to itself being zero. The second result is the constant zero on
  both sides.
-/
import proofs.«155278_j51788715655787_1_alg».proof.Defs
import proofs.«155278_j51788715655787_1_alg».proof.Proof.Frames
import proofs.«155278_j51788715655787_1_alg».proof.Proof.Val.KFinal
import proofs.«155278_j51788715655787_1_alg».proof.Proof.Ref.RFinal
import proofs.«155278_j51788715655787_1_alg».proof.Proof.Diag

set_option maxRecDepth 16384

noncomputable section

namespace Cert.Proof.Alg

open Idealize.ShloMosaic Idealize.ShloMosaic.TcCoe Idealize.SL.Sem Idealize.ShloMosaic.ValueIdx

/-- The kernel program's scalar, from the arguments alone. -/
theorem kernel_loss (m : (ℓ : Loc Cert.KernelIdeal.nD Cert.KernelIdeal.τ Cert.KernelIdeal.sig) → Buf (Elt Ideal) ℓ)
    (c : Dev Cert.KernelIdeal.nD) :
    Cert.KernelIdeal.Val.resK m c ix0
      = Cert.Spec.lossR (Cert.KernelIdeal.Val.Dm (m ((c.tc : Thread Cert.KernelIdeal.nD Cert.KernelIdeal.τ).loc Cert.KernelIdeal.main_arg0)))
          (Cert.KernelIdeal.Val.Jm (m ((c.tc : Thread Cert.KernelIdeal.nD Cert.KernelIdeal.τ).loc Cert.KernelIdeal.main_arg1)))
          Cert.KernelIdeal.Val.eyeB :=
  (Cert.KernelIdeal.Val.kernel_scalar m c).trans
    (Cert.Spec.loss_bridge _ _ _ (by norm_num) (Cert.Proof.Diag.diag_le _ _) (Cert.KernelIdeal.Val.hardKf m c)
      (Cert.KernelIdeal.Val.cntKf m c) (Cert.KernelIdeal.Val.anyKf m c) (Cert.KernelIdeal.Val.numKf m c)
      (Cert.KernelIdeal.Val.kh1 m c) (Cert.KernelIdeal.Val.kh2 m c) (Cert.KernelIdeal.Val.kh3 m c) (Cert.KernelIdeal.Val.kh4 m c))

/-- The kernel program's second result: the constant zero. -/
theorem kernel_cst (m : (ℓ : Loc Cert.KernelIdeal.nD Cert.KernelIdeal.τ Cert.KernelIdeal.sig) → Buf (Elt Ideal) ℓ)
    (c : Dev Cert.KernelIdeal.nD) :
    Cert.KernelIdeal.Hand.W5 m c Cert.KernelIdeal.main_cst_5 = constant (F := Ideal) Cert.KernelIdeal.S_ .f32 0x00000000#32 := by
  show StableHlo.after Cert.KernelIdeal.Gen.hostOps2 (Cert.KernelIdeal.Hand.W4 m c) (Proc.devRef .tc Cert.KernelIdeal.main_cst_5) = _
  after_results

theorem algebraic [hK : Cert.KernelIdeal.Facts] [hR : Cert.ReferenceIdeal.Facts] [hP : Cert.Pre_finite_inputs.Facts] :
    Cert.algebraic_KernelIdeal_ReferenceIdeal (hKernelIdeal := hK) (hReferenceIdeal := hR) (hPre_finite_inputs := hP) := by
  intro m g m' g' _ hargs
  refine ⟨fun c => Cert.KernelIdeal.Hand.W5 m c Cert.KernelIdeal.main_v23,
    fun c => Cert.KernelIdeal.Hand.W5 m c Cert.KernelIdeal.main_cst_5, ?_, ?_⟩
  · exact (θ_run _ _ _).mono (fun r h c =>
      ⟨h c _ (Cert.KernelIdeal.Hand.mem_uc Cert.KernelIdeal.main_v23 (by decide)),
       h c _ (Cert.KernelIdeal.Hand.mem_uc Cert.KernelIdeal.main_cst_5 (by decide)),
       (h c _ (Cert.KernelIdeal.Hand.mem_uc Cert.KernelIdeal.main_arg0 (by decide))).trans
         (Cert.KernelIdeal.Hand.W5_kept m c Cert.KernelIdeal.main_arg0 (by decide) (by decide) (by decide) (by decide) (by decide)),
       (h c _ (Cert.KernelIdeal.Hand.mem_uc Cert.KernelIdeal.main_arg1 (by decide))).trans
         (Cert.KernelIdeal.Hand.W5_kept m c Cert.KernelIdeal.main_arg1 (by decide) (by decide) (by decide) (by decide) (by decide))⟩)
      (Cert.KernelIdeal.Hand.run_main m g)
  · refine (θ_run _ _ _).mono (fun r h c => ?_) (Cert.ReferenceIdeal.Value.run (F := Ideal) m' g')
    obtain ⟨h0, h1, h2, h3⟩ := h c
    refine ⟨h0.trans ?_, h1.trans ?_, h2, h3⟩
    · rw [Cert.ReferenceIdeal.Read.val_main_v70_eq, (hargs c).1, (hargs c).2]
      funext i
      rw [eq_ix0 i]
      exact (Cert.Proof.RefVal.ref_scalar _ _).trans (kernel_loss m c).symm
    · exact (kernel_cst m c).symm

end Cert.Proof.Alg

end
-- ==== Proof.lean ====
/-
  Two Pallas kernels on a tiled pairwise grid compute a weighted multi-label triplet loss against a plain jnp
  reference. Pass one reduces, per anchor row, the pairwise distance / Jaccard matrix to the hardest negative
  distance, the number of positives and whether a negative exists; pass two re-scans the same blocks and sums the
  masked hinge terms per row; the host divides the sum of the valid rows' mean hinges by the number of valid rows.

  The frame claims: each kernel region is run point by point — the running columns kept in scratch carried through
  the region's invariant, the embeddings' and labels' buffers each read through two windows at half shares — and the
  program's five stretches are chained; the reference's frame is its host operations' run. The ideal pass rewrote
  nothing, so `preserves` is `True`.

  The value claim: both results are read as functions of the two arguments. The kernels fold the minimum from a
  large sentinel, count with float sums of zeros and ones and take the negatives' flag as a float maximum; the
  reference folds the minimum from +∞, counts in 32-bit integers and takes a disjunction. The spellings agree at the
  extended reals: a row's distance to itself is zero, so its diagonal masked distance never exceeds the sentinel;
  a sum of at most 8192 bits is their number in either arithmetic; and sums, minima and maxima over all columns do
  not depend on their grouping into column blocks.
-/
import proofs.«155278_j51788715655787_1_alg».proof.Defs
import proofs.«155278_j51788715655787_1_alg».proof.Proof.Gen.Kernel
import proofs.«155278_j51788715655787_1_alg».proof.Proof.Gen.KernelIdeal
import proofs.«155278_j51788715655787_1_alg».proof.Proof.Gen.ReferenceIdeal
import proofs.«155278_j51788715655787_1_alg».proof.Proof.Gen.Pre_finite_inputs
import proofs.«155278_j51788715655787_1_alg».proof.Proof.Frames
import proofs.«155278_j51788715655787_1_alg».proof.Proof.Bits.Frames
import proofs.«155278_j51788715655787_1_alg».proof.Proof.RefFrame
import proofs.«155278_j51788715655787_1_alg».proof.Proof.Algebraic

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  fun m ρ _ => Cert.Kernel.Hand.frame m ρ,
  fun m ρ _ => Cert.KernelIdeal.Hand.frame m ρ,
  Cert.Proof.RefSide.frame_ri,
  trivial,
  Cert.Proof.Alg.algebraic⟩

end Cert.Proof

end
